-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S64x1024 : Shape := ⟨2, ![64, 1024]⟩
abbrev S64x1024x512 : Shape := ⟨3, ![64, 1024, 512]⟩
abbrev S28x24 : Shape := ⟨2, ![28, 24]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S28x24 : S_.BroadcastsInDim S28x24 (![] : Fin 0 → Fin S28x24.rank)
  reducesTo_S28x24_S_d0_1 : S28x24.ReducesTo [0, 1] S_
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : IVec S64x1024 32) (main_arg1 : FVec F S64x1024x512 .f32) (main_arg2 : FVec F S28x24 .f32) : IVec S_ 1 :=
  let main_v0 : FVec F S64x1024x512 .f32 := Host.absf main_arg1
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S28x24 .f32 := Host.absf main_arg2
  let main_cst_0 : FVec F S_ .f32 := constant S_ .f32 0x7F800000#32
  let main_v5 : FVec F S28x24 .f32 := broadcastInDim S28x24 ![] bcast_S_S28x24 main_cst_0
  let main_v6 : IVec S28x24 1 := cmpf .olt main_v4 main_v5
  let main_c_1 : IVec S_ 1 := constantI S_ 1 1#1
  let main_v7 : IVec S_ 1 := (fun x v => Host.reduce IntOp.andi x v reducesTo_S28x24_S_d0_1 h_S_) main_v6 main_c_1
  let main_v8 : IVec S_ 1 := andi main_v3 main_v7
  let main_c_2 : IVec S_ 32 := constantI S_ 32 0#32
  let main_v9 : IVec S64x1024 32 := broadcastInDim S64x1024 ![] bcast_S_S64x1024 main_c_2
  let main_v10 : IVec S64x1024 1 := cmpi .sge main_arg0 main_v9
  let main_c_3 : IVec S_ 32 := constantI S_ 32 27#32
  let main_v11 : IVec S64x1024 32 := broadcastInDim S64x1024 ![] bcast_S_S64x1024 main_c_3
  let main_v12 : IVec S64x1024 1 := cmpi .sle main_arg0 main_v11
  let main_v13 : IVec S64x1024 1 := andi main_v10 main_v12
  let main_c_4 : IVec S_ 1 := constantI S_ 1 1#1
  let main_v14 : IVec S_ 1 := (fun x v => Host.reduce IntOp.andi x v reducesTo_S64x1024_S_d0_1 h_S_) main_v13 main_c_4
  let main_v15 : IVec S_ 1 := andi main_v8 main_v14
  main_v15
-- ==== Kernel.lean ====
abbrev S64x1024 : Shape := ⟨2, ![64, 1024]⟩
abbrev S64x1024x512 : Shape := ⟨3, ![64, 1024, 512]⟩
abbrev S28x24 : Shape := ⟨2, ![28, 24]⟩
abbrev S672 : Shape := ⟨1, ![672]⟩
abbrev S65536 : Shape := ⟨1, ![65536]⟩
abbrev S24x65536 : Shape := ⟨2, ![24, 65536]⟩
abbrev S2048 : Shape := ⟨1, ![2048]⟩
abbrev S1024 : Shape := ⟨1, ![1024]⟩
abbrev S49152 : Shape := ⟨1, ![49152]⟩
abbrev S_ : Shape := ⟨0, ![]⟩
abbrev S16 : Shape := ⟨1, ![16]⟩
abbrev S1x2048 : Shape := ⟨2, ![1, 2048]⟩
abbrev S64x1024x536 : Shape := ⟨3, ![64, 1024, 536]⟩
abbrev S4x1024x512 : Shape := ⟨3, ![4, 1024, 512]⟩
abbrev S24x4096 : Shape := ⟨2, ![24, 4096]⟩
abbrev S4x1024x536 : Shape := ⟨3, ![4, 1024, 536]⟩
abbrev S24x24 : Shape := ⟨2, ![24, 24]⟩
abbrev S24x1024 : Shape := ⟨2, ![24, 1024]⟩
abbrev S1024x24 : Shape := ⟨2, ![1024, 24]⟩
abbrev S1x1024x512 : Shape := ⟨3, ![1, 1024, 512]⟩
abbrev S1024x512 : Shape := ⟨2, ![1024, 512]⟩
abbrev S1024x536 : Shape := ⟨2, ![1024, 536]⟩
abbrev S1x1024x536 : Shape := ⟨3, ![1, 1024, 536]⟩

abbrev nBuf : Table → Nat
  | .hbm => 7
  | .local .tc .vmem => 6
  | .local .scVector .vmem => 3
  | _ => 0

abbrev bufTy : (tb : Table) → Fin (nBuf tb) → BufTy
  | .hbm, ⟨0, _⟩ => ⟨S64x1024, .i32⟩
  | .hbm, ⟨1, _⟩ => ⟨S64x1024x512, .f32⟩
  | .hbm, ⟨2, _⟩ => ⟨S28x24, .f32⟩
  | .hbm, ⟨3, _⟩ => ⟨S672, .f32⟩
  | .hbm, ⟨4, _⟩ => ⟨S65536, .i32⟩
  | .hbm, ⟨5, _⟩ => ⟨S24x65536, .f32⟩
  | .hbm, ⟨6, _⟩ => ⟨S64x1024x536, .f32⟩
  | .local .tc .vmem, ⟨0, _⟩ => ⟨S4x1024x512, .f32⟩
  | .local .tc .vmem, ⟨1, _⟩ => ⟨S4x1024x512, .f32⟩
  | .local .tc .vmem, ⟨2, _⟩ => ⟨S24x4096, .f32⟩
  | .local .tc .vmem, ⟨3, _⟩ => ⟨S24x4096, .f32⟩
  | .local .tc .vmem, ⟨4, _⟩ => ⟨S4x1024x536, .f32⟩
  | .local .tc .vmem, ⟨5, _⟩ => ⟨S4x1024x536, .f32⟩
  | .local .scVector .vmem, ⟨0, _⟩ => ⟨S2048, .i32⟩
  | .local .scVector .vmem, ⟨1, _⟩ => ⟨S1024, .f32⟩
  | .local .scVector .vmem, ⟨2, _⟩ => ⟨S49152, .f32⟩
  | _, _ => ⟨S64x1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_v0_scv : Ref sig .scVector := ⟨.hbm, 3, rfl⟩
abbrev main_v2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32_0 : BitVec 32 := 0#32
  let c128_i32 : BitVec 32 := 128#32
  let v3 : BitVec 32 := Scalar.addi c0_i32_0 c128_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32_5 : BitVec 32 := 16#32
  let v4 : BitVec 32 := Scalar.muli arg9 c16_i32_5
  let v5 : Index := Scalar.indexCast v4
  ![v5.toNat]

def k0_chk1 (v17 : IVec S16 32) : Prop :=
  (∀ a x, ((![v17] : Fin 1 → IVec S16 32) a x).toNat < S1024.size a)
instance k0_chk1.dec : ∀ (v17 : IVec S16 32), Decidable (k0_chk1 v17) := fun v17 => decidable_of_iff' _ (Iff.of_eq (k0_chk1.eq_1 v17))
theorem k0_idx1_inb : ∀ (v17 : IVec S16 32) (k0_hw1 : k0_chk1 v17), ∀ a x, ((![v17] : Fin 1 → IVec S16 32) a x).toNat < S1024.size a := fun v17 k0_hw1 => k0_hw1
def k0_off3 (k0_t1 : Fin k0_t1_loop.trips) : Fin 1 → Nat :=
  let c0_i32_10 : BitVec 32 := 0#32
  let c0_i32_0 : BitVec 32 := 0#32
  let c1_i32 : BitVec 32 := 1#32
  let arg9 : BitVec 32 := Scf.iv c0_i32_0 c1_i32 k0_t1
  let c16_i32_9 : BitVec 32 := 16#32
  let v19 : BitVec 32 := Scalar.muli arg9 c16_i32_9
  let v20 : BitVec 32 := Scalar.addi c0_i32_10 v19
  let v21 : Index := Scalar.indexCast v20
  ![v21.toNat]

def k0_chk2 (v24 : IVec S16 32) : Prop :=
  (∀ a x, ((![v24] : Fin 1 → IVec S16 32) a x).toNat < S1024.size a)
instance k0_chk2.dec : ∀ (v24 : IVec S16 32), Decidable (k0_chk2 v24) := fun v24 => decidable_of_iff' _ (Iff.of_eq (k0_chk2.eq_1 v24))
theorem k0_idx2_inb : ∀ (v24 : IVec S16 32) (k0_hw2 : k0_chk2 v24), ∀ a x, ((![v24] : Fin 1 → IVec S16 32) a x).toNat < S1024.size a := fun v24 k0_hw2 => k0_hw2
def k0_off4 (k0_t1 : Fin k0_t1_loop.trips) : Fin 1 → Nat :=
  let c2048_i32_13 : BitVec 32 := 2048#32
  let c0_i32_0 : BitVec 32 := 0#32
  let c1_i32 : BitVec 32 := 1#32
  let arg9 : BitVec 32 := Scf.iv c0_i32_0 c1_i32 k0_t1
  let c16_i32_12 : BitVec 32 := 16#32
  let v26 : BitVec 32 := Scalar.muli arg9 c16_i32_12
  let v27 : BitVec 32 := Scalar.addi c2048_i32_13 v26
  let v28 : Index := Scalar.indexCast v27
  ![v28.toNat]

def k0_chk3 (v31 : IVec S16 32) : Prop :=
  (∀ a x, ((![v31] : Fin 1 → IVec S16 32) a x).toNat < S1024.size a)
instance k0_chk3.dec : ∀ (v31 : IVec S16 32), Decidable (k0_chk3 v31) := fun v31 => decidable_of_iff' _ (Iff.of_eq (k0_chk3.eq_1 v31))
theorem k0_idx3_inb : ∀ (v31 : IVec S16 32) (k0_hw3 : k0_chk3 v31), ∀ a x, ((![v31] : Fin 1 → IVec S16 32) a x).toNat < S1024.size a := fun v31 k0_hw3 => k0_hw3
def k0_off5 (k0_t1 : Fin k0_t1_loop.trips) : Fin 1 → Nat :=
  let c4096_i32 : BitVec 32 := 4096#32
  let c0_i32_0 : BitVec 32 := 0#32
  let c1_i32 : BitVec 32 := 1#32
  let arg9 : BitVec 32 := Scf.iv c0_i32_0 c1_i32 k0_t1
  let c16_i32_15 : BitVec 32 := 16#32
  let v33 : BitVec 32 := Scalar.muli arg9 c16_i32_15
  let v34 : BitVec 32 := Scalar.addi c4096_i32 v33
  let v35 : Index := Scalar.indexCast v34
  ![v35.toNat]

def k0_chk4 (v38 : IVec S16 32) : Prop :=
  (∀ a x, ((![v38] : Fin 1 → IVec S16 32) a x).toNat < S1024.size a)
instance k0_chk4.dec : ∀ (v38 : IVec S16 32), Decidable (k0_chk4 v38) := fun v38 => decidable_of_iff' _ (Iff.of_eq (k0_chk4.eq_1 v38))
theorem k0_idx4_inb : ∀ (v38 : IVec S16 32) (k0_hw4 : k0_chk4 v38), ∀ a x, ((![v38] : Fin 1 → IVec S16 32) a x).toNat < S1024.size a := fun v38 k0_hw4 => k0_hw4
def k0_off6 (k0_t1 : Fin k0_t1_loop.trips) : Fin 1 → Nat :=
  let c6144_i32 : BitVec 32 := 6144#32
  let c0_i32_0 : BitVec 32 := 0#32
  let c1_i32 : BitVec 32 := 1#32
  let arg9 : BitVec 32 := Scf.iv c0_i32_0 c1_i32 k0_t1
  let c16_i32_17 : BitVec 32 := 16#32
  let v40 : BitVec 32 := Scalar.muli arg9 c16_i32_17
  let v41 : BitVec 32 := Scalar.addi c6144_i32 v40
  let v42 : Index := Scalar.indexCast v41
  ![v42.toNat]

def k0_chk5 (v45 : IVec S16 32) : Prop :=
  (∀ a x, ((![v45] : Fin 1 → IVec S16 32) a x).toNat < S1024.size a)
instance k0_chk5.dec : ∀ (v45 : IVec S16 32), Decidable (k0_chk5 v45) := fun v45 => decidable_of_iff' _ (Iff.of_eq (k0_chk5.eq_1 v45))
theorem k0_idx5_inb : ∀ (v45 : IVec S16 32) (k0_hw5 : k0_chk5 v45), ∀ a x, ((![v45] : Fin 1 → IVec S16 32) a x).toNat < S1024.size a := fun v45 k0_hw5 => k0_hw5
def k0_off7 (k0_t1 : Fin k0_t1_loop.trips) : Fin 1 → Nat :=
  let c8192_i32 : BitVec 32 := 8192#32
  let c0_i32_0 : BitVec 32 := 0#32
  let c1_i32 : BitVec 32 := 1#32
  let arg9 : BitVec 32 := Scf.iv c0_i32_0 c1_i32 k0_t1
  let c16_i32_19 : BitVec 32 := 16#32
  let v47 : BitVec 32 := Scalar.muli arg9 c16_i32_19
  let v48 : BitVec 32 := Scalar.addi c8192_i32 v47
  let v49 : Index := Scalar.indexCast v48
  ![v49.toNat]

def k0_chk6 (v52 : IVec S16 32) : Prop :=
  (∀ a x, ((![v52] : Fin 1 → IVec S16 32) a x).toNat < S1024.size a)
instance k0_chk6.dec : ∀ (v52 : IVec S16 32), Decidable (k0_chk6 v52) := fun v52 => decidable_of_iff' _ (Iff.of_eq (k0_chk6.eq_1 v52))
theorem k0_idx6_inb : ∀ (v52 : IVec S16 32) (k0_hw6 : k0_chk6 v52), ∀ a x, ((![v52] : Fin 1 → IVec S16 32) a x).toNat < S1024.size a := fun v52 k0_hw6 => k0_hw6
def k0_off8 (k0_t1 : Fin k0_t1_loop.trips) : Fin 1 → Nat :=
  let c10240_i32 : BitVec 32 := 10240#32
  let c0_i32_0 : BitVec 32 := 0#32
  let c1_i32 : BitVec 32 := 1#32
  let arg9 : BitVec 32 := Scf.iv c0_i32_0 c1_i32 k0_t1
  let c16_i32_21 : BitVec 32 := 16#32
  let v54 : BitVec 32 := Scalar.muli arg9 c16_i32_21
  let v55 : BitVec 32 := Scalar.addi c10240_i32 v54
  let v56 : Index := Scalar.indexCast v55
  ![v56.toNat]

def k0_chk7 (v59 : IVec S16 32) : Prop :=
  (∀ a x, ((![v59] : Fin 1 → IVec S16 32) a x).toNat < S1024.size a)
instance k0_chk7.dec : ∀ (v59 : IVec S16 32), Decidable (k0_chk7 v59) := fun v59 => decidable_of_iff' _ (Iff.of_eq (k0_chk7.eq_1 v59))
theorem k0_idx7_inb : ∀ (v59 : IVec S16 32) (k0_hw7 : k0_chk7 v59), ∀ a x, ((![v59] : Fin 1 → IVec S16 32) a x).toNat < S1024.size a := fun v59 k0_hw7 => k0_hw7
def k0_off9 (k0_t1 : Fin k0_t1_loop.trips) : Fin 1 → Nat :=
  let c12288_i32 : BitVec 32 := 12288#32
  let c0_i32_0 : BitVec 32 := 0#32
  let c1_i32 : BitVec 32 := 1#32
  let arg9 : BitVec 32 := Scf.iv c0_i32_0 c1_i32 k0_t1
  let c16_i32_23 : BitVec 32 := 16#32
  let v61 : BitVec 32 := Scalar.muli arg9 c16_i32_23
  let v62 : BitVec 32 := Scalar.addi c12288_i32 v61
  let v63 : Index := Scalar.indexCast v62
  ![v63.toNat]

def k0_chk8 (v66 : IVec S16 32) : Prop :=
  (∀ a x, ((![v66] : Fin 1 → IVec S16 32) a x).toNat < S1024.size a)
instance k0_chk8.dec : ∀ (v66 : IVec S16 32), Decidable (k0_chk8 v66) := fun v66 => decidable_of_iff' _ (Iff.of_eq (k0_chk8.eq_1 v66))
theorem k0_idx8_inb : ∀ (v66 : IVec S16 32) (k0_hw8 : k0_chk8 v66), ∀ a x, ((![v66] : Fin 1 → IVec S16 32) a x).toNat < S1024.size a := fun v66 k0_hw8 => k0_hw8
def k0_off10 (k0_t1 : Fin k0_t1_loop.trips) : Fin 1 → Nat :=
  let c14336_i32 : BitVec 32 := 14336#32
  let c0_i32_0 : BitVec 32 := 0#32
  let c1_i32 : BitVec 32 := 1#32
  let arg9 : BitVec 32 := Scf.iv c0_i32_0 c1_i32 k0_t1
  let c16_i32_25 : BitVec 32 := 16#32
  let v68 : BitVec 32 := Scalar.muli arg9 c16_i32_25
  let v69 : BitVec 32 := Scalar.addi c14336_i32 v68
  let v70 : Index := Scalar.indexCast v69
  ![v70.toNat]

def k0_chk9 (v73 : IVec S16 32) : Prop :=
  (∀ a x, ((![v73] : Fin 1 → IVec S16 32) a x).toNat < S1024.size a)
instance k0_chk9.dec : ∀ (v73 : IVec S16 32), Decidable (k0_chk9 v73) := fun v73 => decidable_of_iff' _ (Iff.of_eq (k0_chk9.eq_1 v73))
theorem k0_idx9_inb : ∀ (v73 : IVec S16 32) (k0_hw9 : k0_chk9 v73), ∀ a x, ((![v73] : Fin 1 → IVec S16 32) a x).toNat < S1024.size a := fun v73 k0_hw9 => k0_hw9
def k0_off11 (k0_t1 : Fin k0_t1_loop.trips) : Fin 1 → Nat :=
  let c16384_i32 : BitVec 32 := 16384#32
  let c0_i32_0 : BitVec 32 := 0#32
  let c1_i32 : BitVec 32 := 1#32
  let arg9 : BitVec 32 := Scf.iv c0_i32_0 c1_i32 k0_t1
  let c16_i32_27 : BitVec 32 := 16#32
  let v75 : BitVec 32 := Scalar.muli arg9 c16_i32_27
  let v76 : BitVec 32 := Scalar.addi c16384_i32 v75
  let v77 : Index := Scalar.indexCast v76
  ![v77.toNat]

def k0_chk10 (v80 : IVec S16 32) : Prop :=
  (∀ a x, ((![v80] : Fin 1 → IVec S16 32) a x).toNat < S1024.size a)
instance k0_chk10.dec : ∀ (v80 : IVec S16 32), Decidable (k0_chk10 v80) := fun v80 => decidable_of_iff' _ (Iff.of_eq (k0_chk10.eq_1 v80))
theorem k0_idx10_inb : ∀ (v80 : IVec S16 32) (k0_hw10 : k0_chk10 v80), ∀ a x, ((![v80] : Fin 1 → IVec S16 32) a x).toNat < S1024.size a := fun v80 k0_hw10 => k0_hw10
def k0_off12 (k0_t1 : Fin k0_t1_loop.trips) : Fin 1 → Nat :=
  let c18432_i32 : BitVec 32 := 18432#32
  let c0_i32_0 : BitVec 32 := 0#32
  let c1_i32 : BitVec 32 := 1#32
  let arg9 : BitVec 32 := Scf.iv c0_i32_0 c1_i32 k0_t1
  let c16_i32_29 : BitVec 32 := 16#32
  let v82 : BitVec 32 := Scalar.muli arg9 c16_i32_29
  let v83 : BitVec 32 := Scalar.addi c18432_i32 v82
  let v84 : Index := Scalar.indexCast v83
  ![v84.toNat]

def k0_chk11 (v87 : IVec S16 32) : Prop :=
  (∀ a x, ((![v87] : Fin 1 → IVec S16 32) a x).toNat < S1024.size a)
instance k0_chk11.dec : ∀ (v87 : IVec S16 32), Decidable (k0_chk11 v87) := fun v87 => decidable_of_iff' _ (Iff.of_eq (k0_chk11.eq_1 v87))
theorem k0_idx11_inb : ∀ (v87 : IVec S16 32) (k0_hw11 : k0_chk11 v87), ∀ a x, ((![v87] : Fin 1 → IVec S16 32) a x).toNat < S1024.size a := fun v87 k0_hw11 => k0_hw11
def k0_off13 (k0_t1 : Fin k0_t1_loop.trips) : Fin 1 → Nat :=
  let c20480_i32 : BitVec 32 := 20480#32
  let c0_i32_0 : BitVec 32 := 0#32
  let c1_i32 : BitVec 32 := 1#32
  let arg9 : BitVec 32 := Scf.iv c0_i32_0 c1_i32 k0_t1
  let c16_i32_31 : BitVec 32 := 16#32
  let v89 : BitVec 32 := Scalar.muli arg9 c16_i32_31
  let v90 : BitVec 32 := Scalar.addi c20480_i32 v89
  let v91 : Index := Scalar.indexCast v90
  ![v91.toNat]

def k0_chk12 (v94 : IVec S16 32) : Prop :=
  (∀ a x, ((![v94] : Fin 1 → IVec S16 32) a x).toNat < S1024.size a)
instance k0_chk12.dec : ∀ (v94 : IVec S16 32), Decidable (k0_chk12 v94) := fun v94 => decidable_of_iff' _ (Iff.of_eq (k0_chk12.eq_1 v94))
theorem k0_idx12_inb : ∀ (v94 : IVec S16 32) (k0_hw12 : k0_chk12 v94), ∀ a x, ((![v94] : Fin 1 → IVec S16 32) a x).toNat < S1024.size a := fun v94 k0_hw12 => k0_hw12
def k0_off14 (k0_t1 : Fin k0_t1_loop.trips) : Fin 1 → Nat :=
  let c22528_i32 : BitVec 32 := 22528#32
  let c0_i32_0 : BitVec 32 := 0#32
  let c1_i32 : BitVec 32 := 1#32
  let arg9 : BitVec 32 := Scf.iv c0_i32_0 c1_i32 k0_t1
  let c16_i32_33 : BitVec 32 := 16#32
  let v96 : BitVec 32 := Scalar.muli arg9 c16_i32_33
  let v97 : BitVec 32 := Scalar.addi c22528_i32 v96
  let v98 : Index := Scalar.indexCast v97
  ![v98.toNat]

def k0_chk13 (v101 : IVec S16 32) : Prop :=
  (∀ a x, ((![v101] : Fin 1 → IVec S16 32) a x).toNat < S1024.size a)
instance k0_chk13.dec : ∀ (v101 : IVec S16 32), Decidable (k0_chk13 v101) := fun v101 => decidable_of_iff' _ (Iff.of_eq (k0_chk13.eq_1 v101))
theorem k0_idx13_inb : ∀ (v101 : IVec S16 32) (k0_hw13 : k0_chk13 v101), ∀ a x, ((![v101] : Fin 1 → IVec S16 32) a x).toNat < S1024.size a := fun v101 k0_hw13 => k0_hw13
def k0_off15 (k0_t1 : Fin k0_t1_loop.trips) : Fin 1 → Nat :=
  let c24576_i32 : BitVec 32 := 24576#32
  let c0_i32_0 : BitVec 32 := 0#32
  let c1_i32 : BitVec 32 := 1#32
  let arg9 : BitVec 32 := Scf.iv c0_i32_0 c1_i32 k0_t1
  let c16_i32_35 : BitVec 32 := 16#32
  let v103 : BitVec 32 := Scalar.muli arg9 c16_i32_35
  let v104 : BitVec 32 := Scalar.addi c24576_i32 v103
  let v105 : Index := Scalar.indexCast v104
  ![v105.toNat]

def k0_chk14 (v108 : IVec S16 32) : Prop :=
  (∀ a x, ((![v108] : Fin 1 → IVec S16 32) a x).toNat < S1024.size a)
instance k0_chk14.dec : ∀ (v108 : IVec S16 32), Decidable (k0_chk14 v108) := fun v108 => decidable_of_iff' _ (Iff.of_eq (k0_chk14.eq_1 v108))
theorem k0_idx14_inb : ∀ (v108 : IVec S16 32) (k0_hw14 : k0_chk14 v108), ∀ a x, ((![v108] : Fin 1 → IVec S16 32) a x).toNat < S1024.size a := fun v108 k0_hw14 => k0_hw14
def k0_off16 (k0_t1 : Fin k0_t1_loop.trips) : Fin 1 → Nat :=
  let c26624_i32 : BitVec 32 := 26624#32
  let c0_i32_0 : BitVec 32 := 0#32
  let c1_i32 : BitVec 32 := 1#32
  let arg9 : BitVec 32 := Scf.iv c0_i32_0 c1_i32 k0_t1
  let c16_i32_37 : BitVec 32 := 16#32
  let v110 : BitVec 32 := Scalar.muli arg9 c16_i32_37
  let v111 : BitVec 32 := Scalar.addi c26624_i32 v110
  let v112 : Index := Scalar.indexCast v111
  ![v112.toNat]

def k0_chk15 (v115 : IVec S16 32) : Prop :=
  (∀ a x, ((![v115] : Fin 1 → IVec S16 32) a x).toNat < S1024.size a)
instance k0_chk15.dec : ∀ (v115 : IVec S16 32), Decidable (k0_chk15 v115) := fun v115 => decidable_of_iff' _ (Iff.of_eq (k0_chk15.eq_1 v115))
theorem k0_idx15_inb : ∀ (v115 : IVec S16 32) (k0_hw15 : k0_chk15 v115), ∀ a x, ((![v115] : Fin 1 → IVec S16 32) a x).toNat < S1024.size a := fun v115 k0_hw15 => k0_hw15
def k0_off17 (k0_t1 : Fin k0_t1_loop.trips) : Fin 1 → Nat :=
  let c28672_i32 : BitVec 32 := 28672#32
  let c0_i32_0 : BitVec 32 := 0#32
  let c1_i32 : BitVec 32 := 1#32
  let arg9 : BitVec 32 := Scf.iv c0_i32_0 c1_i32 k0_t1
  let c16_i32_39 : BitVec 32 := 16#32
  let v117 : BitVec 32 := Scalar.muli arg9 c16_i32_39
  let v118 : BitVec 32 := Scalar.addi c28672_i32 v117
  let v119 : Index := Scalar.indexCast v118
  ![v119.toNat]

def k0_chk16 (v122 : IVec S16 32) : Prop :=
  (∀ a x, ((![v122] : Fin 1 → IVec S16 32) a x).toNat < S1024.size a)
instance k0_chk16.dec : ∀ (v122 : IVec S16 32), Decidable (k0_chk16 v122) := fun v122 => decidable_of_iff' _ (Iff.of_eq (k0_chk16.eq_1 v122))
theorem k0_idx16_inb : ∀ (v122 : IVec S16 32) (k0_hw16 : k0_chk16 v122), ∀ a x, ((![v122] : Fin 1 → IVec S16 32) a x).toNat < S1024.size a := fun v122 k0_hw16 => k0_hw16
def k0_off18 (k0_t1 : Fin k0_t1_loop.trips) : Fin 1 → Nat :=
  let c30720_i32 : BitVec 32 := 30720#32
  let c0_i32_0 : BitVec 32 := 0#32
  let c1_i32 : BitVec 32 := 1#32
  let arg9 : BitVec 32 := Scf.iv c0_i32_0 c1_i32 k0_t1
  let c16_i32_41 : BitVec 32 := 16#32
  let v124 : BitVec 32 := Scalar.muli arg9 c16_i32_41
  let v125 : BitVec 32 := Scalar.addi c30720_i32 v124
  let v126 : Index := Scalar.indexCast v125
  ![v126.toNat]

def k0_chk17 (v129 : IVec S16 32) : Prop :=
  (∀ a x, ((![v129] : Fin 1 → IVec S16 32) a x).toNat < S1024.size a)
instance k0_chk17.dec : ∀ (v129 : IVec S16 32), Decidable (k0_chk17 v129) := fun v129 => decidable_of_iff' _ (Iff.of_eq (k0_chk17.eq_1 v129))
theorem k0_idx17_inb : ∀ (v129 : IVec S16 32) (k0_hw17 : k0_chk17 v129), ∀ a x, ((![v129] : Fin 1 → IVec S16 32) a x).toNat < S1024.size a := fun v129 k0_hw17 => k0_hw17
def k0_off19 (k0_t1 : Fin k0_t1_loop.trips) : Fin 1 → Nat :=
  let c32768_i32 : BitVec 32 := 32768#32
  let c0_i32_0 : BitVec 32 := 0#32
  let c1_i32 : BitVec 32 := 1#32
  let arg9 : BitVec 32 := Scf.iv c0_i32_0 c1_i32 k0_t1
  let c16_i32_43 : BitVec 32 := 16#32
  let v131 : BitVec 32 := Scalar.muli arg9 c16_i32_43
  let v132 : BitVec 32 := Scalar.addi c32768_i32 v131
  let v133 : Index := Scalar.indexCast v132
  ![v133.toNat]

def k0_chk18 (v136 : IVec S16 32) : Prop :=
  (∀ a x, ((![v136] : Fin 1 → IVec S16 32) a x).toNat < S1024.size a)
instance k0_chk18.dec : ∀ (v136 : IVec S16 32), Decidable (k0_chk18 v136) := fun v136 => decidable_of_iff' _ (Iff.of_eq (k0_chk18.eq_1 v136))
theorem k0_idx18_inb : ∀ (v136 : IVec S16 32) (k0_hw18 : k0_chk18 v136), ∀ a x, ((![v136] : Fin 1 → IVec S16 32) a x).toNat < S1024.size a := fun v136 k0_hw18 => k0_hw18
def k0_off20 (k0_t1 : Fin k0_t1_loop.trips) : Fin 1 → Nat :=
  let c34816_i32 : BitVec 32 := 34816#32
  let c0_i32_0 : BitVec 32 := 0#32
  let c1_i32 : BitVec 32 := 1#32
  let arg9 : BitVec 32 := Scf.iv c0_i32_0 c1_i32 k0_t1
  let c16_i32_45 : BitVec 32 := 16#32
  let v138 : BitVec 32 := Scalar.muli arg9 c16_i32_45
  let v139 : BitVec 32 := Scalar.addi c34816_i32 v138
  let v140 : Index := Scalar.indexCast v139
  ![v140.toNat]

def k0_chk19 (v143 : IVec S16 32) : Prop :=
  (∀ a x, ((![v143] : Fin 1 → IVec S16 32) a x).toNat < S1024.size a)
instance k0_chk19.dec : ∀ (v143 : IVec S16 32), Decidable (k0_chk19 v143) := fun v143 => decidable_of_iff' _ (Iff.of_eq (k0_chk19.eq_1 v143))
theorem k0_idx19_inb : ∀ (v143 : IVec S16 32) (k0_hw19 : k0_chk19 v143), ∀ a x, ((![v143] : Fin 1 → IVec S16 32) a x).toNat < S1024.size a := fun v143 k0_hw19 => k0_hw19
def k0_off21 (k0_t1 : Fin k0_t1_loop.trips) : Fin 1 → Nat :=
  let c36864_i32 : BitVec 32 := 36864#32
  let c0_i32_0 : BitVec 32 := 0#32
  let c1_i32 : BitVec 32 := 1#32
  let arg9 : BitVec 32 := Scf.iv c0_i32_0 c1_i32 k0_t1
  let c16_i32_47 : BitVec 32 := 16#32
  let v145 : BitVec 32 := Scalar.muli arg9 c16_i32_47
  let v146 : BitVec 32 := Scalar.addi c36864_i32 v145
  let v147 : Index := Scalar.indexCast v146
  ![v147.toNat]

def k0_chk20 (v150 : IVec S16 32) : Prop :=
  (∀ a x, ((![v150] : Fin 1 → IVec S16 32) a x).toNat < S1024.size a)
instance k0_chk20.dec : ∀ (v150 : IVec S16 32), Decidable (k0_chk20 v150) := fun v150 => decidable_of_iff' _ (Iff.of_eq (k0_chk20.eq_1 v150))
theorem k0_idx20_inb : ∀ (v150 : IVec S16 32) (k0_hw20 : k0_chk20 v150), ∀ a x, ((![v150] : Fin 1 → IVec S16 32) a x).toNat < S1024.size a := fun v150 k0_hw20 => k0_hw20
def k0_off22 (k0_t1 : Fin k0_t1_loop.trips) : Fin 1 → Nat :=
  let c38912_i32 : BitVec 32 := 38912#32
  let c0_i32_0 : BitVec 32 := 0#32
  let c1_i32 : BitVec 32 := 1#32
  let arg9 : BitVec 32 := Scf.iv c0_i32_0 c1_i32 k0_t1
  let c16_i32_49 : BitVec 32 := 16#32
  let v152 : BitVec 32 := Scalar.muli arg9 c16_i32_49
  let v153 : BitVec 32 := Scalar.addi c38912_i32 v152
  let v154 : Index := Scalar.indexCast v153
  ![v154.toNat]

def k0_chk21 (v157 : IVec S16 32) : Prop :=
  (∀ a x, ((![v157] : Fin 1 → IVec S16 32) a x).toNat < S1024.size a)
instance k0_chk21.dec : ∀ (v157 : IVec S16 32), Decidable (k0_chk21 v157) := fun v157 => decidable_of_iff' _ (Iff.of_eq (k0_chk21.eq_1 v157))
theorem k0_idx21_inb : ∀ (v157 : IVec S16 32) (k0_hw21 : k0_chk21 v157), ∀ a x, ((![v157] : Fin 1 → IVec S16 32) a x).toNat < S1024.size a := fun v157 k0_hw21 => k0_hw21
def k0_off23 (k0_t1 : Fin k0_t1_loop.trips) : Fin 1 → Nat :=
  let c40960_i32 : BitVec 32 := 40960#32
  let c0_i32_0 : BitVec 32 := 0#32
  let c1_i32 : BitVec 32 := 1#32
  let arg9 : BitVec 32 := Scf.iv c0_i32_0 c1_i32 k0_t1
  let c16_i32_51 : BitVec 32 := 16#32
  let v159 : BitVec 32 := Scalar.muli arg9 c16_i32_51
  let v160 : BitVec 32 := Scalar.addi c40960_i32 v159
  let v161 : Index := Scalar.indexCast v160
  ![v161.toNat]

def k0_chk22 (v164 : IVec S16 32) : Prop :=
  (∀ a x, ((![v164] : Fin 1 → IVec S16 32) a x).toNat < S1024.size a)
instance k0_chk22.dec : ∀ (v164 : IVec S16 32), Decidable (k0_chk22 v164) := fun v164 => decidable_of_iff' _ (Iff.of_eq (k0_chk22.eq_1 v164))
theorem k0_idx22_inb : ∀ (v164 : IVec S16 32) (k0_hw22 : k0_chk22 v164), ∀ a x, ((![v164] : Fin 1 → IVec S16 32) a x).toNat < S1024.size a := fun v164 k0_hw22 => k0_hw22
def k0_off24 (k0_t1 : Fin k0_t1_loop.trips) : Fin 1 → Nat :=
  let c43008_i32 : BitVec 32 := 43008#32
  let c0_i32_0 : BitVec 32 := 0#32
  let c1_i32 : BitVec 32 := 1#32
  let arg9 : BitVec 32 := Scf.iv c0_i32_0 c1_i32 k0_t1
  let c16_i32_53 : BitVec 32 := 16#32
  let v166 : BitVec 32 := Scalar.muli arg9 c16_i32_53
  let v167 : BitVec 32 := Scalar.addi c43008_i32 v166
  let v168 : Index := Scalar.indexCast v167
  ![v168.toNat]

def k0_chk23 (v171 : IVec S16 32) : Prop :=
  (∀ a x, ((![v171] : Fin 1 → IVec S16 32) a x).toNat < S1024.size a)
instance k0_chk23.dec : ∀ (v171 : IVec S16 32), Decidable (k0_chk23 v171) := fun v171 => decidable_of_iff' _ (Iff.of_eq (k0_chk23.eq_1 v171))
theorem k0_idx23_inb : ∀ (v171 : IVec S16 32) (k0_hw23 : k0_chk23 v171), ∀ a x, ((![v171] : Fin 1 → IVec S16 32) a x).toNat < S1024.size a := fun v171 k0_hw23 => k0_hw23
def k0_off25 (k0_t1 : Fin k0_t1_loop.trips) : Fin 1 → Nat :=
  let c45056_i32 : BitVec 32 := 45056#32
  let c0_i32_0 : BitVec 32 := 0#32
  let c1_i32 : BitVec 32 := 1#32
  let arg9 : BitVec 32 := Scf.iv c0_i32_0 c1_i32 k0_t1
  let c16_i32_55 : BitVec 32 := 16#32
  let v173 : BitVec 32 := Scalar.muli arg9 c16_i32_55
  let v174 : BitVec 32 := Scalar.addi c45056_i32 v173
  let v175 : Index := Scalar.indexCast v174
  ![v175.toNat]

def k0_chk24 (v178 : IVec S16 32) : Prop :=
  (∀ a x, ((![v178] : Fin 1 → IVec S16 32) a x).toNat < S1024.size a)
instance k0_chk24.dec : ∀ (v178 : IVec S16 32), Decidable (k0_chk24 v178) := fun v178 => decidable_of_iff' _ (Iff.of_eq (k0_chk24.eq_1 v178))
theorem k0_idx24_inb : ∀ (v178 : IVec S16 32) (k0_hw24 : k0_chk24 v178), ∀ a x, ((![v178] : Fin 1 → IVec S16 32) a x).toNat < S1024.size a := fun v178 k0_hw24 => k0_hw24
def k0_off26 (k0_t1 : Fin k0_t1_loop.trips) : Fin 1 → Nat :=
  let c47104_i32 : BitVec 32 := 47104#32
  let c0_i32_0 : BitVec 32 := 0#32
  let c1_i32 : BitVec 32 := 1#32
  let arg9 : BitVec 32 := Scf.iv c0_i32_0 c1_i32 k0_t1
  let c16_i32_57 : BitVec 32 := 16#32
  let v180 : BitVec 32 := Scalar.muli arg9 c16_i32_57
  let v181 : BitVec 32 := Scalar.addi c47104_i32 v180
  let v182 : Index := Scalar.indexCast v181
  ![v182.toNat]
def k0_off27 (i : grid0.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![0, v2.toNat]
def k0_off28 (i : grid0.Coords) : Fin 2 → Nat :=
  let c1_i32_3 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![1, v2.toNat]
def k0_off29 (i : grid0.Coords) : Fin 2 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![2, v2.toNat]
def k0_off30 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![3, v2.toNat]
def k0_off31 (i : grid0.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![4, v2.toNat]
def k0_off32 (i : grid0.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![5, v2.toNat]
def k0_off33 (i : grid0.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![6, v2.toNat]
def k0_off34 (i : grid0.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![7, v2.toNat]
def k0_off35 (i : grid0.Coords) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![8, v2.toNat]
def k0_off36 (i : grid0.Coords) : Fin 2 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![9, v2.toNat]
def k0_off37 (i : grid0.Coords) : Fin 2 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![10, v2.toNat]
def k0_off38 (i : grid0.Coords) : Fin 2 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![11, v2.toNat]
def k0_off39 (i : grid0.Coords) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![12, v2.toNat]
def k0_off40 (i : grid0.Coords) : Fin 2 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![13, v2.toNat]
def k0_off41 (i : grid0.Coords) : Fin 2 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![14, v2.toNat]
def k0_off42 (i : grid0.Coords) : Fin 2 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![15, v2.toNat]
def k0_off43 (i : grid0.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![16, v2.toNat]
def k0_off44 (i : grid0.Coords) : Fin 2 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![17, v2.toNat]
def k0_off45 (i : grid0.Coords) : Fin 2 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![18, v2.toNat]
def k0_off46 (i : grid0.Coords) : Fin 2 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![19, v2.toNat]
def k0_off47 (i : grid0.Coords) : Fin 2 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![20, v2.toNat]
def k0_off48 (i : grid0.Coords) : Fin 2 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![21, v2.toNat]
def k0_off49 (i : grid0.Coords) : Fin 2 → Nat :=
  let c22_i32 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![22, v2.toNat]
def k0_off50 (i : grid0.Coords) : Fin 2 → Nat :=
  let c23_i32 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![23, v2.toNat]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S24x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x1024x536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S28x24_S672 : S28x24.ShapeCasts S672
  shapeCasts_S64x1024_S65536 : S64x1024.ShapeCasts S65536
  inb_S1024_S672_0 : ∀ a, (![0] : Fin 1 → Nat) a + S672.size a ≤ S1024.size a
  h_S16 : 0 < S16.numel
  h_S1024 : 0 < S1024.numel
  inb_S49152_S2048_0 : ∀ a, (![0] : Fin 1 → Nat) a + S2048.size a ≤ S49152.size a
  squeezes_S1x2048_S2048 : S1x2048.Squeezes S2048
  inb_S49152_S2048_2048 : ∀ a, (![2048] : Fin 1 → Nat) a + S2048.size a ≤ S49152.size a
  inb_S49152_S2048_4096 : ∀ a, (![4096] : Fin 1 → Nat) a + S2048.size a ≤ S49152.size a
  inb_S49152_S2048_6144 : ∀ a, (![6144] : Fin 1 → Nat) a + S2048.size a ≤ S49152.size a
  inb_S49152_S2048_8192 : ∀ a, (![8192] : Fin 1 → Nat) a + S2048.size a ≤ S49152.size a
  inb_S49152_S2048_10240 : ∀ a, (![10240] : Fin 1 → Nat) a + S2048.size a ≤ S49152.size a
  inb_S49152_S2048_12288 : ∀ a, (![12288] : Fin 1 → Nat) a + S2048.size a ≤ S49152.size a
  inb_S49152_S2048_14336 : ∀ a, (![14336] : Fin 1 → Nat) a + S2048.size a ≤ S49152.size a
  inb_S49152_S2048_16384 : ∀ a, (![16384] : Fin 1 → Nat) a + S2048.size a ≤ S49152.size a
  inb_S49152_S2048_18432 : ∀ a, (![18432] : Fin 1 → Nat) a + S2048.size a ≤ S49152.size a
  inb_S49152_S2048_20480 : ∀ a, (![20480] : Fin 1 → Nat) a + S2048.size a ≤ S49152.size a
  inb_S49152_S2048_22528 : ∀ a, (![22528] : Fin 1 → Nat) a + S2048.size a ≤ S49152.size a
  inb_S49152_S2048_24576 : ∀ a, (![24576] : Fin 1 → Nat) a + S2048.size a ≤ S49152.size a
  inb_S49152_S2048_26624 : ∀ a, (![26624] : Fin 1 → Nat) a + S2048.size a ≤ S49152.size a
  inb_S49152_S2048_28672 : ∀ a, (![28672] : Fin 1 → Nat) a + S2048.size a ≤ S49152.size a
  inb_S49152_S2048_30720 : ∀ a, (![30720] : Fin 1 → Nat) a + S2048.size a ≤ S49152.size a
  inb_S49152_S2048_32768 : ∀ a, (![32768] : Fin 1 → Nat) a + S2048.size a ≤ S49152.size a
  inb_S49152_S2048_34816 : ∀ a, (![34816] : Fin 1 → Nat) a + S2048.size a ≤ S49152.size a
  inb_S49152_S2048_36864 : ∀ a, (![36864] : Fin 1 → Nat) a + S2048.size a ≤ S49152.size a
  inb_S49152_S2048_38912 : ∀ a, (![38912] : Fin 1 → Nat) a + S2048.size a ≤ S49152.size a
  inb_S49152_S2048_40960 : ∀ a, (![40960] : Fin 1 → Nat) a + S2048.size a ≤ S49152.size a
  inb_S49152_S2048_43008 : ∀ a, (![43008] : Fin 1 → Nat) a + S2048.size a ≤ S49152.size a
  inb_S49152_S2048_45056 : ∀ a, (![45056] : Fin 1 → Nat) a + S2048.size a ≤ S49152.size a
  inb_S49152_S2048_47104 : ∀ a, (![47104] : Fin 1 → Nat) a + S2048.size a ≤ S49152.size a
  inb_S24x4096_S24x4096_0_0 : ∀ a, (![0, 0] : Fin 2 → Nat) a + S24x4096.size a ≤ S24x4096.size a
  h_S24x4096 : 0 < S24x4096.numel
  shapeCasts_S24x4096_S24x4096 : S24x4096.ShapeCasts S24x4096
  iota_S24x24_d0_w32 : S24x24.Iotas .tc 32 [0]
  iota_S24x24_d1_w32 : S24x24.Iotas .tc 32 [1]
  natLt_1_32 : 1 < 32
  slices_S24x4096_o0_0_S24x1024 : S24x4096.Slices ![0, 0] S24x1024
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  concatenates_S1024x512_S1024x24_S1024x536_d1 : Shape.Concatenates [S1024x512, S1024x24] S1024x536 1
  inb_S4x1024x536_S1x1024x536_0_0_0 : ∀ a, (![0, 0, 0] : Fin 3 → Nat) a + S1x1024x536.size a ≤ S4x1024x536.size a
  h_S1x1024x536 : 0 < S1x1024x536.numel
  shapeCasts_S1x1024x536_S1024x536 : S1x1024x536.ShapeCasts S1024x536
  shapeCasts_S1024x536_S1x1024x536 : S1024x536.ShapeCasts S1x1024x536
  slices_S24x4096_o0_1024_S24x1024 : S24x4096.Slices ![0, 1024] S24x1024
  inb_S4x1024x512_S1x1024x512_1_0_0 : ∀ a, (![1, 0, 0] : Fin 3 → Nat) a + S1x1024x512.size a ≤ S4x1024x512.size a
  inb_S4x1024x536_S1x1024x536_1_0_0 : ∀ a, (![1, 0, 0] : Fin 3 → Nat) a + S1x1024x536.size a ≤ S4x1024x536.size a
  slices_S24x4096_o0_2048_S24x1024 : S24x4096.Slices ![0, 2048] S24x1024
  inb_S4x1024x512_S1x1024x512_2_0_0 : ∀ a, (![2, 0, 0] : Fin 3 → Nat) a + S1x1024x512.size a ≤ S4x1024x512.size a
  inb_S4x1024x536_S1x1024x536_2_0_0 : ∀ a, (![2, 0, 0] : Fin 3 → Nat) a + S1x1024x536.size a ≤ S4x1024x536.size a
  slices_S24x4096_o0_3072_S24x1024 : S24x4096.Slices ![0, 3072] S24x1024
  inb_S4x1024x512_S1x1024x512_3_0_0 : ∀ a, (![3, 0, 0] : Fin 3 → Nat) a + S1x1024x512.size a ≤ S4x1024x512.size a
  inb_S4x1024x536_S1x1024x536_3_0_0 : ∀ a, (![3, 0, 0] : Fin 3 → Nat) a + S1x1024x536.size a ≤ S4x1024x536.size a
  dot_S24x1024_S24x24_S1024x24_0_0_1_1_n_n_wf : DotDims.WF S24x1024 S24x24 S1024x24 [0] [0] [1] [1] [] []
  hcc0_scratch3 : 0 + S_.numel ≤ 33
  hcc0_scoped0 : 1 + S_.numel ≤ 33
  hcc0_scoped1 : 2 + S_.numel ≤ 33
  hcc0_scoped2 : 3 + S_.numel ≤ 33
  hcc0_scoped3 : 4 + S_.numel ≤ 33
  hcc0_scoped4 : 5 + S_.numel ≤ 33
  hcc0_scoped5 : 6 + S_.numel ≤ 33
  hcc0_scoped6 : 7 + S_.numel ≤ 33
  hcc0_scoped7 : 8 + S_.numel ≤ 33
  hcc0_scoped8 : 9 + S_.numel ≤ 33
  hcc0_scoped9 : 10 + S_.numel ≤ 33
  hcc0_scoped10 : 11 + S_.numel ≤ 33
  hcc0_scoped11 : 12 + S_.numel ≤ 33
  hcc0_scoped12 : 13 + S_.numel ≤ 33
  hcc0_scoped13 : 14 + S_.numel ≤ 33
  hcc0_scoped14 : 15 + S_.numel ≤ 33
  hcc0_scoped15 : 16 + S_.numel ≤ 33
  hcc0_scoped16 : 17 + S_.numel ≤ 33
  hcc0_scoped17 : 18 + S_.numel ≤ 33
  hcc0_scoped18 : 19 + S_.numel ≤ 33
  hcc0_scoped19 : 20 + S_.numel ≤ 33
  hcc0_scoped20 : 21 + S_.numel ≤ 33
  hcc0_scoped21 : 22 + S_.numel ≤ 33
  hcc0_scoped22 : 23 + S_.numel ≤ 33
  hcc0_scoped23 : 24 + S_.numel ≤ 33
  hcc0_scoped24 : 25 + S_.numel ≤ 33
  hcc0_scoped25 : 26 + S_.numel ≤ 33
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2048.size a ≤ S65536.size a
  k0_t1_ok : k0_t1_loop.OK
  k0_off2_inb : ∀ k0_t1 : Fin k0_t1_loop.trips, ∀ a, (k0_off2 k0_t1) a + S16.size a ≤ S2048.size a
  k0_off3_inb : ∀ k0_t1 : Fin k0_t1_loop.trips, ∀ a, (k0_off3 k0_t1) a + S16.size a ≤ S49152.size a
  k0_off4_inb : ∀ k0_t1 : Fin k0_t1_loop.trips, ∀ a, (k0_off4 k0_t1) a + S16.size a ≤ S49152.size a
  k0_off5_inb : ∀ k0_t1 : Fin k0_t1_loop.trips, ∀ a, (k0_off5 k0_t1) a + S16.size a ≤ S49152.size a
  k0_off6_inb : ∀ k0_t1 : Fin k0_t1_loop.trips, ∀ a, (k0_off6 k0_t1) a + S16.size a ≤ S49152.size a
  k0_off7_inb : ∀ k0_t1 : Fin k0_t1_loop.trips, ∀ a, (k0_off7 k0_t1) a + S16.size a ≤ S49152.size a
  k0_off8_inb : ∀ k0_t1 : Fin k0_t1_loop.trips, ∀ a, (k0_off8 k0_t1) a + S16.size a ≤ S49152.size a
  k0_off9_inb : ∀ k0_t1 : Fin k0_t1_loop.trips, ∀ a, (k0_off9 k0_t1) a + S16.size a ≤ S49152.size a
  k0_off10_inb : ∀ k0_t1 : Fin k0_t1_loop.trips, ∀ a, (k0_off10 k0_t1) a + S16.size a ≤ S49152.size a
  k0_off11_inb : ∀ k0_t1 : Fin k0_t1_loop.trips, ∀ a, (k0_off11 k0_t1) a + S16.size a ≤ S49152.size a
  k0_off12_inb : ∀ k0_t1 : Fin k0_t1_loop.trips, ∀ a, (k0_off12 k0_t1) a + S16.size a ≤ S49152.size a
  k0_off13_inb : ∀ k0_t1 : Fin k0_t1_loop.trips, ∀ a, (k0_off13 k0_t1) a + S16.size a ≤ S49152.size a
  k0_off14_inb : ∀ k0_t1 : Fin k0_t1_loop.trips, ∀ a, (k0_off14 k0_t1) a + S16.size a ≤ S49152.size a
  k0_off15_inb : ∀ k0_t1 : Fin k0_t1_loop.trips, ∀ a, (k0_off15 k0_t1) a + S16.size a ≤ S49152.size a
  k0_off16_inb : ∀ k0_t1 : Fin k0_t1_loop.trips, ∀ a, (k0_off16 k0_t1) a + S16.size a ≤ S49152.size a
  k0_off17_inb : ∀ k0_t1 : Fin k0_t1_loop.trips, ∀ a, (k0_off17 k0_t1) a + S16.size a ≤ S49152.size a
  k0_off18_inb : ∀ k0_t1 : Fin k0_t1_loop.trips, ∀ a, (k0_off18 k0_t1) a + S16.size a ≤ S49152.size a
  k0_off19_inb : ∀ k0_t1 : Fin k0_t1_loop.trips, ∀ a, (k0_off19 k0_t1) a + S16.size a ≤ S49152.size a
  k0_off20_inb : ∀ k0_t1 : Fin k0_t1_loop.trips, ∀ a, (k0_off20 k0_t1) a + S16.size a ≤ S49152.size a
  k0_off21_inb : ∀ k0_t1 : Fin k0_t1_loop.trips, ∀ a, (k0_off21 k0_t1) a + S16.size a ≤ S49152.size a
  k0_off22_inb : ∀ k0_t1 : Fin k0_t1_loop.trips, ∀ a, (k0_off22 k0_t1) a + S16.size a ≤ S49152.size a
  k0_off23_inb : ∀ k0_t1 : Fin k0_t1_loop.trips, ∀ a, (k0_off23 k0_t1) a + S16.size a ≤ S49152.size a
  k0_off24_inb : ∀ k0_t1 : Fin k0_t1_loop.trips, ∀ a, (k0_off24 k0_t1) a + S16.size a ≤ S49152.size a
  k0_off25_inb : ∀ k0_t1 : Fin k0_t1_loop.trips, ∀ a, (k0_off25 k0_t1) a + S16.size a ≤ S49152.size a
  k0_off26_inb : ∀ k0_t1 : Fin k0_t1_loop.trips, ∀ a, (k0_off26 k0_t1) a + S16.size a ≤ S49152.size a
  k0_off27_inb : ∀ i : grid0.Coords, ∀ a, (k0_off27 i) a + S1x2048.size a ≤ S24x65536.size a
  k0_off28_inb : ∀ i : grid0.Coords, ∀ a, (k0_off28 i) a + S1x2048.size a ≤ S24x65536.size a
  k0_off29_inb : ∀ i : grid0.Coords, ∀ a, (k0_off29 i) a + S1x2048.size a ≤ S24x65536.size a
  k0_off30_inb : ∀ i : grid0.Coords, ∀ a, (k0_off30 i) a + S1x2048.size a ≤ S24x65536.size a
  k0_off31_inb : ∀ i : grid0.Coords, ∀ a, (k0_off31 i) a + S1x2048.size a ≤ S24x65536.size a
  k0_off32_inb : ∀ i : grid0.Coords, ∀ a, (k0_off32 i) a + S1x2048.size a ≤ S24x65536.size a
  k0_off33_inb : ∀ i : grid0.Coords, ∀ a, (k0_off33 i) a + S1x2048.size a ≤ S24x65536.size a
  k0_off34_inb : ∀ i : grid0.Coords, ∀ a, (k0_off34 i) a + S1x2048.size a ≤ S24x65536.size a
  k0_off35_inb : ∀ i : grid0.Coords, ∀ a, (k0_off35 i) a + S1x2048.size a ≤ S24x65536.size a
  k0_off36_inb : ∀ i : grid0.Coords, ∀ a, (k0_off36 i) a + S1x2048.size a ≤ S24x65536.size a
  k0_off37_inb : ∀ i : grid0.Coords, ∀ a, (k0_off37 i) a + S1x2048.size a ≤ S24x65536.size a
  k0_off38_inb : ∀ i : grid0.Coords, ∀ a, (k0_off38 i) a + S1x2048.size a ≤ S24x65536.size a
  k0_off39_inb : ∀ i : grid0.Coords, ∀ a, (k0_off39 i) a + S1x2048.size a ≤ S24x65536.size a
  k0_off40_inb : ∀ i : grid0.Coords, ∀ a, (k0_off40 i) a + S1x2048.size a ≤ S24x65536.size a
  k0_off41_inb : ∀ i : grid0.Coords, ∀ a, (k0_off41 i) a + S1x2048.size a ≤ S24x65536.size a
  k0_off42_inb : ∀ i : grid0.Coords, ∀ a, (k0_off42 i) a + S1x2048.size a ≤ S24x65536.size a
  k0_off43_inb : ∀ i : grid0.Coords, ∀ a, (k0_off43 i) a + S1x2048.size a ≤ S24x65536.size a
  k0_off44_inb : ∀ i : grid0.Coords, ∀ a, (k0_off44 i) a + S1x2048.size a ≤ S24x65536.size a
  k0_off45_inb : ∀ i : grid0.Coords, ∀ a, (k0_off45 i) a + S1x2048.size a ≤ S24x65536.size a
  k0_off46_inb : ∀ i : grid0.Coords, ∀ a, (k0_off46 i) a + S1x2048.size a ≤ S24x65536.size a
  k0_off47_inb : ∀ i : grid0.Coords, ∀ a, (k0_off47 i) a + S1x2048.size a ≤ S24x65536.size a
  k0_off48_inb : ∀ i : grid0.Coords, ∀ a, (k0_off48 i) a + S1x2048.size a ≤ S24x65536.size a
  k0_off49_inb : ∀ i : grid0.Coords, ∀ a, (k0_off49 i) a + S1x2048.size a ≤ S24x65536.size a
  k0_off50_inb : ∀ i : grid0.Coords, ∀ a, (k0_off50 i) a + S1x2048.size a ≤ S24x65536.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x512.size a ≤ S64x1024x512.size a
  hwx1_0 : ∀ i : grid1.Coords, EltTy.bits .f32 = 32 ∨ (Rect.block (s := S64x1024x512) S4x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S24x4096.size a ≤ S24x65536.size a
  hwx1_1 : ∀ i : grid1.Coords, EltTy.bits .f32 = 32 ∨ (Rect.block (s := S24x65536) S24x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1024x536.size a ≤ S64x1024x536.size a
  hwx1_2 : ∀ i : grid1.Coords, EltTy.bits .f32 = 32 ∨ (Rect.block (s := S64x1024x536) S4x1024x536.size (cc1_transform_2 i) (hinb1_2 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
abbrev cc0_scoped6 : DmaSems sig S_ := SemArray.consecutive 7 S_ hcc0_scoped6
abbrev cc0_scoped7 : DmaSems sig S_ := SemArray.consecutive 8 S_ hcc0_scoped7
abbrev cc0_scoped8 : DmaSems sig S_ := SemArray.consecutive 9 S_ hcc0_scoped8
abbrev cc0_scoped9 : DmaSems sig S_ := SemArray.consecutive 10 S_ hcc0_scoped9
abbrev cc0_scoped10 : DmaSems sig S_ := SemArray.consecutive 11 S_ hcc0_scoped10
abbrev cc0_scoped11 : DmaSems sig S_ := SemArray.consecutive 12 S_ hcc0_scoped11
abbrev cc0_scoped12 : DmaSems sig S_ := SemArray.consecutive 13 S_ hcc0_scoped12
abbrev cc0_scoped13 : DmaSems sig S_ := SemArray.consecutive 14 S_ hcc0_scoped13
abbrev cc0_scoped14 : DmaSems sig S_ := SemArray.consecutive 15 S_ hcc0_scoped14
abbrev cc0_scoped15 : DmaSems sig S_ := SemArray.consecutive 16 S_ hcc0_scoped15
abbrev cc0_scoped16 : DmaSems sig S_ := SemArray.consecutive 17 S_ hcc0_scoped16
abbrev cc0_scoped17 : DmaSems sig S_ := SemArray.consecutive 18 S_ hcc0_scoped17
abbrev cc0_scoped18 : DmaSems sig S_ := SemArray.consecutive 19 S_ hcc0_scoped18
abbrev cc0_scoped19 : DmaSems sig S_ := SemArray.consecutive 20 S_ hcc0_scoped19
abbrev cc0_scoped20 : DmaSems sig S_ := SemArray.consecutive 21 S_ hcc0_scoped20
abbrev cc0_scoped21 : DmaSems sig S_ := SemArray.consecutive 22 S_ hcc0_scoped21
abbrev cc0_scoped22 : DmaSems sig S_ := SemArray.consecutive 23 S_ hcc0_scoped22
abbrev cc0_scoped23 : DmaSems sig S_ := SemArray.consecutive 24 S_ hcc0_scoped23
abbrev cc0_scoped24 : DmaSems sig S_ := SemArray.consecutive 25 S_ hcc0_scoped24
abbrev cc0_scoped25 : DmaSems sig S_ := SemArray.consecutive 26 S_ hcc0_scoped25
def dot_S24x1024_S24x24_S1024x24_0_0_1_1_n_n : DotDims S24x1024 S24x24 S1024x24 where
  lhsContracting := [0]
  rhsContracting := [0]
  lhsNonContracting := [1]
  rhsNonContracting := [1]
  lhsBatch := []
  rhsBatch := []
  wf := dot_S24x1024_S24x24_S1024x24_0_0_1_1_n_n_wf

abbrev win1_0 : Pipeline.Window sig grid1 :=
  Pipeline.Window.ofSpec (Memref.whole main_arg1) S4x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S24x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4x1024x536.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x1024 : Shape := ⟨2, ![64, 1024]⟩
abbrev S64x1024x512 : Shape := ⟨3, ![64, 1024, 512]⟩
abbrev S28x24 : Shape := ⟨2, ![28, 24]⟩
abbrev S_ : Shape := ⟨0, ![]⟩
abbrev S64x1024x1 : Shape := ⟨3, ![64, 1024, 1]⟩
abbrev S1 : Shape := ⟨1, ![1]⟩
abbrev S1x1x1 : Shape := ⟨3, ![1, 1, 1]⟩
abbrev S64x1024x24 : Shape := ⟨3, ![64, 1024, 24]⟩
abbrev S64x1024x536 : Shape := ⟨3, ![64, 1024, 536]⟩

abbrev nBuf : Space → Nat
  | .hbm => 38
  | .vmem => 0
  | .smem => 0
  | _ => 0

abbrev bufTy : (tb : Table) → Fin (tcTables nBuf tb) → BufTy
  | .hbm, ⟨0, _⟩ => ⟨S64x1024, .i32⟩
  | .hbm, ⟨1, _⟩ => ⟨S64x1024x512, .f32⟩
  | .hbm, ⟨2, _⟩ => ⟨S28x24, .f32⟩
  | .hbm, ⟨3, _⟩ => ⟨S_, .i32⟩
  | .hbm, ⟨4, _⟩ => ⟨S64x1024, .i32⟩
  | .hbm, ⟨5, _⟩ => ⟨S64x1024, .i1⟩
  | .hbm, ⟨6, _⟩ => ⟨S_, .i32⟩
  | .hbm, ⟨7, _⟩ => ⟨S64x1024, .i32⟩
  | .hbm, ⟨8, _⟩ => ⟨S64x1024, .i1⟩
  | .hbm, ⟨9, _⟩ => ⟨S64x1024, .i1⟩
  | .hbm, ⟨10, _⟩ => ⟨S_, .i32⟩
  | .hbm, ⟨11, _⟩ => ⟨S_, .i32⟩
  | .hbm, ⟨12, _⟩ => ⟨S64x1024, .i32⟩
  | .hbm, ⟨13, _⟩ => ⟨S64x1024, .i32⟩
  | .hbm, ⟨14, _⟩ => ⟨S_, .i32⟩
  | .hbm, ⟨15, _⟩ => ⟨S64x1024, .i32⟩
  | .hbm, ⟨16, _⟩ => ⟨S64x1024, .i1⟩
  | .hbm, ⟨17, _⟩ => ⟨S_, .i32⟩
  | .hbm, ⟨18, _⟩ => ⟨S64x1024, .i32⟩
  | .hbm, ⟨19, _⟩ => ⟨S64x1024, .i32⟩
  | .hbm, ⟨20, _⟩ => ⟨S64x1024, .i32⟩
  | .hbm, ⟨21, _⟩ => ⟨S64x1024x1, .i32⟩
  | .hbm, ⟨22, _⟩ => ⟨S1, .i32⟩
  | .hbm, ⟨23, _⟩ => ⟨S_, .i32⟩
  | .hbm, ⟨24, _⟩ => ⟨S64x1024x1, .i32⟩
  | .hbm, ⟨25, _⟩ => ⟨S64x1024x1, .i1⟩
  | .hbm, ⟨26, _⟩ => ⟨S1x1x1, .i32⟩
  | .hbm, ⟨27, _⟩ => ⟨S64x1024x1, .i32⟩
  | .hbm, ⟨28, _⟩ => ⟨S64x1024x1, .i1⟩
  | .hbm, ⟨29, _⟩ => ⟨S64x1024x1, .i1⟩
  | .hbm, ⟨30, _⟩ => ⟨S_, .i1⟩
  | .hbm, ⟨31, _⟩ => ⟨S64x1024, .i1⟩
  | .hbm, ⟨32, _⟩ => ⟨S64x1024x24, .f32⟩
  | .hbm, ⟨33, _⟩ => ⟨S64x1024x24, .i1⟩
  | .hbm, ⟨34, _⟩ => ⟨S_, .f32⟩
  | .hbm, ⟨35, _⟩ => ⟨S64x1024x24, .f32⟩
  | .hbm, ⟨36, _⟩ => ⟨S64x1024x24, .f32⟩
  | .hbm, ⟨37, _⟩ => ⟨S64x1024x536, .f32⟩
  | _, _ => ⟨S64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v6 : Ref sig .tc := ⟨.hbm, 36, rfl⟩
abbrev main_v7 : Ref sig .tc := ⟨.hbm, 37, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  reducesTo_S64x1024x1_S64x1024_d2 : S64x1024x1.ReducesTo [2] S64x1024
  h_S_ : 0 < S_.numel
  bcast_S64x1024_S64x1024x24_0_1 : S64x1024.BroadcastsInDim S64x1024x24 (![0, 1] : Fin 2 → Fin S64x1024x24.rank)
  bcast_S_S64x1024x24 : S_.BroadcastsInDim S64x1024x24 (![] : Fin 0 → Fin S64x1024x24.rank)
  concatenates_S64x1024x512_S64x1024x24_S64x1024x536_d2 : Shape.Concatenates [S64x1024x512, S64x1024x24] S64x1024x536 2
  gather_S28x24_S64x1024x1_S64x1024x24_2_0_n_n_0_2_124_wf : GatherDims.WF S28x24 S64x1024x1 S64x1024x24 [2] [0] [] [0] [] 2 ![1, 24]

variable [Facts₀]

def gather_S28x24_S64x1024x1_S64x1024x24_2_0_n_n_0_2_124 : GatherDims S28x24 S64x1024x1 S64x1024x24 where
  offsetDims := [2]
  collapsedSliceDims := [0]
  operandBatchingDims := []
  startIndicesBatchingDims := []
  startIndexMap := [0]
  indexVectorDim := 2
  sliceSizes := ![1, 24]
  wf := gather_S28x24_S64x1024x1_S64x1024x24_2_0_n_n_0_2_124_wf

class Facts : Prop extends Facts₀ where

variable [Facts]
-- ==== Proof.Spec.lean ====
/-
  What both programs compute, stated once over plain index functions and importing neither program.

  A token `v` (a 32-bit word read signed) selects a row of the 28 x 24 substitution table: its own row when it
  is an amino-acid id, `3 ≤ v < 23`, and the fallback row `27` otherwise (`rowWord`, `row`).  The result is
  the activations with the selected row appended along the last axis (`out`).

  The kernel reaches it in two steps through flat arrays: the token-major coding `codFlat` over the 65536 tokens
  (entry `(j, n)` is word `24 * row + j` of the flattened table), and `outOf`, which puts coding column
  `1024 * b + l` after the 512 activations of position `(b, l)`.
-/
import Idealize.ShloMosaic.PureOps.Ideal
import Idealize.ShloMosaic.Lib.ValueIdx

noncomputable section

namespace Cert.Proof.Spec

open Idealize.ShloMosaic Idealize.ShloMosaic.ValueIdx

abbrev S64x1024 : Shape := ⟨2, ![64, 1024]⟩
abbrev S64x1024x512 : Shape := ⟨3, ![64, 1024, 512]⟩
abbrev S64x1024x536 : Shape := ⟨3, ![64, 1024, 536]⟩
abbrev S28x24 : Shape := ⟨2, ![28, 24]⟩
abbrev S672 : Shape := ⟨1, ![672]⟩
abbrev S65536 : Shape := ⟨1, ![65536]⟩
abbrev S24x65536 : Shape := ⟨2, ![24, 65536]⟩

/-- The word of the row a token selects: the token itself when `3 ≤ v < 23` (signed), else `27`. -/
def rowWord (v : BitVec 32) : BitVec 32 :=
  Scalar.select (IntOp.andi (IntOp.cmpi .sge v 3#32) (IntOp.cmpi .slt v 23#32)) v 27#32

/-- Either the token is an amino-acid id and selects its own row, or the fallback row is selected. -/
theorem rowWord_cases (v : BitVec 32) : (rowWord v = v ∧ 3 ≤ v.toNat ∧ v.toNat < 23) ∨ rowWord v = 27#32 := by
  unfold rowWord Scalar.select
  by_cases h : IntOp.andi (IntOp.cmpi .sge v 3#32) (IntOp.cmpi .slt v 23#32) = 1
  · rw [if_pos h]
    refine .inl ⟨rfl, ?_⟩
    change _ = 1#1 at h
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at h
    omega
  · rw [if_neg h]; exact .inr rfl

theorem rowWord_lt (v : BitVec 32) : (rowWord v).toNat < 28 := by
  rcases rowWord_cases v with ⟨e, _, h⟩ | e
  · rw [e]; omega
  · rw [e]; decide

/-- The selected row as an index of the table's first axis. -/
def row (v : BitVec 32) : Fin 28 := ⟨(rowWord v).toNat, rowWord_lt v⟩

theorem flat_lt (v : BitVec 32) (j : Fin 24) : 24 * (rowWord v).toNat + j.val < 672 := by
  have := rowWord_lt v; have := j.isLt; omega

variable {α : Type}

/-- The result: position `(b, l)` keeps its 512 activations and gets the 24 entries of its token's row after them. -/
def out (src : S64x1024.Idx → BitVec 32) (x : S64x1024x512.Idx → α) (tab : S28x24.Idx → α) : S64x1024x536.Idx → α :=
  fun i =>
    if h : (i 2).val < 512 then x (ix3 (i 0 : Fin 64) (i 1 : Fin 1024) (⟨(i 2).val, h⟩ : Fin 512))
    else tab (ix2 (row (src (ix2 (i 0 : Fin 64) (i 1 : Fin 1024)))) (⟨(i 2).val - 512, by have h2 : (i 2).val < 536 := (i 2).isLt; omega⟩ : Fin 24))

/-- The token-major coding over flat arrays: entry `(j, n)` is word `24 * row + j` of the flattened table. -/
def codFlat (srcf : S65536.Idx → BitVec 32) (tabf : S672.Idx → α) : S24x65536.Idx → α :=
  fun i => tabf (ix1 (⟨24 * (rowWord (srcf (ix1 (i 1 : Fin 65536)))).toNat + (i 0 : Fin 24).val, flat_lt _ (i 0)⟩ : Fin 672))

/-- The concatenation: position `(b, l)` keeps its activations and gets coding column `1024 * b + l` after them. -/
def outOf (x : S64x1024x512.Idx → α) (codv : S24x65536.Idx → α) : S64x1024x536.Idx → α :=
  fun i =>
    if h : (i 2).val < 512 then x (ix3 (i 0 : Fin 64) (i 1 : Fin 1024) (⟨(i 2).val, h⟩ : Fin 512))
    else codv (ix2 (⟨(i 2).val - 512, by have h2 : (i 2).val < 536 := (i 2).isLt; omega⟩ : Fin 24)
      (⟨1024 * (i 0 : Fin 64).val + (i 1 : Fin 1024).val, by have h0 : (i 0).val < 64 := (i 0).isLt; have h1 : (i 1).val < 1024 := (i 1).isLt; omega⟩ : Fin 65536))

end Cert.Proof.Spec

end
-- ==== Proof.Bridge.lean ====
/-
  The index bridge between the kernel's two flat steps and the result as the reference forms it.

  The kernel first flattens the 64 x 1024 tokens to 65536 and the 28 x 24 table to 672 words, both row-major: flat
  token `1024 * b + l` is token `(b, l)` and flat word `24 * r + j` is table entry `(r, j)`.  Through these two
  equations the token-major coding over the flat arrays, put after the activations, is the result itself.
-/
import proofs.«203767_g38671885534092_cont_8to1_b_939_37_alg».proof.Proof.Spec
import Idealize.ShloMosaic.Lib.Pipeline.Value

noncomputable section

namespace Cert.Proof.Bridge

open Idealize.ShloMosaic Idealize.ShloMosaic.ValueIdx
open Cert.Proof.Spec

variable {α β : Type}

/-- Flat token `1024 * b + l` of the flattened token array is token `(b, l)`. -/
theorem srcf_apply (src : S64x1024.Idx → β) (h2 : S64x1024.ShapeCasts S65536) (b : Fin 64) (l : Fin 1024)
    (hn : 1024 * b.val + l.val < 65536) :
    shapeCast S65536 src h2 (ix1 (⟨1024 * b.val + l.val, hn⟩ : Fin 65536)) = src (ix2 b l) := by
  apply shapeCast_apply
  rw [Shape.rowMajor_val_two, Shape.rowMajor_val_one]
  show b.val * 1024 + l.val = 1024 * b.val + l.val
  omega

/-- Flat word `24 * r + j` of the flattened table is table entry `(r, j)`. -/
theorem tabf_apply (tab : S28x24.Idx → α) (h1 : S28x24.ShapeCasts S672) (r : Fin 28) (j : Fin 24)
    (hn : 24 * r.val + j.val < 672) :
    shapeCast S672 tab h1 (ix1 (⟨24 * r.val + j.val, hn⟩ : Fin 672)) = tab (ix2 r j) := by
  apply shapeCast_apply
  rw [Shape.rowMajor_val_two, Shape.rowMajor_val_one]
  show r.val * 24 + j.val = 24 * r.val + j.val
  omega

/-- The coding over the flattened tokens and table, put after the activations, is the result. -/
theorem bridge (src : S64x1024.Idx → BitVec 32) (x : S64x1024x512.Idx → α) (tab : S28x24.Idx → α)
    (h1 : S28x24.ShapeCasts S672) (h2 : S64x1024.ShapeCasts S65536) :
    outOf x (codFlat (shapeCast S65536 src h2) (shapeCast S672 tab h1)) = out src x tab := by
  funext i
  unfold outOf out
  by_cases h : (i 2).val < 512
  · rw [dif_pos h, dif_pos h]
  · rw [dif_neg h, dif_neg h]
    have h0 : (i 0).val < 64 := (i 0).isLt
    have h1' : (i 1).val < 1024 := (i 1).isLt
    have h2' : (i 2).val < 536 := (i 2).isLt
    have hs : shapeCast S65536 src h2 (ix1 (⟨1024 * (i 0 : Fin 64).val + (i 1 : Fin 1024).val, by omega⟩ : Fin 65536))
        = src (ix2 (i 0 : Fin 64) (i 1 : Fin 1024)) := srcf_apply src h2 (i 0) (i 1) _
    apply shapeCast_apply
    rw [Shape.rowMajor_val_two, Shape.rowMajor_val_one]
    show (rowWord (src (ix2 (i 0 : Fin 64) (i 1 : Fin 1024)))).toNat * 24 + ((i 2).val - 512)
      = 24 * (rowWord (shapeCast S65536 src h2 (ix1 (⟨1024 * (i 0 : Fin 64).val + (i 1 : Fin 1024).val, _⟩ : Fin 65536)))).toNat
        + ((i 2).val - 512)
    rw [hs]
    omega

end Cert.Proof.Bridge

end
-- ==== Proof.RefOps.lean ====
/-
  The reference program's @main as a straight line: its thirty-five host operations in order, the three
  outlined functions (the two `where`s and `take`) unfolded at their calls over the calls' own buffers, and the
  run of that line: every weakly fair execution terminates with each buffer at the fold of the operations' results
  over the launch contents.
-/
import proofs.«203767_g38671885534092_cont_8to1_b_939_37_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: eight of its own (the bounds 3 and 23 broadcast, the two
    comparisons, their conjunction, the fallback row 27); `where`'s three (the fallback converted to its own type,
    broadcast, the select); `take`'s twenty-three (the wrap of a negative index: compare with 0, add 28, select —
    the inner `where` is that one select —; the index given a unit axis; the range test `0 ≤ · ≤ 27` and its
    conjunction over the unit axis; the gather; the fill value and the final select); the concatenation. -/
abbrev ops : List (HloOp τ sig (Elt F)) :=
  [ nullary main_c (constantI S_ 32 3#32),
    unary main_c main_v0 (broadcastInDim S64x1024 ![] bcast_S_S64x1024 : (⟨S_, .i32⟩ : BufTy).Contents (Elt F) → (⟨S64x1024, .i32⟩ : BufTy).Contents (Elt F)),
    binary main_arg0 main_v0 main_v1 (cmpi .sge : (⟨S64x1024, .i32⟩ : BufTy).Contents (Elt F) → (⟨S64x1024, .i32⟩ : BufTy).Contents (Elt F) → (⟨S64x1024, .i1⟩ : BufTy).Contents (Elt F)),
    nullary main_c_0 (constantI S_ 32 23#32),
    unary main_c_0 main_v2 (broadcastInDim S64x1024 ![] bcast_S_S64x1024 : (⟨S_, .i32⟩ : BufTy).Contents (Elt F) → (⟨S64x1024, .i32⟩ : BufTy).Contents (Elt F)),
    binary main_arg0 main_v2 main_v3 (cmpi .slt : (⟨S64x1024, .i32⟩ : BufTy).Contents (Elt F) → (⟨S64x1024, .i32⟩ : BufTy).Contents (Elt F) → (⟨S64x1024, .i1⟩ : BufTy).Contents (Elt F)),
    binary main_v1 main_v3 main_v4 (andi : (⟨S64x1024, .i1⟩ : BufTy).Contents (Elt F) → (⟨S64x1024, .i1⟩ : BufTy).Contents (Elt F) → (⟨S64x1024, .i1⟩ : BufTy).Contents (Elt F)),
    nullary main_c_1 (constantI S_ 32 27#32),
    TRef.unary (.of main_c_1) main_call0.v0 id,
    TRef.unary main_call0.v0 main_call0.v1 (broadcastInDim S64x1024 ![] bcast_S_S64x1024),
    TRef.ternary (.of main_v4) (.of main_arg0) main_call0.v1 main_call0.v2 select,
    TRef.nullary main_call1.c (constantI S_ 32 0#32),
    TRef.unary main_call1.c main_call1.v0 (broadcastInDim S64x1024 ![] bcast_S_S64x1024),
    TRef.binary (.of main_v5) main_call1.v0 main_call1.v1 (cmpi .slt),
    TRef.nullary main_call1.c_0 (constantI S_ 32 28#32),
    TRef.unary main_call1.c_0 main_call1.v2 (broadcastInDim S64x1024 ![] bcast_S_S64x1024),
    TRef.binary (.of main_v5) main_call1.v2 main_call1.v3 addi,
    TRef.ternary main_call1.v1 main_call1.v3 (.of main_v5) main_call1.call0.v0 select,
    TRef.unary main_call1.call0.v0 main_call1.v5 (broadcastInDim S64x1024x1 ![0, 1] bcast_S64x1024_S64x1024x1_0_1),
    TRef.nullary main_call1.c_1 (constantI S1 32 27#32),
    TRef.nullary main_call1.c_2 (constantI S_ 32 0#32),
    TRef.unary main_call1.c_2 main_call1.v6 (broadcastInDim S64x1024x1 ![] bcast_S_S64x1024x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S64x1024x1 ![0, 1, 2] bcast_S1x1x1_S64x1024x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S64x1024x1_S64x1024_d2 h_S_),
    TRef.binary (.of main_arg2) main_call1.v5 main_call1.v13 (fun x i => Host.gather gather_S28x24_S64x1024x1_S64x1024x24_2_0_n_n_0_2_124 x i),
    TRef.unary main_call1.v12 main_call1.v14 (broadcastInDim S64x1024x24 ![0, 1] bcast_S64x1024_S64x1024x24_0_1),
    TRef.nullary main_call1.cst (constant S_ .f32 0x7FC00000#32),
    TRef.unary main_call1.cst main_call1.v15 (broadcastInDim S64x1024x24 ![] bcast_S_S64x1024x24),
    TRef.ternary main_call1.v14 main_call1.v13 main_call1.v15 main_call1.v16 select,
    binary main_arg1 main_v6 main_v7 ((fun a b => concatenate S64x1024x536 2 [⟨S64x1024x512, a⟩, ⟨S64x1024x24, b⟩] concatenates_S64x1024x512_S64x1024x24_S64x1024x536_d2) : (⟨S64x1024x512, .f32⟩ : BufTy).Contents (Elt F) → (⟨S64x1024x24, .f32⟩ : BufTy).Contents (Elt F) → (⟨S64x1024x536, .f32⟩ : BufTy).Contents (Elt F)) ]

-- thirty-five binds re-associated
set_option maxRecDepth 1024 in
/-- @main is that straight line: the functions' definitions unfolded at their calls, both sides are one chain of
    host steps once sequencing is reassociated. -/
theorem main_eq (c : Dev nD) : main (F := F) c = seq ops := by
  simp only [main, fn_where.body, fn_where_0.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

/-- From any memory with zero counters every weakly fair execution of @main on the TensorCore terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefRun

end
-- ==== Proof.RefValue.lean ====
/-
  What the reference's straight line leaves in its result buffer, read at an index.

  The fold of the thirty-five operations at the result buffer is one composed term of the three arguments
  (`refTerm`): the concatenation of the activations with `take` of the table at `where` of the tokens. Read at
  an index it is `Spec.out`: `where` leaves at each position the row word of its token (`Spec.rowWord`), a word
  below 28; on such a word `take`'s wrap of negative indices does nothing, its range test `0 ≤ · ≤ 27` holds (so
  the fill value is never selected), and the gather's clamp into `[0, 27]` is the identity.
-/
import proofs.«203767_g38671885534092_cont_8to1_b_939_37_alg».proof.Proof.RefOps
import proofs.«203767_g38671885534092_cont_8to1_b_939_37_alg».proof.Proof.Spec
import Idealize.ShloMosaic.Lib.Pipeline.Value
import Idealize.ShloMosaic.Lib.ValueIdx

noncomputable section

namespace Cert.Proof.RefRun

open Cert.ReferenceIdeal Cert.ReferenceIdeal.Gen Idealize.ShloMosaic Idealize.ShloMosaic.TcCoe Idealize.SL.Sem
  Idealize.ShloMosaic.StableHlo Idealize.ShloMosaic.ValueIdx

/-! ## Words below 28 -/

/-- A word below 28 read signed is its natural-number value. -/
theorem toInt_of_lt (w : BitVec 32) (h : w.toNat < 28) : w.toInt = (w.toNat : Int) := by
  rw [BitVec.toInt_eq_toNat_cond, if_pos (by omega)]

/-- A word below 28 is not negative: `take`'s wrap leaves it. -/
theorem wrap_of_lt (w : BitVec 32) (h : w.toNat < 28) :
    Scalar.select (IntOp.cmpi .slt w 0#32) (IntOp.addi w 28#32) w = w := by
  have e := toInt_of_lt w h
  have hc : IntOp.cmpi .slt w 0#32 = 0#1 := by
    show BitVec.ofBool (w.slt 0#32) = 0#1
    rw [BitVec.slt_eq_decide, e]
    have : ¬ ((w.toNat : Int) < (0#32).toInt) := by
      rw [show (0#32 : BitVec 32).toInt = 0 from rfl]; omega
    rw [decide_eq_false this]; rfl
  rw [hc]; exact select_zero _ _

/-- A word below 28 passes `take`'s range test `0 ≤ · ≤ 27`. -/
theorem inRange_of_lt (w : BitVec 32) (h : w.toNat < 28) :
    IntOp.andi (IntOp.cmpi .sge w 0#32) (IntOp.cmpi .sle w 27#32) = 1#1 := by
  have e := toInt_of_lt w h
  have h1 : IntOp.cmpi .sge w 0#32 = 1#1 := by
    show BitVec.ofBool ((0#32 : BitVec 32).sle w) = 1#1
    rw [BitVec.sle_eq_decide, e]
    have : (0#32 : BitVec 32).toInt ≤ (w.toNat : Int) := by
      rw [show (0#32 : BitVec 32).toInt = 0 from rfl]; omega
    rw [decide_eq_true this]; rfl
  have h2 : IntOp.cmpi .sle w 27#32 = 1#1 := by
    show BitVec.ofBool (w.sle 27#32) = 1#1
    rw [BitVec.sle_eq_decide, e]
    have : (w.toNat : Int) ≤ (27#32 : BitVec 32).toInt := by
      rw [show (27#32 : BitVec 32).toInt = 27 from rfl]; omega
    rw [decide_eq_true this]; rfl
  rw [h1, h2]; rfl

/-- On a word below 28 the gather's clamp into `[0, 27]` is the identity. -/
theorem clamp_of_lt (w : BitVec 32) (h : w.toNat < 28) : min w.toInt.toNat (28 - 1) = w.toNat := by
  rw [toInt_of_lt w h]; omega

/-! ## A conjunction over an axis of ones -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (1#1) = 1#1 := by decide
    rw [List.foldl_cons, h a List.mem_cons_self, e]
    exact foldl_andi_ones f l fun n hn => h n (List.mem_cons_of_mem _ hn)

/-- A reduction by `and`, from 1, of an array that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones (fun n => x (s.rowMajor.symm n)) _ fun n _ => hx _

/-! ## The gather of rows of a rank-2 table at a rank-3 array of start indices with a unit last axis -/

/-- A gather of whole rows of an `[N, A]` table at one row per position of an `[R, C]` grid. -/
abbrev g3 (N R C A : Nat)
    (wf : GatherDims.WF (⟨2, ![N, A]⟩ : Shape) (⟨3, ![R, C, 1]⟩ : Shape) (⟨3, ![R, C, A]⟩ : Shape)
      [2] [0] [] [0] [] 2 ![1, A]) :
    GatherDims (⟨2, ![N, A]⟩ : Shape) (⟨3, ![R, C, 1]⟩ : Shape) (⟨3, ![R, C, A]⟩ : Shape) where
  offsetDims := [2]
  collapsedSliceDims := [0]
  operandBatchingDims := []
  startIndicesBatchingDims := []
  startIndexMap := [0]
  indexVectorDim := 2
  sliceSizes := ![1, A]
  wf := wf

/-- The start-index entry result element `(r, c, j)` reads its row from: position `(r, c)`'s. -/
theorem g3_siIdx {N R C A : Nat} (wf) (r : Fin R) (c : Fin C) (j : Fin A) (k) :
    (g3 N R C A wf).siIdx (ix3 r c j) k = ix3 r c (0 : Fin 1) := by
  funext b
  refine Fin.ext ?_
  match b with
  | ⟨0, _⟩ => rfl
  | ⟨1, _⟩ => rfl
  | ⟨2, _⟩ =>
    show k.val = 0
    have h : k.val < 1 := k.isLt
    omega

/-- On the row axis a result element reads its position's word, read signed and clamped into the row range. -/
theorem g3_pos0 {N R C A w : Nat} (wf) (idx : IVec (⟨3, ![R, C, 1]⟩ : Shape) w) (r : Fin R) (c : Fin C) (j : Fin A) :
    (g3 N R C A wf).start (ix3 r c j) idx 0 + (g3 N R C A wf).offCoord (ix3 r c j) 0
      = min (idx (ix3 r c (0 : Fin 1))).toInt.toNat (N - 1) := by
  rw [GatherDims.offCoord_eq_zero _ _ _ (fun h => ((GatherDims.mem_sKept _ _).mp h).1 (List.mem_singleton.mpr rfl)),
    Nat.add_zero]
  unfold GatherDims.start
  rw [dif_pos (show (0 : Fin 2) ∈ (g3 N R C A wf).startIndexMap from List.mem_singleton.mpr rfl), g3_siIdx]
  rfl

/-- On the column axis a result element reads its own column. -/
theorem g3_pos1 {N R C A w : Nat} (wf) (idx : IVec (⟨3, ![R, C, 1]⟩ : Shape) w) (r : Fin R) (c : Fin C) (j : Fin A) :
    (g3 N R C A wf).start (ix3 r c j) idx 1 + (g3 N R C A wf).offCoord (ix3 r c j) 1 = j.val := by
  show 0 + j.val = j.val
  exact Nat.zero_add _

/-- The gather of rows read at `(r, c, j)`: the table at position `(r, c)`'s row, the column kept. -/
theorem gather3 {α : Type} {N R C A w : Nat} (hN : 0 < N) (wf)
    (x : (⟨2, ![N, A]⟩ : Shape).Idx → α) (idx : IVec (⟨3, ![R, C, 1]⟩ : Shape) w) (r : Fin R) (c : Fin C) (j : Fin A) :
    Host.gather (g3 N R C A wf) x idx (ix3 r c j)
      = x (ix2 (⟨min (idx (ix3 r c (0 : Fin 1))).toInt.toNat (N - 1), by omega⟩ : Fin N) j) := by
  unfold Host.gather
  congr 1
  funext a
  refine Fin.ext ?_
  show (g3 N R C A wf).start (ix3 r c j) idx a + (g3 N R C A wf).batchCoord (ix3 r c j) a
      + (g3 N R C A wf).offCoord (ix3 r c j) a = _
  rw [GatherDims.batchCoord_eq_zero _ _ _ List.not_mem_nil, Nat.add_zero]
  match a with
  | ⟨0, _⟩ => exact g3_pos0 wf idx r c j
  | ⟨1, _⟩ => exact g3_pos1 wf idx r c j

/-! ## The composed term -/

variable {F : FTy → Type} [FloatOps F]

/-- `where`: at each position the token itself when `3 ≤ · < 23`, else 27. -/
def whereT (src : IVec S64x1024 32) : IVec S64x1024 32 :=
  select
    (andi (cmpi .sge src (broadcastInDim S64x1024 ![] bcast_S_S64x1024 (constantI S_ 32 3#32)))
      (cmpi .slt src (broadcastInDim S64x1024 ![] bcast_S_S64x1024 (constantI S_ 32 23#32))))
    src (broadcastInDim S64x1024 ![] bcast_S_S64x1024 (id (constantI S_ 32 27#32)))

/-- `take`'s wrap of a negative index: 28 added to it. -/
def wrapT (i : IVec S64x1024 32) : IVec S64x1024 32 :=
  select (cmpi .slt i (broadcastInDim S64x1024 ![] bcast_S_S64x1024 (constantI S_ 32 0#32)))
    (addi i (broadcastInDim S64x1024 ![] bcast_S_S64x1024 (constantI S_ 32 28#32))) i

/-- The index array given its unit last axis. -/
def idx3 (i : IVec S64x1024 32) : IVec S64x1024x1 32 :=
  broadcastInDim S64x1024x1 ![0, 1] bcast_S64x1024_S64x1024x1_0_1 i

/-- `take`'s range test `0 ≤ · ≤ 27`, its conjunction over the unit axis. -/
def okT (i3 : IVec S64x1024x1 32) : IVec S64x1024 1 :=
  Host.reduce IntOp.andi
    (andi (cmpi .sge i3 (broadcastInDim S64x1024x1 ![] bcast_S_S64x1024x1 (constantI S_ 32 0#32)))
      (cmpi .sle i3 (broadcastInDim S64x1024x1 ![0, 1, 2] bcast_S1x1x1_S64x1024x1_0_1_2
        (broadcastInDim S1x1x1 ![2] bcast_S1_S1x1x1_2 (constantI S1 32 27#32)))))
    (constantI S_ 1 1#1) reducesTo_S64x1024x1_S64x1024_d2 h_S_

/-- `take`: the gathered rows where the index is in range, the fill value elsewhere. -/
def takeT (tab : FVec F S28x24 .f32) (i : IVec S64x1024 32) : FVec F S64x1024x24 .f32 :=
  select (broadcastInDim S64x1024x24 ![0, 1] bcast_S64x1024_S64x1024x24_0_1 (okT (idx3 (wrapT i))))
    (Host.gather gather_S28x24_S64x1024x1_S64x1024x24_2_0_n_n_0_2_124 tab (idx3 (wrapT i)))
    (broadcastInDim S64x1024x24 ![] bcast_S_S64x1024x24 (constant S_ .f32 0x7FC00000#32))

/-- The reference's result as one term of its three arguments. -/
def refTerm (src : IVec S64x1024 32) (x : FVec F S64x1024x512 .f32) (tab : FVec F S28x24 .f32) : FVec F S64x1024x536 .f32 :=
  concatenate S64x1024x536 2 [⟨S64x1024x512, x⟩, ⟨S64x1024x24, takeT tab (whereT src)⟩]
    concatenates_S64x1024x512_S64x1024x24_S64x1024x536_d2

/-! ## The term at an index -/

/-- `where` at a position is the row word of its token. -/
theorem whereT_apply (src : IVec S64x1024 32) (j : S64x1024.Idx) : whereT src j = Spec.rowWord (src j) := rfl

/-- The wrap at a position. -/
theorem wrapT_apply (i : IVec S64x1024 32) (j : S64x1024.Idx) :
    wrapT i j = Scalar.select (IntOp.cmpi .slt (i j) 0#32) (IntOp.addi (i j) 28#32) (i j) := rfl

/-- The index array with its unit axis, at `(b, l, 0)`, is the index array at `(b, l)`. -/
theorem idx3_apply (i : IVec S64x1024 32) (b : Fin 64) (l : Fin 1024) (z : Fin 1) :
    idx3 i (ix3 b l z) = i (ix2 b l) := by
  unfold idx3
  refine broadcastInDim_apply _ _ _ _ (ix2 b l) fun a => ?_
  match a with
  | ⟨0, _⟩ => rfl
  | ⟨1, _⟩ => rfl

/-- After `where` and the wrap every index word is the row word of its token. -/
theorem idx_word (src : IVec S64x1024 32) (b : Fin 64) (l : Fin 1024) (z : Fin 1) :
    idx3 (wrapT (whereT src)) (ix3 b l z) = Spec.rowWord (src (ix2 b l)) := by
  rw [idx3_apply, wrapT_apply, whereT_apply]
  exact wrap_of_lt _ (Spec.rowWord_lt _)

/-- The range test holds at every position. -/
theorem okT_one (src : IVec S64x1024 32) (j : S64x1024.Idx) : okT (idx3 (wrapT (whereT src))) j = 1#1 := by
  unfold okT
  refine reduce_andi_ones _ _ _ _ (fun i => ?_) rfl j
  obtain ⟨b, l, z, rfl⟩ : ∃ b l z, i = ix3 b l z := ⟨i 0, i 1, i 2, eq_ix3 i⟩
  show IntOp.andi (IntOp.cmpi .sge (idx3 (wrapT (whereT src)) (ix3 b l z)) 0#32)
    (IntOp.cmpi .sle (idx3 (wrapT (whereT src)) (ix3 b l z)) 27#32) = 1#1
  rw [idx_word]
  exact inRange_of_lt _ (Spec.rowWord_lt _)

/-- `take` of the table at `where` of the tokens, at `(b, l, d)`: entry `d` of the row of token `(b, l)`. -/
theorem takeT_apply (tab : FVec F S28x24 .f32) (src : IVec S64x1024 32) (b : Fin 64) (l : Fin 1024) (d : Fin 24) :
    takeT tab (whereT src) (ix3 b l d) = tab (ix2 (Spec.row (src (ix2 b l))) d) := by
  unfold takeT
  rw [select_apply]
  have hc : broadcastInDim S64x1024x24 ![0, 1] bcast_S64x1024_S64x1024x24_0_1 (okT (idx3 (wrapT (whereT src)))) (ix3 b l d) = 1#1 := by
    rw [broadcastInDim_apply _ _ _ _ (ix2 b l) fun a => by
      match a with
      | ⟨0, _⟩ => rfl
      | ⟨1, _⟩ => rfl]
    exact okT_one src _
  rw [hc, select_one]
  have hg : gather_S28x24_S64x1024x1_S64x1024x24_2_0_n_n_0_2_124
      = g3 28 64 1024 24 gather_S28x24_S64x1024x1_S64x1024x24_2_0_n_n_0_2_124_wf := rfl
  rw [hg, gather3 (by decide)]
  refine congrArg tab (congrArg (fun r : Fin 28 => ix2 r d) (Fin.ext ?_))
  show min (idx3 (wrapT (whereT src)) (ix3 b l (0 : Fin 1))).toInt.toNat (28 - 1) = (Spec.rowWord (src (ix2 b l))).toNat
  rw [idx_word]
  exact clamp_of_lt _ (Spec.rowWord_lt _)

/-- The composed term is `Spec.out`. -/
theorem refTerm_eq (src : IVec S64x1024 32) (x : FVec F S64x1024x512 .f32) (tab : FVec F S28x24 .f32) :
    refTerm src x tab = Spec.out src x tab := by
  funext i
  obtain ⟨b, l, d, rfl⟩ : ∃ b l d, i = ix3 b l d := ⟨i 0, i 1, i 2, eq_ix3 i⟩
  unfold refTerm Spec.out
  by_cases h : d.val < 512
  · rw [dif_pos (show ((ix3 b l d : Spec.S64x1024x536.Idx) 2).val < 512 from h)]
    refine concatenate_pair_apply_left (t := S64x1024x536) (s₁ := S64x1024x512) (s₂ := S64x1024x24) 2 x (takeT tab (whereT src))
      concatenates_S64x1024x512_S64x1024x24_S64x1024x536_d2 (ix3 b l d) rfl (ix3 b l (⟨d.val, h⟩ : Fin 512)) fun a => ?_
    match a with
    | ⟨0, _⟩ => rfl
    | ⟨1, _⟩ => rfl
    | ⟨2, _⟩ => rfl
  · rw [dif_neg (show ¬ ((ix3 b l d : Spec.S64x1024x536.Idx) 2).val < 512 from h)]
    have hd : d.val - 512 < 24 := by have := d.isLt; omega
    rw [concatenate_pair_apply_right (t := S64x1024x536) (s₁ := S64x1024x512) (s₂ := S64x1024x24) 2 x (takeT tab (whereT src))
      concatenates_S64x1024x512_S64x1024x24_S64x1024x536_d2 (ix3 b l d) rfl rfl (ix3 b l (⟨d.val - 512, hd⟩ : Fin 24))
      (fun a ha => by
        match a with
        | ⟨0, _⟩ => rfl
        | ⟨1, _⟩ => rfl
        | ⟨2, _⟩ => exact absurd rfl ha)
      (show d.val - 512 + 512 = d.val by omega)]
    exact takeT_apply tab src b l _

end Cert.Proof.RefRun

end
-- ==== Proof.RefRun.lean ====
/-
  The reference's run: every weakly fair execution of its @main terminates, nothing faulting, and leaves in the
  result buffer `Spec.out` of the three arguments' launch contents, the arguments unchanged — at any float
  instance: the program only moves data.

  The fold of the thirty-five operations at the result buffer is the composed term `refTerm` of the launch contents
  at the three arguments (each operation's result read at the buffer it writes is its function's value, at any other
  buffer what was there), and `refTerm` is `Spec.out` index by index.
-/
import proofs.«203767_g38671885534092_cont_8to1_b_939_37_alg».proof.Defs
import proofs.«203767_g38671885534092_cont_8to1_b_939_37_alg».proof.Proof.Gen.ReferenceIdeal
import proofs.«203767_g38671885534092_cont_8to1_b_939_37_alg».proof.Proof.Gen.Pre_input_domain
import proofs.«203767_g38671885534092_cont_8to1_b_939_37_alg».proof.Proof.Spec
import proofs.«203767_g38671885534092_cont_8to1_b_939_37_alg».proof.Proof.RefValue

noncomputable section

namespace Cert.Proof.RefRun

open Cert.ReferenceIdeal Cert.ReferenceIdeal.Gen Idealize.ShloMosaic Idealize.ShloMosaic.TcCoe Idealize.SL.Sem
  Idealize.ShloMosaic.StableHlo Idealize.ShloMosaic.ValueIdx

section Fold

variable {F : FTy → Type} [FloatOps F]

attribute [local irreducible] Host.reduce Host.gather in
set_option maxRecDepth 8192 in
/-- The fold at the result buffer is the composed term of the contents at the three arguments: the last operation
    concatenates what the line before it leaves at the activations' buffer (their launch contents) and at `take`'s
    result buffer. -/
theorem out_eq (V : Valuation τ sig (Elt F)) :
    after ops V (main_v7 : DevRef τ sig)
      = refTerm (V (main_arg0 : DevRef τ sig)) (V (main_arg1 : DevRef τ sig)) (V (main_arg2 : DevRef τ sig)) := by
  simp only [after_cons, after_nil]
  rw [binary_result]
  unfold refTerm
  refine congrArg₂ (fun a b => concatenate S64x1024x536 2 [⟨S64x1024x512, a⟩, ⟨S64x1024x24, b⟩]
    concatenates_S64x1024x512_S64x1024x24_S64x1024x536_d2) ?_ ?_
  · after_results_simp
  · after_results_simp
    rfl

/-- No operation writes the tokens' buffer. -/
theorem arg0_eq (V : Valuation τ sig (Elt F)) : after ops V (main_arg0 : DevRef τ sig) = V (main_arg0 : DevRef τ sig) := by
  after_results_simp

/-- No operation writes the activations' buffer. -/
theorem arg1_eq (V : Valuation τ sig (Elt F)) : after ops V (main_arg1 : DevRef τ sig) = V (main_arg1 : DevRef τ sig) := by
  after_results_simp

/-- No operation writes the table's buffer. -/
theorem arg2_eq (V : Valuation τ sig (Elt F)) : after ops V (main_arg2 : DevRef τ sig) = V (main_arg2 : DevRef τ sig) := by
  after_results_simp

end Fold

/-- Every weakly fair execution of the reference's @main terminates, nothing faulting; its result array is
    `Spec.out` of its three arguments, the arguments unchanged. -/
theorem run {F : FTy → Type} [FloatOps F]
    (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      (fun r => ∀ c : Dev Cert.ReferenceIdeal.nD,
        r.2.mem ((c.tc : Thread Cert.ReferenceIdeal.nD Cert.ReferenceIdeal.τ).loc Cert.ReferenceIdeal.main_v7)
            = Cert.Proof.Spec.out (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := F)) _ _).mono
    (fun _ h c =>
      ⟨(h c Cert.ReferenceIdeal.main_v7).trans ((out_eq _).trans (refTerm_eq _ _ _)),
        (h c Cert.ReferenceIdeal.main_arg0).trans (arg0_eq _),
        (h c Cert.ReferenceIdeal.main_arg1).trans (arg1_eq _),
        (h c Cert.ReferenceIdeal.main_arg2).trans (arg2_eq _)⟩)
    (run_main m g)

end Cert.Proof.RefRun

end
-- ==== Proof.Setup.lean ====
/-
  The vocabulary the launch of the idealized kernel is stated in: the program as the SparseCore launch theorem sees
  it, the ghost state (the handshakes' rounds, the TensorCore pipeline's rounds, the local copies' counters), the
  arrays' locations, and what the one SparseCore call's handshakes carry.

  The call takes the flattened tokens, the flattened table and the coding array; vector subcore `(c, s)` is worker
  `w = 2 s + c` and is handed tokens `2048 w … 2048 w + 2047`, a read share of the whole table, and the 24
  row pieces `(j, 2048 w …)` of the coding array; it hands them back with the row pieces holding the coding
  `Spec.codFlat` of the tokens and the table.
-/
import proofs.«203767_g38671885534092_cont_8to1_b_939_37_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«203767_g38671885534092_cont_8to1_b_939_37_alg».proof.Proof.Gen.KernelIdeal
import proofs.«203767_g38671885534092_cont_8to1_b_939_37_alg».proof.Proof.Gen.KernelIdeal.Skeleton
import proofs.«203767_g38671885534092_cont_8to1_b_939_37_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library, the left factor. -/
abbrev EH : Emb UH (MT nD τ sig (HIx 1) (Elt F) ℕ UU ℕ) := embL
/-- The pipeline's rounds library, the middle factor (the copies' counters are found by instance in the right). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The tokens, the activations, the table (the arguments); the flattened table and tokens; the coding; the result. -/
abbrev srcLoc (d : Dev nD) : Loc nD τ sig := (SparseCore.T d).loc main_arg0
abbrev xLoc (d : Dev nD) : Loc nD τ sig := (SparseCore.T d).loc main_arg1
abbrev tabLoc (d : Dev nD) : Loc nD τ sig := (SparseCore.T d).loc main_arg2
abbrev tabfLoc (d : Dev nD) : Loc nD τ sig := (SparseCore.T d).loc main_v0
abbrev srcfLoc (d : Dev nD) : Loc nD τ sig := (SparseCore.T d).loc main_v1
abbrev codLoc (d : Dev nD) : Loc nD τ sig := (SparseCore.T d).loc main_v2
abbrev outLoc (d : Dev nD) : Loc nD τ sig := (SparseCore.T d).loc main_v3

/-- The flattened table and tokens, as @main's two reshapes write them. -/
def tabf0 (d : Dev nD) : Buf (Elt F) (tabfLoc d) := shapeCast S672 (m (tabLoc d)) shapeCasts_S28x24_S672
def srcf0 (d : Dev nD) : Buf (Elt F) (srcfLoc d) := shapeCast S65536 (m (srcLoc d)) shapeCasts_S64x1024_S65536
/-- The coding of the launch memory's tokens and table. -/
def cod1 (d : Dev nD) : Buf (Elt F) (codLoc d) := Spec.codFlat (srcf0 m d) (tabf0 m d)

/-- Worker `w = 2 s + c` of vector subcore `s` of SparseCore `c`. -/
def wid (c : Fin 2) (s : Fin 16) : Fin 32 := ⟨2 * s.val + c.val, by have := c.isLt; have := s.isLt; omega⟩

/-- Worker `w`'s tokens, as a set of indices of the flat token array. -/
def tokRect (w : Fin 32) : Rect S65536 := Rect.unit (s := S65536) ![2048 * w.val] S2048.size (by intro a; have := w.isLt; fin_cases a; simp; omega)
/-- Row `j` of worker `w`'s columns of the coding array. -/
def codRect (j : Fin 24) (w : Fin 32) : Rect S24x65536 :=
  Rect.unit (s := S24x65536) ![j.val, 2048 * w.val] S1x2048.size (by intro a; have := w.isLt; have := j.isLt; fin_cases a <;> simp <;> omega)

variable [FloatOps F]

/-- What a task is handed: its tokens, a read share of the table, its 24 row pieces of the coding array at `f`. -/
def tilePts (d : Dev nD) (w : Fin 32) (f : Buf (Elt F) (codLoc d)) : sProp 𝕄 :=
  iprop((srcfLoc d ↦[(tokRect w).set]{fullShare} srcf0 m d)
    ∗ (tabfLoc d ↦{Transfers.shareTok fullShare 32 w} tabf0 m d)
    ∗ bigSep Finset.univ fun j : Fin 24 => codLoc d ↦[(codRect j w).set]{fullShare} f)

/-- The one call: each task is handed `tilePts` at the coding array's launch contents and hands it back at the coding
    of the tokens and the table; a SparseCore is handed its sixteen tasks' and hands those back. -/
def P : (K (F := F)).Pay (nD := nD) (Val := Elt F) (Name := ℕ) (U := UU) where
  st := fun q d c => match q with
    | 0 => bigSep Finset.univ fun s : Fin 16 => tilePts m d (wid (Fin.cast nCore_zero c) s) (m (codLoc d))
  dn := fun q d c => match q with
    | 0 => bigSep Finset.univ fun s : Fin 16 => tilePts m d (wid (Fin.cast nCore_zero c) s) (cod1 m d)
  go := fun q d c s => match q with
    | 0 => tilePts m d (wid (Fin.cast nCore_zero c) (Fin.cast nSub_zero s)) (m (codLoc d))
  td := fun q d c s => match q with
    | 0 => tilePts m d (wid (Fin.cast nCore_zero c) (Fin.cast nSub_zero s)) (cod1 m d)
  x := fun _ _ => iprop(emp)

instance P_storable : (P (F := F) m).IsStorable where
  st q d c := match q with | 0 => by unfold P tilePts; infer_instance
  dn q d c := match q with | 0 => by unfold P tilePts; infer_instance
  go q d c s := match q with | 0 => by unfold P tilePts; infer_instance
  td q d c s := match q with | 0 => by unfold P tilePts; infer_instance

end Cert.Proof.KI

end
-- ==== Proof.Deal.lean ====
/-
  Dealing the flat tokens, the flat table and the coding array to the 32 tasks, and gathering them back.

  The tokens split into the 32 workers' runs of 2048, the coding array into its 24 x 32 row pieces, and the table, which
  every task reads whole, goes out as 32 read shares beside a remainder the TensorCore keeps.
-/
import proofs.«203767_g38671885534092_cont_8to1_b_939_37_alg».proof.Proof.Setup

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-! ## The workers are the pairs (SparseCore, vector subcore) -/

/-- Worker `w = 2 s + c` is subcore `s = w / 2` of SparseCore `c = w % 2`: a bijection. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, s⟩ := p
    have hc := c.isLt
    have hs := s.isLt
    refine Prod.ext (Fin.ext ?_) (Fin.ext ?_)
    · show (2 * s.val + c.val) % 2 = c.val
      omega
    · show (2 * s.val + c.val) / 2 = s.val
      omega
  right_inv w := Fin.ext (by
    show 2 * (w.val / 2) + w.val % 2 = w.val
    omega)

omit [FloatOps F] in
/-- A family over the SparseCores and their subcores, read at the worker, is the family over the 32 workers. -/
theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod]
  rfl

/-! ## The tokens: 32 runs of 2048 -/

theorem tok_disjoint : ∀ w ∈ (Finset.univ : Finset (Fin 32)), ∀ w' ∈ (Finset.univ : Finset (Fin 32)), w ≠ w' →
    Disjoint (tokRect w).set (tokRect w').set := by
  intro w _ w' _ h
  have hne : w.val ≠ w'.val := fun e => h (Fin.ext e)
  unfold tokRect
  refine Rect.unit_disjoint (⟨0, Nat.one_pos⟩ : Fin S65536.rank) ?_
  show 2048 * w.val + 2048 ≤ 2048 * w'.val ∨ 2048 * w'.val + 2048 ≤ 2048 * w.val
  omega

theorem tok_cover : (Finset.univ : Finset (Fin 32)).biUnion (fun w => (tokRect w).set) = Finset.univ := by
  ext i
  simp only [Finset.mem_biUnion, Finset.mem_univ, true_and, iff_true]
  have hi : (i 0).val < 65536 := (i 0).isLt
  refine ⟨⟨(i 0).val / 2048, by omega⟩, ?_⟩
  unfold tokRect
  refine Rect.mem_set_unit.mpr fun a => ?_
  match a with
  | ⟨0, _⟩ =>
    show 2048 * ((i 0).val / 2048) ≤ (i 0).val ∧ (i 0).val < 2048 * ((i 0).val / 2048) + 2048
    omega

omit [FloatOps F] in
/-- The flat tokens held whole are the 32 workers' runs. -/
theorem srcf_split (d : Dev nD) (g : Buf (Elt F) (srcfLoc d)) :
    (srcfLoc d ↦{fullShare} g : sProp 𝕄) = bigSep Finset.univ fun w : Fin 32 => srcfLoc d ↦[(tokRect w).set]{fullShare} g := by
  rw [← pointsTo_biUnion Finset.univ (ℓ := srcfLoc d) (fun w : Fin 32 => (tokRect w).set) tok_disjoint, tok_cover]

/-! ## The coding array: 24 x 32 row pieces -/

theorem cod_disjoint : ∀ p ∈ (Finset.univ : Finset (Fin 32 × Fin 24)), ∀ p' ∈ (Finset.univ : Finset (Fin 32 × Fin 24)), p ≠ p' →
    Disjoint (codRect p.2 p.1).set (codRect p'.2 p'.1).set := by
  intro p _ p' _ h
  unfold codRect
  by_cases hw : p.1 = p'.1
  · have hj : p.2.val ≠ p'.2.val := fun e => h (Prod.ext hw (Fin.ext e))
    refine Rect.unit_disjoint (⟨0, by decide⟩ : Fin S24x65536.rank) ?_
    show p.2.val + 1 ≤ p'.2.val ∨ p'.2.val + 1 ≤ p.2.val
    omega
  · have hw' : p.1.val ≠ p'.1.val := fun e => hw (Fin.ext e)
    refine Rect.unit_disjoint (⟨1, by decide⟩ : Fin S24x65536.rank) ?_
    show 2048 * p.1.val + 2048 ≤ 2048 * p'.1.val ∨ 2048 * p'.1.val + 2048 ≤ 2048 * p.1.val
    omega

theorem cod_cover : (Finset.univ : Finset (Fin 32 × Fin 24)).biUnion (fun p => (codRect p.2 p.1).set) = Finset.univ := by
  ext i
  simp only [Finset.mem_biUnion, Finset.mem_univ, true_and, iff_true]
  have h0 : (i 0).val < 24 := (i 0).isLt
  have h1 : (i 1).val < 65536 := (i 1).isLt
  refine ⟨(⟨(i 1).val / 2048, by omega⟩, ⟨(i 0).val, h0⟩), ?_⟩
  unfold codRect
  refine Rect.mem_set_unit.mpr fun a => ?_
  match a with
  | ⟨0, _⟩ =>
    show (i 0).val ≤ (i 0).val ∧ (i 0).val < (i 0).val + 1
    omega
  | ⟨1, _⟩ =>
    show 2048 * ((i 1).val / 2048) ≤ (i 1).val ∧ (i 1).val < 2048 * ((i 1).val / 2048) + 2048
    omega

omit [FloatOps F] in
/-- The coding array held whole is, worker by worker, its 24 row pieces. -/
theorem cod_split (d : Dev nD) (f : Buf (Elt F) (codLoc d)) :
    (codLoc d ↦{fullShare} f : sProp 𝕄)
      = bigSep Finset.univ fun w : Fin 32 => bigSep Finset.univ fun j : Fin 24 => codLoc d ↦[(codRect j w).set]{fullShare} f := by
  refine Eq.trans ?_ (bigSep_univ_prod (fun p : Fin 32 × Fin 24 => (codLoc d ↦[(codRect p.2 p.1).set]{fullShare} f : sProp 𝕄)))
  rw [← pointsTo_biUnion Finset.univ (ℓ := codLoc d) (fun p : Fin 32 × Fin 24 => (codRect p.2 p.1).set) cod_disjoint, cod_cover]

/-! ## The table: 32 read shares and a remainder -/

omit [FloatOps F] in
theorem tabf_split (d : Dev nD) (t : Buf (Elt F) (tabfLoc d)) :
    (tabfLoc d ↦{fullShare} t : sProp 𝕄)
      = iprop((tabfLoc d ↦{Transfers.shareDrop fullShare 32} t)
          ∗ bigSep Finset.univ fun w : Fin 32 => tabfLoc d ↦{Transfers.shareTok fullShare 32 w} t) :=
  BI.equiv_iff.mp ⟨(Transfers.pointsTo_toks fullShare 32).1, (Transfers.pointsTo_toks fullShare 32).2⟩

/-! ## Dealing and gathering -/

variable (m : (ℓ : Loc nD τ sig) → Buf (Elt F) ℓ)

/-- What the call is handed, and what the tasks are handed beside the table's remainder, are the same resources. -/
theorem deal_eq (d : Dev nD) (f : Buf (Elt F) (codLoc d)) :
    (iprop((tabfLoc d ↦{Transfers.shareDrop fullShare 32} tabf0 m d)
          ∗ bigSep Finset.univ fun c : Fin 2 => bigSep Finset.univ fun s : Fin 16 => tilePts m d (wid c s) f) : sProp 𝕄)
      = iprop((tabfLoc d ↦{Transfers.shareDrop fullShare 32} tabf0 m d)
          ∗ (bigSep Finset.univ fun w : Fin 32 => srcfLoc d ↦[(tokRect w).set]{fullShare} srcf0 m d)
          ∗ (bigSep Finset.univ fun w : Fin 32 => tabfLoc d ↦{Transfers.shareTok fullShare 32 w} tabf0 m d)
          ∗ (bigSep Finset.univ fun w : Fin 32 => bigSep Finset.univ fun j : Fin 24 => codLoc d ↦[(codRect j w).set]{fullShare} f)) := by
  rw [bigSep_workers (F := F) (fun w => tilePts m d w f)]
  unfold tilePts
  rw [bigSep_sep', bigSep_sep']

theorem deal (d : Dev nD) (f : Buf (Elt F) (codLoc d)) :
    iprop((srcfLoc d ↦{fullShare} srcf0 m d) ∗ (tabfLoc d ↦{fullShare} tabf0 m d) ∗ (codLoc d ↦{fullShare} f))
      ⊢ (iprop((tabfLoc d ↦{Transfers.shareDrop fullShare 32} tabf0 m d)
          ∗ bigSep Finset.univ fun c : Fin 2 => bigSep Finset.univ fun s : Fin 16 => tilePts m d (wid c s) f) : sProp 𝕄) := by
  rw [deal_eq, srcf_split, tabf_split, cod_split]
  iintro ⟨Ha, ⟨Hd, Hb⟩, Hc⟩
  isplitl [Hd]; · iexact Hd
  isplitl [Ha]; · iexact Ha
  isplitl [Hb]; · iexact Hb
  iexact Hc

theorem undeal (d : Dev nD) (f : Buf (Elt F) (codLoc d)) :
    (iprop((tabfLoc d ↦{Transfers.shareDrop fullShare 32} tabf0 m d)
          ∗ bigSep Finset.univ fun c : Fin 2 => bigSep Finset.univ fun s : Fin 16 => tilePts m d (wid c s) f) : sProp 𝕄)
      ⊢ iprop((srcfLoc d ↦{fullShare} srcf0 m d) ∗ (tabfLoc d ↦{fullShare} tabf0 m d) ∗ (codLoc d ↦{fullShare} f)) := by
  rw [deal_eq, srcf_split, tabf_split, cod_split]
  iintro ⟨Hd, Ha, Hb, Hc⟩
  isplitl [Ha]; · iexact Ha
  isplitr [Hc]
  · isplitl [Hd]; · iexact Hd
    iexact Hb
  · iexact Hc

end Cert.Proof.KI

end
-- ==== Proof.Launch.lean ====
/-
  The launch of the idealized kernel, stated over the pieces proved elsewhere: given the TensorCore's run of @main
  (with what the TensorCore pipeline's rounds fund for it), and each vector subcore's task, every weakly fair execution
  ends with the arguments unchanged and the result array at the stated contents.

  Here: how a SparseCore's sixteen tasks share what it is handed (nothing to do: it is handed exactly its tasks'
  parts), the launch element of the ghost state and what it funds, and how the final memory reads the claim.
-/
import proofs.«203767_g38671885534092_cont_8to1_b_939_37_alg».proof.Proof.Setup
import proofs.«203767_g38671885534092_cont_8to1_b_939_37_alg».proof.Proof.Deal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## A SparseCore's operands are its sixteen tasks' -/

omit [FloatOps F] in
/-- A family over the subcores of call 0's grid, read at the subcore's number, is the family over the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tilePts m d (wid (Fin.cast nCore_zero c) s) (m (codLoc d)))
    ⊢ |={Set.univ}=> iprop(
      (bigSep Finset.univ fun i : Fin ((K (F := F)).nSub 0) =>
        tilePts m d (wid (Fin.cast nCore_zero c) (Fin.cast nSub_zero i)) (m (codLoc d)))
      ∗ ((bigSep Finset.univ fun i : Fin ((K (F := F)).nSub 0) =>
          tilePts m d (wid (Fin.cast nCore_zero c) (Fin.cast nSub_zero i)) (cod1 m d))
        -∗ bigSep Finset.univ fun s : Fin 16 => tilePts m d (wid (Fin.cast nCore_zero c) s) (cod1 m d)))
  rw [bigSep_tasks (F := F) (fun s => tilePts m d (wid (Fin.cast nCore_zero c) s) (m (codLoc d))),
    bigSep_tasks (F := F) (fun s => tilePts m d (wid (Fin.cast nCore_zero c) s) (cod1 m d))]
  iintro H; imodintro
  isplitl [H]; · iexact H
  iintro H; iexact H

/-! ## The launch element: the handshakes' rounds, the pipeline's rounds, no counters -/

section Launch

variable (G : Dev nD → sProp (MT nD τ sig (HIx 1) (Elt F) ℕ UU ℕ)) (g₀ : UP) (RES : (d : Dev nD) → Buf (Elt F) (outLoc d))

def u₀ : UU := (initOf (K (F := F)).hsCells (K (F := F)).hsToks, (g₀, 1))

omit [FloatOps F] in
theorem bigSep_emp' {I : Type} (s : Finset I) : (bigSep s fun _ => iprop(emp)) = (iprop(emp) : sProp 𝕄) := bigSep_emp_const s

omit [FloatOps F] in
/-- The launch element splits into the handshakes' element, the pipeline's and the counters'. -/
theorem ownU_split (a : UH) (b : UP) (c : Counters) :
    (ownU ((a, (b, c)) : UU) : sProp 𝕄) ⊢ iprop(BI.own (EH a) ∗ BI.own (EP b) ∗ BI.own ((((Emb.inr : Emb Counters (UP × Counters)).trans (embR : Emb (UP × Counters) 𝕄)) c))) := by
  iintro Hu
  ihave H := (ownU_pair _ _) $$ Hu
  icases H with ⟨HH, HR⟩
  isplitl [HH]; · iexact HH
  iapply (own_pair_emb (embR : Emb (UP × Counters) 𝕄) b c)
  iexact HR

theorem hu₀ (hG : (BI.own (EP g₀) : sProp 𝕄) ⊢ |={Set.univ}=> bigSep Finset.univ fun d : Dev nD => G d) :
    (ownU (u₀ (F := F) g₀) : sProp 𝕄)
      ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr) := by
  unfold u₀
  iintro Hu
  ihave H := (ownU_split _ _ _) $$ Hu
  icases H with ⟨HH, HP, -⟩
  imod hG $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- What the TensorCore holds when @main returns: the three arguments as launched and the result at `RES`. -/
def FINof (d : Dev nD) : sProp 𝕄 :=
  iprop((srcLoc d ↦{fullShare} m (srcLoc d)) ∗ (xLoc d ↦{fullShare} m (xLoc d)) ∗ (tabLoc d ↦{fullShare} m (tabLoc d))
    ∗ (outLoc d ↦{fullShare} RES d))

def fq (d : Dev nD) (s' : Phys nD τ sig (Elt F)) : Prop :=
  s'.mem.mem (srcLoc d) = m (srcLoc d) ∧ s'.mem.mem (xLoc d) = m (xLoc d) ∧ s'.mem.mem (tabLoc d) = m (tabLoc d)
    ∧ s'.mem.mem (outLoc d) = RES d

theorem hfin (d : Dev nD) (s' : Phys nD τ sig (Elt F)) : iprop(FINof m RES d ∗ SI s') ⊢ (⌜fq m RES d s'⌝ : sProp 𝕄) := by
  unfold FINof
  iintro ⟨⟨Hs, Hx, Ht, Ho⟩, HSI⟩
  ihave H := (persistent_entails_right (SI_pointsTo_agree (st := s') (ℓ := srcLoc d) (I := Finset.univ) (q := fullShare) (f := m (srcLoc d)))) $$ [HSI Hs]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h3, HSI, -⟩
  ihave H := (SI_pointsTo_agree (st := s') (ℓ := outLoc d) (I := Finset.univ) (q := fullShare) (f := RES d)) $$ [HSI Ho]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- The claim's reading of the final memory: the result at `RES`, the three arguments unchanged. -/
def QC : PUnit × MemSt nD τ sig (Elt F) → Prop := fun r =>
  ∀ c : Dev nD, r.2.mem (outLoc c) = RES c ∧ r.2.mem (srcLoc c) = m (srcLoc c) ∧ r.2.mem (xLoc c) = m (xLoc c)
    ∧ r.2.mem (tabLoc c) = m (tabLoc c)

theorem run_main_of [∀ e, Nonempty (Elt F e)]
    (hG : (BI.own (EP g₀) : sProp 𝕄) ⊢ |={Set.univ}=> bigSep Finset.univ fun d : Dev nD => G d)
    (hmain : ∀ (κ : GSem nD τ sig → ℕ) (d : Dev nD),
      iprop((K (F := F)).ctx EH (P m) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FINof m RES d))
    (htile : (K (F := F)).TileObl (D (F := F)) 𝒱 (P m) v₀ 0) :
    θ_run (Cert.KernelIdeal.defs (F := F)) (Cert.KernelIdeal.threads (F := F)) ⟨m, fun _ => 0, ρ⟩ (QC m RES) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main G (FINof m RES) (u₀ (F := F) g₀) (sep_elim_left.trans (hu₀ m G g₀ hG)) hmain (fq m RES) (hfin m RES) (QC m RES)
    (fun _ h c => ⟨(h c).2.2.2, (h c).1, (h c).2.1, (h c).2.2.1⟩)

end Launch

end Cert.Proof.KI

end
-- ==== Proof.SetupB.lean ====
/-
  The vocabulary the launch of the idealized kernel is stated in: the program as the SparseCore launch theorem sees
  it, the ghost state (the handshakes' rounds, the TensorCore pipeline's rounds, the local copies' counters), the
  arrays' locations, and what the one SparseCore call's handshakes carry.

  The call takes the flattened tokens, the flattened table and the coding array; vector subcore `(c, s)` is worker
  `w = 2 s + c` and is handed tokens `2048 w … 2048 w + 2047`, a read share of the whole table, and the 24
  row pieces `(j, 2048 w …)` of the coding array; it hands them back with the row pieces holding the coding
  `Spec.codFlat` of the tokens and the table.
-/
import proofs.«203767_g38671885534092_cont_8to1_b_939_37_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«203767_g38671885534092_cont_8to1_b_939_37_alg».proof.Proof.Gen.Kernel
import proofs.«203767_g38671885534092_cont_8to1_b_939_37_alg».proof.Proof.Gen.Kernel.Skeleton
import proofs.«203767_g38671885534092_cont_8to1_b_939_37_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library, the left factor. -/
abbrev EH : Emb UH (MT nD τ sig (HIx 1) (Elt F) ℕ UU ℕ) := embL
/-- The pipeline's rounds library, the middle factor (the copies' counters are found by instance in the right). -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The tokens, the activations, the table (the arguments); the flattened table and tokens; the coding; the result. -/
abbrev srcLoc (d : Dev nD) : Loc nD τ sig := (SparseCore.T d).loc main_arg0
abbrev xLoc (d : Dev nD) : Loc nD τ sig := (SparseCore.T d).loc main_arg1
abbrev tabLoc (d : Dev nD) : Loc nD τ sig := (SparseCore.T d).loc main_arg2
abbrev tabfLoc (d : Dev nD) : Loc nD τ sig := (SparseCore.T d).loc main_v0
abbrev srcfLoc (d : Dev nD) : Loc nD τ sig := (SparseCore.T d).loc main_v1
abbrev codLoc (d : Dev nD) : Loc nD τ sig := (SparseCore.T d).loc main_v2
abbrev outLoc (d : Dev nD) : Loc nD τ sig := (SparseCore.T d).loc main_v3

/-- The flattened table and tokens, as @main's two reshapes write them. -/
def tabf0 (d : Dev nD) : Buf (Elt F) (tabfLoc d) := shapeCast S672 (m (tabLoc d)) shapeCasts_S28x24_S672
def srcf0 (d : Dev nD) : Buf (Elt F) (srcfLoc d) := shapeCast S65536 (m (srcLoc d)) shapeCasts_S64x1024_S65536
/-- The coding of the launch memory's tokens and table. -/
def cod1 (d : Dev nD) : Buf (Elt F) (codLoc d) := Spec.codFlat (srcf0 m d) (tabf0 m d)

/-- Worker `w = 2 s + c` of vector subcore `s` of SparseCore `c`. -/
def wid (c : Fin 2) (s : Fin 16) : Fin 32 := ⟨2 * s.val + c.val, by have := c.isLt; have := s.isLt; omega⟩

/-- Worker `w`'s tokens, as a set of indices of the flat token array. -/
def tokRect (w : Fin 32) : Rect S65536 := Rect.unit (s := S65536) ![2048 * w.val] S2048.size (by intro a; have := w.isLt; fin_cases a; simp; omega)
/-- Row `j` of worker `w`'s columns of the coding array. -/
def codRect (j : Fin 24) (w : Fin 32) : Rect S24x65536 :=
  Rect.unit (s := S24x65536) ![j.val, 2048 * w.val] S1x2048.size (by intro a; have := w.isLt; have := j.isLt; fin_cases a <;> simp <;> omega)

variable [FloatOps F]

/-- What a task is handed: its tokens, a read share of the table, its 24 row pieces of the coding array at `f`. -/
def tilePts (d : Dev nD) (w : Fin 32) (f : Buf (Elt F) (codLoc d)) : sProp 𝕄 :=
  iprop((srcfLoc d ↦[(tokRect w).set]{fullShare} srcf0 m d)
    ∗ (tabfLoc d ↦{Transfers.shareTok fullShare 32 w} tabf0 m d)
    ∗ bigSep Finset.univ fun j : Fin 24 => codLoc d ↦[(codRect j w).set]{fullShare} f)

/-- The one call: each task is handed `tilePts` at the coding array's launch contents and hands it back at the coding
    of the tokens and the table; a SparseCore is handed its sixteen tasks' and hands those back. -/
def P : (K (F := F)).Pay (nD := nD) (Val := Elt F) (Name := ℕ) (U := UU) where
  st := fun q d c => match q with
    | 0 => bigSep Finset.univ fun s : Fin 16 => tilePts m d (wid (Fin.cast nCore_zero c) s) (m (codLoc d))
  dn := fun q d c => match q with
    | 0 => bigSep Finset.univ fun s : Fin 16 => tilePts m d (wid (Fin.cast nCore_zero c) s) (cod1 m d)
  go := fun q d c s => match q with
    | 0 => tilePts m d (wid (Fin.cast nCore_zero c) (Fin.cast nSub_zero s)) (m (codLoc d))
  td := fun q d c s => match q with
    | 0 => tilePts m d (wid (Fin.cast nCore_zero c) (Fin.cast nSub_zero s)) (cod1 m d)
  x := fun _ _ => iprop(emp)

instance P_storable : (P (F := F) m).IsStorable where
  st q d c := match q with | 0 => by unfold P tilePts; infer_instance
  dn q d c := match q with | 0 => by unfold P tilePts; infer_instance
  go q d c s := match q with | 0 => by unfold P tilePts; infer_instance
  td q d c s := match q with | 0 => by unfold P tilePts; infer_instance

end Cert.Proof.KB

end
-- ==== Proof.DealB.lean ====
/-
  Dealing the flat tokens, the flat table and the coding array to the 32 tasks, and gathering them back.

  The tokens split into the 32 workers' runs of 2048, the coding array into its 24 x 32 row pieces, and the table, which
  every task reads whole, goes out as 32 read shares beside a remainder the TensorCore keeps.
-/
import proofs.«203767_g38671885534092_cont_8to1_b_939_37_alg».proof.Proof.SetupB

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-! ## The workers are the pairs (SparseCore, vector subcore) -/

/-- Worker `w = 2 s + c` is subcore `s = w / 2` of SparseCore `c = w % 2`: a bijection. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, s⟩ := p
    have hc := c.isLt
    have hs := s.isLt
    refine Prod.ext (Fin.ext ?_) (Fin.ext ?_)
    · show (2 * s.val + c.val) % 2 = c.val
      omega
    · show (2 * s.val + c.val) / 2 = s.val
      omega
  right_inv w := Fin.ext (by
    show 2 * (w.val / 2) + w.val % 2 = w.val
    omega)

omit [FloatOps F] in
/-- A family over the SparseCores and their subcores, read at the worker, is the family over the 32 workers. -/
theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod]
  rfl

/-! ## The tokens: 32 runs of 2048 -/

theorem tok_disjoint : ∀ w ∈ (Finset.univ : Finset (Fin 32)), ∀ w' ∈ (Finset.univ : Finset (Fin 32)), w ≠ w' →
    Disjoint (tokRect w).set (tokRect w').set := by
  intro w _ w' _ h
  have hne : w.val ≠ w'.val := fun e => h (Fin.ext e)
  unfold tokRect
  refine Rect.unit_disjoint (⟨0, Nat.one_pos⟩ : Fin S65536.rank) ?_
  show 2048 * w.val + 2048 ≤ 2048 * w'.val ∨ 2048 * w'.val + 2048 ≤ 2048 * w.val
  omega

theorem tok_cover : (Finset.univ : Finset (Fin 32)).biUnion (fun w => (tokRect w).set) = Finset.univ := by
  ext i
  simp only [Finset.mem_biUnion, Finset.mem_univ, true_and, iff_true]
  have hi : (i 0).val < 65536 := (i 0).isLt
  refine ⟨⟨(i 0).val / 2048, by omega⟩, ?_⟩
  unfold tokRect
  refine Rect.mem_set_unit.mpr fun a => ?_
  match a with
  | ⟨0, _⟩ =>
    show 2048 * ((i 0).val / 2048) ≤ (i 0).val ∧ (i 0).val < 2048 * ((i 0).val / 2048) + 2048
    omega

omit [FloatOps F] in
/-- The flat tokens held whole are the 32 workers' runs. -/
theorem srcf_split (d : Dev nD) (g : Buf (Elt F) (srcfLoc d)) :
    (srcfLoc d ↦{fullShare} g : sProp 𝕄) = bigSep Finset.univ fun w : Fin 32 => srcfLoc d ↦[(tokRect w).set]{fullShare} g := by
  rw [← pointsTo_biUnion Finset.univ (ℓ := srcfLoc d) (fun w : Fin 32 => (tokRect w).set) tok_disjoint, tok_cover]

/-! ## The coding array: 24 x 32 row pieces -/

theorem cod_disjoint : ∀ p ∈ (Finset.univ : Finset (Fin 32 × Fin 24)), ∀ p' ∈ (Finset.univ : Finset (Fin 32 × Fin 24)), p ≠ p' →
    Disjoint (codRect p.2 p.1).set (codRect p'.2 p'.1).set := by
  intro p _ p' _ h
  unfold codRect
  by_cases hw : p.1 = p'.1
  · have hj : p.2.val ≠ p'.2.val := fun e => h (Prod.ext hw (Fin.ext e))
    refine Rect.unit_disjoint (⟨0, by decide⟩ : Fin S24x65536.rank) ?_
    show p.2.val + 1 ≤ p'.2.val ∨ p'.2.val + 1 ≤ p.2.val
    omega
  · have hw' : p.1.val ≠ p'.1.val := fun e => hw (Fin.ext e)
    refine Rect.unit_disjoint (⟨1, by decide⟩ : Fin S24x65536.rank) ?_
    show 2048 * p.1.val + 2048 ≤ 2048 * p'.1.val ∨ 2048 * p'.1.val + 2048 ≤ 2048 * p.1.val
    omega

theorem cod_cover : (Finset.univ : Finset (Fin 32 × Fin 24)).biUnion (fun p => (codRect p.2 p.1).set) = Finset.univ := by
  ext i
  simp only [Finset.mem_biUnion, Finset.mem_univ, true_and, iff_true]
  have h0 : (i 0).val < 24 := (i 0).isLt
  have h1 : (i 1).val < 65536 := (i 1).isLt
  refine ⟨(⟨(i 1).val / 2048, by omega⟩, ⟨(i 0).val, h0⟩), ?_⟩
  unfold codRect
  refine Rect.mem_set_unit.mpr fun a => ?_
  match a with
  | ⟨0, _⟩ =>
    show (i 0).val ≤ (i 0).val ∧ (i 0).val < (i 0).val + 1
    omega
  | ⟨1, _⟩ =>
    show 2048 * ((i 1).val / 2048) ≤ (i 1).val ∧ (i 1).val < 2048 * ((i 1).val / 2048) + 2048
    omega

omit [FloatOps F] in
/-- The coding array held whole is, worker by worker, its 24 row pieces. -/
theorem cod_split (d : Dev nD) (f : Buf (Elt F) (codLoc d)) :
    (codLoc d ↦{fullShare} f : sProp 𝕄)
      = bigSep Finset.univ fun w : Fin 32 => bigSep Finset.univ fun j : Fin 24 => codLoc d ↦[(codRect j w).set]{fullShare} f := by
  refine Eq.trans ?_ (bigSep_univ_prod (fun p : Fin 32 × Fin 24 => (codLoc d ↦[(codRect p.2 p.1).set]{fullShare} f : sProp 𝕄)))
  rw [← pointsTo_biUnion Finset.univ (ℓ := codLoc d) (fun p : Fin 32 × Fin 24 => (codRect p.2 p.1).set) cod_disjoint, cod_cover]

/-! ## The table: 32 read shares and a remainder -/

omit [FloatOps F] in
theorem tabf_split (d : Dev nD) (t : Buf (Elt F) (tabfLoc d)) :
    (tabfLoc d ↦{fullShare} t : sProp 𝕄)
      = iprop((tabfLoc d ↦{Transfers.shareDrop fullShare 32} t)
          ∗ bigSep Finset.univ fun w : Fin 32 => tabfLoc d ↦{Transfers.shareTok fullShare 32 w} t) :=
  BI.equiv_iff.mp ⟨(Transfers.pointsTo_toks fullShare 32).1, (Transfers.pointsTo_toks fullShare 32).2⟩

/-! ## Dealing and gathering -/

variable (m : (ℓ : Loc nD τ sig) → Buf (Elt F) ℓ)

/-- What the call is handed, and what the tasks are handed beside the table's remainder, are the same resources. -/
theorem deal_eq (d : Dev nD) (f : Buf (Elt F) (codLoc d)) :
    (iprop((tabfLoc d ↦{Transfers.shareDrop fullShare 32} tabf0 m d)
          ∗ bigSep Finset.univ fun c : Fin 2 => bigSep Finset.univ fun s : Fin 16 => tilePts m d (wid c s) f) : sProp 𝕄)
      = iprop((tabfLoc d ↦{Transfers.shareDrop fullShare 32} tabf0 m d)
          ∗ (bigSep Finset.univ fun w : Fin 32 => srcfLoc d ↦[(tokRect w).set]{fullShare} srcf0 m d)
          ∗ (bigSep Finset.univ fun w : Fin 32 => tabfLoc d ↦{Transfers.shareTok fullShare 32 w} tabf0 m d)
          ∗ (bigSep Finset.univ fun w : Fin 32 => bigSep Finset.univ fun j : Fin 24 => codLoc d ↦[(codRect j w).set]{fullShare} f)) := by
  rw [bigSep_workers (F := F) (fun w => tilePts m d w f)]
  unfold tilePts
  rw [bigSep_sep', bigSep_sep']

theorem deal (d : Dev nD) (f : Buf (Elt F) (codLoc d)) :
    iprop((srcfLoc d ↦{fullShare} srcf0 m d) ∗ (tabfLoc d ↦{fullShare} tabf0 m d) ∗ (codLoc d ↦{fullShare} f))
      ⊢ (iprop((tabfLoc d ↦{Transfers.shareDrop fullShare 32} tabf0 m d)
          ∗ bigSep Finset.univ fun c : Fin 2 => bigSep Finset.univ fun s : Fin 16 => tilePts m d (wid c s) f) : sProp 𝕄) := by
  rw [deal_eq, srcf_split, tabf_split, cod_split]
  iintro ⟨Ha, ⟨Hd, Hb⟩, Hc⟩
  isplitl [Hd]; · iexact Hd
  isplitl [Ha]; · iexact Ha
  isplitl [Hb]; · iexact Hb
  iexact Hc

theorem undeal (d : Dev nD) (f : Buf (Elt F) (codLoc d)) :
    (iprop((tabfLoc d ↦{Transfers.shareDrop fullShare 32} tabf0 m d)
          ∗ bigSep Finset.univ fun c : Fin 2 => bigSep Finset.univ fun s : Fin 16 => tilePts m d (wid c s) f) : sProp 𝕄)
      ⊢ iprop((srcfLoc d ↦{fullShare} srcf0 m d) ∗ (tabfLoc d ↦{fullShare} tabf0 m d) ∗ (codLoc d ↦{fullShare} f)) := by
  rw [deal_eq, srcf_split, tabf_split, cod_split]
  iintro ⟨Hd, Ha, Hb, Hc⟩
  isplitl [Ha]; · iexact Ha
  isplitr [Hc]
  · isplitl [Hd]; · iexact Hd
    iexact Hb
  · iexact Hc

end Cert.Proof.KB

end
-- ==== Proof.LaunchB.lean ====
/-
  The launch of the idealized kernel, stated over the pieces proved elsewhere: given the TensorCore's run of @main
  (with what the TensorCore pipeline's rounds fund for it), and each vector subcore's task, every weakly fair execution
  ends with the arguments unchanged and the result array at the stated contents.

  Here: how a SparseCore's sixteen tasks share what it is handed (nothing to do: it is handed exactly its tasks'
  parts), the launch element of the ghost state and what it funds, and how the final memory reads the claim.
-/
import proofs.«203767_g38671885534092_cont_8to1_b_939_37_alg».proof.Proof.SetupB
import proofs.«203767_g38671885534092_cont_8to1_b_939_37_alg».proof.Proof.DealB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## A SparseCore's operands are its sixteen tasks' -/

omit [FloatOps F] in
/-- A family over the subcores of call 0's grid, read at the subcore's number, is the family over the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tilePts m d (wid (Fin.cast nCore_zero c) s) (m (codLoc d)))
    ⊢ |={Set.univ}=> iprop(
      (bigSep Finset.univ fun i : Fin ((K (F := F)).nSub 0) =>
        tilePts m d (wid (Fin.cast nCore_zero c) (Fin.cast nSub_zero i)) (m (codLoc d)))
      ∗ ((bigSep Finset.univ fun i : Fin ((K (F := F)).nSub 0) =>
          tilePts m d (wid (Fin.cast nCore_zero c) (Fin.cast nSub_zero i)) (cod1 m d))
        -∗ bigSep Finset.univ fun s : Fin 16 => tilePts m d (wid (Fin.cast nCore_zero c) s) (cod1 m d)))
  rw [bigSep_tasks (F := F) (fun s => tilePts m d (wid (Fin.cast nCore_zero c) s) (m (codLoc d))),
    bigSep_tasks (F := F) (fun s => tilePts m d (wid (Fin.cast nCore_zero c) s) (cod1 m d))]
  iintro H; imodintro
  isplitl [H]; · iexact H
  iintro H; iexact H

/-! ## The launch element: the handshakes' rounds, the pipeline's rounds, no counters -/

section Launch

variable (G : Dev nD → sProp (MT nD τ sig (HIx 1) (Elt F) ℕ UU ℕ)) (g₀ : UP) (RES : (d : Dev nD) → Buf (Elt F) (outLoc d))

def u₀ : UU := (initOf (K (F := F)).hsCells (K (F := F)).hsToks, (g₀, 1))

omit [FloatOps F] in
theorem bigSep_emp' {I : Type} (s : Finset I) : (bigSep s fun _ => iprop(emp)) = (iprop(emp) : sProp 𝕄) := bigSep_emp_const s

omit [FloatOps F] in
/-- The launch element splits into the handshakes' element, the pipeline's and the counters'. -/
theorem ownU_split (a : UH) (b : UP) (c : Counters) :
    (ownU ((a, (b, c)) : UU) : sProp 𝕄) ⊢ iprop(BI.own (EH a) ∗ BI.own (EP b) ∗ BI.own ((((Emb.inr : Emb Counters (UP × Counters)).trans (embR : Emb (UP × Counters) 𝕄)) c))) := by
  iintro Hu
  ihave H := (ownU_pair _ _) $$ Hu
  icases H with ⟨HH, HR⟩
  isplitl [HH]; · iexact HH
  iapply (own_pair_emb (embR : Emb (UP × Counters) 𝕄) b c)
  iexact HR

theorem hu₀ (hG : (BI.own (EP g₀) : sProp 𝕄) ⊢ |={Set.univ}=> bigSep Finset.univ fun d : Dev nD => G d) :
    (ownU (u₀ (F := F) g₀) : sProp 𝕄)
      ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr) := by
  unfold u₀
  iintro Hu
  ihave H := (ownU_split _ _ _) $$ Hu
  icases H with ⟨HH, HP, -⟩
  imod hG $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- What the TensorCore holds when @main returns: the three arguments as launched and the result at `RES`. -/
def FINof (d : Dev nD) : sProp 𝕄 :=
  iprop((srcLoc d ↦{fullShare} m (srcLoc d)) ∗ (xLoc d ↦{fullShare} m (xLoc d)) ∗ (tabLoc d ↦{fullShare} m (tabLoc d))
    ∗ (outLoc d ↦{fullShare} RES d))

def fq (d : Dev nD) (s' : Phys nD τ sig (Elt F)) : Prop :=
  s'.mem.mem (srcLoc d) = m (srcLoc d) ∧ s'.mem.mem (xLoc d) = m (xLoc d) ∧ s'.mem.mem (tabLoc d) = m (tabLoc d)
    ∧ s'.mem.mem (outLoc d) = RES d

theorem hfin (d : Dev nD) (s' : Phys nD τ sig (Elt F)) : iprop(FINof m RES d ∗ SI s') ⊢ (⌜fq m RES d s'⌝ : sProp 𝕄) := by
  unfold FINof
  iintro ⟨⟨Hs, Hx, Ht, Ho⟩, HSI⟩
  ihave H := (persistent_entails_right (SI_pointsTo_agree (st := s') (ℓ := srcLoc d) (I := Finset.univ) (q := fullShare) (f := m (srcLoc d)))) $$ [HSI Hs]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h3, HSI, -⟩
  ihave H := (SI_pointsTo_agree (st := s') (ℓ := outLoc d) (I := Finset.univ) (q := fullShare) (f := RES d)) $$ [HSI Ho]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- The claim's reading of the final memory: the result at `RES`, the three arguments unchanged. -/
def QC : PUnit × MemSt nD τ sig (Elt F) → Prop := fun r =>
  ∀ c : Dev nD, r.2.mem (outLoc c) = RES c ∧ r.2.mem (srcLoc c) = m (srcLoc c) ∧ r.2.mem (xLoc c) = m (xLoc c)
    ∧ r.2.mem (tabLoc c) = m (tabLoc c)

theorem run_main_of [∀ e, Nonempty (Elt F e)]
    (hG : (BI.own (EP g₀) : sProp 𝕄) ⊢ |={Set.univ}=> bigSep Finset.univ fun d : Dev nD => G d)
    (hmain : ∀ (κ : GSem nD τ sig → ℕ) (d : Dev nD),
      iprop((K (F := F)).ctx EH (P m) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FINof m RES d))
    (htile : (K (F := F)).TileObl (D (F := F)) 𝒱 (P m) v₀ 0) :
    θ_run (Cert.Kernel.defs (F := F)) (Cert.Kernel.threads (F := F)) ⟨m, fun _ => 0, ρ⟩ (QC m RES) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main G (FINof m RES) (u₀ (F := F) g₀) (sep_elim_left.trans (hu₀ m G g₀ hG)) hmain (fq m RES) (hfin m RES) (QC m RES)
    (fun _ h c => ⟨(h c).2.2.2, (h c).1, (h c).2.1, (h c).2.2.1⟩)

end Launch

end Cert.Proof.KB

end
-- ==== Proof.Claims.lean ====
/-
  The five conjuncts of the claim, assembled from the three programs' runs.

  Each kernel program's run ends with the three arguments unchanged and the result array at stated contents; the
  reference's run ends with the result `Spec.out` of its arguments.  The frames drop the results.  At the ideal
  instance the kernel's result is the activations followed by the coding of the flattened tokens and table, which the
  index bridge identifies with `Spec.out`, so from agreeing arguments both programs end with the same result.
-/
import proofs.«203767_g38671885534092_cont_8to1_b_939_37_alg».proof.Defs
import proofs.«203767_g38671885534092_cont_8to1_b_939_37_alg».proof.Proof.Gen.Kernel
import proofs.«203767_g38671885534092_cont_8to1_b_939_37_alg».proof.Proof.Gen.KernelIdeal
import proofs.«203767_g38671885534092_cont_8to1_b_939_37_alg».proof.Proof.Gen.ReferenceIdeal
import proofs.«203767_g38671885534092_cont_8to1_b_939_37_alg».proof.Proof.Gen.Pre_input_domain
import proofs.«203767_g38671885534092_cont_8to1_b_939_37_alg».proof.Proof.Spec
import proofs.«203767_g38671885534092_cont_8to1_b_939_37_alg».proof.Proof.Bridge
import proofs.«203767_g38671885534092_cont_8to1_b_939_37_alg».proof.Proof.RefRun
import proofs.«203767_g38671885534092_cont_8to1_b_939_37_alg».proof.Proof.Launch
import proofs.«203767_g38671885534092_cont_8to1_b_939_37_alg».proof.Proof.LaunchB

noncomputable section

namespace Cert.Proof.Claims

open Idealize.ShloMosaic Idealize.SL.Sem

theorem claim_of
    (RESI : (m : (ℓ : Loc Cert.KernelIdeal.nD Cert.KernelIdeal.τ Cert.KernelIdeal.sig) → Buf (Elt Ideal) ℓ) →
      (d : Dev Cert.KernelIdeal.nD) → Buf (Elt Ideal) (Cert.Proof.KI.outLoc d))
    (RESB : (m : (ℓ : Loc Cert.Kernel.nD Cert.Kernel.τ Cert.Kernel.sig) → Buf (Elt Bits) ℓ) →
      (d : Dev Cert.Kernel.nD) → Buf (Elt Bits) (Cert.Proof.KB.outLoc d))
    (runI : ∀ (m : (ℓ : Loc Cert.KernelIdeal.nD Cert.KernelIdeal.τ Cert.KernelIdeal.sig) → Buf (Elt Ideal) ℓ)
      (ρ : Dev Cert.KernelIdeal.nD → PrngReg),
      θ_run (Cert.KernelIdeal.defs (F := Ideal)) (Cert.KernelIdeal.threads (F := Ideal)) ⟨m, fun _ => 0, ρ⟩
        (Cert.Proof.KI.QC m (RESI m)))
    (runB : ∀ (m : (ℓ : Loc Cert.Kernel.nD Cert.Kernel.τ Cert.Kernel.sig) → Buf (Elt Bits) ℓ)
      (ρ : Dev Cert.Kernel.nD → PrngReg),
      θ_run (Cert.Kernel.defs (F := Bits)) (Cert.Kernel.threads (F := Bits)) ⟨m, fun _ => 0, ρ⟩
        (Cert.Proof.KB.QC m (RESB m)))
    (hRES : ∀ m d, RESI m d = Cert.Proof.Spec.outOf (m (Cert.Proof.KI.xLoc d)) (Cert.Proof.KI.cod1 m d)) :
    Cert.Claim := by
  refine ⟨Cert.Kernel.Gen.facts, Cert.KernelIdeal.Gen.facts, Cert.ReferenceIdeal.Gen.facts, Cert.Pre_input_domain.Gen.facts, ?_, ?_, ?_, trivial, ?_⟩
  · -- the word-level kernel's frame: its run with the result dropped
    intro m ρ _
    exact (θ_run _ _ _).mono (fun _ h c => ⟨(h c).2.1, (h c).2.2.1, (h c).2.2.2⟩) (runB m ρ)
  · -- the idealized kernel's frame
    intro m ρ _
    exact (θ_run _ _ _).mono (fun _ h c => ⟨(h c).2.1, (h c).2.2.1, (h c).2.2.2⟩) (runI m ρ)
  · -- the reference's frame
    intro m g _
    exact (θ_run _ _ _).mono (fun _ h c => (h c).2) (Cert.Proof.RefRun.run (F := Ideal) m g)
  · -- equal results at the ideal instance
    intro m g m' g' _ hag
    refine ⟨fun c => RESI m c, ?_, ?_⟩
    · exact (θ_run _ _ _).mono (fun _ h c => ⟨(h c).1, (h c).2.1, (h c).2.2.1, (h c).2.2.2⟩) (runI m g)
    · refine (θ_run _ _ _).mono (fun _ h c => ⟨(h c).1.trans ?_, (h c).2.1, (h c).2.2.1, (h c).2.2.2⟩)
        (Cert.Proof.RefRun.run (F := Ideal) m' g')
      show _ = RESI m c
      rw [(hag c).1, (hag c).2.1, (hag c).2.2, hRES m c]
      unfold Cert.Proof.KI.cod1 Cert.Proof.KI.srcf0 Cert.Proof.KI.tabf0
      exact (Cert.Proof.Bridge.bridge _ _ _ _ _).symm

end Cert.Proof.Claims

end
-- ==== Proof.Region.lean ====
/-
  The TensorCore pallas_call of the idealized kernel as the pipeline library sees it: what each of its 16 grid
  points leaves in the result window's block (four row blocks, each the activations' row block followed by the
  transpose of 1024 columns of the coding block, the transpose being a product with the 24 x 24 identity), the
  body's run on symbolic staging buffers, the pipeline's proof data, and the region as a record of entry and exit
  entailments around the TensorCore's thread state.
-/
import proofs.«203767_g38671885534092_cont_8to1_b_939_37_alg».proof.Proof.Deal
import proofs.«203767_g38671885534092_cont_8to1_b_939_37_alg».proof.Proof.Gen.KernelIdeal.Launch
import proofs.«203767_g38671885534092_cont_8to1_b_939_37_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The arrays as the region finds them, and the windows' blocks -/

/-- The prefetched tables' admissible contents: the pallas_call has no table. -/
abbrev adm : (p : Fin 1) → (pcfgs (F := F) p).Adm := fun p => (cfgs p).toPCfg_adm

/-- The three arrays the region moves, as it finds them: the activations as launched, the coding of the tokens and
    the table, the result array as launched. -/
def A1 (d : Dev nD) : (w : Fin cfg1.W) → Buf (Elt F) ((cfg1.win w).arr.view.loc (d.tc : Thread nD τ))
  | ⟨0, _⟩ => m (xLoc d)
  | ⟨1, _⟩ => cod1 m d
  | ⟨2, _⟩ => m (outLoc d)

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (A1 m d w)

/-! ## The body's accesses -/

abbrev rc : Rect S24x4096 := Rect.unit (s := S24x4096) ![0, 0] S24x4096.size inb_S24x4096_S24x4096_0_0
abbrev rx0 : Rect S4x1024x512 := Rect.unit (s := S4x1024x512) ![0, 0, 0] S1x1024x512.size inb_S4x1024x512_S1x1024x512_0_0_0
abbrev rx1 : Rect S4x1024x512 := Rect.unit (s := S4x1024x512) ![1, 0, 0] S1x1024x512.size inb_S4x1024x512_S1x1024x512_1_0_0
abbrev rx2 : Rect S4x1024x512 := Rect.unit (s := S4x1024x512) ![2, 0, 0] S1x1024x512.size inb_S4x1024x512_S1x1024x512_2_0_0
abbrev rx3 : Rect S4x1024x512 := Rect.unit (s := S4x1024x512) ![3, 0, 0] S1x1024x512.size inb_S4x1024x512_S1x1024x512_3_0_0
abbrev ro0 : Rect S4x1024x536 := Rect.unit (s := S4x1024x536) ![0, 0, 0] S1x1024x536.size inb_S4x1024x536_S1x1024x536_0_0_0
abbrev ro1 : Rect S4x1024x536 := Rect.unit (s := S4x1024x536) ![1, 0, 0] S1x1024x536.size inb_S4x1024x536_S1x1024x536_1_0_0
abbrev ro2 : Rect S4x1024x536 := Rect.unit (s := S4x1024x536) ![2, 0, 0] S1x1024x536.size inb_S4x1024x536_S1x1024x536_2_0_0
abbrev ro3 : Rect S4x1024x536 := Rect.unit (s := S4x1024x536) ![3, 0, 0] S1x1024x536.size inb_S4x1024x536_S1x1024x536_3_0_0

/-! ## What the body leaves in the result window's buffer -/

/-- The result window's staging buffer after the body, from the two input windows' blocks: its four stores as pieces,
    last first; row block `i` is the activations' row block `i` followed by the product of columns
    `1024 i … 1024 i + 1023` of the coding block with the identity. -/
def out1_2 (x0 : Vec F S4x1024x512 .f32) (x1 : Vec F S24x4096 .f32) : Vec F S4x1024x536 .f32 :=
  View.canon [⟨ro3, k1_pay1 (k1_pay3 (F := F)) (k1_pay7 (View.ld x1 rc)) (constant S1024x24 .f32 0x00000000#32) (View.ld x0 rx3)⟩,
    ⟨ro2, k1_pay6 (View.ld x1 rc) (View.ld x0 rx2)⟩,
    ⟨ro1, k1_pay5 (View.ld x1 rc) (View.ld x0 rx1)⟩,
    ⟨ro0, k1_pay4 (View.ld x1 rc) (View.ld x0 rx0)⟩]

/-- Its stores tile the buffer (checked by evaluation), so they cover it. -/
theorem cover1_2 (p0 p1 p2 p3 : Vec F S1x1024x536 .f32) (y : S4x1024x536.Idx) :
    ∃ pc ∈ ([⟨ro3, p0⟩, ⟨ro2, p1⟩, ⟨ro1, p2⟩, ⟨ro0, p3⟩] : List (View.Piece (Elt F) S4x1024x536 .f32)), y ∈ pc.1.set :=
  View.cover_of_tiled [⟨ro3, p0⟩, ⟨ro2, p1⟩, ⟨ro1, p2⟩, ⟨ro0, p3⟩] S1x1024x536.size (by rfl) y

/-! ## The body's run -/

set_option maxHeartbeats 4000000 in
/-- The kernel body on whole staging memrefs, the inputs' at read contents and the result's at anything, runs to the
    continuation holding the inputs' as they were and the result's at `out1_2` of the inputs'. -/
theorem sound_kernel (c : Dev nD) (E : Set ℕ) (i : grid1.Coords) (arg1 : Memref sig .tc .vmem S4x1024x512 .f32) (harg1 : arg1.IsWhole) (arg2 : Memref sig .tc .vmem S24x4096 .f32) (harg2 : arg2.IsWhole) (arg3 : Memref sig .tc .vmem S4x1024x536 .f32) (harg3 : arg3.IsWhole)
    (x0 : Vec F S4x1024x512 .f32) (x1 : Vec F S24x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__tc_concat_body i arg1 harg1 arg2 harg2 arg3 harg3) K := by
  simp only [cc1__tc_concat_body_eq_skeleton]; unfold cc1__tc_concat_body_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _)

/-! ## The pipeline's proof data -/

theorem A1_0 (d : Dev nD) : A1 m d 0 = m (xLoc d) := rfl
theorem A1_1 (d : Dev nD) : A1 m d 1 = cod1 m d := rfl
theorem A1_2 (d : Dev nD) : A1 m d 2 = m (outLoc d) := rfl

/-- The pairs the TensorCore's waits may have recorded when the region runs: those at or below the level the
    SparseCore call left it at (the region's own waits, at index `none`, sit at level 0). -/
def recd (d : Dev nD) : Set (SemLoc sig × HIx 1) := {p | (K (F := F)).lev ((d.tc : Thread nD τ), p.1) p.2 ≤ 8}

/-- The proof data of the pipeline on device `d`: the arrays as the region finds them; after the body at point `t`
    each input's buffer at its block and the result's at `out1_2` of the input blocks; the invariant the scoped
    buffers no window stages; nothing owed; full shares. -/
def dats (_ : Fin 1) (d : Dev nD) : Dat τ (Elt F) (HIx 1) ℕ UU ℕ cfg1 d where
  A w := A1 m d w
  after w t := match w with
    | ⟨0, _⟩ => iblk m d 0 t
    | ⟨1, _⟩ => iblk m d 1 t
    | ⟨2, _⟩ => out1_2 (iblk m d 0 t) (iblk m d 1 t)
  Φ _ := Pipeline.scopedRest (Ix := HIx 1) (Name := ℕ) (U := UU) (Lvl := ℕ) (Val := Elt F) spec1 d
  q _ := fullShare
  owed _ := 0
  recorded _ := recd (F := F) d

theorem A_eq (d : Dev nD) (w : Fin cfg1.W) : (dats m 0 d).A w = A1 m d w := by dsimp only [dats]

theorem after1_0 (d : Dev nD) (t : Fin cfg1.N) : (dats m 0 d).after 0 t = iblk m d 0 t := by dsimp only [dats]
theorem after1_1 (d : Dev nD) (t : Fin cfg1.N) : (dats m 0 d).after 1 t = iblk m d 1 t := by dsimp only [dats]
theorem after1_2 (d : Dev nD) (t : Fin cfg1.N) : (dats m 0 d).after 2 t = out1_2 (iblk m d 0 t) (iblk m d 1 t) := by dsimp only [dats]

/-- Each input's current staging buffer holds its block at every point, fetched there or not. -/
theorem before1_0 (d : Dev nD) (t : Fin cfg1.N) (x) : (dats m 0 d).before 0 t x = iblk m d 0 t :=
  ((dats m 0 d).before_in_eq_fetched 0 rfl (fun _ => rfl) (fun _ _ _ => rfl) (fun t => by rw [after1_0]; unfold Dat.blockOf iblk; rw [A_eq]; try rfl) t x).trans
    (by unfold Dat.fetched Dat.blockOf iblk; rw [A_eq]; try rfl)
theorem before1_1 (d : Dev nD) (t : Fin cfg1.N) (x) : (dats m 0 d).before 1 t x = iblk m d 1 t :=
  ((dats m 0 d).before_in_eq_fetched 1 rfl (fun _ => rfl) (fun _ _ _ => rfl) (fun t => by rw [after1_1]; unfold Dat.blockOf iblk; rw [A_eq]; try rfl) t x).trans
    (by unfold Dat.fetched Dat.blockOf iblk; rw [A_eq]; try rfl)

/-! ## The body obligation, at a generic point -/

/-- What the body is called with at point `t`, the windows one by one, -/
def bodyPre (d : Dev nD) (t : Fin cfg1.N) : sProp 𝕄 :=
  iprop((dats m 0 d).Φ t.castSucc ∗ (dats m 0 d).owesAt none t.castSucc
    ∗ (∃ x, owns (d : Thread nD τ) (st1_0 t) fullShare ((dats m 0 d).before 0 t x))
    ∗ (∃ x, owns (d : Thread nD τ) (st1_1 t) fullShare ((dats m 0 d).before 1 t x))
    ∗ (∃ x, owns (d : Thread nD τ) (st1_2 t) fullShare ((dats m 0 d).before 2 t x)))

/-- and what it returns. -/
def bodyPost (d : Dev nD) (t : Fin cfg1.N) : sProp 𝕄 :=
  iprop((dats m 0 d).Φ t.succ ∗ (dats m 0 d).owesAt none t.succ
    ∗ owns (d : Thread nD τ) (st1_0 t) fullShare ((dats m 0 d).after 0 t)
    ∗ owns (d : Thread nD τ) (st1_1 t) fullShare ((dats m 0 d).after 1 t)
    ∗ owns (d : Thread nD τ) (st1_2 t) fullShare ((dats m 0 d).after 2 t))

/-- The body at any point: the inputs' memrefs hold their blocks, so `sound_kernel` applies; the invariant and the
    core's `owes` pass through unread. -/
theorem sound_body (d : Dev nD) (t : Fin cfg1.N) :
    bodyPre m d t ⊢ wp frame (wpE (defs₀ (F := F)) Variants.none d none) Set.univ (bodyAt1 t) (fun _ => bodyPost m d t) := by
  unfold bodyPre bodyPost bodyAt1
  simp only [before1_0, before1_1]
  rw [show (dats m 0 d).Φ t.succ = (dats m 0 d).Φ t.castSucc from rfl,
    show (dats m 0 d).owesAt none t.succ = (dats m 0 d).owesAt none t.castSucc from rfl,
    after1_0, after1_1, after1_2]
  iintro ⟨HΦ, Ho, ⟨%d0, H0⟩, ⟨%d1, H1⟩, ⟨%d2, H2⟩⟩
  iapply (sound_kernel d Set.univ _ _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats (F := F) m 0 d) (defs₀ (F := F)) Variants.none none Set.univ := fun t => by
  rw [bigSep_W1, bigSep_W1]
  exact sound_body m d t

/-! ## The region -/

/-- The result array after the region: the launch contents with each grid point's block written back, in order. -/
def RES (d : Dev nD) : Buf (Elt F) (outLoc d) := (dats m 0 d).arrAt 2 cfg1.N

/-- What the TensorCore owes when the region runs — nothing: its one SparseCore call is behind it — with its recorded
    waits at or below the level that call left them at. -/
def tcOwes (d : Dev nD) : sProp 𝕄 :=
  iprop(∃ W, ⌜(K (F := F)).WBelow (SparseCore.T d) W 8⌝ ∗ owes (SparseCore.T d) (0 : CellTallies nD τ sig (HIx 1)) W)

/-- The thread state the region is entered from: the activations, the coding and the result array whole, and what the
    core owes; -/
def regPre (d : Dev nD) : sProp 𝕄 :=
  iprop((xLoc d ↦{fullShare} m (xLoc d)) ∗ (codLoc d ↦{fullShare} cod1 m d) ∗ (outLoc d ↦{fullShare} m (outLoc d)) ∗ tcOwes (F := F) d)
/-- and the one it leaves: the result array at `RES`. -/
def regPost (d : Dev nD) : sProp 𝕄 :=
  iprop((xLoc d ↦{fullShare} m (xLoc d)) ∗ (codLoc d ↦{fullShare} cod1 m d) ∗ (outLoc d ↦{fullShare} RES m d) ∗ tcOwes (F := F) d)

theorem share_full (d : Dev nD) (w : Fin cfg1.W) : (dats m 0 d).share w = fullShare :=
  (dats m 0 d).share_full (fun _ => rfl) w

/-- The pipeline's three arrays at contents `G`, one by one. -/
theorem arrays1_eq (d : Dev nD) (G : (w : Fin cfg1.W) → Buf (Elt F) ((cfg1.win w).arr.view.loc (d.tc : Thread nD τ))) :
    (dats m 0 d).arrays G = iprop((xLoc d ↦{fullShare} G 0) ∗ (codLoc d ↦{fullShare} G 1) ∗ (outLoc d ↦{fullShare} G 2)) := by
  rw [Pipeline.arrays_eq (Pipeline.pin (pcfgs (F := F)) adm) (dats m) 0 d launch1.arr_whole (share_full m d), bigSep_W1]

/-- A recorded pair within the proof data's bound sits at or below the level the SparseCore call left. -/
theorem lev_of_bound (d : Dev nD) (t : Fin (cfg1.N + 1)) (p : SemLoc sig × HIx 1) (hp : p ∈ (dats m 0 d).bound none t) :
    (K (F := F)).lev (SparseCore.T d, p.1) p.2 ≤ 8 := by
  rcases hp with hp | ⟨w, s, rfl⟩
  · exact hp
  · exact Nat.zero_le _

set_option backward.isDefEq.respectTransparency.types false in
/-- THE REGION: the decided layout, no semaphore of the kernel's own, the body obligation; entered from the three arrays
    and the core's `owes`, left with the result array at `RES`. -/
def reg : Pipeline.RegionSeg (pcfgs (F := F)) adm (dats m) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (body_obligation m d).loose
  hwaits := Pipeline.hwaits_of_owed_zero _ _ _ _ _ _ 0 fun _ _ => rfl
  pre := regPre m
  post := regPost m
  X _ := iprop(emp)
  Y _ := iprop(emp)
  Z _ := iprop(emp)
  hentry d := by
    rw [arrays1_eq]
    unfold regPre tcOwes
    iintro ⟨⟨Hx, Hc, Ho, %W, %hW, HO⟩, -, -⟩
    imodintro
    isplitl [Hx Hc Ho]
    · isplitl [Hx]; · iexact Hx
      isplitl [Hc]; · iexact Hc
      iexact Ho
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitl <;> iempintro
  hin d := by
    rw [show (dats m 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none,
      show (dats m 0 d).Φ (Fin.last (Pipeline.pin (pcfgs (F := F)) adm 0).N) = Pipeline.scopedRest (Ix := HIx 1) (Name := ℕ) (U := UU) (Lvl := ℕ) (Val := Elt F) spec1 d from rfl]
    iintro Hr
    isplitr; · iempintro
    isplitr; · iempintro
    iexact Hr
  hexit d := by
    rw [arrays1_eq]
    unfold regPost tcOwes RES
    rw [(dats m 0 d).arrAt_in 0 rfl _, (dats m 0 d).arrAt_in 1 rfl _]
    iintro ⟨⟨Hx, Hc, Ho⟩, HO, -, -⟩
    imodintro
    isplitl [Hx]; · iexact Hx
    isplitl [Hc]; · iexact Hc
    isplitl [Ho]; · iexact Ho
    unfold Pipeline.Dat.owesAt Pipeline.owesWithin
    icases HO with ⟨%W, %hW, HO⟩
    iexists W; isplitr
    · ipureintro; exact fun p hp => lev_of_bound m d _ p (hW hp)
    iexact HO

/-! ## The pipeline's ghost state, as the launch deals it -/

/-- The launch element of the pipeline's rounds library: its staging cells, and the duty tokens of the transfers its
    loop issues. -/
def g₀ : UP := initOf (Pipeline.cells cfgs cellOf_inj) (Pipeline.launchToks cfgs cellOf_inj)

/-- What @main's proof on device `d` starts from beyond what every launch deals: the staging cells' launch state and
    the duty tokens of the pipeline's transfers. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem G_intro : (BI.own (EP g₀) : sProp 𝕄) ⊢ |={Set.univ}=> bigSep Finset.univ fun d : Dev nD => G (F := F) d := by
  have hc : (bigSep Finset.univ fun c : Dev nD => bigSep Finset.univ fun p : Fin 1 => (Pipeline.cellsGhost cfgs EP p c : sProp 𝕄))
      = bigSep Finset.univ fun d : Dev nD => Pipeline.cellsGhost (Pipeline.pin (pcfgs (F := F)) adm) EP 0 d :=
    bigSep_congr fun d _ => by rw [show (Finset.univ : Finset (Fin 1)) = {0} from rfl, bigSep_singleton]
  have ht : (bigSep Finset.univ fun c : Dev nD => bigSep Finset.univ fun p : Fin 1 => (Pipeline.toksInit cfgs EP p c : sProp 𝕄))
      = bigSep Finset.univ fun d : Dev nD => Pipeline.toksInit (Pipeline.pin (pcfgs (F := F)) adm) EP 0 d :=
    bigSep_congr fun d _ => by rw [show (Finset.univ : Finset (Fin 1)) = {0} from rfl, bigSep_singleton]
  unfold g₀ G
  rw [bigSep_sep', ← hc, ← ht]
  iintro Hu
  imod (Pipeline.fund_ghost cfgs EP cellOf_inj) $$ Hu with ⟨Hg, Ht⟩
  imodintro
  isplitl [Hg] <;> iassumption

end Cert.Proof.KI

end
-- ==== Proof.Main.lean ====
/-
  @main of the idealized kernel on the TensorCore: the two reshapes (the table and the tokens flattened), the
  SparseCore call (the flat tokens, the flat table and the coding array dealt to the 32 tasks and gathered back with
  the coding array holding the coding), and the TensorCore pallas_call that follows it (the region of Region.lean),
  leaving the arguments as launched and the result array at `RES`.
-/
import proofs.«203767_g38671885534092_cont_8to1_b_939_37_alg».proof.Proof.Region

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The TensorCore's unscoped arrays: the three arguments, the two flattened arrays, the coding, the result. -/
abbrev S7 : Finset (DevRef τ sig) := {a0', a1', a2', v0', v1', v2', v3'}

theorem held_S7 (d : Dev nD) (W : Valuation τ sig (Elt F)) :
    (held (T d) S7 W : sProp 𝕄) = iprop((srcLoc d ↦{fullShare} W a0') ∗ (xLoc d ↦{fullShare} W a1') ∗ (tabLoc d ↦{fullShare} W a2')
      ∗ (tabfLoc d ↦{fullShare} W v0') ∗ (srcfLoc d ↦{fullShare} W v1') ∗ (codLoc d ↦{fullShare} W v2') ∗ (outLoc d ↦{fullShare} W v3')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((srcLoc d ↦{fullShare} W main_arg0) ∗ (xLoc d ↦{fullShare} W main_arg1) ∗ (tabLoc d ↦{fullShare} W main_arg2)
      ∗ (tabfLoc d ↦{fullShare} W main_v0) ∗ (srcfLoc d ↦{fullShare} W main_v1) ∗ (codLoc d ↦{fullShare} W main_v2) ∗ (outLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S7 (V0 m d) := by
  rw [unscopedBufs_eq, held_S7]; rfl

/-! ## The two reshapes -/

abbrev op1 : HloOp τ sig (Elt F) := StableHlo.reshape main_arg2 main_v0 rfl shapeCasts_S28x24_S672
abbrev op2 : HloOp τ sig (Elt F) := StableHlo.reshape main_arg0 main_v1 rfl shapeCasts_S64x1024_S65536

theorem hop1 : (op1 (F := F)).bufs ⊆ S7 := show ({a2', v0'} : Finset (DevRef τ sig)) ⊆ S7 by decide
theorem hop2 : (op2 (F := F)).bufs ⊆ S7 := show ({a0', v1'} : Finset (DevRef τ sig)) ⊆ S7 by decide

/-- The valuation after the first reshape, and after both. -/
def V1 (d : Dev nD) : Valuation τ sig (Elt F) := (op1 (F := F)).result (V0 m d)
def V2 (d : Dev nD) : Valuation τ sig (Elt F) := (op2 (F := F)).result (V1 m d)

theorem V1_of_ne (d : Dev nD) (b : DevRef τ sig) (hb : b ∉ ({v0'} : Finset (DevRef τ sig))) : V1 m d b = V0 m d b :=
  (op1 (F := F)).result_of_not_mem (V0 m d) hb
theorem V2_of_ne (d : Dev nD) (b : DevRef τ sig) (hb : b ∉ ({v1'} : Finset (DevRef τ sig))) : V2 m d b = V1 m d b :=
  (op2 (F := F)).result_of_not_mem (V1 m d) hb

theorem V1_v0 (d : Dev nD) : V1 m d v0' = tabf0 m d :=
  StableHlo.reshape_result main_arg2 main_v0 rfl shapeCasts_S28x24_S672 ⟨by decide, rfl⟩ ⟨by decide, rfl⟩ (V0 m d)
theorem V2_v1 (d : Dev nD) : V2 m d v1' = srcf0 m d := by
  unfold V2
  rw [StableHlo.reshape_result main_arg0 main_v1 rfl shapeCasts_S64x1024_S65536 ⟨by decide, rfl⟩ ⟨by decide, rfl⟩ (V1 m d),
    V1_of_ne m d a0' (by decide)]
  rfl

theorem V2_a0 (d : Dev nD) : V2 m d a0' = m (srcLoc d) := by rw [V2_of_ne m d a0' (by decide), V1_of_ne m d a0' (by decide)]; rfl
theorem V2_a1 (d : Dev nD) : V2 m d a1' = m (xLoc d) := by rw [V2_of_ne m d a1' (by decide), V1_of_ne m d a1' (by decide)]; rfl
theorem V2_a2 (d : Dev nD) : V2 m d a2' = m (tabLoc d) := by rw [V2_of_ne m d a2' (by decide), V1_of_ne m d a2' (by decide)]; rfl
theorem V2_v0 (d : Dev nD) : V2 m d v0' = tabf0 m d := by rw [V2_of_ne m d v0' (by decide), V1_v0]
theorem V2_v2 (d : Dev nD) : V2 m d v2' = m (codLoc d) := by rw [V2_of_ne m d v2' (by decide), V1_of_ne m d v2' (by decide)]; rfl
theorem V2_v3 (d : Dev nD) : V2 m d v3' = m (outLoc d) := by rw [V2_of_ne m d v3' (by decide), V1_of_ne m d v3' (by decide)]; rfl

variable [FloatOps F]

/-! ## The call's payloads, and the TensorCore's state after it -/

/-- What the call takes for the two SparseCores, and what it hands back. -/
theorem st0_eq (d : Dev nD) : (bigSep Finset.univ fun c : Fin ((K (F := F)).nCore 0) => (P m).st 0 d c)
    = bigSep Finset.univ fun c : Fin 2 => bigSep Finset.univ fun s : Fin 16 => tilePts m d (wid c s) (m (codLoc d)) := by
  unfold P; rfl
theorem dn0_eq (d : Dev nD) : (bigSep Finset.univ fun c : Fin ((K (F := F)).nCore 0) => (P m).dn 0 d c)
    = bigSep Finset.univ fun c : Fin 2 => bigSep Finset.univ fun s : Fin 16 => tilePts m d (wid c s) (cod1 m d) := by
  unfold P; rfl

omit [FloatOps F] in
/-- After its one call the TensorCore owes nothing: its state is `tcOwes` beside what the region does not touch. -/
theorem tcSt_split (d : Dev nD) :
    (K (F := F)).tcSt EH d 1 ⊢ (iprop(tcOwes (F := F) d ∗ (tcOwes (F := F) d -∗ (K (F := F)).tcSt EH d 1)) : sProp 𝕄) := by
  unfold SparseCore.Cfg.tcSt tcOwes
  rw [(K (F := F)).Otc_end d (le_refl 1), Nat.mul_one]
  iintro ⟨HO, Hrest⟩
  isplitl [HO]; · iexact HO
  iintro HO
  isplitl [HO]; · iexact HO
  iexact Hrest

omit [FloatOps F] in
theorem tcSt_split' (d : Dev nD) :
    (K (F := F)).tcSt EH d ((0 : Fin 1).val + 1) ⊢ (iprop(tcOwes (F := F) d ∗ (tcOwes (F := F) d -∗ (K (F := F)).tcSt EH d 1)) : sProp 𝕄) :=
  tcSt_split d

/-- The arrays both reshapes have run over, one by one. -/
theorem held_V2 (d : Dev nD) :
    (held (T d) S7 (V2 m d) : sProp 𝕄) = iprop((srcLoc d ↦{fullShare} m (srcLoc d)) ∗ (xLoc d ↦{fullShare} m (xLoc d)) ∗ (tabLoc d ↦{fullShare} m (tabLoc d))
      ∗ (tabfLoc d ↦{fullShare} tabf0 m d) ∗ (srcfLoc d ↦{fullShare} srcf0 m d) ∗ (codLoc d ↦{fullShare} m (codLoc d)) ∗ (outLoc d ↦{fullShare} m (outLoc d))) := by
  rw [held_S7, V2_a0, V2_a1, V2_a2, V2_v0, V2_v1, V2_v2, V2_v3]

/-! ## The region's step, over the thread states of Region.lean -/

theorem regPre_intro (d : Dev nD) :
    iprop((xLoc d ↦{fullShare} m (xLoc d)) ∗ (codLoc d ↦{fullShare} cod1 m d) ∗ (outLoc d ↦{fullShare} m (outLoc d)) ∗ tcOwes (F := F) d)
      ⊢ (regPre m d : sProp 𝕄) := Entails.of_eq (by rw [regPre])
theorem regPost_elim (d : Dev nD) :
    (regPost m d : sProp 𝕄)
      ⊢ iprop((xLoc d ↦{fullShare} m (xLoc d)) ∗ (codLoc d ↦{fullShare} cod1 m d) ∗ (outLoc d ↦{fullShare} RES m d) ∗ tcOwes (F := F) d) :=
  Entails.of_eq (by rw [regPost])

set_option backward.isDefEq.respectTransparency.types false in
/-- The pallas_call on device `d`: from the region boundary, the three arrays and the core's `owes`, the level facts and
    the pipeline's ghost state, it runs to the boundary and the arrays with the result at `RES`. -/
theorem region_step (d : Dev nD) (Q : PUnit → sProp 𝕄) :
    iprop((iprop(boundary (SparseCore.T d) ∗ regPost m d) -∗ wp frame (wpE (D (F := F)) 𝒱 (SparseCore.T d) none) Set.univ (Prog.ret ⟨⟩) Q)
        ∗ boundary (SparseCore.T d) ∗ regPre m d ∗ levAts (K (F := F)).L (K (F := F)).lev ∗ G (F := F) d)
      ⊢ wp frame (wpE (D (F := F)) 𝒱 (SparseCore.T d) none) Set.univ (Prog.op (TpuEff.customCall (Pipeline.entry (0 : Fin 1)) ()) Prog.ret) Q :=
  Pipeline.RegionSeg.wp (pcfgs (F := F)) adm (dats m) (none : HIx 1) cellOf_inj EP defs₀ 𝒱₀ (K (F := F)).L (K (F := F)).lev (reg m) d none
    (fun _ h => nomatch h) Prog.ret Q

/-! ## @main on the TensorCore -/

/-- What @main leaves the claim: the arguments at their launch contents, the result array at `RES`. -/
abbrev FIN (d : Dev nD) : sProp 𝕄 :=
  iprop((srcLoc d ↦{fullShare} m (srcLoc d)) ∗ (xLoc d ↦{fullShare} m (xLoc d)) ∗ (tabLoc d ↦{fullShare} m (tabLoc d)) ∗ (outLoc d ↦{fullShare} RES m d))

set_option backward.isDefEq.respectTransparency.types false in
set_option maxHeartbeats 1600000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the table flattened
  iapply (wp_hlo_within 𝒱 (SparseCore.T d) none Set.univ (op := op1) (S := S7) hop1 (V := V0 m d)) $$ [Hb Hheld]
  · isplitl [Hb] <;> iassumption
  iintro ⟨Hb, Hheld⟩
  rw [wp_ret, show (op1 (F := F)).result (V0 m d) = V1 m d from rfl]; imodintro
  -- the tokens flattened
  iapply (wp_hlo_within 𝒱 (SparseCore.T d) none Set.univ (op := op2) (S := S7) hop2 (V := V1 m d)) $$ [Hb Hheld]
  · isplitl [Hb] <;> iassumption
  iintro ⟨Hb, Hheld⟩
  rw [wp_ret, show (op2 (F := F)).result (V1 m d) = V2 m d from rfl]; imodintro
  ihave Hh := (Entails.of_eq (held_V2 m d)) $$ Hheld
  icases Hh with ⟨Hsrc, Hx, Htab, Htabf, Hsrcf, Hcod, Hout⟩
  -- the flat tokens, the flat table and the coding array dealt to the 32 tasks
  ihave Hd := (deal m d (m (codLoc d))) $$ [Hsrcf Htabf Hcod]
  · isplitl [Hsrcf]; · iexact Hsrcf
    isplitl [Htabf] <;> iassumption
  icases Hd with ⟨Htabr, Htiles⟩
  -- the call
  iapply ((K (F := F)).wp_run (D (F := F)) 𝒱 (EH := EH) (P := P m) κ d 0) $$ [Hst Htiles Hb Hsrc Hx Htab Htabr Hout HG]
  isplitr; · iexact Hctx
  isplitl [Hst]; · iexact Hst
  isplitl [Htiles]; · rw [st0_eq]; iexact Htiles
  iintro ⟨Hst, Hdn⟩
  ihave Hdn' := (Entails.of_eq (dn0_eq m d)) $$ Hdn
  ihave Hu := (undeal m d (cod1 m d)) $$ [Htabr Hdn']
  · isplitl [Htabr] <;> iassumption
  icases Hu with ⟨Hsrcf, Htabf, Hcod⟩
  -- the TensorCore pallas_call
  ihave Hsp := (tcSt_split' d) $$ Hst
  icases Hsp with ⟨HO, Hback⟩
  ihave Hlev := (SparseCore.Cfg.ctx_levAts κ) $$ Hctx
  iapply ((K (F := F)).wp_liftProg (D (F := F)) 𝒱 (SparseCore.T d) (Set.univ : Set ℕ) none
    (Prog.op (TpuEff.customCall (Pipeline.entry (0 : Fin 1)) ()) Prog.ret) _)
  iapply (region_step m d _) $$ [HO Hback Hb Hsrc Hx Htab Hcod Hout HG]
  isplitr [Hb Hx Hcod Hout HO HG]
  · iintro ⟨Hb, Hpost⟩
    ihave Hp := (regPost_elim m d) $$ Hpost
    icases Hp with ⟨Hx, Hcod, Hout, HO⟩
    rw [wp_ret]; imodintro; imodintro
    isplitl [HO Hback]; · iapply Hback; iexact HO
    isplitl [Hsrc]; · iexact Hsrc
    isplitl [Hx]; · iexact Hx
    isplitl [Htab]; · iexact Htab
    iexact Hout
  isplitl [Hb]; · iexact Hb
  isplitl [Hx Hcod Hout HO]
  · iapply (regPre_intro m d)
    isplitl [Hx]; · iexact Hx
    isplitl [Hcod]; · iexact Hcod
    isplitl [Hout]; · iexact Hout
    iexact HO
  isplitr; · iexact Hlev
  iexact HG

end Cert.Proof.KI

end
-- ==== Proof.RegionB.lean ====
/-
  The TensorCore pallas_call of the idealized kernel as the pipeline library sees it: what each of its 16 grid
  points leaves in the result window's block (four row blocks, each the activations' row block followed by the
  transpose of 1024 columns of the coding block, the transpose being a product with the 24 x 24 identity), the
  body's run on symbolic staging buffers, the pipeline's proof data, and the region as a record of entry and exit
  entailments around the TensorCore's thread state.
-/
import proofs.«203767_g38671885534092_cont_8to1_b_939_37_alg».proof.Proof.DealB
import proofs.«203767_g38671885534092_cont_8to1_b_939_37_alg».proof.Proof.Gen.Kernel.Launch
import proofs.«203767_g38671885534092_cont_8to1_b_939_37_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The arrays as the region finds them, and the windows' blocks -/

/-- The prefetched tables' admissible contents: the pallas_call has no table. -/
abbrev adm : (p : Fin 1) → (pcfgs (F := F) p).Adm := fun p => (cfgs p).toPCfg_adm

/-- The three arrays the region moves, as it finds them: the activations as launched, the coding of the tokens and
    the table, the result array as launched. -/
def A1 (d : Dev nD) : (w : Fin cfg1.W) → Buf (Elt F) ((cfg1.win w).arr.view.loc (d.tc : Thread nD τ))
  | ⟨0, _⟩ => m (xLoc d)
  | ⟨1, _⟩ => cod1 m d
  | ⟨2, _⟩ => m (outLoc d)

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (A1 m d w)

/-! ## The body's accesses -/

abbrev rc : Rect S24x4096 := Rect.unit (s := S24x4096) ![0, 0] S24x4096.size inb_S24x4096_S24x4096_0_0
abbrev rx0 : Rect S4x1024x512 := Rect.unit (s := S4x1024x512) ![0, 0, 0] S1x1024x512.size inb_S4x1024x512_S1x1024x512_0_0_0
abbrev rx1 : Rect S4x1024x512 := Rect.unit (s := S4x1024x512) ![1, 0, 0] S1x1024x512.size inb_S4x1024x512_S1x1024x512_1_0_0
abbrev rx2 : Rect S4x1024x512 := Rect.unit (s := S4x1024x512) ![2, 0, 0] S1x1024x512.size inb_S4x1024x512_S1x1024x512_2_0_0
abbrev rx3 : Rect S4x1024x512 := Rect.unit (s := S4x1024x512) ![3, 0, 0] S1x1024x512.size inb_S4x1024x512_S1x1024x512_3_0_0
abbrev ro0 : Rect S4x1024x536 := Rect.unit (s := S4x1024x536) ![0, 0, 0] S1x1024x536.size inb_S4x1024x536_S1x1024x536_0_0_0
abbrev ro1 : Rect S4x1024x536 := Rect.unit (s := S4x1024x536) ![1, 0, 0] S1x1024x536.size inb_S4x1024x536_S1x1024x536_1_0_0
abbrev ro2 : Rect S4x1024x536 := Rect.unit (s := S4x1024x536) ![2, 0, 0] S1x1024x536.size inb_S4x1024x536_S1x1024x536_2_0_0
abbrev ro3 : Rect S4x1024x536 := Rect.unit (s := S4x1024x536) ![3, 0, 0] S1x1024x536.size inb_S4x1024x536_S1x1024x536_3_0_0

/-! ## What the body leaves in the result window's buffer -/

/-- The result window's staging buffer after the body, from the two input windows' blocks: its four stores as pieces,
    last first; row block `i` is the activations' row block `i` followed by the product of columns
    `1024 i … 1024 i + 1023` of the coding block with the identity. -/
def out1_2 (x0 : Vec F S4x1024x512 .f32) (x1 : Vec F S24x4096 .f32) : Vec F S4x1024x536 .f32 :=
  View.canon [⟨ro3, k1_pay1 (k1_pay3 (F := F)) (k1_pay7 (View.ld x1 rc)) (constant S1024x24 .f32 0x00000000#32) (View.ld x0 rx3)⟩,
    ⟨ro2, k1_pay6 (View.ld x1 rc) (View.ld x0 rx2)⟩,
    ⟨ro1, k1_pay5 (View.ld x1 rc) (View.ld x0 rx1)⟩,
    ⟨ro0, k1_pay4 (View.ld x1 rc) (View.ld x0 rx0)⟩]

/-- Its stores tile the buffer (checked by evaluation), so they cover it. -/
theorem cover1_2 (p0 p1 p2 p3 : Vec F S1x1024x536 .f32) (y : S4x1024x536.Idx) :
    ∃ pc ∈ ([⟨ro3, p0⟩, ⟨ro2, p1⟩, ⟨ro1, p2⟩, ⟨ro0, p3⟩] : List (View.Piece (Elt F) S4x1024x536 .f32)), y ∈ pc.1.set :=
  View.cover_of_tiled [⟨ro3, p0⟩, ⟨ro2, p1⟩, ⟨ro1, p2⟩, ⟨ro0, p3⟩] S1x1024x536.size (by rfl) y

/-! ## The body's run -/

set_option maxHeartbeats 4000000 in
/-- The kernel body on whole staging memrefs, the inputs' at read contents and the result's at anything, runs to the
    continuation holding the inputs' as they were and the result's at `out1_2` of the inputs'. -/
theorem sound_kernel (c : Dev nD) (E : Set ℕ) (i : grid1.Coords) (arg1 : Memref sig .tc .vmem S4x1024x512 .f32) (harg1 : arg1.IsWhole) (arg2 : Memref sig .tc .vmem S24x4096 .f32) (harg2 : arg2.IsWhole) (arg3 : Memref sig .tc .vmem S4x1024x536 .f32) (harg3 : arg3.IsWhole)
    (x0 : Vec F S4x1024x512 .f32) (x1 : Vec F S24x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__tc_concat_body i arg1 harg1 arg2 harg2 arg3 harg3) K := by
  simp only [cc1__tc_concat_body_eq_skeleton]; unfold cc1__tc_concat_body_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _)

/-! ## The pipeline's proof data -/

theorem A1_0 (d : Dev nD) : A1 m d 0 = m (xLoc d) := rfl
theorem A1_1 (d : Dev nD) : A1 m d 1 = cod1 m d := rfl
theorem A1_2 (d : Dev nD) : A1 m d 2 = m (outLoc d) := rfl

/-- The pairs the TensorCore's waits may have recorded when the region runs: those at or below the level the
    SparseCore call left it at (the region's own waits, at index `none`, sit at level 0). -/
def recd (d : Dev nD) : Set (SemLoc sig × HIx 1) := {p | (K (F := F)).lev ((d.tc : Thread nD τ), p.1) p.2 ≤ 8}

/-- The proof data of the pipeline on device `d`: the arrays as the region finds them; after the body at point `t`
    each input's buffer at its block and the result's at `out1_2` of the input blocks; the invariant the scoped
    buffers no window stages; nothing owed; full shares. -/
def dats (_ : Fin 1) (d : Dev nD) : Dat τ (Elt F) (HIx 1) ℕ UU ℕ cfg1 d where
  A w := A1 m d w
  after w t := match w with
    | ⟨0, _⟩ => iblk m d 0 t
    | ⟨1, _⟩ => iblk m d 1 t
    | ⟨2, _⟩ => out1_2 (iblk m d 0 t) (iblk m d 1 t)
  Φ _ := Pipeline.scopedRest (Ix := HIx 1) (Name := ℕ) (U := UU) (Lvl := ℕ) (Val := Elt F) spec1 d
  q _ := fullShare
  owed _ := 0
  recorded _ := recd (F := F) d

theorem A_eq (d : Dev nD) (w : Fin cfg1.W) : (dats m 0 d).A w = A1 m d w := by dsimp only [dats]

theorem after1_0 (d : Dev nD) (t : Fin cfg1.N) : (dats m 0 d).after 0 t = iblk m d 0 t := by dsimp only [dats]
theorem after1_1 (d : Dev nD) (t : Fin cfg1.N) : (dats m 0 d).after 1 t = iblk m d 1 t := by dsimp only [dats]
theorem after1_2 (d : Dev nD) (t : Fin cfg1.N) : (dats m 0 d).after 2 t = out1_2 (iblk m d 0 t) (iblk m d 1 t) := by dsimp only [dats]

/-- Each input's current staging buffer holds its block at every point, fetched there or not. -/
theorem before1_0 (d : Dev nD) (t : Fin cfg1.N) (x) : (dats m 0 d).before 0 t x = iblk m d 0 t :=
  ((dats m 0 d).before_in_eq_fetched 0 rfl (fun _ => rfl) (fun _ _ _ => rfl) (fun t => by rw [after1_0]; unfold Dat.blockOf iblk; rw [A_eq]; try rfl) t x).trans
    (by unfold Dat.fetched Dat.blockOf iblk; rw [A_eq]; try rfl)
theorem before1_1 (d : Dev nD) (t : Fin cfg1.N) (x) : (dats m 0 d).before 1 t x = iblk m d 1 t :=
  ((dats m 0 d).before_in_eq_fetched 1 rfl (fun _ => rfl) (fun _ _ _ => rfl) (fun t => by rw [after1_1]; unfold Dat.blockOf iblk; rw [A_eq]; try rfl) t x).trans
    (by unfold Dat.fetched Dat.blockOf iblk; rw [A_eq]; try rfl)

/-! ## The body obligation, at a generic point -/

/-- What the body is called with at point `t`, the windows one by one, -/
def bodyPre (d : Dev nD) (t : Fin cfg1.N) : sProp 𝕄 :=
  iprop((dats m 0 d).Φ t.castSucc ∗ (dats m 0 d).owesAt none t.castSucc
    ∗ (∃ x, owns (d : Thread nD τ) (st1_0 t) fullShare ((dats m 0 d).before 0 t x))
    ∗ (∃ x, owns (d : Thread nD τ) (st1_1 t) fullShare ((dats m 0 d).before 1 t x))
    ∗ (∃ x, owns (d : Thread nD τ) (st1_2 t) fullShare ((dats m 0 d).before 2 t x)))

/-- and what it returns. -/
def bodyPost (d : Dev nD) (t : Fin cfg1.N) : sProp 𝕄 :=
  iprop((dats m 0 d).Φ t.succ ∗ (dats m 0 d).owesAt none t.succ
    ∗ owns (d : Thread nD τ) (st1_0 t) fullShare ((dats m 0 d).after 0 t)
    ∗ owns (d : Thread nD τ) (st1_1 t) fullShare ((dats m 0 d).after 1 t)
    ∗ owns (d : Thread nD τ) (st1_2 t) fullShare ((dats m 0 d).after 2 t))

/-- The body at any point: the inputs' memrefs hold their blocks, so `sound_kernel` applies; the invariant and the
    core's `owes` pass through unread. -/
theorem sound_body (d : Dev nD) (t : Fin cfg1.N) :
    bodyPre m d t ⊢ wp frame (wpE (defs₀ (F := F)) Variants.none d none) Set.univ (bodyAt1 t) (fun _ => bodyPost m d t) := by
  unfold bodyPre bodyPost bodyAt1
  simp only [before1_0, before1_1]
  rw [show (dats m 0 d).Φ t.succ = (dats m 0 d).Φ t.castSucc from rfl,
    show (dats m 0 d).owesAt none t.succ = (dats m 0 d).owesAt none t.castSucc from rfl,
    after1_0, after1_1, after1_2]
  iintro ⟨HΦ, Ho, ⟨%d0, H0⟩, ⟨%d1, H1⟩, ⟨%d2, H2⟩⟩
  iapply (sound_kernel d Set.univ _ _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats (F := F) m 0 d) (defs₀ (F := F)) Variants.none none Set.univ := fun t => by
  rw [bigSep_W1, bigSep_W1]
  exact sound_body m d t

/-! ## The region -/

/-- The result array after the region: the launch contents with each grid point's block written back, in order. -/
def RES (d : Dev nD) : Buf (Elt F) (outLoc d) := (dats m 0 d).arrAt 2 cfg1.N

/-- What the TensorCore owes when the region runs — nothing: its one SparseCore call is behind it — with its recorded
    waits at or below the level that call left them at. -/
def tcOwes (d : Dev nD) : sProp 𝕄 :=
  iprop(∃ W, ⌜(K (F := F)).WBelow (SparseCore.T d) W 8⌝ ∗ owes (SparseCore.T d) (0 : CellTallies nD τ sig (HIx 1)) W)

/-- The thread state the region is entered from: the activations, the coding and the result array whole, and what the
    core owes; -/
def regPre (d : Dev nD) : sProp 𝕄 :=
  iprop((xLoc d ↦{fullShare} m (xLoc d)) ∗ (codLoc d ↦{fullShare} cod1 m d) ∗ (outLoc d ↦{fullShare} m (outLoc d)) ∗ tcOwes (F := F) d)
/-- and the one it leaves: the result array at `RES`. -/
def regPost (d : Dev nD) : sProp 𝕄 :=
  iprop((xLoc d ↦{fullShare} m (xLoc d)) ∗ (codLoc d ↦{fullShare} cod1 m d) ∗ (outLoc d ↦{fullShare} RES m d) ∗ tcOwes (F := F) d)

theorem share_full (d : Dev nD) (w : Fin cfg1.W) : (dats m 0 d).share w = fullShare :=
  (dats m 0 d).share_full (fun _ => rfl) w

/-- The pipeline's three arrays at contents `G`, one by one. -/
theorem arrays1_eq (d : Dev nD) (G : (w : Fin cfg1.W) → Buf (Elt F) ((cfg1.win w).arr.view.loc (d.tc : Thread nD τ))) :
    (dats m 0 d).arrays G = iprop((xLoc d ↦{fullShare} G 0) ∗ (codLoc d ↦{fullShare} G 1) ∗ (outLoc d ↦{fullShare} G 2)) := by
  rw [Pipeline.arrays_eq (Pipeline.pin (pcfgs (F := F)) adm) (dats m) 0 d launch1.arr_whole (share_full m d), bigSep_W1]

/-- A recorded pair within the proof data's bound sits at or below the level the SparseCore call left. -/
theorem lev_of_bound (d : Dev nD) (t : Fin (cfg1.N + 1)) (p : SemLoc sig × HIx 1) (hp : p ∈ (dats m 0 d).bound none t) :
    (K (F := F)).lev (SparseCore.T d, p.1) p.2 ≤ 8 := by
  rcases hp with hp | ⟨w, s, rfl⟩
  · exact hp
  · exact Nat.zero_le _

set_option backward.isDefEq.respectTransparency.types false in
/-- THE REGION: the decided layout, no semaphore of the kernel's own, the body obligation; entered from the three arrays
    and the core's `owes`, left with the result array at `RES`. -/
def reg : Pipeline.RegionSeg (pcfgs (F := F)) adm (dats m) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (body_obligation m d).loose
  hwaits := Pipeline.hwaits_of_owed_zero _ _ _ _ _ _ 0 fun _ _ => rfl
  pre := regPre m
  post := regPost m
  X _ := iprop(emp)
  Y _ := iprop(emp)
  Z _ := iprop(emp)
  hentry d := by
    rw [arrays1_eq]
    unfold regPre tcOwes
    iintro ⟨⟨Hx, Hc, Ho, %W, %hW, HO⟩, -, -⟩
    imodintro
    isplitl [Hx Hc Ho]
    · isplitl [Hx]; · iexact Hx
      isplitl [Hc]; · iexact Hc
      iexact Ho
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitl <;> iempintro
  hin d := by
    rw [show (dats m 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none,
      show (dats m 0 d).Φ (Fin.last (Pipeline.pin (pcfgs (F := F)) adm 0).N) = Pipeline.scopedRest (Ix := HIx 1) (Name := ℕ) (U := UU) (Lvl := ℕ) (Val := Elt F) spec1 d from rfl]
    iintro Hr
    isplitr; · iempintro
    isplitr; · iempintro
    iexact Hr
  hexit d := by
    rw [arrays1_eq]
    unfold regPost tcOwes RES
    rw [(dats m 0 d).arrAt_in 0 rfl _, (dats m 0 d).arrAt_in 1 rfl _]
    iintro ⟨⟨Hx, Hc, Ho⟩, HO, -, -⟩
    imodintro
    isplitl [Hx]; · iexact Hx
    isplitl [Hc]; · iexact Hc
    isplitl [Ho]; · iexact Ho
    unfold Pipeline.Dat.owesAt Pipeline.owesWithin
    icases HO with ⟨%W, %hW, HO⟩
    iexists W; isplitr
    · ipureintro; exact fun p hp => lev_of_bound m d _ p (hW hp)
    iexact HO

/-! ## The pipeline's ghost state, as the launch deals it -/

/-- The launch element of the pipeline's rounds library: its staging cells, and the duty tokens of the transfers its
    loop issues. -/
def g₀ : UP := initOf (Pipeline.cells cfgs cellOf_inj) (Pipeline.launchToks cfgs cellOf_inj)

/-- What @main's proof on device `d` starts from beyond what every launch deals: the staging cells' launch state and
    the duty tokens of the pipeline's transfers. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem G_intro : (BI.own (EP g₀) : sProp 𝕄) ⊢ |={Set.univ}=> bigSep Finset.univ fun d : Dev nD => G (F := F) d := by
  have hc : (bigSep Finset.univ fun c : Dev nD => bigSep Finset.univ fun p : Fin 1 => (Pipeline.cellsGhost cfgs EP p c : sProp 𝕄))
      = bigSep Finset.univ fun d : Dev nD => Pipeline.cellsGhost (Pipeline.pin (pcfgs (F := F)) adm) EP 0 d :=
    bigSep_congr fun d _ => by rw [show (Finset.univ : Finset (Fin 1)) = {0} from rfl, bigSep_singleton]
  have ht : (bigSep Finset.univ fun c : Dev nD => bigSep Finset.univ fun p : Fin 1 => (Pipeline.toksInit cfgs EP p c : sProp 𝕄))
      = bigSep Finset.univ fun d : Dev nD => Pipeline.toksInit (Pipeline.pin (pcfgs (F := F)) adm) EP 0 d :=
    bigSep_congr fun d _ => by rw [show (Finset.univ : Finset (Fin 1)) = {0} from rfl, bigSep_singleton]
  unfold g₀ G
  rw [bigSep_sep', ← hc, ← ht]
  iintro Hu
  imod (Pipeline.fund_ghost cfgs EP cellOf_inj) $$ Hu with ⟨Hg, Ht⟩
  imodintro
  isplitl [Hg] <;> iassumption

end Cert.Proof.KB

end
-- ==== Proof.MainB.lean ====
/-
  @main of the idealized kernel on the TensorCore: the two reshapes (the table and the tokens flattened), the
  SparseCore call (the flat tokens, the flat table and the coding array dealt to the 32 tasks and gathered back with
  the coding array holding the coding), and the TensorCore pallas_call that follows it (the region of Region.lean),
  leaving the arguments as launched and the result array at `RES`.
-/
import proofs.«203767_g38671885534092_cont_8to1_b_939_37_alg».proof.Proof.RegionB

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The TensorCore's unscoped arrays: the three arguments, the two flattened arrays, the coding, the result. -/
abbrev S7 : Finset (DevRef τ sig) := {a0', a1', a2', v0', v1', v2', v3'}

theorem held_S7 (d : Dev nD) (W : Valuation τ sig (Elt F)) :
    (held (T d) S7 W : sProp 𝕄) = iprop((srcLoc d ↦{fullShare} W a0') ∗ (xLoc d ↦{fullShare} W a1') ∗ (tabLoc d ↦{fullShare} W a2')
      ∗ (tabfLoc d ↦{fullShare} W v0') ∗ (srcfLoc d ↦{fullShare} W v1') ∗ (codLoc d ↦{fullShare} W v2') ∗ (outLoc d ↦{fullShare} W v3')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((srcLoc d ↦{fullShare} W main_arg0) ∗ (xLoc d ↦{fullShare} W main_arg1) ∗ (tabLoc d ↦{fullShare} W main_arg2)
      ∗ (tabfLoc d ↦{fullShare} W main_v0) ∗ (srcfLoc d ↦{fullShare} W main_v1) ∗ (codLoc d ↦{fullShare} W main_v2) ∗ (outLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S7 (V0 m d) := by
  rw [unscopedBufs_eq, held_S7]; rfl

/-! ## The two reshapes -/

abbrev op1 : HloOp τ sig (Elt F) := StableHlo.reshape main_arg2 main_v0 rfl shapeCasts_S28x24_S672
abbrev op2 : HloOp τ sig (Elt F) := StableHlo.reshape main_arg0 main_v1 rfl shapeCasts_S64x1024_S65536

theorem hop1 : (op1 (F := F)).bufs ⊆ S7 := show ({a2', v0'} : Finset (DevRef τ sig)) ⊆ S7 by decide
theorem hop2 : (op2 (F := F)).bufs ⊆ S7 := show ({a0', v1'} : Finset (DevRef τ sig)) ⊆ S7 by decide

/-- The valuation after the first reshape, and after both. -/
def V1 (d : Dev nD) : Valuation τ sig (Elt F) := (op1 (F := F)).result (V0 m d)
def V2 (d : Dev nD) : Valuation τ sig (Elt F) := (op2 (F := F)).result (V1 m d)

theorem V1_of_ne (d : Dev nD) (b : DevRef τ sig) (hb : b ∉ ({v0'} : Finset (DevRef τ sig))) : V1 m d b = V0 m d b :=
  (op1 (F := F)).result_of_not_mem (V0 m d) hb
theorem V2_of_ne (d : Dev nD) (b : DevRef τ sig) (hb : b ∉ ({v1'} : Finset (DevRef τ sig))) : V2 m d b = V1 m d b :=
  (op2 (F := F)).result_of_not_mem (V1 m d) hb

theorem V1_v0 (d : Dev nD) : V1 m d v0' = tabf0 m d :=
  StableHlo.reshape_result main_arg2 main_v0 rfl shapeCasts_S28x24_S672 ⟨by decide, rfl⟩ ⟨by decide, rfl⟩ (V0 m d)
theorem V2_v1 (d : Dev nD) : V2 m d v1' = srcf0 m d := by
  unfold V2
  rw [StableHlo.reshape_result main_arg0 main_v1 rfl shapeCasts_S64x1024_S65536 ⟨by decide, rfl⟩ ⟨by decide, rfl⟩ (V1 m d),
    V1_of_ne m d a0' (by decide)]
  rfl

theorem V2_a0 (d : Dev nD) : V2 m d a0' = m (srcLoc d) := by rw [V2_of_ne m d a0' (by decide), V1_of_ne m d a0' (by decide)]; rfl
theorem V2_a1 (d : Dev nD) : V2 m d a1' = m (xLoc d) := by rw [V2_of_ne m d a1' (by decide), V1_of_ne m d a1' (by decide)]; rfl
theorem V2_a2 (d : Dev nD) : V2 m d a2' = m (tabLoc d) := by rw [V2_of_ne m d a2' (by decide), V1_of_ne m d a2' (by decide)]; rfl
theorem V2_v0 (d : Dev nD) : V2 m d v0' = tabf0 m d := by rw [V2_of_ne m d v0' (by decide), V1_v0]
theorem V2_v2 (d : Dev nD) : V2 m d v2' = m (codLoc d) := by rw [V2_of_ne m d v2' (by decide), V1_of_ne m d v2' (by decide)]; rfl
theorem V2_v3 (d : Dev nD) : V2 m d v3' = m (outLoc d) := by rw [V2_of_ne m d v3' (by decide), V1_of_ne m d v3' (by decide)]; rfl

variable [FloatOps F]

/-! ## The call's payloads, and the TensorCore's state after it -/

/-- What the call takes for the two SparseCores, and what it hands back. -/
theorem st0_eq (d : Dev nD) : (bigSep Finset.univ fun c : Fin ((K (F := F)).nCore 0) => (P m).st 0 d c)
    = bigSep Finset.univ fun c : Fin 2 => bigSep Finset.univ fun s : Fin 16 => tilePts m d (wid c s) (m (codLoc d)) := by
  unfold P; rfl
theorem dn0_eq (d : Dev nD) : (bigSep Finset.univ fun c : Fin ((K (F := F)).nCore 0) => (P m).dn 0 d c)
    = bigSep Finset.univ fun c : Fin 2 => bigSep Finset.univ fun s : Fin 16 => tilePts m d (wid c s) (cod1 m d) := by
  unfold P; rfl

omit [FloatOps F] in
/-- After its one call the TensorCore owes nothing: its state is `tcOwes` beside what the region does not touch. -/
theorem tcSt_split (d : Dev nD) :
    (K (F := F)).tcSt EH d 1 ⊢ (iprop(tcOwes (F := F) d ∗ (tcOwes (F := F) d -∗ (K (F := F)).tcSt EH d 1)) : sProp 𝕄) := by
  unfold SparseCore.Cfg.tcSt tcOwes
  rw [(K (F := F)).Otc_end d (le_refl 1), Nat.mul_one]
  iintro ⟨HO, Hrest⟩
  isplitl [HO]; · iexact HO
  iintro HO
  isplitl [HO]; · iexact HO
  iexact Hrest

omit [FloatOps F] in
theorem tcSt_split' (d : Dev nD) :
    (K (F := F)).tcSt EH d ((0 : Fin 1).val + 1) ⊢ (iprop(tcOwes (F := F) d ∗ (tcOwes (F := F) d -∗ (K (F := F)).tcSt EH d 1)) : sProp 𝕄) :=
  tcSt_split d

/-- The arrays both reshapes have run over, one by one. -/
theorem held_V2 (d : Dev nD) :
    (held (T d) S7 (V2 m d) : sProp 𝕄) = iprop((srcLoc d ↦{fullShare} m (srcLoc d)) ∗ (xLoc d ↦{fullShare} m (xLoc d)) ∗ (tabLoc d ↦{fullShare} m (tabLoc d))
      ∗ (tabfLoc d ↦{fullShare} tabf0 m d) ∗ (srcfLoc d ↦{fullShare} srcf0 m d) ∗ (codLoc d ↦{fullShare} m (codLoc d)) ∗ (outLoc d ↦{fullShare} m (outLoc d))) := by
  rw [held_S7, V2_a0, V2_a1, V2_a2, V2_v0, V2_v1, V2_v2, V2_v3]

/-! ## The region's step, over the thread states of Region.lean -/

theorem regPre_intro (d : Dev nD) :
    iprop((xLoc d ↦{fullShare} m (xLoc d)) ∗ (codLoc d ↦{fullShare} cod1 m d) ∗ (outLoc d ↦{fullShare} m (outLoc d)) ∗ tcOwes (F := F) d)
      ⊢ (regPre m d : sProp 𝕄) := Entails.of_eq (by rw [regPre])
theorem regPost_elim (d : Dev nD) :
    (regPost m d : sProp 𝕄)
      ⊢ iprop((xLoc d ↦{fullShare} m (xLoc d)) ∗ (codLoc d ↦{fullShare} cod1 m d) ∗ (outLoc d ↦{fullShare} RES m d) ∗ tcOwes (F := F) d) :=
  Entails.of_eq (by rw [regPost])

set_option backward.isDefEq.respectTransparency.types false in
/-- The pallas_call on device `d`: from the region boundary, the three arrays and the core's `owes`, the level facts and
    the pipeline's ghost state, it runs to the boundary and the arrays with the result at `RES`. -/
theorem region_step (d : Dev nD) (Q : PUnit → sProp 𝕄) :
    iprop((iprop(boundary (SparseCore.T d) ∗ regPost m d) -∗ wp frame (wpE (D (F := F)) 𝒱 (SparseCore.T d) none) Set.univ (Prog.ret ⟨⟩) Q)
        ∗ boundary (SparseCore.T d) ∗ regPre m d ∗ levAts (K (F := F)).L (K (F := F)).lev ∗ G (F := F) d)
      ⊢ wp frame (wpE (D (F := F)) 𝒱 (SparseCore.T d) none) Set.univ (Prog.op (TpuEff.customCall (Pipeline.entry (0 : Fin 1)) ()) Prog.ret) Q :=
  Pipeline.RegionSeg.wp (pcfgs (F := F)) adm (dats m) (none : HIx 1) cellOf_inj EP defs₀ 𝒱₀ (K (F := F)).L (K (F := F)).lev (reg m) d none
    (fun _ h => nomatch h) Prog.ret Q

/-! ## @main on the TensorCore -/

/-- What @main leaves the claim: the arguments at their launch contents, the result array at `RES`. -/
abbrev FIN (d : Dev nD) : sProp 𝕄 :=
  iprop((srcLoc d ↦{fullShare} m (srcLoc d)) ∗ (xLoc d ↦{fullShare} m (xLoc d)) ∗ (tabLoc d ↦{fullShare} m (tabLoc d)) ∗ (outLoc d ↦{fullShare} RES m d))

set_option backward.isDefEq.respectTransparency.types false in
set_option maxHeartbeats 1600000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the table flattened
  iapply (wp_hlo_within 𝒱 (SparseCore.T d) none Set.univ (op := op1) (S := S7) hop1 (V := V0 m d)) $$ [Hb Hheld]
  · isplitl [Hb] <;> iassumption
  iintro ⟨Hb, Hheld⟩
  rw [wp_ret, show (op1 (F := F)).result (V0 m d) = V1 m d from rfl]; imodintro
  -- the tokens flattened
  iapply (wp_hlo_within 𝒱 (SparseCore.T d) none Set.univ (op := op2) (S := S7) hop2 (V := V1 m d)) $$ [Hb Hheld]
  · isplitl [Hb] <;> iassumption
  iintro ⟨Hb, Hheld⟩
  rw [wp_ret, show (op2 (F := F)).result (V1 m d) = V2 m d from rfl]; imodintro
  ihave Hh := (Entails.of_eq (held_V2 m d)) $$ Hheld
  icases Hh with ⟨Hsrc, Hx, Htab, Htabf, Hsrcf, Hcod, Hout⟩
  -- the flat tokens, the flat table and the coding array dealt to the 32 tasks
  ihave Hd := (deal m d (m (codLoc d))) $$ [Hsrcf Htabf Hcod]
  · isplitl [Hsrcf]; · iexact Hsrcf
    isplitl [Htabf] <;> iassumption
  icases Hd with ⟨Htabr, Htiles⟩
  -- the call
  iapply ((K (F := F)).wp_run (D (F := F)) 𝒱 (EH := EH) (P := P m) κ d 0) $$ [Hst Htiles Hb Hsrc Hx Htab Htabr Hout HG]
  isplitr; · iexact Hctx
  isplitl [Hst]; · iexact Hst
  isplitl [Htiles]; · rw [st0_eq]; iexact Htiles
  iintro ⟨Hst, Hdn⟩
  ihave Hdn' := (Entails.of_eq (dn0_eq m d)) $$ Hdn
  ihave Hu := (undeal m d (cod1 m d)) $$ [Htabr Hdn']
  · isplitl [Htabr] <;> iassumption
  icases Hu with ⟨Hsrcf, Htabf, Hcod⟩
  -- the TensorCore pallas_call
  ihave Hsp := (tcSt_split' d) $$ Hst
  icases Hsp with ⟨HO, Hback⟩
  ihave Hlev := (SparseCore.Cfg.ctx_levAts κ) $$ Hctx
  iapply ((K (F := F)).wp_liftProg (D (F := F)) 𝒱 (SparseCore.T d) (Set.univ : Set ℕ) none
    (Prog.op (TpuEff.customCall (Pipeline.entry (0 : Fin 1)) ()) Prog.ret) _)
  iapply (region_step m d _) $$ [HO Hback Hb Hsrc Hx Htab Hcod Hout HG]
  isplitr [Hb Hx Hcod Hout HO HG]
  · iintro ⟨Hb, Hpost⟩
    ihave Hp := (regPost_elim m d) $$ Hpost
    icases Hp with ⟨Hx, Hcod, Hout, HO⟩
    rw [wp_ret]; imodintro; imodintro
    isplitl [HO Hback]; · iapply Hback; iexact HO
    isplitl [Hsrc]; · iexact Hsrc
    isplitl [Hx]; · iexact Hx
    isplitl [Htab]; · iexact Htab
    iexact Hout
  isplitl [Hb]; · iexact Hb
  isplitl [Hx Hcod Hout HO]
  · iapply (regPre_intro m d)
    isplitl [Hx]; · iexact Hx
    isplitl [Hcod]; · iexact Hcod
    isplitl [Hout]; · iexact Hout
    iexact HO
  isplitr; · iexact Hlev
  iexact HG

end Cert.Proof.KB

end
-- ==== Proof.TcValue.lean ====
/-
  The value of the TensorCore region at the ideal instance.

  Grid point `t` of the sixteen writes block `t` (rows `4 t … 4 t + 3`) of the result. Row block `i` of it is the
  activations' row block `i` followed by the TRANSPOSE of columns `1024 i … 1024 i + 1023` of the coding block, the
  transpose computed as a product with the 24 x 24 identity, contracting the slab's first axis: at the extended reals
  `Σ_k slab(k, r) · δ(k, c) = slab(c, r)`. So every point writes its block of ONE function of the two arrays,
  `Spec.outOf`, and the sixteen blocks cover the result.
-/
import proofs.«203767_g38671885534092_cont_8to1_b_939_37_alg».proof.Proof.Region
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

open scoped BigOperators

namespace Cert.Proof.KI

open Cert.KernelIdeal Cert.KernelIdeal.Gen
open Idealize.ShloMosaic Idealize.ShloMosaic.TcCoe Idealize.ShloMosaic.ValueIdx
open Idealize.ShloMosaic.Pipeline (Dat Cfg Window)

/-! ## The identity matrix and the product with it -/

/-- The kernel's 24 x 24 matrix is the identity: `1` where the two coordinates agree, `0` elsewhere. -/
theorem eye_apply (k c : Fin 24) : (k1_pay3 (F := Ideal)) (ix2 k c) = if k = c then (1 : EReal) else 0 := by
  unfold k1_pay3
  show ((((IntOp.cmpi .eq (iota .tc S24x24 32 [0] iota_S24x24_d0_w32 (ix2 k c)) (iota .tc S24x24 32 [1] iota_S24x24_d1_w32 (ix2 k c))).setWidth 32).toInt : ℝ) : EReal) = _
  rw [iota_single_apply, iota_single_apply, toInt_setWidth_bit]
  show ((((IntOp.cmpi .eq (BitVec.ofNat 32 k.val) (BitVec.ofNat 32 c.val)).toNat : ℤ) : ℝ) : EReal) = _
  have hk : k.val < 24 := k.isLt
  have hc : c.val < 24 := c.isLt
  by_cases h : k = c
  · subst h
    rw [if_pos rfl]
    have e : IntOp.cmpi .eq (BitVec.ofNat 32 k.val) (BitVec.ofNat 32 k.val) = 1#1 := by
      show BitVec.ofBool (BitVec.ofNat 32 k.val == BitVec.ofNat 32 k.val) = 1#1
      rw [beq_self_eq_true]; rfl
    rw [e]; norm_num
  · rw [if_neg h]
    have hne : BitVec.ofNat 32 k.val ≠ BitVec.ofNat 32 c.val := by
      intro e
      have := congrArg BitVec.toNat e
      rw [BitVec.toNat_ofNat, BitVec.toNat_ofNat, Nat.mod_eq_of_lt (by omega), Nat.mod_eq_of_lt (by omega)] at this
      exact h (Fin.ext this)
    have e : IntOp.cmpi .eq (BitVec.ofNat 32 k.val) (BitVec.ofNat 32 c.val) = 0#1 := by
      show BitVec.ofBool (BitVec.ofNat 32 k.val == BitVec.ofNat 32 c.val) = 0#1
      rw [beq_eq_false_iff_ne.mpr hne]; rfl
    rw [e]; norm_num

/-- The product of a 24 x 1024 slab, contracted on its first axis, with the identity is the slab transposed. -/
theorem matmul_eye_apply (slab : FVec Ideal S24x1024 .f32) (r : Fin 1024) (c : Fin 24) :
    matmul dot_S24x1024_S24x24_S1024x24_0_0_1_1_n_n (some .fp32) slab (k1_pay3 (F := Ideal)) (constant (F := Ideal) S1024x24 .f32 0x00000000#32) (ix2 r c)
      = slab (ix2 c r) := by
  simp only [matmul]
  rw [Ideal.matmul_constant_zero_apply]
  have hl : ∀ q : (dot_S24x1024_S24x24_S1024x24_0_0_1_1_n_n).contr.Idx,
      (dot_S24x1024_S24x24_S1024x24_0_0_1_1_n_n).lhsIdx (ix2 r c) q
        = ix2 (⟨(contrEquiv1 dot_S24x1024_S24x24_S1024x24_0_0_1_1_n_n 24 rfl rfl q).val, (contrEquiv1 dot_S24x1024_S24x24_S1024x24_0_0_1_1_n_n 24 rfl rfl q).isLt⟩ : Fin 24) r := by
    intro q; funext a; refine Fin.ext ?_
    match a with
    | ⟨0, _⟩ => exact DotDims.lhsIdx_val_of_single dot_S24x1024_S24x24_S1024x24_0_0_1_1_n_n (cl := (0 : Fin 2)) rfl (ix2 r c) q
    | ⟨1, _⟩ => rfl
  have hr : ∀ q : (dot_S24x1024_S24x24_S1024x24_0_0_1_1_n_n).contr.Idx,
      (dot_S24x1024_S24x24_S1024x24_0_0_1_1_n_n).rhsIdx (ix2 r c) q
        = ix2 (⟨(contrEquiv1 dot_S24x1024_S24x24_S1024x24_0_0_1_1_n_n 24 rfl rfl q).val, (contrEquiv1 dot_S24x1024_S24x24_S1024x24_0_0_1_1_n_n 24 rfl rfl q).isLt⟩ : Fin 24) c := by
    intro q; funext a; refine Fin.ext ?_
    match a with
    | ⟨0, _⟩ => exact DotDims.rhsIdx_val_of_single dot_S24x1024_S24x24_S1024x24_0_0_1_1_n_n (cr := (0 : Fin 2)) rfl (ix2 r c) q
    | ⟨1, _⟩ => rfl
  simp only [hl, hr]
  rw [← Equiv.sum_comp (contrEquiv1 dot_S24x1024_S24x24_S1024x24_0_0_1_1_n_n 24 rfl rfl).symm]
  simp only [Equiv.apply_symm_apply, Fin.eta]
  rw [Finset.sum_eq_single c]
  · rw [eye_apply, if_pos rfl, mul_one]
  · intro b _ hb
    rw [eye_apply, if_neg hb, mul_zero]
  · intro h; exact absurd (Finset.mem_univ c) h

/-! ## A row block's payload at an index -/

section Layout
variable {α : Type}

/-- A cast that adds a leading unit axis, read at `(0, r, c)`, is the operand at `(r, c)`. -/
theorem addUnit3 {A B : Nat} (v : (⟨2, ![A, B]⟩ : Shape).Idx → α) (h : (⟨2, ![A, B]⟩ : Shape).ShapeCasts ⟨3, ![1, A, B]⟩)
    (z : Fin 1) (r : Fin A) (c : Fin B) : shapeCast (⟨3, ![1, A, B]⟩ : Shape) v h (ix3 z r c) = v (ix2 r c) := by
  refine (shapeCast_addUnit_apply ![A, B] v h (ix3 z r c)).trans (congrArg v ?_)
  funext a
  match a with
  | ⟨0, _⟩ => rfl
  | ⟨1, _⟩ => rfl

/-- A cast that drops a leading unit axis, read at `(r, c)`, is the operand at `(0, r, c)`. -/
theorem dropUnit3 {A B : Nat} (v : (⟨3, ![1, A, B]⟩ : Shape).Idx → α) (h : (⟨3, ![1, A, B]⟩ : Shape).ShapeCasts ⟨2, ![A, B]⟩)
    (r : Fin A) (c : Fin B) : shapeCast (⟨2, ![A, B]⟩ : Shape) v h (ix2 r c) = v (ix3 (0 : Fin 1) r c) := by
  refine (shapeCast_dropUnit_apply ![A, B] v h (ix2 r c)).trans (congrArg v ?_)
  funext a
  match a with
  | ⟨0, _⟩ => rfl
  | ⟨1, _⟩ => rfl
  | ⟨2, _⟩ => rfl

end Layout

/-- What is stored into one row block of the result's staging buffer, from the coding block `v0` and the activations'
    row block `v9`: the activations followed by the product of columns `o … o + 1023` of the coding block with the
    identity. -/
def rowPay (o : Nat) (hs : S24x4096.Slices ![0, o] S24x1024) (v0 : Vec Ideal S24x4096 .f32) (v9 : Vec Ideal S1x1024x512 .f32) :
    FVec Ideal S1x1024x536 .f32 :=
  shapeCast S1x1024x536
    (concatenate S1024x536 1
      [⟨S1024x512, (shapeCast S1024x512 v9 shapeCasts_S1x1024x512_S1024x512 : FVec Ideal S1024x512 .f32)⟩,
        ⟨S1024x24, (matmul dot_S24x1024_S24x24_S1024x24_0_0_1_1_n_n (some .fp32)
          (extractStridedSlice S24x1024 ![0, o] (shapeCast S24x4096 v0 shapeCasts_S24x4096_S24x4096 : FVec Ideal S24x4096 .f32) hs : FVec Ideal S24x1024 .f32)
          (k1_pay3 (F := Ideal)) (constant (F := Ideal) S1024x24 .f32 0x00000000#32) : FVec Ideal S1024x24 .f32)⟩]
      concatenates_S1024x512_S1024x24_S1024x536_d1 : FVec Ideal S1024x536 .f32)
    shapeCasts_S1024x536_S1x1024x536

/-- The four stores' payloads are that term at the offsets 0, 1024, 2048, 3072. -/
theorem pay4_eq (v0 : Vec Ideal S24x4096 .f32) (v9 : Vec Ideal S1x1024x512 .f32) :
    k1_pay4 v0 v9 = rowPay 0 slices_S24x4096_o0_0_S24x1024 v0 v9 := rfl
theorem pay5_eq (v0 : Vec Ideal S24x4096 .f32) (v9 : Vec Ideal S1x1024x512 .f32) :
    k1_pay5 v0 v9 = rowPay 1024 slices_S24x4096_o0_1024_S24x1024 v0 v9 := rfl
theorem pay6_eq (v0 : Vec Ideal S24x4096 .f32) (v9 : Vec Ideal S1x1024x512 .f32) :
    k1_pay6 v0 v9 = rowPay 2048 slices_S24x4096_o0_2048_S24x1024 v0 v9 := rfl
theorem pay1_eq (v0 : Vec Ideal S24x4096 .f32) (v9 : Vec Ideal S1x1024x512 .f32) :
    k1_pay1 (k1_pay3 (F := Ideal)) (k1_pay7 v0) (constant (F := Ideal) S1024x24 .f32 0x00000000#32) v9
      = rowPay 3072 slices_S24x4096_o0_3072_S24x1024 v0 v9 := rfl

/-- A row block's payload at `(0, r, c)`: the activations at `(0, r, c)` for `c < 512`, else the coding block at
    `(c − 512, o + r)`. -/
theorem rowPay_apply (o : Nat) (ho : o + 1024 ≤ 4096) (hs : S24x4096.Slices ![0, o] S24x1024)
    (v0 : Vec Ideal S24x4096 .f32) (v9 : Vec Ideal S1x1024x512 .f32) (z : Fin 1) (r : Fin 1024) (c : Fin 536) :
    rowPay o hs v0 v9 (ix3 z r c)
      = if h : c.val < 512 then v9 (ix3 (0 : Fin 1) r (⟨c.val, h⟩ : Fin 512))
        else v0 (ix2 (⟨c.val - 512, by have := c.isLt; omega⟩ : Fin 24) (⟨o + r.val, by have := r.isLt; omega⟩ : Fin 4096)) := by
  unfold rowPay
  refine (addUnit3 _ _ z r c).trans ?_
  by_cases h : c.val < 512
  · rw [dif_pos h]
    refine (concatenate_pair_apply_left (t := S1024x536) (s₁ := S1024x512) (s₂ := S1024x24) 1 _ _
      concatenates_S1024x512_S1024x24_S1024x536_d1 (ix2 r c) rfl (ix2 r (⟨c.val, h⟩ : Fin 512)) (fun a => by
        match a with
        | ⟨0, _⟩ => rfl
        | ⟨1, _⟩ => rfl)).trans ?_
    exact dropUnit3 v9 _ r _
  · rw [dif_neg h]
    have hc : c.val - 512 < 24 := by have := c.isLt; omega
    refine (concatenate_pair_apply_right (t := S1024x536) (s₁ := S1024x512) (s₂ := S1024x24) 1 _ _
      concatenates_S1024x512_S1024x24_S1024x536_d1 (ix2 r c) rfl rfl (ix2 r (⟨c.val - 512, hc⟩ : Fin 24)) (fun a ha => by
        match a with
        | ⟨0, _⟩ => rfl
        | ⟨1, _⟩ => exact absurd rfl ha) (show c.val - 512 + 512 = c.val by omega)).trans ?_
    refine (matmul_eye_apply _ r ⟨c.val - 512, hc⟩).trans ?_
    refine (extractStridedSlice_apply ![0, o] _ hs (ix2 (⟨c.val - 512, hc⟩ : Fin 24) r)
      (ix2 (⟨c.val - 512, by omega⟩ : Fin 24) (⟨o + r.val, by have := r.isLt; omega⟩ : Fin 4096)) (fun a => by
        match a with
        | ⟨0, _⟩ => show c.val - 512 = 0 + (c.val - 512); omega
        | ⟨1, _⟩ => rfl)).trans ?_
    rw [shapeCast_self]

/-! ## The block a point writes, as one function of the two input blocks -/

theorem zeros2 : (![0, 0] : Fin 2 → Nat) = fun _ => 0 := funext fun a => by fin_cases a <;> rfl

/-- What the body leaves in the result's staging buffer: row block `i` is the activations' row block `i` followed by
    the transpose of columns `1024 i … 1024 i + 1023` of the coding block. -/
def Gblk (x0 : Vec Ideal S4x1024x512 .f32) (x1 : Vec Ideal S24x4096 .f32) : Vec Ideal S4x1024x536 .f32 := fun y =>
  if h : (y 2).val < 512 then x0 (ix3 (y 0 : Fin 4) (y 1 : Fin 1024) (⟨(y 2).val, h⟩ : Fin 512))
  else x1 (ix2 (⟨(y 2).val - 512, by have h2 : (y 2).val < 536 := (y 2).isLt; omega⟩ : Fin 24)
    (⟨1024 * (y 0 : Fin 4).val + (y 1 : Fin 1024).val, by
      have h0 : (y 0).val < 4 := (y 0).isLt; have h1 : (y 1).val < 1024 := (y 1).isLt; omega⟩ : Fin 4096))

theorem Gblk_ix (x0 : Vec Ideal S4x1024x512 .f32) (x1 : Vec Ideal S24x4096 .f32) (i : Fin 4) (r : Fin 1024) (c : Fin 536) :
    Gblk x0 x1 (ix3 i r c)
      = if h : c.val < 512 then x0 (ix3 i r (⟨c.val, h⟩ : Fin 512))
        else x1 (ix2 (⟨c.val - 512, by have := c.isLt; omega⟩ : Fin 24)
          (⟨1024 * i.val + r.val, by have := i.isLt; have := r.isLt; omega⟩ : Fin 4096)) := rfl

/-- The store into row block `i` leaves `Gblk` under its rectangle. -/
theorem piece_eq (i : Nat) (hi : i < 4) (o : Nat) (ho : o = 1024 * i) (hs : S24x4096.Slices ![0, o] S24x1024)
    (inbx : ∀ a, (![i, 0, 0] : Fin 3 → Nat) a + S1x1024x512.size a ≤ S4x1024x512.size a)
    (inbo : ∀ a, (![i, 0, 0] : Fin 3 → Nat) a + S1x1024x536.size a ≤ S4x1024x536.size a)
    (x0 : Vec Ideal S4x1024x512 .f32) (x1 : Vec Ideal S24x4096 .f32) (x : S1x1024x536.Idx) :
    rowPay o hs (View.ld x1 rc) (View.ld x0 (Rect.unit (s := S4x1024x512) ![i, 0, 0] S1x1024x512.size inbx)) x
      = Gblk x0 x1 ((Rect.unit (s := S4x1024x536) ![i, 0, 0] S1x1024x536.size inbo).emb x) := by
  obtain ⟨z, r, c, rfl⟩ : ∃ (z : Fin 1) (r : Fin 1024) (c : Fin 536), x = ix3 z r c := ⟨x 0, x 1, x 2, eq_ix3 x⟩
  have hz : z = 0 := Subsingleton.elim _ _
  subst hz
  rw [rowPay_apply o (by omega) hs]
  have hemb : (Rect.unit (s := S4x1024x536) ![i, 0, 0] S1x1024x536.size inbo).emb (ix3 (0 : Fin 1) r c)
      = ix3 (⟨i, hi⟩ : Fin 4) r c := by
    funext a; refine Fin.ext ?_
    match a with
    | ⟨0, _⟩ => show i + 1 * 0 = i; omega
    | ⟨1, _⟩ => show 0 + 1 * r.val = r.val; omega
    | ⟨2, _⟩ => show 0 + 1 * c.val = c.val; omega
  rw [hemb, Gblk_ix]
  by_cases h : c.val < 512
  · rw [dif_pos h, dif_pos h]
    show x0 ((Rect.unit (s := S4x1024x512) ![i, 0, 0] S1x1024x512.size inbx).idx (ix3 (0 : Fin 1) r (⟨c.val, h⟩ : Fin 512))) = _
    refine congrArg x0 (funext fun a => Fin.ext ?_)
    match a with
    | ⟨0, _⟩ => show i + 1 * 0 = i; omega
    | ⟨1, _⟩ => show 0 + 1 * r.val = r.val; omega
    | ⟨2, _⟩ => show 0 + 1 * c.val = c.val; omega
  · rw [dif_neg h, dif_neg h]
    rw [View.ld_unit_zero (S := S24x4096) zeros2]
    refine congrArg x1 (congrArg (fun q : Fin 4096 => ix2 (⟨c.val - 512, by have := c.isLt; omega⟩ : Fin 24) q) (Fin.ext ?_))
    show o + r.val = 1024 * i + r.val
    omega

/-- The body's four stores leave `Gblk` of the two input blocks. -/
theorem out1_2_eq (x0 : Vec Ideal S4x1024x512 .f32) (x1 : Vec Ideal S24x4096 .f32) : out1_2 (F := Ideal) x0 x1 = Gblk x0 x1 := by
  funext y
  unfold out1_2
  refine View.canon_apply_of_pieces (Gblk x0 x1) _ (fun p hp x => ?_) y (cover1_2 _ _ _ _ y)
  rcases List.mem_cons.mp hp with rfl | hp
  · exact (congrFun (pay1_eq _ _) x).trans (piece_eq 3 (by omega) 3072 rfl slices_S24x4096_o0_3072_S24x1024 inb_S4x1024x512_S1x1024x512_3_0_0 inb_S4x1024x536_S1x1024x536_3_0_0 x0 x1 x)
  rcases List.mem_cons.mp hp with rfl | hp
  · exact (congrFun (pay6_eq _ _) x).trans (piece_eq 2 (by omega) 2048 rfl slices_S24x4096_o0_2048_S24x1024 inb_S4x1024x512_S1x1024x512_2_0_0 inb_S4x1024x536_S1x1024x536_2_0_0 x0 x1 x)
  rcases List.mem_cons.mp hp with rfl | hp
  · exact (congrFun (pay5_eq _ _) x).trans (piece_eq 1 (by omega) 1024 rfl slices_S24x4096_o0_1024_S24x1024 inb_S4x1024x512_S1x1024x512_1_0_0 inb_S4x1024x536_S1x1024x536_1_0_0 x0 x1 x)
  rcases List.mem_cons.mp hp with rfl | hp
  · exact (congrFun (pay4_eq _ _) x).trans (piece_eq 0 (by omega) 0 rfl slices_S24x4096_o0_0_S24x1024 inb_S4x1024x512_S1x1024x512_0_0_0 inb_S4x1024x536_S1x1024x536_0_0_0 x0 x1 x)
  · exact absurd hp List.not_mem_nil

/-- `Gblk` of block `t` of the activations and of the coding array is block `t` of `Spec.outOf`: stated over plain
    arrays, the blocks named by what they read. -/
theorem Gblk_eq_outOf (x : Spec.S64x1024x512.Idx → EReal) (cod : Spec.S24x65536.Idx → EReal) (t : Nat) (ht : t < 16)
    (x0 : Vec Ideal S4x1024x512 .f32) (x1 : Vec Ideal S24x4096 .f32)
    (h0 : ∀ (i : Fin 4) (r : Fin 1024) (c : Fin 512), x0 (ix3 i r c) = x (ix3 (⟨4 * t + i.val, by have := i.isLt; omega⟩ : Fin 64) r c))
    (h1 : ∀ (k : Fin 24) (q : Fin 4096), x1 (ix2 k q) = cod (ix2 k (⟨4096 * t + q.val, by have := q.isLt; omega⟩ : Fin 65536)))
    (i : Fin 4) (r : Fin 1024) (c : Fin 536) (j : Spec.S64x1024x536.Idx)
    (hj0 : (j 0).val = 4 * t + i.val) (hj1 : (j 1).val = r.val) (hj2 : (j 2).val = c.val) :
    Gblk x0 x1 (ix3 i r c) = Spec.outOf x cod j := by
  rw [Gblk_ix]
  unfold Spec.outOf
  by_cases h : c.val < 512
  · rw [dif_pos h, dif_pos (show (j 2).val < 512 by omega), h0]
    refine congrArg x (funext fun a => Fin.ext ?_)
    match a with
    | ⟨0, _⟩ => exact hj0.symm
    | ⟨1, _⟩ => exact hj1.symm
    | ⟨2, _⟩ => exact hj2.symm
  · rw [dif_neg h, dif_neg (show ¬ (j 2).val < 512 by omega), h1]
    refine congrArg cod (funext fun a => Fin.ext ?_)
    match a with
    | ⟨0, _⟩ => show c.val - 512 = (j 2).val - 512; omega
    | ⟨1, _⟩ =>
      show 4096 * t + (1024 * i.val + r.val) = 1024 * (j 0).val + (j 1).val
      omega

/-! ## From the blocks to the array -/

section Array

variable (m : (ℓ : Loc nD τ sig) → Buf (Elt Ideal) ℓ)

/-- The printed index maps, decided over the grid: point `t` reads block `(t, 0, 0)` of the activations and block
    `(0, t)` of the coding array and writes block `(t, 0, 0)` of the result. -/
theorem idx_facts : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = t.val
    ∧ win1_2.index t (0 : Fin 3) = t.val ∧ win1_2.index t (1 : Fin 3) = 0 ∧ win1_2.index t (2 : Fin 3) = 0 :=
  (by decide +kernel : ∀ t : Fin grid1.N, _)

/-- The activations' block at point `t`, read at an index. -/
theorem iblk0_apply (d : Dev nD) (t : Fin cfg1.N) (i : Fin 4) (r : Fin 1024) (c : Fin 512) :
    iblk m d 0 t (ix3 i r c) = m (xLoc d) (ix3 (⟨4 * t.val + i.val, by have := i.isLt; have : t.val < 16 := t.isLt; omega⟩ : Fin 64) r c) := by
  obtain ⟨e00, e01, e02, -, -, -, -, -⟩ := idx_facts t
  show A1 m d 0 (((cfg1.win 0).blk t).view.emb (ix3 i r c)) = _
  rw [A1_0]
  refine congrArg (m (xLoc d)) (funext fun a => Fin.ext ?_)
  match a with
  | ⟨0, _⟩ => show win1_0.index t (0 : Fin 3) * 4 + 1 * i.val = 4 * t.val + i.val; omega
  | ⟨1, _⟩ => show win1_0.index t (1 : Fin 3) * 1024 + 1 * r.val = r.val; omega
  | ⟨2, _⟩ => show win1_0.index t (2 : Fin 3) * 512 + 1 * c.val = c.val; omega

/-- The coding array's block at point `t`, read at an index. -/
theorem iblk1_apply (d : Dev nD) (t : Fin cfg1.N) (k : Fin 24) (q : Fin 4096) :
    iblk m d 1 t (ix2 k q) = cod1 m d (ix2 k (⟨4096 * t.val + q.val, by have := q.isLt; have : t.val < 16 := t.isLt; omega⟩ : Fin 65536)) := by
  obtain ⟨-, -, -, e10, e11, -, -, -⟩ := idx_facts t
  show A1 m d 1 (((cfg1.win 1).blk t).view.emb (ix2 k q)) = _
  rw [A1_1]
  refine congrArg (cod1 m d) (funext fun a => Fin.ext ?_)
  match a with
  | ⟨0, _⟩ => show win1_1.index t (0 : Fin 2) * 24 + 1 * k.val = k.val; omega
  | ⟨1, _⟩ => show win1_1.index t (1 : Fin 2) * 4096 + 1 * q.val = 4096 * t.val + q.val; omega

/-- WHAT POINT `t` WRITES BACK is block `t` of `Spec.outOf` of the activations and the coding array. -/
theorem flushed_eq (d : Dev nD) (t : Fin cfg1.N) :
    (dats (F := Ideal) m 0 d).flushed 2 t
      = ((cfg1.win 2).blk t).view.read (Elt Ideal) (Spec.outOf (m (xLoc d)) (cod1 m d) : Buf (Elt Ideal) (outLoc d)) := by
  show (cfg1.win 2).cut (grid1.coords t) ((dats (F := Ideal) m 0 d).after 2 t) = _
  rw [after1_2, out1_2_eq]
  obtain ⟨-, -, -, -, -, e20, e21, e22⟩ := idx_facts t
  funext y
  show Gblk (iblk m d 0 t) (iblk m d 1 t) (ix3 (y 0 : Fin 4) (y 1 : Fin 1024) (y 2 : Fin 536))
    = Spec.outOf (m (xLoc d)) (cod1 m d) (((cfg1.win 2).blk t).view.emb y)
  refine Gblk_eq_outOf (m (xLoc d)) (cod1 m d) t.val t.isLt _ _ (iblk0_apply m d t) (iblk1_apply m d t) _ _ _ _ ?_ ?_ ?_
  · show win1_2.index t (0 : Fin 3) * 4 + 1 * (y 0).val = 4 * t.val + (y 0).val; omega
  · show win1_2.index t (1 : Fin 3) * 1024 + 1 * (y 1).val = (y 1).val; omega
  · show win1_2.index t (2 : Fin 3) * 536 + 1 * (y 2).val = (y 2).val; omega

/-- An index of the result is in point `t`'s block iff each coordinate is in the block's range on its axis. -/
theorem mem_blk (t : Fin cfg1.N) (i : S64x1024x536.Idx) :
    i ∈ ((cfg1.win 2).blk t).view.set ↔ ∀ a : Fin 3, win1_2.index t a * S4x1024x536.size a ≤ (i a).val
      ∧ (i a).val < win1_2.index t a * S4x1024x536.size a + S4x1024x536.size a := by
  show i ∈ ((View.whole main_v3).slice (win1_2.rect t)).set ↔ _
  rw [View.set_slice_whole, Rect.mem_set_unit]
  exact Iff.rfl

/-- The sixteen blocks cover the result: row `b` is in block `b / 4`. -/
theorem covered (i : S64x1024x536.Idx) :
    ∃ t : Fin cfg1.N, (cfg1.win 2).flush t = true ∧ i ∈ ((cfg1.win 2).blk t).view.set := by
  have hi0 : (i 0).val < 64 := (i 0).isLt
  have hi1 : (i 1).val < 1024 := (i 1).isLt
  have hi2 : (i 2).val < 536 := (i 2).isLt
  have hN : (i 0).val / 4 < cfg1.N := by show (i 0).val / 4 < 16; omega
  obtain ⟨-, -, -, -, -, e20, e21, e22⟩ := idx_facts ⟨(i 0).val / 4, hN⟩
  have e20' : win1_2.index ⟨(i 0).val / 4, hN⟩ (0 : Fin 3) = (i 0).val / 4 := e20
  refine ⟨⟨(i 0).val / 4, hN⟩, flush1_2 _, ?_⟩
  rw [mem_blk]
  intro a
  match a with
  | ⟨0, _⟩ =>
    show win1_2.index ⟨(i 0).val / 4, hN⟩ (0 : Fin 3) * 4 ≤ (i 0).val ∧ (i 0).val < win1_2.index ⟨(i 0).val / 4, hN⟩ (0 : Fin 3) * 4 + 4
    omega
  | ⟨1, _⟩ =>
    show win1_2.index ⟨(i 0).val / 4, hN⟩ (1 : Fin 3) * 1024 ≤ (i 1).val ∧ (i 1).val < win1_2.index ⟨(i 0).val / 4, hN⟩ (1 : Fin 3) * 1024 + 1024
    omega
  | ⟨2, _⟩ =>
    show win1_2.index ⟨(i 0).val / 4, hN⟩ (2 : Fin 3) * 536 ≤ (i 2).val ∧ (i 2).val < win1_2.index ⟨(i 0).val / 4, hN⟩ (2 : Fin 3) * 536 + 536
    omega

/-- THE RESULT ARRAY after the region is `Spec.outOf` of the activations and the coding array. -/
theorem RES_ideal (d : Dev nD) : RES (F := Ideal) m d = Spec.outOf (m (xLoc d)) (cod1 m d) :=
  (dats (F := Ideal) m 0 d).arrAt_eq_of_cover 2 _ (fun t _ => flushed_eq m d t) covered

end Array

end Cert.Proof.KI

end
-- ==== Proof.Words.lean ====
/-
  The words the gather body computes, lane by lane, for every token vector.

  A lane holding the token `v` first becomes `24 * row v`, where `row v` is `v` itself when `3 ≤ v < 23` (read
  signed) and `27` otherwise; the select clamps, so nothing is asked of `v`.  The `j`-th index vector adds the
  constant `j ≤ 23` to it.  Since `24 * 27 + 23 = 671 < 2 ^ 32` no product or sum wraps around, so as natural numbers the
  lanes are `24 * row v + j`; they are below `672`, hence inside the 1024-word scratch the table lies in, and the
  indexed load at such a lane reads word `24 * row v + j` of that scratch.
-/
import proofs.«203767_g38671885534092_cont_8to1_b_939_37_alg».proof.Proof.Gen.KernelIdeal.Skeleton
import proofs.«203767_g38671885534092_cont_8to1_b_939_37_alg».proof.Proof.Spec

noncomputable section

namespace Cert.Proof.Words

open Idealize.ShloMosaic Idealize.ShloMosaic.ValueIdx
open Cert.KernelIdeal Cert.KernelIdeal.Gen

variable {F : FTy → Type} [FloatOps F]

/-! ## The scaled row -/

/-- A lane of the scaled row is `24` times the row its token selects: `row < 28`, so the product does not wrap. -/
theorem pay1_apply (v6 : Vec F S16 .i32) (l : S16.Idx) :
    (k0_pay1 (F := F) v6 l).toNat = 24 * (Spec.rowWord (v6 l)).toNat := by
  show (IntOp.muli (Spec.rowWord (v6 l)) 24#32).toNat = _
  have h := Spec.rowWord_lt (v6 l)
  unfold IntOp.muli
  rw [BitVec.toNat_mul, BitVec.toNat_ofNat]
  omega

/-- Adding a constant `j ≤ 23` to a lane that holds `24 * r` with `r < 28` does not wrap: the lane becomes `24 * r + j`. -/
theorem addi_lane (v15 : IVec S16 32) (j : Nat) (hj : j ≤ 23) (l : S16.Idx) (r : Nat) (hr : r < 28)
    (hv : (v15 l).toNat = 24 * r) :
    (addi v15 (broadcast S16 (BitVec.ofNat 32 j)) l).toNat = 24 * r + j := by
  show (IntOp.addi (v15 l) (BitVec.ofNat 32 j)).toNat = _
  unfold IntOp.addi
  rw [BitVec.toNat_add, BitVec.toNat_ofNat, hv]
  omega

/-- The same over the scaled row of a token vector. -/
theorem addi_pay1_lane (v6 : Vec F S16 .i32) (j : Nat) (hj : j ≤ 23) (l : S16.Idx) :
    (addi (k0_pay1 (F := F) v6) (broadcast S16 (BitVec.ofNat 32 j)) l).toNat = 24 * (Spec.rowWord (v6 l)).toNat + j :=
  addi_lane _ j hj l _ (Spec.rowWord_lt (v6 l)) (pay1_apply v6 l)

/-! ## The 24 index vectors, lane by lane -/

/-- A lane of index vector 0. -/
theorem pay2_apply (v6 : Vec F S16 .i32) (l : S16.Idx) :
    (k0_pay2 (F := F) v6 l).toNat = 24 * (Spec.rowWord (v6 l)).toNat + 0 :=
  addi_pay1_lane v6 0 (by decide) l

/-- A lane of index vector 1. -/
theorem pay3_apply (v6 : Vec F S16 .i32) (l : S16.Idx) :
    (k0_pay3 (F := F) v6 l).toNat = 24 * (Spec.rowWord (v6 l)).toNat + 1 :=
  addi_pay1_lane v6 1 (by decide) l

/-- A lane of index vector 2. -/
theorem pay4_apply (v6 : Vec F S16 .i32) (l : S16.Idx) :
    (k0_pay4 (F := F) v6 l).toNat = 24 * (Spec.rowWord (v6 l)).toNat + 2 :=
  addi_pay1_lane v6 2 (by decide) l

/-- A lane of index vector 3. -/
theorem pay5_apply (v6 : Vec F S16 .i32) (l : S16.Idx) :
    (k0_pay5 (F := F) v6 l).toNat = 24 * (Spec.rowWord (v6 l)).toNat + 3 :=
  addi_pay1_lane v6 3 (by decide) l

/-- A lane of index vector 4. -/
theorem pay6_apply (v6 : Vec F S16 .i32) (l : S16.Idx) :
    (k0_pay6 (k0_pay1 (F := F) v6) l).toNat = 24 * (Spec.rowWord (v6 l)).toNat + 4 :=
  addi_pay1_lane v6 4 (by decide) l

/-- A lane of index vector 5. -/
theorem pay7_apply (v6 : Vec F S16 .i32) (l : S16.Idx) :
    (k0_pay7 (k0_pay1 (F := F) v6) l).toNat = 24 * (Spec.rowWord (v6 l)).toNat + 5 :=
  addi_pay1_lane v6 5 (by decide) l

/-- A lane of index vector 6. -/
theorem pay8_apply (v6 : Vec F S16 .i32) (l : S16.Idx) :
    (k0_pay8 (k0_pay1 (F := F) v6) l).toNat = 24 * (Spec.rowWord (v6 l)).toNat + 6 :=
  addi_pay1_lane v6 6 (by decide) l

/-- A lane of index vector 7. -/
theorem pay9_apply (v6 : Vec F S16 .i32) (l : S16.Idx) :
    (k0_pay9 (k0_pay1 (F := F) v6) l).toNat = 24 * (Spec.rowWord (v6 l)).toNat + 7 :=
  addi_pay1_lane v6 7 (by decide) l

/-- A lane of index vector 8. -/
theorem pay10_apply (v6 : Vec F S16 .i32) (l : S16.Idx) :
    (k0_pay10 (k0_pay1 (F := F) v6) l).toNat = 24 * (Spec.rowWord (v6 l)).toNat + 8 :=
  addi_pay1_lane v6 8 (by decide) l

/-- A lane of index vector 9. -/
theorem pay11_apply (v6 : Vec F S16 .i32) (l : S16.Idx) :
    (k0_pay11 (k0_pay1 (F := F) v6) l).toNat = 24 * (Spec.rowWord (v6 l)).toNat + 9 :=
  addi_pay1_lane v6 9 (by decide) l

/-- A lane of index vector 10. -/
theorem pay12_apply (v6 : Vec F S16 .i32) (l : S16.Idx) :
    (k0_pay12 (k0_pay1 (F := F) v6) l).toNat = 24 * (Spec.rowWord (v6 l)).toNat + 10 :=
  addi_pay1_lane v6 10 (by decide) l

/-- A lane of index vector 11. -/
theorem pay13_apply (v6 : Vec F S16 .i32) (l : S16.Idx) :
    (k0_pay13 (k0_pay1 (F := F) v6) l).toNat = 24 * (Spec.rowWord (v6 l)).toNat + 11 :=
  addi_pay1_lane v6 11 (by decide) l

/-- A lane of index vector 12. -/
theorem pay14_apply (v6 : Vec F S16 .i32) (l : S16.Idx) :
    (k0_pay14 (k0_pay1 (F := F) v6) l).toNat = 24 * (Spec.rowWord (v6 l)).toNat + 12 :=
  addi_pay1_lane v6 12 (by decide) l

/-- A lane of index vector 13. -/
theorem pay15_apply (v6 : Vec F S16 .i32) (l : S16.Idx) :
    (k0_pay15 (k0_pay1 (F := F) v6) l).toNat = 24 * (Spec.rowWord (v6 l)).toNat + 13 :=
  addi_pay1_lane v6 13 (by decide) l

/-- A lane of index vector 14. -/
theorem pay16_apply (v6 : Vec F S16 .i32) (l : S16.Idx) :
    (k0_pay16 (k0_pay1 (F := F) v6) l).toNat = 24 * (Spec.rowWord (v6 l)).toNat + 14 :=
  addi_pay1_lane v6 14 (by decide) l

/-- A lane of index vector 15. -/
theorem pay17_apply (v6 : Vec F S16 .i32) (l : S16.Idx) :
    (k0_pay17 (k0_pay1 (F := F) v6) l).toNat = 24 * (Spec.rowWord (v6 l)).toNat + 15 :=
  addi_pay1_lane v6 15 (by decide) l

/-- A lane of index vector 16. -/
theorem pay18_apply (v6 : Vec F S16 .i32) (l : S16.Idx) :
    (k0_pay18 (k0_pay1 (F := F) v6) l).toNat = 24 * (Spec.rowWord (v6 l)).toNat + 16 :=
  addi_pay1_lane v6 16 (by decide) l

/-- A lane of index vector 17. -/
theorem pay19_apply (v6 : Vec F S16 .i32) (l : S16.Idx) :
    (k0_pay19 (k0_pay1 (F := F) v6) l).toNat = 24 * (Spec.rowWord (v6 l)).toNat + 17 :=
  addi_pay1_lane v6 17 (by decide) l

/-- A lane of index vector 18. -/
theorem pay20_apply (v6 : Vec F S16 .i32) (l : S16.Idx) :
    (k0_pay20 (k0_pay1 (F := F) v6) l).toNat = 24 * (Spec.rowWord (v6 l)).toNat + 18 :=
  addi_pay1_lane v6 18 (by decide) l

/-- A lane of index vector 19. -/
theorem pay21_apply (v6 : Vec F S16 .i32) (l : S16.Idx) :
    (k0_pay21 (k0_pay1 (F := F) v6) l).toNat = 24 * (Spec.rowWord (v6 l)).toNat + 19 :=
  addi_pay1_lane v6 19 (by decide) l

/-- A lane of index vector 20. -/
theorem pay22_apply (v6 : Vec F S16 .i32) (l : S16.Idx) :
    (k0_pay22 (k0_pay1 (F := F) v6) l).toNat = 24 * (Spec.rowWord (v6 l)).toNat + 20 :=
  addi_pay1_lane v6 20 (by decide) l

/-- A lane of index vector 21. -/
theorem pay23_apply (v6 : Vec F S16 .i32) (l : S16.Idx) :
    (k0_pay23 (k0_pay1 (F := F) v6) l).toNat = 24 * (Spec.rowWord (v6 l)).toNat + 21 :=
  addi_pay1_lane v6 21 (by decide) l

/-- A lane of index vector 22. -/
theorem pay24_apply (v6 : Vec F S16 .i32) (l : S16.Idx) :
    (k0_pay24 (k0_pay1 (F := F) v6) l).toNat = 24 * (Spec.rowWord (v6 l)).toNat + 22 :=
  addi_pay1_lane v6 22 (by decide) l

/-- A lane of index vector 23. -/
theorem pay25_apply (v6 : Vec F S16 .i32) (l : S16.Idx) :
    (k0_pay25 (k0_pay1 (F := F) v6) l).toNat = 24 * (Spec.rowWord (v6 l)).toNat + 23 :=
  addi_pay1_lane v6 23 (by decide) l

/-! ## Every index is inside the scratch -/

/-- A vector of words all below `1024` is a legal index vector of the 1024-word scratch. -/
theorem inb_of_lanes (w : IVec S16 32) (hw : ∀ l, (w l).toNat < 1024) :
    ∀ (a : Fin 1) (x : S16.Idx), ((![w] : Fin 1 → IVec S16 32) a x).toNat < S1024.size a := by
  intro a x
  match a with
  | ⟨0, _⟩ => exact hw x

/-- Index vector 0 stays inside the scratch: `24 * row + 0 ≤ 671`. -/
theorem chk1 (v6 : Vec F S16 .i32) : k0_chk1 (k0_pay2 (F := F) v6) :=
  inb_of_lanes _ fun l => by rw [pay2_apply]; have := Spec.rowWord_lt (v6 l); omega

/-- Index vector 1 stays inside the scratch: `24 * row + 1 ≤ 671`. -/
theorem chk2 (v6 : Vec F S16 .i32) : k0_chk2 (k0_pay3 (F := F) v6) :=
  inb_of_lanes _ fun l => by rw [pay3_apply]; have := Spec.rowWord_lt (v6 l); omega

/-- Index vector 2 stays inside the scratch: `24 * row + 2 ≤ 671`. -/
theorem chk3 (v6 : Vec F S16 .i32) : k0_chk3 (k0_pay4 (F := F) v6) :=
  inb_of_lanes _ fun l => by rw [pay4_apply]; have := Spec.rowWord_lt (v6 l); omega

/-- Index vector 3 stays inside the scratch: `24 * row + 3 ≤ 671`. -/
theorem chk4 (v6 : Vec F S16 .i32) : k0_chk4 (k0_pay5 (F := F) v6) :=
  inb_of_lanes _ fun l => by rw [pay5_apply]; have := Spec.rowWord_lt (v6 l); omega

/-- Index vector 4 stays inside the scratch: `24 * row + 4 ≤ 671`. -/
theorem chk5 (v6 : Vec F S16 .i32) : k0_chk5 (k0_pay6 (k0_pay1 (F := F) v6)) :=
  inb_of_lanes _ fun l => by rw [pay6_apply]; have := Spec.rowWord_lt (v6 l); omega

/-- Index vector 5 stays inside the scratch: `24 * row + 5 ≤ 671`. -/
theorem chk6 (v6 : Vec F S16 .i32) : k0_chk6 (k0_pay7 (k0_pay1 (F := F) v6)) :=
  inb_of_lanes _ fun l => by rw [pay7_apply]; have := Spec.rowWord_lt (v6 l); omega

/-- Index vector 6 stays inside the scratch: `24 * row + 6 ≤ 671`. -/
theorem chk7 (v6 : Vec F S16 .i32) : k0_chk7 (k0_pay8 (k0_pay1 (F := F) v6)) :=
  inb_of_lanes _ fun l => by rw [pay8_apply]; have := Spec.rowWord_lt (v6 l); omega

/-- Index vector 7 stays inside the scratch: `24 * row + 7 ≤ 671`. -/
theorem chk8 (v6 : Vec F S16 .i32) : k0_chk8 (k0_pay9 (k0_pay1 (F := F) v6)) :=
  inb_of_lanes _ fun l => by rw [pay9_apply]; have := Spec.rowWord_lt (v6 l); omega

/-- Index vector 8 stays inside the scratch: `24 * row + 8 ≤ 671`. -/
theorem chk9 (v6 : Vec F S16 .i32) : k0_chk9 (k0_pay10 (k0_pay1 (F := F) v6)) :=
  inb_of_lanes _ fun l => by rw [pay10_apply]; have := Spec.rowWord_lt (v6 l); omega

/-- Index vector 9 stays inside the scratch: `24 * row + 9 ≤ 671`. -/
theorem chk10 (v6 : Vec F S16 .i32) : k0_chk10 (k0_pay11 (k0_pay1 (F := F) v6)) :=
  inb_of_lanes _ fun l => by rw [pay11_apply]; have := Spec.rowWord_lt (v6 l); omega

/-- Index vector 10 stays inside the scratch: `24 * row + 10 ≤ 671`. -/
theorem chk11 (v6 : Vec F S16 .i32) : k0_chk11 (k0_pay12 (k0_pay1 (F := F) v6)) :=
  inb_of_lanes _ fun l => by rw [pay12_apply]; have := Spec.rowWord_lt (v6 l); omega

/-- Index vector 11 stays inside the scratch: `24 * row + 11 ≤ 671`. -/
theorem chk12 (v6 : Vec F S16 .i32) : k0_chk12 (k0_pay13 (k0_pay1 (F := F) v6)) :=
  inb_of_lanes _ fun l => by rw [pay13_apply]; have := Spec.rowWord_lt (v6 l); omega

/-- Index vector 12 stays inside the scratch: `24 * row + 12 ≤ 671`. -/
theorem chk13 (v6 : Vec F S16 .i32) : k0_chk13 (k0_pay14 (k0_pay1 (F := F) v6)) :=
  inb_of_lanes _ fun l => by rw [pay14_apply]; have := Spec.rowWord_lt (v6 l); omega

/-- Index vector 13 stays inside the scratch: `24 * row + 13 ≤ 671`. -/
theorem chk14 (v6 : Vec F S16 .i32) : k0_chk14 (k0_pay15 (k0_pay1 (F := F) v6)) :=
  inb_of_lanes _ fun l => by rw [pay15_apply]; have := Spec.rowWord_lt (v6 l); omega

/-- Index vector 14 stays inside the scratch: `24 * row + 14 ≤ 671`. -/
theorem chk15 (v6 : Vec F S16 .i32) : k0_chk15 (k0_pay16 (k0_pay1 (F := F) v6)) :=
  inb_of_lanes _ fun l => by rw [pay16_apply]; have := Spec.rowWord_lt (v6 l); omega

/-- Index vector 15 stays inside the scratch: `24 * row + 15 ≤ 671`. -/
theorem chk16 (v6 : Vec F S16 .i32) : k0_chk16 (k0_pay17 (k0_pay1 (F := F) v6)) :=
  inb_of_lanes _ fun l => by rw [pay17_apply]; have := Spec.rowWord_lt (v6 l); omega

/-- Index vector 16 stays inside the scratch: `24 * row + 16 ≤ 671`. -/
theorem chk17 (v6 : Vec F S16 .i32) : k0_chk17 (k0_pay18 (k0_pay1 (F := F) v6)) :=
  inb_of_lanes _ fun l => by rw [pay18_apply]; have := Spec.rowWord_lt (v6 l); omega

/-- Index vector 17 stays inside the scratch: `24 * row + 17 ≤ 671`. -/
theorem chk18 (v6 : Vec F S16 .i32) : k0_chk18 (k0_pay19 (k0_pay1 (F := F) v6)) :=
  inb_of_lanes _ fun l => by rw [pay19_apply]; have := Spec.rowWord_lt (v6 l); omega

/-- Index vector 18 stays inside the scratch: `24 * row + 18 ≤ 671`. -/
theorem chk19 (v6 : Vec F S16 .i32) : k0_chk19 (k0_pay20 (k0_pay1 (F := F) v6)) :=
  inb_of_lanes _ fun l => by rw [pay20_apply]; have := Spec.rowWord_lt (v6 l); omega

/-- Index vector 19 stays inside the scratch: `24 * row + 19 ≤ 671`. -/
theorem chk20 (v6 : Vec F S16 .i32) : k0_chk20 (k0_pay21 (k0_pay1 (F := F) v6)) :=
  inb_of_lanes _ fun l => by rw [pay21_apply]; have := Spec.rowWord_lt (v6 l); omega

/-- Index vector 20 stays inside the scratch: `24 * row + 20 ≤ 671`. -/
theorem chk21 (v6 : Vec F S16 .i32) : k0_chk21 (k0_pay22 (k0_pay1 (F := F) v6)) :=
  inb_of_lanes _ fun l => by rw [pay22_apply]; have := Spec.rowWord_lt (v6 l); omega

/-- Index vector 21 stays inside the scratch: `24 * row + 21 ≤ 671`. -/
theorem chk22 (v6 : Vec F S16 .i32) : k0_chk22 (k0_pay23 (k0_pay1 (F := F) v6)) :=
  inb_of_lanes _ fun l => by rw [pay23_apply]; have := Spec.rowWord_lt (v6 l); omega

/-- Index vector 22 stays inside the scratch: `24 * row + 22 ≤ 671`. -/
theorem chk23 (v6 : Vec F S16 .i32) : k0_chk23 (k0_pay24 (k0_pay1 (F := F) v6)) :=
  inb_of_lanes _ fun l => by rw [pay24_apply]; have := Spec.rowWord_lt (v6 l); omega

/-- Index vector 23 stays inside the scratch: `24 * row + 23 ≤ 671`. -/
theorem chk24 (v6 : Vec F S16 .i32) : k0_chk24 (k0_pay25 (k0_pay1 (F := F) v6)) :=
  inb_of_lanes _ fun l => by rw [pay25_apply]; have := Spec.rowWord_lt (v6 l); omega

/-! ## What the indexed load reads -/

/-- The scratch index a lane names, when that lane holds the natural number `n`. -/
theorem idxAt_lane (w : IVec S16 32) (h : ∀ a x, ((![w] : Fin 1 → IVec S16 32) a x).toNat < S1024.size a)
    (l : S16.Idx) (n : Nat) (hn : n < 1024) (hw : (w l).toNat = n) :
    idxAt (s := S1024) ![w] h l = ix1 (⟨n, hn⟩ : Fin 1024) := by
  funext a
  match a with
  | ⟨0, _⟩ => exact Fin.ext hw

/-- The indexed load at a lane holding `n` reads element `n` of the scratch's contents. -/
theorem loadIdx_lane {e : EltTy} (t : Vec F S1024 e) (w : IVec S16 32)
    (h : ∀ a x, ((![w] : Fin 1 → IVec S16 32) a x).toNat < S1024.size a)
    (l : S16.Idx) (n : Nat) (hn : n < 1024) (hw : (w l).toNat = n) :
    loadIdx t ![w] h l = t (ix1 (⟨n, hn⟩ : Fin 1024)) := by
  show t (idxAt ![w] h l) = _
  rw [idxAt_lane w h l n hn hw]

/-- The gathered lane: at a lane holding `24 * row v + j` the indexed load reads that word of the scratch. -/
theorem gather_lane {e : EltTy} (t : Vec F S1024 e) (w : IVec S16 32)
    (h : ∀ a x, ((![w] : Fin 1 → IVec S16 32) a x).toNat < S1024.size a)
    (l : S16.Idx) (v : BitVec 32) (j : Fin 24) (hw : (w l).toNat = 24 * (Spec.rowWord v).toNat + j.val) :
    loadIdx t ![w] h l
      = t (ix1 (⟨24 * (Spec.rowWord v).toNat + j.val, by have := Spec.flat_lt v j; omega⟩ : Fin 1024)) :=
  loadIdx_lane t w h l _ _ hw

end Cert.Proof.Words

end
-- ==== Proof.TileVal.lean ====
/-
  What the gather loop leaves in a task's column scratch, as pure facts about contents.

  The column scratch has 24 rows of 2048 words; entry `2048 j + n` is to hold word `24 * row + j` of the
  table scratch, `row` the row the task's `n`-th token selects (`colFn`).  Trip `k` of the loop stores, for
  each `j`, the 16 entries `2048 j + 16 k …`; `DoneTo k J` says the entries of the first `k` trips and of the
  first `J` rows of trip `k` are in place.  One store advances `J` (`doneTo_store`), 24 of them advance `k`.
-/
import proofs.«203767_g38671885534092_cont_8to1_b_939_37_alg».proof.Proof.Setup
import proofs.«203767_g38671885534092_cont_8to1_b_939_37_alg».proof.Proof.Words
import Idealize.ShloMosaic.Lib.Writes

noncomputable section

namespace Cert.Proof.KI

open Cert.KernelIdeal Cert.KernelIdeal.Gen
open Idealize.ShloMosaic Idealize.ShloMosaic.ValueIdx

variable {F : FTy → Type} [FloatOps F]

/-- Entry `y = 2048 j + n` of the finished column scratch: word `24 * row (token n) + j` of the table scratch. -/
def colFn (fi : Vec F S2048 .i32) (ft : Vec F S1024 .f32) : S49152.Idx → Elt F .f32 := fun y =>
  ft (ix1 (⟨24 * (Spec.rowWord (fi (ix1 (⟨(y 0).val % 2048, Nat.mod_lt _ (by decide)⟩ : Fin 2048)))).toNat + (y 0).val / 2048, by
    have h : (y 0).val < 49152 := (y 0).isLt
    have := Spec.rowWord_lt (fi (ix1 (⟨(y 0).val % 2048, Nat.mod_lt _ (by decide)⟩ : Fin 2048)))
    omega⟩ : Fin 1024))

section Done

variable {κ : Kind} {sp : Space} (v : View sig κ sp S49152 .f32) (H : S49152.Idx → Elt F .f32)

/-- The entries of trips before `k`, and of rows before `J` of trip `k`, read `H`. -/
def DoneTo (k J : Nat) (g : v.ty.Contents (Elt F)) : Prop :=
  ∀ y : S49152.Idx, ((y 0).val % 2048 < 16 * k ∨ ((y 0).val % 2048 < 16 * k + 16 ∧ (y 0).val / 2048 < J)) → v.read (Elt F) g y = H y

theorem doneTo_init (g : v.ty.Contents (Elt F)) : DoneTo v H 0 0 g := by
  intro y hy; omega

/-- All 24 rows of trip `k` stored: the first `k + 1` trips are in place. -/
theorem doneTo_next {k : Nat} {g : v.ty.Contents (Elt F)} (h : DoneTo v H k 24 g) : DoneTo v H (k + 1) 0 g := by
  intro y hy
  have hy0 : (y 0).val < 49152 := (y 0).isLt
  exact h y (by omega)

/-- One store of 16 words at `2048 J + 16 k` whose payload is `H` there advances the row count. -/
theorem doneTo_store {k J : Nat} (hk : k < 128) (off : Fin 1 → Nat) (inb : ∀ a, off a + S16.size a ≤ S49152.size a)
    (hoff : off 0 = 16 * k + 2048 * J) (w : (Rect.unit (s := S49152) off S16.size inb).shape.Idx → Elt F .f32)
    (hw : ∀ x, w x = H ((Rect.unit (s := S49152) off S16.size inb).emb x))
    (f : v.ty.Contents (Elt F)) (L : List (View.Piece (Elt F) S49152 .f32)) (h : DoneTo v H k J (v.writes (Elt F) f L)) :
    DoneTo v H k (J + 1) (v.writes (Elt F) f (⟨Rect.unit (s := S49152) off S16.size inb, w⟩ :: L)) := by
  intro y hy
  rw [View.writes_cons]
  by_cases hm : y ∈ (Rect.unit (s := S49152) off S16.size inb).set
  · obtain ⟨x, rfl⟩ := (Rect.unit (s := S49152) off S16.size inb).exists_idx_of_mem hm
    exact (View.read_slice_write_emb (v := v) (Rect.unit (s := S49152) off S16.size inb) _ w (Finset.mem_univ x)).trans (hw x)
  · rw [View.read_slice_write_of_not_mem (v := v) (Rect.unit (s := S49152) off S16.size inb) _ w Finset.univ (by rwa [Rect.map_emb_univ])]
    refine h y ?_
    have hn := mt (Rect.mem_set_unit (inb := inb)).mpr hm
    have hy0 : (y 0).val < 49152 := (y 0).isLt
    rcases hy with hy | ⟨hy1, hy2⟩
    · exact .inl hy
    · by_cases hlt : (y 0).val % 2048 < 16 * k
      · exact .inl hlt
      · refine .inr ⟨hy1, ?_⟩
        by_contra hJ
        apply hn
        intro a
        obtain rfl : a = 0 := Subsingleton.elim _ _
        have hs : S16.size 0 = 16 := rfl
        rw [hoff, hs]
        omega

end Done

/-- One piece's payload: the indexed load through index vector `w` (lanes `24 * row + J`) of a table scratch read as
    `ft`, stored at `2048 J + 16 k`, is the column function there, when the trip's tokens are words `16 k …` of `fi`. -/
theorem piece_val (fi : Vec F S2048 .i32) (ft : Vec F S1024 .f32) {k J : Nat} (hk : k < 128) (hJ : J < 24)
    (off : Fin 1 → Nat) (inb : ∀ a, off a + S16.size a ≤ S49152.size a) (hoff : off 0 = 16 * k + 2048 * J)
    (v6 : Vec F S16 .i32) (hv6 : ∀ l : S16.Idx, v6 l = fi (ix1 (⟨16 * k + (l 0).val, by have h : (l 0).val < 16 := (l 0).isLt; omega⟩ : Fin 2048)))
    (w : IVec S16 32) (hin : ∀ a x, ((![w] : Fin 1 → IVec S16 32) a x).toNat < S1024.size a)
    (hw : ∀ l, (w l).toNat = 24 * (Spec.rowWord (v6 l)).toNat + J)
    (T : Vec F S1024 .f32) (hT : T = ft) :
    ∀ x : (Rect.unit (s := S49152) off S16.size inb).shape.Idx,
      loadIdx T ![w] hin x = colFn fi ft ((Rect.unit (s := S49152) off S16.size inb).emb x) := by
  intro x
  subst hT
  have hx : (x 0).val < 16 := (x 0).isLt
  have he : (((Rect.unit (s := S49152) off S16.size inb).emb x) 0).val = 16 * k + 2048 * J + (x 0).val := by
    rw [Rect.emb_apply]; simp only [Rect.off_unit, Rect.stride_unit, Nat.one_mul]; rw [hoff]
  have e1 : (((Rect.unit (s := S49152) off S16.size inb).emb x) 0).val % 2048 = 16 * k + (x 0).val := by rw [he]; omega
  have e2 : (((Rect.unit (s := S49152) off S16.size inb).emb x) 0).val / 2048 = J := by rw [he]; omega
  rw [Words.gather_lane T w hin x (v6 x) ⟨J, hJ⟩ (hw x)]
  unfold colFn
  refine congrArg (fun q : Fin 1024 => T (ix1 q)) (Fin.ext ?_)
  show 24 * (Spec.rowWord (v6 x)).toNat + J = 24 * (Spec.rowWord (fi (ix1 _))).toNat + _
  have e3 : (⟨16 * k + (x 0).val, by omega⟩ : Fin 2048)
      = ⟨(((Rect.unit (s := S49152) off S16.size inb).emb x) 0).val % 2048, Nat.mod_lt _ (by decide)⟩ := Fin.ext e1.symm
  rw [e2, hv6 x, e3]

end Cert.Proof.KI

end
-- ==== Proof.TileAux.lean ====
/-
  Three small facts the task's proof closes with: a family over the 24 table columns written out, the finished column
  scratch read against the coding of the flat arrays, and the task's pieces of the flat token array and of the coding
  array as the body slices them.
-/
import proofs.«203767_g38671885534092_cont_8to1_b_939_37_alg».proof.Proof.TileVal
import proofs.«203767_g38671885534092_cont_8to1_b_939_37_alg».proof.Proof.Setup

noncomputable section

namespace Cert.Proof.KI

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode

variable {F : FTy → Type} [FloatOps F]

/-! ## A family over the 24 columns, written out -/

theorem bigSep_fin24 {M : Type} [URA M] (Φ : Fin 24 → sProp M) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} from by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The finished column scratch is the coding -/

/-- Entry `2048 j + n` of the finished column scratch and entry `(j, 2048 w + n)` of the coding are the same table
    word, `24 * row + j` for the row that token selects, when the token scratch holds worker `w`'s tokens and the
    table scratch the flat table. -/
theorem col_eq_cod (fi : Vec F S2048 .i32) (ft : Vec F S1024 .f32) (srcf : S65536.Idx → BitVec 32) (tabf : S672.Idx → Elt F .f32)
    (w : Fin 32)
    (hfi : ∀ n : Fin 2048, fi (ix1 n)
      = srcf (ix1 (⟨2048 * w.val + n.val, by have := w.isLt; have := n.isLt; omega⟩ : Fin 65536)))
    (hft : ∀ q : Fin 672, ft (ix1 (⟨q.val, by have := q.isLt; omega⟩ : Fin 1024)) = tabf (ix1 q))
    (j : Fin 24) (n : Fin 2048) :
    colFn fi ft (ix1 (⟨2048 * j.val + n.val, by have := j.isLt; have := n.isLt; omega⟩ : Fin 49152))
      = Spec.codFlat srcf tabf (ix2 j (⟨2048 * w.val + n.val, by have := w.isLt; have := n.isLt; omega⟩ : Fin 65536)) := by
  have hj := j.isLt
  have hn := n.isLt
  have e1 : (⟨(2048 * j.val + n.val) % 2048, Nat.mod_lt _ (by decide)⟩ : Fin 2048) = n :=
    Fin.ext (by show (2048 * j.val + n.val) % 2048 = n.val; omega)
  have e2 : (2048 * j.val + n.val) / 2048 = j.val := by omega
  have hr := Spec.rowWord_lt (fi (ix1 (⟨(2048 * j.val + n.val) % 2048, Nat.mod_lt _ (by decide)⟩ : Fin 2048)))
  unfold colFn Spec.codFlat
  refine (hft ⟨24 * (Spec.rowWord (fi (ix1 (⟨(2048 * j.val + n.val) % 2048, Nat.mod_lt _ (by decide)⟩ : Fin 2048)))).toNat
    + (2048 * j.val + n.val) / 2048, by omega⟩).trans ?_
  refine congrArg (fun q : Fin 672 => tabf (ix1 q)) (Fin.ext ?_)
  show 24 * (Spec.rowWord (fi (ix1 (⟨(2048 * j.val + n.val) % 2048, Nat.mod_lt _ (by decide)⟩ : Fin 2048)))).toNat
      + (2048 * j.val + n.val) / 2048
    = 24 * (Spec.rowWord (srcf (ix1 (⟨2048 * w.val + n.val, _⟩ : Fin 65536)))).toNat + j.val
  rw [e1, e2, hfi n]

/-! ## The task's pieces, as the body slices them -/

theorem bound_zero : grid0.bound 0 = 2 := rfl
theorem bound_one : grid0.bound 1 = 16 := rfl

/-- The worker of a grid point: subcore `L 1` of SparseCore `L 0`. -/
abbrev widL (L : grid0.Coords) : Fin 32 := wid (Fin.cast bound_zero (L 0)) (Fin.cast bound_one (L 1))

/-- Unit-stride rectangles of one size at equal offsets are equal. -/
theorem rect_unit_congr {s : Shape} {off off' size : Fin s.rank → Nat} {inb : ∀ a, off a + size a ≤ s.size a}
    {inb' : ∀ a, off' a + size a ≤ s.size a} (h : off = off') : Rect.unit off size inb = Rect.unit off' size inb' := by
  subst h; rfl

/-- The task's slice of the flat tokens is its worker's run: `4096 s + 2048 c = 2048 (2 s + c)`. -/
theorem tokSlice_eq (L : grid0.Coords) :
    Rect.unit (s := S65536) (k0_off1 L) S2048.size (k0_off1_inb L) = tokRect (widL L) := by
  unfold tokRect
  refine rect_unit_congr ?_
  rw [k0_off1_eq]
  funext a
  match a with
  | ⟨0, _⟩ =>
    show 4096 * (L 1).val + 2048 * (L 0).val = 2048 * (2 * (L 1).val + (L 0).val)
    omega

/-- A slice of the coding array at row `j` and the task's columns is its worker's row piece `j`. -/
theorem codSlice_eq (L : grid0.Coords) (off : Fin 2 → Nat) (h : ∀ a, off a + S1x2048.size a ≤ S24x65536.size a) (j : Fin 24)
    (hoff : off = ![j.val, 4096 * (L 1).val + 2048 * (L 0).val]) :
    Rect.unit (s := S24x65536) off S1x2048.size h = codRect j (widL L) := by
  unfold codRect
  refine rect_unit_congr ?_
  rw [hoff]
  funext a
  match a with
  | ⟨0, _⟩ => rfl
  | ⟨1, _⟩ =>
    show 4096 * (L 1).val + 2048 * (L 0).val = 2048 * (2 * (L 1).val + (L 0).val)
    omega

end Cert.Proof.KI

end
-- ==== Proof.Tile.lean ====
/-
  One vector subcore's task of the gather kernel, run once at symbolic grid coordinates, with what it computes.

  Worker `w = 2 s + c` copies the flat table into the head of its table scratch and its run of 2048 tokens into its
  token scratch; a loop of 128 trips reads sixteen tokens at a time, turns each into the flat offset `24 * row` of the
  table row it selects (its own for an amino-acid id, the fallback row otherwise: always inside the table, so every
  assumed index check holds of every word), gathers for `j = 0 … 23` the words `24 * row + j` of the table scratch and
  stores them at `2048 j + 16 k` of the column scratch; 24 copies then move row `j` of the column scratch to the task's
  piece `(j, 2048 w …)` of the coding array, one at a time, each on a semaphore of its own and waited for at once.
  The invariant of the loop says the column scratch holds, through the first `k` trips, word `24 * row + j` of the table
  scratch at entry `2048 j + n` (`DoneTo`, `colFn`); what lands in the coding pieces is then `Spec.codFlat` of the flat
  tokens and the flat table (`cod1`), which is what the task hands back.
-/
import proofs.«203767_g38671885534092_cont_8to1_b_939_37_alg».proof.Proof.Setup
import proofs.«203767_g38671885534092_cont_8to1_b_939_37_alg».proof.Proof.Words
import proofs.«203767_g38671885534092_cont_8to1_b_939_37_alg».proof.Proof.TileVal
import proofs.«203767_g38671885534092_cont_8to1_b_939_37_alg».proof.Proof.TileAux

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "srcW" => (Memref.whole Cert.KernelIdeal.main_v1_scv : Memref Cert.KernelIdeal.sig Kind.scVector Space.hbm Cert.KernelIdeal.S65536 EltTy.i32)
local notation "tabW" => (Memref.whole Cert.KernelIdeal.main_v0_scv : Memref Cert.KernelIdeal.sig Kind.scVector Space.hbm Cert.KernelIdeal.S672 EltTy.f32)
local notation "codW" => (Memref.whole Cert.KernelIdeal.main_v2_scv : Memref Cert.KernelIdeal.sig Kind.scVector Space.hbm Cert.KernelIdeal.S24x65536 EltTy.f32)
local notation "sI" => (Memref.whole Cert.KernelIdeal.cc0_scratch0 : Memref Cert.KernelIdeal.sig Kind.scVector Space.vmem Cert.KernelIdeal.S2048 EltTy.i32)
local notation "sT" => (Memref.whole Cert.KernelIdeal.cc0_scratch1 : Memref Cert.KernelIdeal.sig Kind.scVector Space.vmem Cert.KernelIdeal.S1024 EltTy.f32)
local notation "sC" => (Memref.whole Cert.KernelIdeal.cc0_scratch2 : Memref Cert.KernelIdeal.sig Kind.scVector Space.vmem Cert.KernelIdeal.S49152 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0

/-- The task's tokens in HBM, as the body slices them. -/
abbrev srcSl (L : grid0.Coords) : Memref sig .scVector .hbm S2048 .i32 :=
  (srcW).slice (Rect.unit (s := S65536) (k0_off1 L) S2048.size (k0_off1_inb L)) (fun _ => rfl)

omit [FloatOps F] in
theorem pts_sI (f : Buf (Elt F) ((V d (cV L) (jV L)).loc cc0_scratch0)) :
    (((sI).view.loc (V d (cV L) (jV L)) ↦{fullShare} f : sProp 𝕄)) = ((V d (cV L) (jV L)).loc cc0_scratch0 ↦{fullShare} f) := rfl
omit [FloatOps F] in
theorem pts_sT (f : Buf (Elt F) ((V d (cV L) (jV L)).loc cc0_scratch1)) :
    (((sT).view.loc (V d (cV L) (jV L)) ↦{fullShare} f : sProp 𝕄)) = ((V d (cV L) (jV L)).loc cc0_scratch1 ↦{fullShare} f) := rfl
omit [FloatOps F] in
theorem pts_sC (f : Buf (Elt F) ((V d (cV L) (jV L)).loc cc0_scratch2)) :
    (((sC).view.loc (V d (cV L) (jV L)) ↦{fullShare} f : sProp 𝕄)) = ((V d (cV L) (jV L)).loc cc0_scratch2 ↦{fullShare} f) := rfl
omit [FloatOps F] in
theorem pts_tab (q : PosShare TreeShare) (f : Buf (Elt F) (tabfLoc d)) :
    (((tabW).view.loc (V d (cV L) (jV L)) ↦{q} f : sProp 𝕄)) = (tabfLoc d ↦{q} f) := rfl

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- A scoped DMA semaphore of the subcore is one of its own cells. -/
theorem mem_cell (k : DmaSem sig) (hk : (SemLoc.dma k : SemLoc sig).isScoped .scVector = true) :
    ((V d (cV L) (jV L), SemLoc.dma k) : GSem nD τ sig) ∈ ownCells (V d (cV L) (jV L)) :=
  (mem_ownCells (g := ((V d (cV L) (jV L), SemLoc.dma k) : GSem nD τ sig))).mpr ⟨rfl, hk⟩

omit [FloatOps F] in
theorem take_cell (k : DmaSem sig) (hk : (SemLoc.dma k : SemLoc sig).isScoped .scVector = true) :
    (ownSems0 (V d (cV L) (jV L)) : sProp 𝕄)
      = iprop(semVal ((V d (cV L) (jV L), SemLoc.dma k) : GSem nD τ sig) 0
          ∗ bigSep ((ownCells (V d (cV L) (jV L))).erase ((V d (cV L) (jV L), SemLoc.dma k) : GSem nD τ sig)) fun g => semVal g 0) := by
  unfold SparseCore.Cfg.ownSems0
  exact SparseCore.bigSep_erase' (mem_cell d L k hk)

/-- The sixteen tokens trip `k` reads from the token scratch. -/
abbrev v6At (k : Fin k0_t1_loop.trips) (fi : Buf (Elt F) ((V d (cV L) (jV L)).loc cc0_scratch0)) : Vec F S16 .i32 :=
  View.readAt (Elt F) (sI).view (Rect.unit (s := S2048) (k0_off2 k) S16.size (k0_off2_inb k)).toLoadRect fi

omit [FloatOps F] in
theorem trip_lt (k : Fin k0_t1_loop.trips) : k.val < 128 := lt_of_lt_of_le k.isLt k0_t1_abs.2.1

omit [FloatOps F] in
/-- They are words `16 k …` of the scratch. -/
theorem v6At_apply (k : Fin k0_t1_loop.trips) (fi : Buf (Elt F) ((V d (cV L) (jV L)).loc cc0_scratch0)) (l : S16.Idx) :
    v6At d L k fi l = fi (ix1 (⟨16 * k.val + (l 0).val, by have h : (l 0).val < 16 := (l 0).isLt; have := trip_lt k; omega⟩ : Fin 2048)) := by
  unfold v6At
  simp only [View.readAt_apply, Memref.view_whole, View.read_whole]
  refine congrArg fi (funext fun a => ?_)
  match a with
  | ⟨0, _⟩ =>
    apply Fin.ext
    rw [LoadRect.idx_apply]
    simp only [Rect.off_unit, Rect.stride_unit, k0_off2_eq, Nat.one_mul]
    rfl

omit [FloatOps F] in
theorem set_srcSl : (srcSl L).view.set = (tokRect (widL L)).set := by
  show ((View.whole (main_v1_scv : Ref sig .scVector)).slice (Rect.unit (s := S65536) (k0_off1 L) S2048.size (k0_off1_inb L))).set = _
  rw [View.set_slice, tokSlice_eq]; exact Finset.map_refl

omit [FloatOps F] in
theorem pts_src (f : Buf (Elt F) (srcfLoc d)) :
    (((srcSl L).view.loc (V d (cV L) (jV L)) ↦[(srcSl L).view.set]{fullShare} f : sProp 𝕄)) = (srcfLoc d ↦[(tokRect (widL L)).set]{fullShare} f) := by
  rw [set_srcSl]

/-- The token scratch holds the task's run of the flat tokens; the table scratch begins with the flat table. -/
def HoldsTok (fi : Buf (Elt F) ((V d (cV L) (jV L)).loc cc0_scratch0)) : Prop :=
  ∀ n : Fin 2048, fi (ix1 n) = srcf0 m d (ix1 (⟨2048 * (widL L).val + n.val, by have := (widL L).isLt; have := n.isLt; omega⟩ : Fin 65536))
def HoldsTab (ft : Buf (Elt F) ((V d (cV L) (jV L)).loc cc0_scratch1)) : Prop :=
  ∀ q : Fin 672, ft (ix1 (⟨q.val, by have := q.isLt; omega⟩ : Fin 1024)) = tabf0 m d (ix1 q)

/-- The loop's invariant: the token and table scratches as the two copies left them, the column scratch done through
    the first `k` trips. -/
def inv (k : Nat) (_ : Unit) : sProp 𝕄 :=
  iprop(∃ fi ft, ((sI).view.loc (V d (cV L) (jV L)) ↦{fullShare} fi) ∗ ((sT).view.loc (V d (cV L) (jV L)) ↦{fullShare} ft)
    ∗ ⌜HoldsTok m d L fi ∧ HoldsTab m d L ft⌝
    ∗ ∃ fc, ((sC).view.loc (V d (cV L) (jV L)) ↦{fullShare} fc) ∗ ⌜DoneTo (F := F) (sC).view (colFn fi ft) k 0 fc⌝)

/-- Row `j` of the task's columns of the coding array, as the body slices and squeezes it. -/
abbrev codSl (off : Fin 2 → Nat) (h : ∀ a, off a + S1x2048.size a ≤ S24x65536.size a) : Memref sig .scVector .hbm S2048 .f32 :=
  ((codW).slice (Rect.unit (s := S24x65536) off S1x2048.size h) (fun _ => rfl)).squeeze S2048 squeezes_S1x2048_S2048
/-- Row `j` of the column scratch, as the body slices it. -/
abbrev colSl (o : Fin 1 → Nat) (h : ∀ a, o a + S2048.size a ≤ S49152.size a) : Memref sig .scVector .vmem S2048 .f32 :=
  (sC).slice (Rect.unit (s := S49152) o S2048.size h) (fun _ => rfl)

omit [FloatOps F] in
theorem widL_val : (widL L).val = 2 * (L 1).val + (L 0).val := rfl

omit [FloatOps F] in
theorem set_codSl (off : Fin 2 → Nat) (h : ∀ a, off a + S1x2048.size a ≤ S24x65536.size a) (j : Fin 24)
    (hoff : off = ![j.val, 4096 * (L 1).val + 2048 * (L 0).val]) : (codSl off h).view.set = (codRect j (widL L)).set := by
  show (((View.whole (main_v2_scv : Ref sig .scVector)).slice (Rect.unit (s := S24x65536) off S1x2048.size h)).reshape S2048
    squeezes_S1x2048_S2048.numel_eq).set = _
  rw [View.set_reshape, View.set_slice]
  exact Finset.map_refl.trans (congrArg (fun r : Rect S24x65536 => r.set) (codSlice_eq L off h j hoff))

omit [FloatOps F] in
theorem pts_cod (off : Fin 2 → Nat) (h : ∀ a, off a + S1x2048.size a ≤ S24x65536.size a) (j : Fin 24)
    (hoff : off = ![j.val, 4096 * (L 1).val + 2048 * (L 0).val]) (f : Buf (Elt F) (codLoc d)) :
    (((codSl off h).view.loc (V d (cV L) (jV L)) ↦[(codSl off h).view.set]{fullShare} f : sProp 𝕄))
      = (codLoc d ↦[(codRect j (widL L)).set]{fullShare} f) := by
  rw [set_codSl L off h j hoff]

omit [FloatOps F] in
/-- The token copy lands the task's run of the flat tokens. -/
theorem holdsTok_intro (fi0 : Buf (Elt F) ((V d (cV L) (jV L)).loc cc0_scratch0)) :
    HoldsTok m d L (View.write (Elt F) (sI).view fi0 (ReadAs.same.apply (View.read (Elt F) (srcSl L).view (srcf0 m d))) Finset.univ) := by
  intro n
  refine (congrFun (View.write_whole_univ (Val := Elt F) cc0_scratch0 fi0 _) (ix1 n)).trans ?_
  show View.read (Elt F) (srcSl L).view (srcf0 m d) (ix1 n) = _
  refine ((View.read_apply _ _).trans (cast_eq _ _)).trans (congrArg (srcf0 m d) (funext fun a => ?_))
  match a with
  | ⟨0, _⟩ =>
    apply Fin.ext
    show (k0_off1 L) 0 + 1 * n.val = 2048 * (widL L).val + n.val
    rw [k0_off1_eq, widL_val]
    show 4096 * (L 1).val + 2048 * (L 0).val + 1 * n.val = _
    omega

omit [FloatOps F] in
/-- The table copy lands the flat table at the head of the table scratch. -/
theorem holdsTab_intro (ft0 : Buf (Elt F) ((V d (cV L) (jV L)).loc cc0_scratch1)) :
    HoldsTab m d L ((sT).view.writes (Elt F) ft0
      [⟨Rect.unit (s := S1024) ![0] S672.size inb_S1024_S672_0, ReadAs.same.apply (View.read (Elt F) (tabW).view (tabf0 m d))⟩]) := by
  intro q
  have h : (sT).view.writes (Elt F) ft0
        [⟨Rect.unit (s := S1024) ![0] S672.size inb_S1024_S672_0, ReadAs.same.apply (View.read (Elt F) (tabW).view (tabf0 m d))⟩]
        ((Rect.unit (s := S1024) ![0] S672.size inb_S1024_S672_0).emb (ix1 q)) = tabf0 m d (ix1 q) :=
    View.read_writes_cons_emb (v := (sT).view) (f := ft0) (Rect.unit (s := S1024) ![0] S672.size inb_S1024_S672_0)
      (ReadAs.same.apply (View.read (Elt F) (tabW).view (tabf0 m d))) [] (ix1 q)
  refine Eq.trans (congrArg _ (funext fun a => ?_)) h
  match a with
  | ⟨0, _⟩ => apply Fin.ext; show q.val = 0 + 1 * q.val; omega

omit [FloatOps F] in
/-- Entry `n` of row `j` of the column scratch, through the row's slice; entry `n` of the coding piece, through its slice. -/
theorem colSl_emb (o : Fin 1 → Nat) (h : ∀ a, o a + S2048.size a ≤ S49152.size a) (j : Fin 24) (ho : o = ![2048 * j.val]) (n : Fin 2048) :
    (colSl o h).view.emb (ix1 n) = ix1 (⟨2048 * j.val + n.val, by have := j.isLt; have := n.isLt; omega⟩ : Fin 49152) := by
  subst ho
  funext a
  match a with
  | ⟨0, _⟩ => apply Fin.ext; show 2048 * j.val + 1 * n.val = 2048 * j.val + n.val; omega

omit [FloatOps F] in
theorem codSl_emb (off : Fin 2 → Nat) (h : ∀ a, off a + S1x2048.size a ≤ S24x65536.size a) (j : Fin 24)
    (hoff : off = ![j.val, 4096 * (L 1).val + 2048 * (L 0).val]) (n : Fin 2048) :
    (codSl off h).view.emb (ix1 n) = ix2 j (⟨2048 * (widL L).val + n.val, by have := (widL L).isLt; have := n.isLt; omega⟩ : Fin 65536) := by
  subst hoff
  have hr : Shape.reshapeEquiv squeezes_S1x2048_S2048.numel_eq (ix1 n) = (ix2 (0 : Fin 1) n : S1x2048.Idx) :=
    Shape.reshapeEquiv_eq_of_rowMajor _ (by rw [Shape.rowMajor_val_two, Shape.rowMajor_val_one]; simp)
  show (Rect.unit (s := S24x65536) _ S1x2048.size h).emb (Shape.reshapeEquiv squeezes_S1x2048_S2048.numel_eq (ix1 n)) = _
  rw [hr]
  funext a
  match a with
  | ⟨0, _⟩ => apply Fin.ext; show j.val + 1 * 0 = j.val; omega
  | ⟨1, _⟩ =>
    apply Fin.ext
    show (4096 * (L 1).val + 2048 * (L 0).val) + 1 * n.val = 2048 * (widL L).val + n.val
    rw [widL_val]
    omega

/-- One coding piece after its copy-out: what landed is the coding of the tokens and the table, on the piece. -/
theorem codPiece_val (off : Fin 2 → Nat) (h : ∀ a, off a + S1x2048.size a ≤ S24x65536.size a) (j : Fin 24)
    (hoff : off = ![j.val, 4096 * (L 1).val + 2048 * (L 0).val]) (o : Fin 1 → Nat) (ho7 : ∀ a, o a + S2048.size a ≤ S49152.size a)
    (ho : o = ![2048 * j.val])
    (fi : Buf (Elt F) ((V d (cV L) (jV L)).loc cc0_scratch0)) (ft : Buf (Elt F) ((V d (cV L) (jV L)).loc cc0_scratch1))
    (hfi : HoldsTok m d L fi) (hft : HoldsTab m d L ft) (fc : Buf (Elt F) ((V d (cV L) (jV L)).loc cc0_scratch2))
    (hall : ∀ y, fc y = colFn fi ft y) (g0 : Buf (Elt F) (codLoc d)) :
    ∀ i ∈ (codSl off h).view.set,
      (codSl off h).view.writes (Elt F) g0 [⟨Rect.whole S2048, ReadAs.same.apply (View.read (Elt F) (colSl o ho7).view fc)⟩] i = cod1 m d i := by
  intro i hi
  obtain ⟨x, -, rfl⟩ := Finset.mem_map.mp hi
  obtain ⟨n, rfl⟩ : ∃ n : Fin 2048, x = ix1 n := ⟨x 0, eq_ix1 x⟩
  have h1 := View.read_writes_cons_emb (v := (codSl off h).view) (f := g0) (Rect.whole S2048)
    (ReadAs.same.apply (View.read (Elt F) (colSl o ho7).view fc)) [] (ix1 n)
  rw [Rect.emb_whole_apply, View.read_apply] at h1
  refine ((cast_eq _ _).symm.trans h1).trans ?_
  show View.read (Elt F) (colSl o ho7).view fc (ix1 n) = _
  refine ((View.read_apply _ _).trans (cast_eq _ _)).trans ?_
  rw [colSl_emb o ho7 j ho n, codSl_emb L off h j hoff n, hall]
  exact col_eq_cod fi ft (srcf0 m d) (tabf0 m d) (widL L) hfi hft j n

/-- A coding piece after its copy-out is the piece of the task's result. -/
theorem cod_landed (off : Fin 2 → Nat) (h : ∀ a, off a + S1x2048.size a ≤ S24x65536.size a) (j : Fin 24)
    (hoff : off = ![j.val, 4096 * (L 1).val + 2048 * (L 0).val]) (o : Fin 1 → Nat) (ho7 : ∀ a, o a + S2048.size a ≤ S49152.size a)
    (ho : o = ![2048 * j.val])
    (fi : Buf (Elt F) ((V d (cV L) (jV L)).loc cc0_scratch0)) (ft : Buf (Elt F) ((V d (cV L) (jV L)).loc cc0_scratch1))
    (hf : HoldsTok m d L fi ∧ HoldsTab m d L ft) (fc : Buf (Elt F) ((V d (cV L) (jV L)).loc cc0_scratch2))
    (hall : ∀ y, fc y = colFn fi ft y) (g0 : Buf (Elt F) (codLoc d)) :
    (((codSl off h).view.loc (V d (cV L) (jV L)) ↦[(codSl off h).view.set]{fullShare}
        (codSl off h).view.writes (Elt F) g0 [⟨Rect.whole S2048, ReadAs.same.apply (View.read (Elt F) (colSl o ho7).view fc)⟩] : sProp 𝕄))
      = (codLoc d ↦[(codRect j (widL L)).set]{fullShare} cod1 m d) :=
  (pointsTo_congr (codPiece_val m d L off h j hoff o ho7 ho fi ft hf.1 hf.2 fc hall g0)).trans (pts_cod d L off h j hoff _)

omit [FloatOps F] in
/-- One more wait at the kernel's own index keeps the recorded waits within the launch's bound. -/
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

set_option maxHeartbeats 16000000 in
theorem tile_body (hF : (K (F := F)).Facts) (O : CellTallies nD τ sig (HIx 1)) (W : Waits sig (HIx 1)) (hO : ∀ g, O g none = 0) :
    iprop(levAts (K (F := F)).L (K (F := F)).lev ∗ emp ∗ tilePts m d (widL L) (m (codLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L srcW (Memref.isWhole_whole _) tabW (Memref.isWhole_whole _) codW (Memref.isWhole_whole _)
            sI (Memref.isWhole_whole _) sT (Memref.isWhole_whole _) sC (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25)
          fun _ => iprop(tilePts m d (widL L) (cod1 m d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part6_eq_skeleton, k0_part7_eq_skeleton, k0_part8_eq_skeleton, k0_part9_eq_skeleton, k0_part10_eq_skeleton, k0_part11_eq_skeleton, k0_part12_eq_skeleton, k0_part13_eq_skeleton]
  unfold k0_part6_skel k0_part7_skel k0_part8_skel k0_part9_skel k0_part10_skel k0_part11_skel k0_part12_skel k0_part13_skel
  simp only [bind_assoc, pure_bind]
  rw [(K (F := F)).scopedBufs_V hF d (cV L) (jV L), SparseCore.Cfg.scopedSems0_V (Val := Elt F) d (cV L) (jV L), ownBufs_V]
  unfold tilePts
  iintro ⟨#Hlv, -, ⟨Hsrc, Htab, Hcod⟩, ⟨⟨%fi0, Hi⟩, ⟨%ft0, Ht⟩, ⟨%fc0, Hc⟩, Hbufs⟩, Hsems, HO⟩
  ihave Hmw := ((K (F := F)).mayWaits_none (thr := V d (cV L) (jV L)) hO) $$ Hlv
  ihave Hi' := (Entails.of_eq (pts_sI (F := F) d L _).symm) $$ Hi
  ihave Ht' := (Entails.of_eq (pts_sT (F := F) d L _).symm) $$ Ht
  ihave Hc' := (Entails.of_eq (pts_sC (F := F) d L _).symm) $$ Hc
  ihave Htab' := (Entails.of_eq (pts_tab (F := F) d L _ _).symm) $$ Htab
  ihave Hsrc' := (Entails.of_eq (pts_src (F := F) d L _).symm) $$ Hsrc
  -- the table into the table scratch
  ihave Hs := (Entails.of_eq (take_cell (F := F) d L cc0_scoped0.sem (by decide))) $$ Hsems
  icases Hs with ⟨Hsem, Hsems⟩
  sl_exec
  ihave Hsems := (Entails.of_eq (take_cell (F := F) d L cc0_scoped0.sem (by decide)).symm) $$ [Hsem Hsems]
  · isplitl [Hsem]; · iexact Hsem
    iexact Hsems
  -- the task's tokens into the token scratch
  ihave Hs := (Entails.of_eq (take_cell (F := F) d L cc0_scoped1.sem (by decide))) $$ Hsems
  icases Hs with ⟨Hsem, Hsems⟩
  sl_exec
  ihave Hsems := (Entails.of_eq (take_cell (F := F) d L cc0_scoped1.sem (by decide)).symm) $$ [Hsem Hsems]
  · isplitl [Hsem]; · iexact Hsem
    iexact Hsems
  -- the gather loop
  sl_for (inv m d L) $$ [Hi' Ht' Hc']
  case region =>
    intro k _
    sl_respell [k0_t1_body]
    simp only [k0_part1_eq_skeleton, k0_part2_eq_skeleton, k0_part3_eq_skeleton, k0_part4_eq_skeleton, k0_part5_eq_skeleton]
    unfold k0_part1_skel k0_part2_skel k0_part3_skel k0_part4_skel k0_part5_skel
    simp only [SparseCore.vectorLoadIdx_bind (c := V d (cV L) (jV L))]
    unfold inv
    iintro ⟨%fi, %ft, Hi, Ht, %hf, %fc, Hc, %hdone⟩
    have c1 := Words.chk1 (F := F) (v6At d L k fi)
    have c2 := Words.chk2 (F := F) (v6At d L k fi)
    have c3 := Words.chk3 (F := F) (v6At d L k fi)
    have c4 := Words.chk4 (F := F) (v6At d L k fi)
    have c5 := Words.chk5 (F := F) (v6At d L k fi)
    have c6 := Words.chk6 (F := F) (v6At d L k fi)
    have c7 := Words.chk7 (F := F) (v6At d L k fi)
    have c8 := Words.chk8 (F := F) (v6At d L k fi)
    have c9 := Words.chk9 (F := F) (v6At d L k fi)
    have c10 := Words.chk10 (F := F) (v6At d L k fi)
    have c11 := Words.chk11 (F := F) (v6At d L k fi)
    have c12 := Words.chk12 (F := F) (v6At d L k fi)
    have c13 := Words.chk13 (F := F) (v6At d L k fi)
    have c14 := Words.chk14 (F := F) (v6At d L k fi)
    have c15 := Words.chk15 (F := F) (v6At d L k fi)
    have c16 := Words.chk16 (F := F) (v6At d L k fi)
    have c17 := Words.chk17 (F := F) (v6At d L k fi)
    have c18 := Words.chk18 (F := F) (v6At d L k fi)
    have c19 := Words.chk19 (F := F) (v6At d L k fi)
    have c20 := Words.chk20 (F := F) (v6At d L k fi)
    have c21 := Words.chk21 (F := F) (v6At d L k fi)
    have c22 := Words.chk22 (F := F) (v6At d L k fi)
    have c23 := Words.chk23 (F := F) (v6At d L k fi)
    have c24 := Words.chk24 (F := F) (v6At d L k fi)
    sl_exec
    sl_step
    iexists fi, ft
    isplitl [Hi]; · iexact Hi
    isplitl [Ht]; · iexact Ht
    isplitr; · ipureintro; exact hf
    iexists _
    isplitl [Hc]; · iexact Hc
    ipureintro
    refine doneTo_next (sC).view _ ?_
    refine doneTo_store (sC).view _ (trip_lt k) (k0_off26 k) _ (by rw [k0_off26_eq]; rfl) _
      (piece_val fi ft (trip_lt k) (by decide : 23 < 24) (k0_off26 k) _ (by rw [k0_off26_eq]; rfl) (v6At d L k fi) (v6At_apply d L k fi) _ _
        (fun l => Words.pay25_apply _ l) _ (Memref.readAt_whole (Elt F) cc0_scratch1 ft)) _ _ ?_
    refine doneTo_store (sC).view _ (trip_lt k) (k0_off25 k) _ (by rw [k0_off25_eq]; rfl) _
      (piece_val fi ft (trip_lt k) (by decide : 22 < 24) (k0_off25 k) _ (by rw [k0_off25_eq]; rfl) (v6At d L k fi) (v6At_apply d L k fi) _ _
        (fun l => Words.pay24_apply _ l) _ (Memref.readAt_whole (Elt F) cc0_scratch1 ft)) _ _ ?_
    refine doneTo_store (sC).view _ (trip_lt k) (k0_off24 k) _ (by rw [k0_off24_eq]; rfl) _
      (piece_val fi ft (trip_lt k) (by decide : 21 < 24) (k0_off24 k) _ (by rw [k0_off24_eq]; rfl) (v6At d L k fi) (v6At_apply d L k fi) _ _
        (fun l => Words.pay23_apply _ l) _ (Memref.readAt_whole (Elt F) cc0_scratch1 ft)) _ _ ?_
    refine doneTo_store (sC).view _ (trip_lt k) (k0_off23 k) _ (by rw [k0_off23_eq]; rfl) _
      (piece_val fi ft (trip_lt k) (by decide : 20 < 24) (k0_off23 k) _ (by rw [k0_off23_eq]; rfl) (v6At d L k fi) (v6At_apply d L k fi) _ _
        (fun l => Words.pay22_apply _ l) _ (Memref.readAt_whole (Elt F) cc0_scratch1 ft)) _ _ ?_
    refine doneTo_store (sC).view _ (trip_lt k) (k0_off22 k) _ (by rw [k0_off22_eq]; rfl) _
      (piece_val fi ft (trip_lt k) (by decide : 19 < 24) (k0_off22 k) _ (by rw [k0_off22_eq]; rfl) (v6At d L k fi) (v6At_apply d L k fi) _ _
        (fun l => Words.pay21_apply _ l) _ (Memref.readAt_whole (Elt F) cc0_scratch1 ft)) _ _ ?_
    refine doneTo_store (sC).view _ (trip_lt k) (k0_off21 k) _ (by rw [k0_off21_eq]; rfl) _
      (piece_val fi ft (trip_lt k) (by decide : 18 < 24) (k0_off21 k) _ (by rw [k0_off21_eq]; rfl) (v6At d L k fi) (v6At_apply d L k fi) _ _
        (fun l => Words.pay20_apply _ l) _ (Memref.readAt_whole (Elt F) cc0_scratch1 ft)) _ _ ?_
    refine doneTo_store (sC).view _ (trip_lt k) (k0_off20 k) _ (by rw [k0_off20_eq]; rfl) _
      (piece_val fi ft (trip_lt k) (by decide : 17 < 24) (k0_off20 k) _ (by rw [k0_off20_eq]; rfl) (v6At d L k fi) (v6At_apply d L k fi) _ _
        (fun l => Words.pay19_apply _ l) _ (Memref.readAt_whole (Elt F) cc0_scratch1 ft)) _ _ ?_
    refine doneTo_store (sC).view _ (trip_lt k) (k0_off19 k) _ (by rw [k0_off19_eq]; rfl) _
      (piece_val fi ft (trip_lt k) (by decide : 16 < 24) (k0_off19 k) _ (by rw [k0_off19_eq]; rfl) (v6At d L k fi) (v6At_apply d L k fi) _ _
        (fun l => Words.pay18_apply _ l) _ (Memref.readAt_whole (Elt F) cc0_scratch1 ft)) _ _ ?_
    refine doneTo_store (sC).view _ (trip_lt k) (k0_off18 k) _ (by rw [k0_off18_eq]; rfl) _
      (piece_val fi ft (trip_lt k) (by decide : 15 < 24) (k0_off18 k) _ (by rw [k0_off18_eq]; rfl) (v6At d L k fi) (v6At_apply d L k fi) _ _
        (fun l => Words.pay17_apply _ l) _ (Memref.readAt_whole (Elt F) cc0_scratch1 ft)) _ _ ?_
    refine doneTo_store (sC).view _ (trip_lt k) (k0_off17 k) _ (by rw [k0_off17_eq]; rfl) _
      (piece_val fi ft (trip_lt k) (by decide : 14 < 24) (k0_off17 k) _ (by rw [k0_off17_eq]; rfl) (v6At d L k fi) (v6At_apply d L k fi) _ _
        (fun l => Words.pay16_apply _ l) _ (Memref.readAt_whole (Elt F) cc0_scratch1 ft)) _ _ ?_
    refine doneTo_store (sC).view _ (trip_lt k) (k0_off16 k) _ (by rw [k0_off16_eq]; rfl) _
      (piece_val fi ft (trip_lt k) (by decide : 13 < 24) (k0_off16 k) _ (by rw [k0_off16_eq]; rfl) (v6At d L k fi) (v6At_apply d L k fi) _ _
        (fun l => Words.pay15_apply _ l) _ (Memref.readAt_whole (Elt F) cc0_scratch1 ft)) _ _ ?_
    refine doneTo_store (sC).view _ (trip_lt k) (k0_off15 k) _ (by rw [k0_off15_eq]; rfl) _
      (piece_val fi ft (trip_lt k) (by decide : 12 < 24) (k0_off15 k) _ (by rw [k0_off15_eq]; rfl) (v6At d L k fi) (v6At_apply d L k fi) _ _
        (fun l => Words.pay14_apply _ l) _ (Memref.readAt_whole (Elt F) cc0_scratch1 ft)) _ _ ?_
    refine doneTo_store (sC).view _ (trip_lt k) (k0_off14 k) _ (by rw [k0_off14_eq]; rfl) _
      (piece_val fi ft (trip_lt k) (by decide : 11 < 24) (k0_off14 k) _ (by rw [k0_off14_eq]; rfl) (v6At d L k fi) (v6At_apply d L k fi) _ _
        (fun l => Words.pay13_apply _ l) _ (Memref.readAt_whole (Elt F) cc0_scratch1 ft)) _ _ ?_
    refine doneTo_store (sC).view _ (trip_lt k) (k0_off13 k) _ (by rw [k0_off13_eq]; rfl) _
      (piece_val fi ft (trip_lt k) (by decide : 10 < 24) (k0_off13 k) _ (by rw [k0_off13_eq]; rfl) (v6At d L k fi) (v6At_apply d L k fi) _ _
        (fun l => Words.pay12_apply _ l) _ (Memref.readAt_whole (Elt F) cc0_scratch1 ft)) _ _ ?_
    refine doneTo_store (sC).view _ (trip_lt k) (k0_off12 k) _ (by rw [k0_off12_eq]; rfl) _
      (piece_val fi ft (trip_lt k) (by decide : 9 < 24) (k0_off12 k) _ (by rw [k0_off12_eq]; rfl) (v6At d L k fi) (v6At_apply d L k fi) _ _
        (fun l => Words.pay11_apply _ l) _ (Memref.readAt_whole (Elt F) cc0_scratch1 ft)) _ _ ?_
    refine doneTo_store (sC).view _ (trip_lt k) (k0_off11 k) _ (by rw [k0_off11_eq]; rfl) _
      (piece_val fi ft (trip_lt k) (by decide : 8 < 24) (k0_off11 k) _ (by rw [k0_off11_eq]; rfl) (v6At d L k fi) (v6At_apply d L k fi) _ _
        (fun l => Words.pay10_apply _ l) _ (Memref.readAt_whole (Elt F) cc0_scratch1 ft)) _ _ ?_
    refine doneTo_store (sC).view _ (trip_lt k) (k0_off10 k) _ (by rw [k0_off10_eq]; rfl) _
      (piece_val fi ft (trip_lt k) (by decide : 7 < 24) (k0_off10 k) _ (by rw [k0_off10_eq]; rfl) (v6At d L k fi) (v6At_apply d L k fi) _ _
        (fun l => Words.pay9_apply _ l) _ (Memref.readAt_whole (Elt F) cc0_scratch1 ft)) _ _ ?_
    refine doneTo_store (sC).view _ (trip_lt k) (k0_off9 k) _ (by rw [k0_off9_eq]; rfl) _
      (piece_val fi ft (trip_lt k) (by decide : 6 < 24) (k0_off9 k) _ (by rw [k0_off9_eq]; rfl) (v6At d L k fi) (v6At_apply d L k fi) _ _
        (fun l => Words.pay8_apply _ l) _ (Memref.readAt_whole (Elt F) cc0_scratch1 ft)) _ _ ?_
    refine doneTo_store (sC).view _ (trip_lt k) (k0_off8 k) _ (by rw [k0_off8_eq]; rfl) _
      (piece_val fi ft (trip_lt k) (by decide : 5 < 24) (k0_off8 k) _ (by rw [k0_off8_eq]; rfl) (v6At d L k fi) (v6At_apply d L k fi) _ _
        (fun l => Words.pay7_apply _ l) _ (Memref.readAt_whole (Elt F) cc0_scratch1 ft)) _ _ ?_
    refine doneTo_store (sC).view _ (trip_lt k) (k0_off7 k) _ (by rw [k0_off7_eq]; rfl) _
      (piece_val fi ft (trip_lt k) (by decide : 4 < 24) (k0_off7 k) _ (by rw [k0_off7_eq]; rfl) (v6At d L k fi) (v6At_apply d L k fi) _ _
        (fun l => Words.pay6_apply _ l) _ (Memref.readAt_whole (Elt F) cc0_scratch1 ft)) _ _ ?_
    refine doneTo_store (sC).view _ (trip_lt k) (k0_off6 k) _ (by rw [k0_off6_eq]; rfl) _
      (piece_val fi ft (trip_lt k) (by decide : 3 < 24) (k0_off6 k) _ (by rw [k0_off6_eq]; rfl) (v6At d L k fi) (v6At_apply d L k fi) _ _
        (fun l => Words.pay5_apply _ l) _ (Memref.readAt_whole (Elt F) cc0_scratch1 ft)) _ _ ?_
    refine doneTo_store (sC).view _ (trip_lt k) (k0_off5 k) _ (by rw [k0_off5_eq]; rfl) _
      (piece_val fi ft (trip_lt k) (by decide : 2 < 24) (k0_off5 k) _ (by rw [k0_off5_eq]; rfl) (v6At d L k fi) (v6At_apply d L k fi) _ _
        (fun l => Words.pay4_apply _ l) _ (Memref.readAt_whole (Elt F) cc0_scratch1 ft)) _ _ ?_
    refine doneTo_store (sC).view _ (trip_lt k) (k0_off4 k) _ (by rw [k0_off4_eq]; rfl) _
      (piece_val fi ft (trip_lt k) (by decide : 1 < 24) (k0_off4 k) _ (by rw [k0_off4_eq]; rfl) (v6At d L k fi) (v6At_apply d L k fi) _ _
        (fun l => Words.pay3_apply _ l) _ (Memref.readAt_whole (Elt F) cc0_scratch1 ft)) _ _ ?_
    refine doneTo_store (sC).view _ (trip_lt k) (k0_off3 k) _ (by rw [k0_off3_eq]; rfl) _
      (piece_val fi ft (trip_lt k) (by decide : 0 < 24) (k0_off3 k) _ (by rw [k0_off3_eq]; rfl) (v6At d L k fi) (v6At_apply d L k fi) _ _
        (fun l => Words.pay2_apply _ l) _ (Memref.readAt_whole (Elt F) cc0_scratch1 ft)) _ _ ?_
    exact hdone
  · unfold inv
    iexists _, _
    isplitl [Hi']; · iexact Hi'
    isplitl [Ht']; · iexact Ht'
    isplitr
    · ipureintro
      sl_unfold_run_names
      exact ⟨holdsTok_intro m d L fi0, holdsTab_intro m d L ft0⟩
    iexists _
    isplitl [Hc']; · iexact Hc'
    ipureintro
    exact doneTo_init _ _ _
  iintro %_ HI
  unfold inv
  icases HI with ⟨%fi, %ft, Hi', Ht', %hf, %fc, Hc', %hdone⟩
  have htr : Scf.trips k0_t1_loop.lb k0_t1_loop.ub k0_t1_loop.st = 128 := by decide +kernel
  have hall : ∀ y, fc y = colFn fi ft y := fun y =>
    hdone y (.inl (by rw [htr]; have := Nat.mod_lt (y 0).val (by decide : 0 < 2048); omega))
  -- the task's 24 row pieces of the coding array, each as the body slices it
  ihave Hcs := (Entails.of_eq (bigSep_fin24 (fun j : Fin 24 => (codLoc d ↦[(codRect j (widL L)).set]{fullShare} m (codLoc d) : sProp 𝕄)))) $$ Hcod
  icases Hcs with ⟨Hk0, Hk1, Hk2, Hk3, Hk4, Hk5, Hk6, Hk7, Hk8, Hk9, Hk10, Hk11, Hk12, Hk13, Hk14, Hk15, Hk16, Hk17, Hk18, Hk19, Hk20, Hk21, Hk22, Hk23⟩
  ihave Hk0' := (Entails.of_eq (pts_cod (F := F) d L (k0_off27 L) (k0_off27_inb L) 0 (k0_off27_eq L) _).symm) $$ Hk0
  ihave Hk1' := (Entails.of_eq (pts_cod (F := F) d L (k0_off28 L) (k0_off28_inb L) 1 (k0_off28_eq L) _).symm) $$ Hk1
  ihave Hk2' := (Entails.of_eq (pts_cod (F := F) d L (k0_off29 L) (k0_off29_inb L) 2 (k0_off29_eq L) _).symm) $$ Hk2
  ihave Hk3' := (Entails.of_eq (pts_cod (F := F) d L (k0_off30 L) (k0_off30_inb L) 3 (k0_off30_eq L) _).symm) $$ Hk3
  ihave Hk4' := (Entails.of_eq (pts_cod (F := F) d L (k0_off31 L) (k0_off31_inb L) 4 (k0_off31_eq L) _).symm) $$ Hk4
  ihave Hk5' := (Entails.of_eq (pts_cod (F := F) d L (k0_off32 L) (k0_off32_inb L) 5 (k0_off32_eq L) _).symm) $$ Hk5
  ihave Hk6' := (Entails.of_eq (pts_cod (F := F) d L (k0_off33 L) (k0_off33_inb L) 6 (k0_off33_eq L) _).symm) $$ Hk6
  ihave Hk7' := (Entails.of_eq (pts_cod (F := F) d L (k0_off34 L) (k0_off34_inb L) 7 (k0_off34_eq L) _).symm) $$ Hk7
  ihave Hk8' := (Entails.of_eq (pts_cod (F := F) d L (k0_off35 L) (k0_off35_inb L) 8 (k0_off35_eq L) _).symm) $$ Hk8
  ihave Hk9' := (Entails.of_eq (pts_cod (F := F) d L (k0_off36 L) (k0_off36_inb L) 9 (k0_off36_eq L) _).symm) $$ Hk9
  ihave Hk10' := (Entails.of_eq (pts_cod (F := F) d L (k0_off37 L) (k0_off37_inb L) 10 (k0_off37_eq L) _).symm) $$ Hk10
  ihave Hk11' := (Entails.of_eq (pts_cod (F := F) d L (k0_off38 L) (k0_off38_inb L) 11 (k0_off38_eq L) _).symm) $$ Hk11
  ihave Hk12' := (Entails.of_eq (pts_cod (F := F) d L (k0_off39 L) (k0_off39_inb L) 12 (k0_off39_eq L) _).symm) $$ Hk12
  ihave Hk13' := (Entails.of_eq (pts_cod (F := F) d L (k0_off40 L) (k0_off40_inb L) 13 (k0_off40_eq L) _).symm) $$ Hk13
  ihave Hk14' := (Entails.of_eq (pts_cod (F := F) d L (k0_off41 L) (k0_off41_inb L) 14 (k0_off41_eq L) _).symm) $$ Hk14
  ihave Hk15' := (Entails.of_eq (pts_cod (F := F) d L (k0_off42 L) (k0_off42_inb L) 15 (k0_off42_eq L) _).symm) $$ Hk15
  ihave Hk16' := (Entails.of_eq (pts_cod (F := F) d L (k0_off43 L) (k0_off43_inb L) 16 (k0_off43_eq L) _).symm) $$ Hk16
  ihave Hk17' := (Entails.of_eq (pts_cod (F := F) d L (k0_off44 L) (k0_off44_inb L) 17 (k0_off44_eq L) _).symm) $$ Hk17
  ihave Hk18' := (Entails.of_eq (pts_cod (F := F) d L (k0_off45 L) (k0_off45_inb L) 18 (k0_off45_eq L) _).symm) $$ Hk18
  ihave Hk19' := (Entails.of_eq (pts_cod (F := F) d L (k0_off46 L) (k0_off46_inb L) 19 (k0_off46_eq L) _).symm) $$ Hk19
  ihave Hk20' := (Entails.of_eq (pts_cod (F := F) d L (k0_off47 L) (k0_off47_inb L) 20 (k0_off47_eq L) _).symm) $$ Hk20
  ihave Hk21' := (Entails.of_eq (pts_cod (F := F) d L (k0_off48 L) (k0_off48_inb L) 21 (k0_off48_eq L) _).symm) $$ Hk21
  ihave Hk22' := (Entails.of_eq (pts_cod (F := F) d L (k0_off49 L) (k0_off49_inb L) 22 (k0_off49_eq L) _).symm) $$ Hk22
  ihave Hk23' := (Entails.of_eq (pts_cod (F := F) d L (k0_off50 L) (k0_off50_inb L) 23 (k0_off50_eq L) _).symm) $$ Hk23
  -- row 0 of the column scratch out to its piece
  ihave Hs := (Entails.of_eq (take_cell (F := F) d L cc0_scoped2.sem (by decide))) $$ Hsems
  icases Hs with ⟨Hsem, Hsems⟩
  sl_exec
  ihave Hsems := (Entails.of_eq (take_cell (F := F) d L cc0_scoped2.sem (by decide)).symm) $$ [Hsem Hsems]
  · isplitl [Hsem]; · iexact Hsem
    iexact Hsems
  -- row 1 of the column scratch out to its piece
  ihave Hs := (Entails.of_eq (take_cell (F := F) d L cc0_scoped3.sem (by decide))) $$ Hsems
  icases Hs with ⟨Hsem, Hsems⟩
  sl_exec
  ihave Hsems := (Entails.of_eq (take_cell (F := F) d L cc0_scoped3.sem (by decide)).symm) $$ [Hsem Hsems]
  · isplitl [Hsem]; · iexact Hsem
    iexact Hsems
  -- row 2 of the column scratch out to its piece
  ihave Hs := (Entails.of_eq (take_cell (F := F) d L cc0_scoped4.sem (by decide))) $$ Hsems
  icases Hs with ⟨Hsem, Hsems⟩
  sl_exec
  ihave Hsems := (Entails.of_eq (take_cell (F := F) d L cc0_scoped4.sem (by decide)).symm) $$ [Hsem Hsems]
  · isplitl [Hsem]; · iexact Hsem
    iexact Hsems
  -- row 3 of the column scratch out to its piece
  ihave Hs := (Entails.of_eq (take_cell (F := F) d L cc0_scoped5.sem (by decide))) $$ Hsems
  icases Hs with ⟨Hsem, Hsems⟩
  sl_exec
  ihave Hsems := (Entails.of_eq (take_cell (F := F) d L cc0_scoped5.sem (by decide)).symm) $$ [Hsem Hsems]
  · isplitl [Hsem]; · iexact Hsem
    iexact Hsems
  -- row 4 of the column scratch out to its piece
  ihave Hs := (Entails.of_eq (take_cell (F := F) d L cc0_scoped6.sem (by decide))) $$ Hsems
  icases Hs with ⟨Hsem, Hsems⟩
  sl_exec
  ihave Hsems := (Entails.of_eq (take_cell (F := F) d L cc0_scoped6.sem (by decide)).symm) $$ [Hsem Hsems]
  · isplitl [Hsem]; · iexact Hsem
    iexact Hsems
  -- row 5 of the column scratch out to its piece
  ihave Hs := (Entails.of_eq (take_cell (F := F) d L cc0_scoped7.sem (by decide))) $$ Hsems
  icases Hs with ⟨Hsem, Hsems⟩
  sl_exec
  ihave Hsems := (Entails.of_eq (take_cell (F := F) d L cc0_scoped7.sem (by decide)).symm) $$ [Hsem Hsems]
  · isplitl [Hsem]; · iexact Hsem
    iexact Hsems
  -- row 6 of the column scratch out to its piece
  ihave Hs := (Entails.of_eq (take_cell (F := F) d L cc0_scoped8.sem (by decide))) $$ Hsems
  icases Hs with ⟨Hsem, Hsems⟩
  sl_exec
  ihave Hsems := (Entails.of_eq (take_cell (F := F) d L cc0_scoped8.sem (by decide)).symm) $$ [Hsem Hsems]
  · isplitl [Hsem]; · iexact Hsem
    iexact Hsems
  -- row 7 of the column scratch out to its piece
  ihave Hs := (Entails.of_eq (take_cell (F := F) d L cc0_scoped9.sem (by decide))) $$ Hsems
  icases Hs with ⟨Hsem, Hsems⟩
  sl_exec
  ihave Hsems := (Entails.of_eq (take_cell (F := F) d L cc0_scoped9.sem (by decide)).symm) $$ [Hsem Hsems]
  · isplitl [Hsem]; · iexact Hsem
    iexact Hsems
  -- row 8 of the column scratch out to its piece
  ihave Hs := (Entails.of_eq (take_cell (F := F) d L cc0_scoped10.sem (by decide))) $$ Hsems
  icases Hs with ⟨Hsem, Hsems⟩
  sl_exec
  ihave Hsems := (Entails.of_eq (take_cell (F := F) d L cc0_scoped10.sem (by decide)).symm) $$ [Hsem Hsems]
  · isplitl [Hsem]; · iexact Hsem
    iexact Hsems
  -- row 9 of the column scratch out to its piece
  ihave Hs := (Entails.of_eq (take_cell (F := F) d L cc0_scoped11.sem (by decide))) $$ Hsems
  icases Hs with ⟨Hsem, Hsems⟩
  sl_exec
  ihave Hsems := (Entails.of_eq (take_cell (F := F) d L cc0_scoped11.sem (by decide)).symm) $$ [Hsem Hsems]
  · isplitl [Hsem]; · iexact Hsem
    iexact Hsems
  -- row 10 of the column scratch out to its piece
  ihave Hs := (Entails.of_eq (take_cell (F := F) d L cc0_scoped12.sem (by decide))) $$ Hsems
  icases Hs with ⟨Hsem, Hsems⟩
  sl_exec
  ihave Hsems := (Entails.of_eq (take_cell (F := F) d L cc0_scoped12.sem (by decide)).symm) $$ [Hsem Hsems]
  · isplitl [Hsem]; · iexact Hsem
    iexact Hsems
  -- row 11 of the column scratch out to its piece
  ihave Hs := (Entails.of_eq (take_cell (F := F) d L cc0_scoped13.sem (by decide))) $$ Hsems
  icases Hs with ⟨Hsem, Hsems⟩
  sl_exec
  ihave Hsems := (Entails.of_eq (take_cell (F := F) d L cc0_scoped13.sem (by decide)).symm) $$ [Hsem Hsems]
  · isplitl [Hsem]; · iexact Hsem
    iexact Hsems
  -- row 12 of the column scratch out to its piece
  ihave Hs := (Entails.of_eq (take_cell (F := F) d L cc0_scoped14.sem (by decide))) $$ Hsems
  icases Hs with ⟨Hsem, Hsems⟩
  sl_exec
  ihave Hsems := (Entails.of_eq (take_cell (F := F) d L cc0_scoped14.sem (by decide)).symm) $$ [Hsem Hsems]
  · isplitl [Hsem]; · iexact Hsem
    iexact Hsems
  -- row 13 of the column scratch out to its piece
  ihave Hs := (Entails.of_eq (take_cell (F := F) d L cc0_scoped15.sem (by decide))) $$ Hsems
  icases Hs with ⟨Hsem, Hsems⟩
  sl_exec
  ihave Hsems := (Entails.of_eq (take_cell (F := F) d L cc0_scoped15.sem (by decide)).symm) $$ [Hsem Hsems]
  · isplitl [Hsem]; · iexact Hsem
    iexact Hsems
  -- row 14 of the column scratch out to its piece
  ihave Hs := (Entails.of_eq (take_cell (F := F) d L cc0_scoped16.sem (by decide))) $$ Hsems
  icases Hs with ⟨Hsem, Hsems⟩
  sl_exec
  ihave Hsems := (Entails.of_eq (take_cell (F := F) d L cc0_scoped16.sem (by decide)).symm) $$ [Hsem Hsems]
  · isplitl [Hsem]; · iexact Hsem
    iexact Hsems
  -- row 15 of the column scratch out to its piece
  ihave Hs := (Entails.of_eq (take_cell (F := F) d L cc0_scoped17.sem (by decide))) $$ Hsems
  icases Hs with ⟨Hsem, Hsems⟩
  sl_exec
  ihave Hsems := (Entails.of_eq (take_cell (F := F) d L cc0_scoped17.sem (by decide)).symm) $$ [Hsem Hsems]
  · isplitl [Hsem]; · iexact Hsem
    iexact Hsems
  -- row 16 of the column scratch out to its piece
  ihave Hs := (Entails.of_eq (take_cell (F := F) d L cc0_scoped18.sem (by decide))) $$ Hsems
  icases Hs with ⟨Hsem, Hsems⟩
  sl_exec
  ihave Hsems := (Entails.of_eq (take_cell (F := F) d L cc0_scoped18.sem (by decide)).symm) $$ [Hsem Hsems]
  · isplitl [Hsem]; · iexact Hsem
    iexact Hsems
  -- row 17 of the column scratch out to its piece
  ihave Hs := (Entails.of_eq (take_cell (F := F) d L cc0_scoped19.sem (by decide))) $$ Hsems
  icases Hs with ⟨Hsem, Hsems⟩
  sl_exec
  ihave Hsems := (Entails.of_eq (take_cell (F := F) d L cc0_scoped19.sem (by decide)).symm) $$ [Hsem Hsems]
  · isplitl [Hsem]; · iexact Hsem
    iexact Hsems
  -- row 18 of the column scratch out to its piece
  ihave Hs := (Entails.of_eq (take_cell (F := F) d L cc0_scoped20.sem (by decide))) $$ Hsems
  icases Hs with ⟨Hsem, Hsems⟩
  sl_exec
  ihave Hsems := (Entails.of_eq (take_cell (F := F) d L cc0_scoped20.sem (by decide)).symm) $$ [Hsem Hsems]
  · isplitl [Hsem]; · iexact Hsem
    iexact Hsems
  -- row 19 of the column scratch out to its piece
  ihave Hs := (Entails.of_eq (take_cell (F := F) d L cc0_scoped21.sem (by decide))) $$ Hsems
  icases Hs with ⟨Hsem, Hsems⟩
  sl_exec
  ihave Hsems := (Entails.of_eq (take_cell (F := F) d L cc0_scoped21.sem (by decide)).symm) $$ [Hsem Hsems]
  · isplitl [Hsem]; · iexact Hsem
    iexact Hsems
  -- row 20 of the column scratch out to its piece
  ihave Hs := (Entails.of_eq (take_cell (F := F) d L cc0_scoped22.sem (by decide))) $$ Hsems
  icases Hs with ⟨Hsem, Hsems⟩
  sl_exec
  ihave Hsems := (Entails.of_eq (take_cell (F := F) d L cc0_scoped22.sem (by decide)).symm) $$ [Hsem Hsems]
  · isplitl [Hsem]; · iexact Hsem
    iexact Hsems
  -- row 21 of the column scratch out to its piece
  ihave Hs := (Entails.of_eq (take_cell (F := F) d L cc0_scoped23.sem (by decide))) $$ Hsems
  icases Hs with ⟨Hsem, Hsems⟩
  sl_exec
  ihave Hsems := (Entails.of_eq (take_cell (F := F) d L cc0_scoped23.sem (by decide)).symm) $$ [Hsem Hsems]
  · isplitl [Hsem]; · iexact Hsem
    iexact Hsems
  -- row 22 of the column scratch out to its piece
  ihave Hs := (Entails.of_eq (take_cell (F := F) d L cc0_scoped24.sem (by decide))) $$ Hsems
  icases Hs with ⟨Hsem, Hsems⟩
  sl_exec
  ihave Hsems := (Entails.of_eq (take_cell (F := F) d L cc0_scoped24.sem (by decide)).symm) $$ [Hsem Hsems]
  · isplitl [Hsem]; · iexact Hsem
    iexact Hsems
  -- row 23 of the column scratch out to its piece
  ihave Hs := (Entails.of_eq (take_cell (F := F) d L cc0_scoped25.sem (by decide))) $$ Hsems
  icases Hs with ⟨Hsem, Hsems⟩
  sl_exec
  ihave Hsems := (Entails.of_eq (take_cell (F := F) d L cc0_scoped25.sem (by decide)).symm) $$ [Hsem Hsems]
  · isplitl [Hsem]; · iexact Hsem
    iexact Hsems
  sl_step
  -- the post: the task's pieces at the coding, the scratches and semaphores back, the waits within bound
  isplitl [Hsrc' Htab' Hk0' Hk1' Hk2' Hk3' Hk4' Hk5' Hk6' Hk7' Hk8' Hk9' Hk10' Hk11' Hk12' Hk13' Hk14' Hk15' Hk16' Hk17' Hk18' Hk19' Hk20' Hk21' Hk22' Hk23']
  · isplitl [Hsrc']; · iapply (Entails.of_eq (pts_src (F := F) d L _)); iexact Hsrc'
    isplitl [Htab']; · iapply (Entails.of_eq (pts_tab (F := F) d L _ _)); iexact Htab'
    rw [bigSep_fin24]
    isplitl [Hk0']
    · iapply (Entails.of_eq (cod_landed m d L (k0_off27 L) (k0_off27_inb L) 0 (k0_off27_eq L) ![0] inb_S49152_S2048_0 (by rfl) fi ft hf fc hall _)); iexact Hk0'
    isplitl [Hk1']
    · iapply (Entails.of_eq (cod_landed m d L (k0_off28 L) (k0_off28_inb L) 1 (k0_off28_eq L) ![2048] inb_S49152_S2048_2048 (by rfl) fi ft hf fc hall _)); iexact Hk1'
    isplitl [Hk2']
    · iapply (Entails.of_eq (cod_landed m d L (k0_off29 L) (k0_off29_inb L) 2 (k0_off29_eq L) ![4096] inb_S49152_S2048_4096 (by rfl) fi ft hf fc hall _)); iexact Hk2'
    isplitl [Hk3']
    · iapply (Entails.of_eq (cod_landed m d L (k0_off30 L) (k0_off30_inb L) 3 (k0_off30_eq L) ![6144] inb_S49152_S2048_6144 (by rfl) fi ft hf fc hall _)); iexact Hk3'
    isplitl [Hk4']
    · iapply (Entails.of_eq (cod_landed m d L (k0_off31 L) (k0_off31_inb L) 4 (k0_off31_eq L) ![8192] inb_S49152_S2048_8192 (by rfl) fi ft hf fc hall _)); iexact Hk4'
    isplitl [Hk5']
    · iapply (Entails.of_eq (cod_landed m d L (k0_off32 L) (k0_off32_inb L) 5 (k0_off32_eq L) ![10240] inb_S49152_S2048_10240 (by rfl) fi ft hf fc hall _)); iexact Hk5'
    isplitl [Hk6']
    · iapply (Entails.of_eq (cod_landed m d L (k0_off33 L) (k0_off33_inb L) 6 (k0_off33_eq L) ![12288] inb_S49152_S2048_12288 (by rfl) fi ft hf fc hall _)); iexact Hk6'
    isplitl [Hk7']
    · iapply (Entails.of_eq (cod_landed m d L (k0_off34 L) (k0_off34_inb L) 7 (k0_off34_eq L) ![14336] inb_S49152_S2048_14336 (by rfl) fi ft hf fc hall _)); iexact Hk7'
    isplitl [Hk8']
    · iapply (Entails.of_eq (cod_landed m d L (k0_off35 L) (k0_off35_inb L) 8 (k0_off35_eq L) ![16384] inb_S49152_S2048_16384 (by rfl) fi ft hf fc hall _)); iexact Hk8'
    isplitl [Hk9']
    · iapply (Entails.of_eq (cod_landed m d L (k0_off36 L) (k0_off36_inb L) 9 (k0_off36_eq L) ![18432] inb_S49152_S2048_18432 (by rfl) fi ft hf fc hall _)); iexact Hk9'
    isplitl [Hk10']
    · iapply (Entails.of_eq (cod_landed m d L (k0_off37 L) (k0_off37_inb L) 10 (k0_off37_eq L) ![20480] inb_S49152_S2048_20480 (by rfl) fi ft hf fc hall _)); iexact Hk10'
    isplitl [Hk11']
    · iapply (Entails.of_eq (cod_landed m d L (k0_off38 L) (k0_off38_inb L) 11 (k0_off38_eq L) ![22528] inb_S49152_S2048_22528 (by rfl) fi ft hf fc hall _)); iexact Hk11'
    isplitl [Hk12']
    · iapply (Entails.of_eq (cod_landed m d L (k0_off39 L) (k0_off39_inb L) 12 (k0_off39_eq L) ![24576] inb_S49152_S2048_24576 (by rfl) fi ft hf fc hall _)); iexact Hk12'
    isplitl [Hk13']
    · iapply (Entails.of_eq (cod_landed m d L (k0_off40 L) (k0_off40_inb L) 13 (k0_off40_eq L) ![26624] inb_S49152_S2048_26624 (by rfl) fi ft hf fc hall _)); iexact Hk13'
    isplitl [Hk14']
    · iapply (Entails.of_eq (cod_landed m d L (k0_off41 L) (k0_off41_inb L) 14 (k0_off41_eq L) ![28672] inb_S49152_S2048_28672 (by rfl) fi ft hf fc hall _)); iexact Hk14'
    isplitl [Hk15']
    · iapply (Entails.of_eq (cod_landed m d L (k0_off42 L) (k0_off42_inb L) 15 (k0_off42_eq L) ![30720] inb_S49152_S2048_30720 (by rfl) fi ft hf fc hall _)); iexact Hk15'
    isplitl [Hk16']
    · iapply (Entails.of_eq (cod_landed m d L (k0_off43 L) (k0_off43_inb L) 16 (k0_off43_eq L) ![32768] inb_S49152_S2048_32768 (by rfl) fi ft hf fc hall _)); iexact Hk16'
    isplitl [Hk17']
    · iapply (Entails.of_eq (cod_landed m d L (k0_off44 L) (k0_off44_inb L) 17 (k0_off44_eq L) ![34816] inb_S49152_S2048_34816 (by rfl) fi ft hf fc hall _)); iexact Hk17'
    isplitl [Hk18']
    · iapply (Entails.of_eq (cod_landed m d L (k0_off45 L) (k0_off45_inb L) 18 (k0_off45_eq L) ![36864] inb_S49152_S2048_36864 (by rfl) fi ft hf fc hall _)); iexact Hk18'
    isplitl [Hk19']
    · iapply (Entails.of_eq (cod_landed m d L (k0_off46 L) (k0_off46_inb L) 19 (k0_off46_eq L) ![38912] inb_S49152_S2048_38912 (by rfl) fi ft hf fc hall _)); iexact Hk19'
    isplitl [Hk20']
    · iapply (Entails.of_eq (cod_landed m d L (k0_off47 L) (k0_off47_inb L) 20 (k0_off47_eq L) ![40960] inb_S49152_S2048_40960 (by rfl) fi ft hf fc hall _)); iexact Hk20'
    isplitl [Hk21']
    · iapply (Entails.of_eq (cod_landed m d L (k0_off48 L) (k0_off48_inb L) 21 (k0_off48_eq L) ![43008] inb_S49152_S2048_43008 (by rfl) fi ft hf fc hall _)); iexact Hk21'
    isplitl [Hk22']
    · iapply (Entails.of_eq (cod_landed m d L (k0_off49 L) (k0_off49_inb L) 22 (k0_off49_eq L) ![45056] inb_S49152_S2048_45056 (by rfl) fi ft hf fc hall _)); iexact Hk22'
    iapply (Entails.of_eq (cod_landed m d L (k0_off50 L) (k0_off50_inb L) 23 (k0_off50_eq L) ![47104] inb_S49152_S2048_47104 (by rfl) fi ft hf fc hall _)); iexact Hk23'
  isplitl [Hi' Ht' Hc' Hbufs]
  · isplitl [Hi']; · iexists _; iapply (Entails.of_eq (pts_sI (F := F) d L _)); iexact Hi'
    isplitl [Ht']; · iexists _; iapply (Entails.of_eq (pts_sT (F := F) d L _)); iexact Ht'
    isplitl [Hc']; · iexists _; iapply (Entails.of_eq (pts_sC (F := F) d L _)); iexact Hc'
    iexact Hbufs
  isplitl [Hsems]; · iexact Hsems
  iexists _; isplitr
  rotate_left
  · iexact HO
  · ipureintro
    iterate 26 (refine waits_ok ?_ _)
    exact fun p hp => .inl hp

end Cert.Proof.KI

end
-- ==== Proof.TileObl.lean ====
/-
  The vector-subcore kernel's obligation to the launch: on every vector subcore of the grid the body, handed the
  task's pieces, hands them back with the coding pieces filled in (`tile_body`), lifted to the launch's body table.
-/
import proofs.«203767_g38671885534092_cont_8to1_b_939_37_alg».proof.Proof.Tile

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "srcW" => (Memref.whole Cert.KernelIdeal.main_v1_scv : Memref Cert.KernelIdeal.sig Kind.scVector Space.hbm Cert.KernelIdeal.S65536 EltTy.i32)
local notation "tabW" => (Memref.whole Cert.KernelIdeal.main_v0_scv : Memref Cert.KernelIdeal.sig Kind.scVector Space.hbm Cert.KernelIdeal.S672 EltTy.f32)
local notation "codW" => (Memref.whole Cert.KernelIdeal.main_v2_scv : Memref Cert.KernelIdeal.sig Kind.scVector Space.hbm Cert.KernelIdeal.S24x65536 EltTy.f32)
local notation "sI" => (Memref.whole Cert.KernelIdeal.cc0_scratch0 : Memref Cert.KernelIdeal.sig Kind.scVector Space.vmem Cert.KernelIdeal.S2048 EltTy.i32)
local notation "sT" => (Memref.whole Cert.KernelIdeal.cc0_scratch1 : Memref Cert.KernelIdeal.sig Kind.scVector Space.vmem Cert.KernelIdeal.S1024 EltTy.f32)
local notation "sC" => (Memref.whole Cert.KernelIdeal.cc0_scratch2 : Memref Cert.KernelIdeal.sig Kind.scVector Space.vmem Cert.KernelIdeal.S49152 EltTy.f32)

variable (m : (ℓ : Loc nD τ sig) → Buf (Elt F) ℓ)

/-- Grid coordinates from a SparseCore and a vector subcore of the grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          srcW (Memref.isWhole_whole _) tabW (Memref.isWhole_whole _) codW (Memref.isWhole_whole _)
          sI (Memref.isWhole_whole _) sT (Memref.isWhole_whole _) sC (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KI

end
-- ==== Proof.WordsB.lean ====
/-
  The words the gather body computes, lane by lane, for every token vector.

  A lane holding the token `v` first becomes `24 * row v`, where `row v` is `v` itself when `3 ≤ v < 23` (read
  signed) and `27` otherwise; the select clamps, so nothing is asked of `v`.  The `j`-th index vector adds the
  constant `j ≤ 23` to it.  Since `24 * 27 + 23 = 671 < 2 ^ 32` no product or sum wraps around, so as natural numbers the
  lanes are `24 * row v + j`; they are below `672`, hence inside the 1024-word scratch the table lies in, and the
  indexed load at such a lane reads word `24 * row v + j` of that scratch.
-/
import proofs.«203767_g38671885534092_cont_8to1_b_939_37_alg».proof.Proof.Gen.Kernel.Skeleton
import proofs.«203767_g38671885534092_cont_8to1_b_939_37_alg».proof.Proof.Spec

noncomputable section

namespace Cert.Proof.WordsB

open Idealize.ShloMosaic Idealize.ShloMosaic.ValueIdx
open Cert.Kernel Cert.Kernel.Gen

variable {F : FTy → Type} [FloatOps F]

/-! ## The scaled row -/

/-- A lane of the scaled row is `24` times the row its token selects: `row < 28`, so the product does not wrap. -/
theorem pay1_apply (v6 : Vec F S16 .i32) (l : S16.Idx) :
    (k0_pay1 (F := F) v6 l).toNat = 24 * (Spec.rowWord (v6 l)).toNat := by
  show (IntOp.muli (Spec.rowWord (v6 l)) 24#32).toNat = _
  have h := Spec.rowWord_lt (v6 l)
  unfold IntOp.muli
  rw [BitVec.toNat_mul, BitVec.toNat_ofNat]
  omega

/-- Adding a constant `j ≤ 23` to a lane that holds `24 * r` with `r < 28` does not wrap: the lane becomes `24 * r + j`. -/
theorem addi_lane (v15 : IVec S16 32) (j : Nat) (hj : j ≤ 23) (l : S16.Idx) (r : Nat) (hr : r < 28)
    (hv : (v15 l).toNat = 24 * r) :
    (addi v15 (broadcast S16 (BitVec.ofNat 32 j)) l).toNat = 24 * r + j := by
  show (IntOp.addi (v15 l) (BitVec.ofNat 32 j)).toNat = _
  unfold IntOp.addi
  rw [BitVec.toNat_add, BitVec.toNat_ofNat, hv]
  omega

/-- The same over the scaled row of a token vector. -/
theorem addi_pay1_lane (v6 : Vec F S16 .i32) (j : Nat) (hj : j ≤ 23) (l : S16.Idx) :
    (addi (k0_pay1 (F := F) v6) (broadcast S16 (BitVec.ofNat 32 j)) l).toNat = 24 * (Spec.rowWord (v6 l)).toNat + j :=
  addi_lane _ j hj l _ (Spec.rowWord_lt (v6 l)) (pay1_apply v6 l)

/-! ## The 24 index vectors, lane by lane -/

/-- A lane of index vector 0. -/
theorem pay2_apply (v6 : Vec F S16 .i32) (l : S16.Idx) :
    (k0_pay2 (F := F) v6 l).toNat = 24 * (Spec.rowWord (v6 l)).toNat + 0 :=
  addi_pay1_lane v6 0 (by decide) l

/-- A lane of index vector 1. -/
theorem pay3_apply (v6 : Vec F S16 .i32) (l : S16.Idx) :
    (k0_pay3 (F := F) v6 l).toNat = 24 * (Spec.rowWord (v6 l)).toNat + 1 :=
  addi_pay1_lane v6 1 (by decide) l

/-- A lane of index vector 2. -/
theorem pay4_apply (v6 : Vec F S16 .i32) (l : S16.Idx) :
    (k0_pay4 (F := F) v6 l).toNat = 24 * (Spec.rowWord (v6 l)).toNat + 2 :=
  addi_pay1_lane v6 2 (by decide) l

/-- A lane of index vector 3. -/
theorem pay5_apply (v6 : Vec F S16 .i32) (l : S16.Idx) :
    (k0_pay5 (F := F) v6 l).toNat = 24 * (Spec.rowWord (v6 l)).toNat + 3 :=
  addi_pay1_lane v6 3 (by decide) l

/-- A lane of index vector 4. -/
theorem pay6_apply (v6 : Vec F S16 .i32) (l : S16.Idx) :
    (k0_pay6 (k0_pay1 (F := F) v6) l).toNat = 24 * (Spec.rowWord (v6 l)).toNat + 4 :=
  addi_pay1_lane v6 4 (by decide) l

/-- A lane of index vector 5. -/
theorem pay7_apply (v6 : Vec F S16 .i32) (l : S16.Idx) :
    (k0_pay7 (k0_pay1 (F := F) v6) l).toNat = 24 * (Spec.rowWord (v6 l)).toNat + 5 :=
  addi_pay1_lane v6 5 (by decide) l

/-- A lane of index vector 6. -/
theorem pay8_apply (v6 : Vec F S16 .i32) (l : S16.Idx) :
    (k0_pay8 (k0_pay1 (F := F) v6) l).toNat = 24 * (Spec.rowWord (v6 l)).toNat + 6 :=
  addi_pay1_lane v6 6 (by decide) l

/-- A lane of index vector 7. -/
theorem pay9_apply (v6 : Vec F S16 .i32) (l : S16.Idx) :
    (k0_pay9 (k0_pay1 (F := F) v6) l).toNat = 24 * (Spec.rowWord (v6 l)).toNat + 7 :=
  addi_pay1_lane v6 7 (by decide) l

/-- A lane of index vector 8. -/
theorem pay10_apply (v6 : Vec F S16 .i32) (l : S16.Idx) :
    (k0_pay10 (k0_pay1 (F := F) v6) l).toNat = 24 * (Spec.rowWord (v6 l)).toNat + 8 :=
  addi_pay1_lane v6 8 (by decide) l

/-- A lane of index vector 9. -/
theorem pay11_apply (v6 : Vec F S16 .i32) (l : S16.Idx) :
    (k0_pay11 (k0_pay1 (F := F) v6) l).toNat = 24 * (Spec.rowWord (v6 l)).toNat + 9 :=
  addi_pay1_lane v6 9 (by decide) l

/-- A lane of index vector 10. -/
theorem pay12_apply (v6 : Vec F S16 .i32) (l : S16.Idx) :
    (k0_pay12 (k0_pay1 (F := F) v6) l).toNat = 24 * (Spec.rowWord (v6 l)).toNat + 10 :=
  addi_pay1_lane v6 10 (by decide) l

/-- A lane of index vector 11. -/
theorem pay13_apply (v6 : Vec F S16 .i32) (l : S16.Idx) :
    (k0_pay13 (k0_pay1 (F := F) v6) l).toNat = 24 * (Spec.rowWord (v6 l)).toNat + 11 :=
  addi_pay1_lane v6 11 (by decide) l

/-- A lane of index vector 12. -/
theorem pay14_apply (v6 : Vec F S16 .i32) (l : S16.Idx) :
    (k0_pay14 (k0_pay1 (F := F) v6) l).toNat = 24 * (Spec.rowWord (v6 l)).toNat + 12 :=
  addi_pay1_lane v6 12 (by decide) l

/-- A lane of index vector 13. -/
theorem pay15_apply (v6 : Vec F S16 .i32) (l : S16.Idx) :
    (k0_pay15 (k0_pay1 (F := F) v6) l).toNat = 24 * (Spec.rowWord (v6 l)).toNat + 13 :=
  addi_pay1_lane v6 13 (by decide) l

/-- A lane of index vector 14. -/
theorem pay16_apply (v6 : Vec F S16 .i32) (l : S16.Idx) :
    (k0_pay16 (k0_pay1 (F := F) v6) l).toNat = 24 * (Spec.rowWord (v6 l)).toNat + 14 :=
  addi_pay1_lane v6 14 (by decide) l

/-- A lane of index vector 15. -/
theorem pay17_apply (v6 : Vec F S16 .i32) (l : S16.Idx) :
    (k0_pay17 (k0_pay1 (F := F) v6) l).toNat = 24 * (Spec.rowWord (v6 l)).toNat + 15 :=
  addi_pay1_lane v6 15 (by decide) l

/-- A lane of index vector 16. -/
theorem pay18_apply (v6 : Vec F S16 .i32) (l : S16.Idx) :
    (k0_pay18 (k0_pay1 (F := F) v6) l).toNat = 24 * (Spec.rowWord (v6 l)).toNat + 16 :=
  addi_pay1_lane v6 16 (by decide) l

/-- A lane of index vector 17. -/
theorem pay19_apply (v6 : Vec F S16 .i32) (l : S16.Idx) :
    (k0_pay19 (k0_pay1 (F := F) v6) l).toNat = 24 * (Spec.rowWord (v6 l)).toNat + 17 :=
  addi_pay1_lane v6 17 (by decide) l

/-- A lane of index vector 18. -/
theorem pay20_apply (v6 : Vec F S16 .i32) (l : S16.Idx) :
    (k0_pay20 (k0_pay1 (F := F) v6) l).toNat = 24 * (Spec.rowWord (v6 l)).toNat + 18 :=
  addi_pay1_lane v6 18 (by decide) l

/-- A lane of index vector 19. -/
theorem pay21_apply (v6 : Vec F S16 .i32) (l : S16.Idx) :
    (k0_pay21 (k0_pay1 (F := F) v6) l).toNat = 24 * (Spec.rowWord (v6 l)).toNat + 19 :=
  addi_pay1_lane v6 19 (by decide) l

/-- A lane of index vector 20. -/
theorem pay22_apply (v6 : Vec F S16 .i32) (l : S16.Idx) :
    (k0_pay22 (k0_pay1 (F := F) v6) l).toNat = 24 * (Spec.rowWord (v6 l)).toNat + 20 :=
  addi_pay1_lane v6 20 (by decide) l

/-- A lane of index vector 21. -/
theorem pay23_apply (v6 : Vec F S16 .i32) (l : S16.Idx) :
    (k0_pay23 (k0_pay1 (F := F) v6) l).toNat = 24 * (Spec.rowWord (v6 l)).toNat + 21 :=
  addi_pay1_lane v6 21 (by decide) l

/-- A lane of index vector 22. -/
theorem pay24_apply (v6 : Vec F S16 .i32) (l : S16.Idx) :
    (k0_pay24 (k0_pay1 (F := F) v6) l).toNat = 24 * (Spec.rowWord (v6 l)).toNat + 22 :=
  addi_pay1_lane v6 22 (by decide) l

/-- A lane of index vector 23. -/
theorem pay25_apply (v6 : Vec F S16 .i32) (l : S16.Idx) :
    (k0_pay25 (k0_pay1 (F := F) v6) l).toNat = 24 * (Spec.rowWord (v6 l)).toNat + 23 :=
  addi_pay1_lane v6 23 (by decide) l

/-! ## Every index is inside the scratch -/

/-- A vector of words all below `1024` is a legal index vector of the 1024-word scratch. -/
theorem inb_of_lanes (w : IVec S16 32) (hw : ∀ l, (w l).toNat < 1024) :
    ∀ (a : Fin 1) (x : S16.Idx), ((![w] : Fin 1 → IVec S16 32) a x).toNat < S1024.size a := by
  intro a x
  match a with
  | ⟨0, _⟩ => exact hw x

/-- Index vector 0 stays inside the scratch: `24 * row + 0 ≤ 671`. -/
theorem chk1 (v6 : Vec F S16 .i32) : k0_chk1 (k0_pay2 (F := F) v6) :=
  inb_of_lanes _ fun l => by rw [pay2_apply]; have := Spec.rowWord_lt (v6 l); omega

/-- Index vector 1 stays inside the scratch: `24 * row + 1 ≤ 671`. -/
theorem chk2 (v6 : Vec F S16 .i32) : k0_chk2 (k0_pay3 (F := F) v6) :=
  inb_of_lanes _ fun l => by rw [pay3_apply]; have := Spec.rowWord_lt (v6 l); omega

/-- Index vector 2 stays inside the scratch: `24 * row + 2 ≤ 671`. -/
theorem chk3 (v6 : Vec F S16 .i32) : k0_chk3 (k0_pay4 (F := F) v6) :=
  inb_of_lanes _ fun l => by rw [pay4_apply]; have := Spec.rowWord_lt (v6 l); omega

/-- Index vector 3 stays inside the scratch: `24 * row + 3 ≤ 671`. -/
theorem chk4 (v6 : Vec F S16 .i32) : k0_chk4 (k0_pay5 (F := F) v6) :=
  inb_of_lanes _ fun l => by rw [pay5_apply]; have := Spec.rowWord_lt (v6 l); omega

/-- Index vector 4 stays inside the scratch: `24 * row + 4 ≤ 671`. -/
theorem chk5 (v6 : Vec F S16 .i32) : k0_chk5 (k0_pay6 (k0_pay1 (F := F) v6)) :=
  inb_of_lanes _ fun l => by rw [pay6_apply]; have := Spec.rowWord_lt (v6 l); omega

/-- Index vector 5 stays inside the scratch: `24 * row + 5 ≤ 671`. -/
theorem chk6 (v6 : Vec F S16 .i32) : k0_chk6 (k0_pay7 (k0_pay1 (F := F) v6)) :=
  inb_of_lanes _ fun l => by rw [pay7_apply]; have := Spec.rowWord_lt (v6 l); omega

/-- Index vector 6 stays inside the scratch: `24 * row + 6 ≤ 671`. -/
theorem chk7 (v6 : Vec F S16 .i32) : k0_chk7 (k0_pay8 (k0_pay1 (F := F) v6)) :=
  inb_of_lanes _ fun l => by rw [pay8_apply]; have := Spec.rowWord_lt (v6 l); omega

/-- Index vector 7 stays inside the scratch: `24 * row + 7 ≤ 671`. -/
theorem chk8 (v6 : Vec F S16 .i32) : k0_chk8 (k0_pay9 (k0_pay1 (F := F) v6)) :=
  inb_of_lanes _ fun l => by rw [pay9_apply]; have := Spec.rowWord_lt (v6 l); omega

/-- Index vector 8 stays inside the scratch: `24 * row + 8 ≤ 671`. -/
theorem chk9 (v6 : Vec F S16 .i32) : k0_chk9 (k0_pay10 (k0_pay1 (F := F) v6)) :=
  inb_of_lanes _ fun l => by rw [pay10_apply]; have := Spec.rowWord_lt (v6 l); omega

/-- Index vector 9 stays inside the scratch: `24 * row + 9 ≤ 671`. -/
theorem chk10 (v6 : Vec F S16 .i32) : k0_chk10 (k0_pay11 (k0_pay1 (F := F) v6)) :=
  inb_of_lanes _ fun l => by rw [pay11_apply]; have := Spec.rowWord_lt (v6 l); omega

/-- Index vector 10 stays inside the scratch: `24 * row + 10 ≤ 671`. -/
theorem chk11 (v6 : Vec F S16 .i32) : k0_chk11 (k0_pay12 (k0_pay1 (F := F) v6)) :=
  inb_of_lanes _ fun l => by rw [pay12_apply]; have := Spec.rowWord_lt (v6 l); omega

/-- Index vector 11 stays inside the scratch: `24 * row + 11 ≤ 671`. -/
theorem chk12 (v6 : Vec F S16 .i32) : k0_chk12 (k0_pay13 (k0_pay1 (F := F) v6)) :=
  inb_of_lanes _ fun l => by rw [pay13_apply]; have := Spec.rowWord_lt (v6 l); omega

/-- Index vector 12 stays inside the scratch: `24 * row + 12 ≤ 671`. -/
theorem chk13 (v6 : Vec F S16 .i32) : k0_chk13 (k0_pay14 (k0_pay1 (F := F) v6)) :=
  inb_of_lanes _ fun l => by rw [pay14_apply]; have := Spec.rowWord_lt (v6 l); omega

/-- Index vector 13 stays inside the scratch: `24 * row + 13 ≤ 671`. -/
theorem chk14 (v6 : Vec F S16 .i32) : k0_chk14 (k0_pay15 (k0_pay1 (F := F) v6)) :=
  inb_of_lanes _ fun l => by rw [pay15_apply]; have := Spec.rowWord_lt (v6 l); omega

/-- Index vector 14 stays inside the scratch: `24 * row + 14 ≤ 671`. -/
theorem chk15 (v6 : Vec F S16 .i32) : k0_chk15 (k0_pay16 (k0_pay1 (F := F) v6)) :=
  inb_of_lanes _ fun l => by rw [pay16_apply]; have := Spec.rowWord_lt (v6 l); omega

/-- Index vector 15 stays inside the scratch: `24 * row + 15 ≤ 671`. -/
theorem chk16 (v6 : Vec F S16 .i32) : k0_chk16 (k0_pay17 (k0_pay1 (F := F) v6)) :=
  inb_of_lanes _ fun l => by rw [pay17_apply]; have := Spec.rowWord_lt (v6 l); omega

/-- Index vector 16 stays inside the scratch: `24 * row + 16 ≤ 671`. -/
theorem chk17 (v6 : Vec F S16 .i32) : k0_chk17 (k0_pay18 (k0_pay1 (F := F) v6)) :=
  inb_of_lanes _ fun l => by rw [pay18_apply]; have := Spec.rowWord_lt (v6 l); omega

/-- Index vector 17 stays inside the scratch: `24 * row + 17 ≤ 671`. -/
theorem chk18 (v6 : Vec F S16 .i32) : k0_chk18 (k0_pay19 (k0_pay1 (F := F) v6)) :=
  inb_of_lanes _ fun l => by rw [pay19_apply]; have := Spec.rowWord_lt (v6 l); omega

/-- Index vector 18 stays inside the scratch: `24 * row + 18 ≤ 671`. -/
theorem chk19 (v6 : Vec F S16 .i32) : k0_chk19 (k0_pay20 (k0_pay1 (F := F) v6)) :=
  inb_of_lanes _ fun l => by rw [pay20_apply]; have := Spec.rowWord_lt (v6 l); omega

/-- Index vector 19 stays inside the scratch: `24 * row + 19 ≤ 671`. -/
theorem chk20 (v6 : Vec F S16 .i32) : k0_chk20 (k0_pay21 (k0_pay1 (F := F) v6)) :=
  inb_of_lanes _ fun l => by rw [pay21_apply]; have := Spec.rowWord_lt (v6 l); omega

/-- Index vector 20 stays inside the scratch: `24 * row + 20 ≤ 671`. -/
theorem chk21 (v6 : Vec F S16 .i32) : k0_chk21 (k0_pay22 (k0_pay1 (F := F) v6)) :=
  inb_of_lanes _ fun l => by rw [pay22_apply]; have := Spec.rowWord_lt (v6 l); omega

/-- Index vector 21 stays inside the scratch: `24 * row + 21 ≤ 671`. -/
theorem chk22 (v6 : Vec F S16 .i32) : k0_chk22 (k0_pay23 (k0_pay1 (F := F) v6)) :=
  inb_of_lanes _ fun l => by rw [pay23_apply]; have := Spec.rowWord_lt (v6 l); omega

/-- Index vector 22 stays inside the scratch: `24 * row + 22 ≤ 671`. -/
theorem chk23 (v6 : Vec F S16 .i32) : k0_chk23 (k0_pay24 (k0_pay1 (F := F) v6)) :=
  inb_of_lanes _ fun l => by rw [pay24_apply]; have := Spec.rowWord_lt (v6 l); omega

/-- Index vector 23 stays inside the scratch: `24 * row + 23 ≤ 671`. -/
theorem chk24 (v6 : Vec F S16 .i32) : k0_chk24 (k0_pay25 (k0_pay1 (F := F) v6)) :=
  inb_of_lanes _ fun l => by rw [pay25_apply]; have := Spec.rowWord_lt (v6 l); omega

/-! ## What the indexed load reads -/

/-- The scratch index a lane names, when that lane holds the natural number `n`. -/
theorem idxAt_lane (w : IVec S16 32) (h : ∀ a x, ((![w] : Fin 1 → IVec S16 32) a x).toNat < S1024.size a)
    (l : S16.Idx) (n : Nat) (hn : n < 1024) (hw : (w l).toNat = n) :
    idxAt (s := S1024) ![w] h l = ix1 (⟨n, hn⟩ : Fin 1024) := by
  funext a
  match a with
  | ⟨0, _⟩ => exact Fin.ext hw

/-- The indexed load at a lane holding `n` reads element `n` of the scratch's contents. -/
theorem loadIdx_lane {e : EltTy} (t : Vec F S1024 e) (w : IVec S16 32)
    (h : ∀ a x, ((![w] : Fin 1 → IVec S16 32) a x).toNat < S1024.size a)
    (l : S16.Idx) (n : Nat) (hn : n < 1024) (hw : (w l).toNat = n) :
    loadIdx t ![w] h l = t (ix1 (⟨n, hn⟩ : Fin 1024)) := by
  show t (idxAt ![w] h l) = _
  rw [idxAt_lane w h l n hn hw]

/-- The gathered lane: at a lane holding `24 * row v + j` the indexed load reads that word of the scratch. -/
theorem gather_lane {e : EltTy} (t : Vec F S1024 e) (w : IVec S16 32)
    (h : ∀ a x, ((![w] : Fin 1 → IVec S16 32) a x).toNat < S1024.size a)
    (l : S16.Idx) (v : BitVec 32) (j : Fin 24) (hw : (w l).toNat = 24 * (Spec.rowWord v).toNat + j.val) :
    loadIdx t ![w] h l
      = t (ix1 (⟨24 * (Spec.rowWord v).toNat + j.val, by have := Spec.flat_lt v j; omega⟩ : Fin 1024)) :=
  loadIdx_lane t w h l _ _ hw

end Cert.Proof.WordsB

end
-- ==== Proof.TileValB.lean ====
/-
  What the gather loop leaves in a task's column scratch, as pure facts about contents.

  The column scratch has 24 rows of 2048 words; entry `2048 j + n` is to hold word `24 * row + j` of the
  table scratch, `row` the row the task's `n`-th token selects (`colFn`).  Trip `k` of the loop stores, for
  each `j`, the 16 entries `2048 j + 16 k …`; `DoneTo k J` says the entries of the first `k` trips and of the
  first `J` rows of trip `k` are in place.  One store advances `J` (`doneTo_store`), 24 of them advance `k`.
-/
import proofs.«203767_g38671885534092_cont_8to1_b_939_37_alg».proof.Proof.SetupB
import proofs.«203767_g38671885534092_cont_8to1_b_939_37_alg».proof.Proof.WordsB
import Idealize.ShloMosaic.Lib.Writes

noncomputable section

namespace Cert.Proof.KB

open Cert.Kernel Cert.Kernel.Gen
open Idealize.ShloMosaic Idealize.ShloMosaic.ValueIdx

variable {F : FTy → Type} [FloatOps F]

/-- Entry `y = 2048 j + n` of the finished column scratch: word `24 * row (token n) + j` of the table scratch. -/
def colFn (fi : Vec F S2048 .i32) (ft : Vec F S1024 .f32) : S49152.Idx → Elt F .f32 := fun y =>
  ft (ix1 (⟨24 * (Spec.rowWord (fi (ix1 (⟨(y 0).val % 2048, Nat.mod_lt _ (by decide)⟩ : Fin 2048)))).toNat + (y 0).val / 2048, by
    have h : (y 0).val < 49152 := (y 0).isLt
    have := Spec.rowWord_lt (fi (ix1 (⟨(y 0).val % 2048, Nat.mod_lt _ (by decide)⟩ : Fin 2048)))
    omega⟩ : Fin 1024))

section Done

variable {κ : Kind} {sp : Space} (v : View sig κ sp S49152 .f32) (H : S49152.Idx → Elt F .f32)

/-- The entries of trips before `k`, and of rows before `J` of trip `k`, read `H`. -/
def DoneTo (k J : Nat) (g : v.ty.Contents (Elt F)) : Prop :=
  ∀ y : S49152.Idx, ((y 0).val % 2048 < 16 * k ∨ ((y 0).val % 2048 < 16 * k + 16 ∧ (y 0).val / 2048 < J)) → v.read (Elt F) g y = H y

theorem doneTo_init (g : v.ty.Contents (Elt F)) : DoneTo v H 0 0 g := by
  intro y hy; omega

/-- All 24 rows of trip `k` stored: the first `k + 1` trips are in place. -/
theorem doneTo_next {k : Nat} {g : v.ty.Contents (Elt F)} (h : DoneTo v H k 24 g) : DoneTo v H (k + 1) 0 g := by
  intro y hy
  have hy0 : (y 0).val < 49152 := (y 0).isLt
  exact h y (by omega)

/-- One store of 16 words at `2048 J + 16 k` whose payload is `H` there advances the row count. -/
theorem doneTo_store {k J : Nat} (hk : k < 128) (off : Fin 1 → Nat) (inb : ∀ a, off a + S16.size a ≤ S49152.size a)
    (hoff : off 0 = 16 * k + 2048 * J) (w : (Rect.unit (s := S49152) off S16.size inb).shape.Idx → Elt F .f32)
    (hw : ∀ x, w x = H ((Rect.unit (s := S49152) off S16.size inb).emb x))
    (f : v.ty.Contents (Elt F)) (L : List (View.Piece (Elt F) S49152 .f32)) (h : DoneTo v H k J (v.writes (Elt F) f L)) :
    DoneTo v H k (J + 1) (v.writes (Elt F) f (⟨Rect.unit (s := S49152) off S16.size inb, w⟩ :: L)) := by
  intro y hy
  rw [View.writes_cons]
  by_cases hm : y ∈ (Rect.unit (s := S49152) off S16.size inb).set
  · obtain ⟨x, rfl⟩ := (Rect.unit (s := S49152) off S16.size inb).exists_idx_of_mem hm
    exact (View.read_slice_write_emb (v := v) (Rect.unit (s := S49152) off S16.size inb) _ w (Finset.mem_univ x)).trans (hw x)
  · rw [View.read_slice_write_of_not_mem (v := v) (Rect.unit (s := S49152) off S16.size inb) _ w Finset.univ (by rwa [Rect.map_emb_univ])]
    refine h y ?_
    have hn := mt (Rect.mem_set_unit (inb := inb)).mpr hm
    have hy0 : (y 0).val < 49152 := (y 0).isLt
    rcases hy with hy | ⟨hy1, hy2⟩
    · exact .inl hy
    · by_cases hlt : (y 0).val % 2048 < 16 * k
      · exact .inl hlt
      · refine .inr ⟨hy1, ?_⟩
        by_contra hJ
        apply hn
        intro a
        obtain rfl : a = 0 := Subsingleton.elim _ _
        have hs : S16.size 0 = 16 := rfl
        rw [hoff, hs]
        omega

end Done

/-- One piece's payload: the indexed load through index vector `w` (lanes `24 * row + J`) of a table scratch read as
    `ft`, stored at `2048 J + 16 k`, is the column function there, when the trip's tokens are words `16 k …` of `fi`. -/
theorem piece_val (fi : Vec F S2048 .i32) (ft : Vec F S1024 .f32) {k J : Nat} (hk : k < 128) (hJ : J < 24)
    (off : Fin 1 → Nat) (inb : ∀ a, off a + S16.size a ≤ S49152.size a) (hoff : off 0 = 16 * k + 2048 * J)
    (v6 : Vec F S16 .i32) (hv6 : ∀ l : S16.Idx, v6 l = fi (ix1 (⟨16 * k + (l 0).val, by have h : (l 0).val < 16 := (l 0).isLt; omega⟩ : Fin 2048)))
    (w : IVec S16 32) (hin : ∀ a x, ((![w] : Fin 1 → IVec S16 32) a x).toNat < S1024.size a)
    (hw : ∀ l, (w l).toNat = 24 * (Spec.rowWord (v6 l)).toNat + J)
    (T : Vec F S1024 .f32) (hT : T = ft) :
    ∀ x : (Rect.unit (s := S49152) off S16.size inb).shape.Idx,
      loadIdx T ![w] hin x = colFn fi ft ((Rect.unit (s := S49152) off S16.size inb).emb x) := by
  intro x
  subst hT
  have hx : (x 0).val < 16 := (x 0).isLt
  have he : (((Rect.unit (s := S49152) off S16.size inb).emb x) 0).val = 16 * k + 2048 * J + (x 0).val := by
    rw [Rect.emb_apply]; simp only [Rect.off_unit, Rect.stride_unit, Nat.one_mul]; rw [hoff]
  have e1 : (((Rect.unit (s := S49152) off S16.size inb).emb x) 0).val % 2048 = 16 * k + (x 0).val := by rw [he]; omega
  have e2 : (((Rect.unit (s := S49152) off S16.size inb).emb x) 0).val / 2048 = J := by rw [he]; omega
  rw [WordsB.gather_lane T w hin x (v6 x) ⟨J, hJ⟩ (hw x)]
  unfold colFn
  refine congrArg (fun q : Fin 1024 => T (ix1 q)) (Fin.ext ?_)
  show 24 * (Spec.rowWord (v6 x)).toNat + J = 24 * (Spec.rowWord (fi (ix1 _))).toNat + _
  have e3 : (⟨16 * k + (x 0).val, by omega⟩ : Fin 2048)
      = ⟨(((Rect.unit (s := S49152) off S16.size inb).emb x) 0).val % 2048, Nat.mod_lt _ (by decide)⟩ := Fin.ext e1.symm
  rw [e2, hv6 x, e3]

end Cert.Proof.KB

end
-- ==== Proof.TileAuxB.lean ====
/-
  Three small facts the task's proof closes with: a family over the 24 table columns written out, the finished column
  scratch read against the coding of the flat arrays, and the task's pieces of the flat token array and of the coding
  array as the body slices them.
-/
import proofs.«203767_g38671885534092_cont_8to1_b_939_37_alg».proof.Proof.TileValB
import proofs.«203767_g38671885534092_cont_8to1_b_939_37_alg».proof.Proof.SetupB

noncomputable section

namespace Cert.Proof.KB

open Cert.Kernel Cert.Kernel.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode

variable {F : FTy → Type} [FloatOps F]

/-! ## A family over the 24 columns, written out -/

theorem bigSep_fin24 {M : Type} [URA M] (Φ : Fin 24 → sProp M) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} from by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The finished column scratch is the coding -/

/-- Entry `2048 j + n` of the finished column scratch and entry `(j, 2048 w + n)` of the coding are the same table
    word, `24 * row + j` for the row that token selects, when the token scratch holds worker `w`'s tokens and the
    table scratch the flat table. -/
theorem col_eq_cod (fi : Vec F S2048 .i32) (ft : Vec F S1024 .f32) (srcf : S65536.Idx → BitVec 32) (tabf : S672.Idx → Elt F .f32)
    (w : Fin 32)
    (hfi : ∀ n : Fin 2048, fi (ix1 n)
      = srcf (ix1 (⟨2048 * w.val + n.val, by have := w.isLt; have := n.isLt; omega⟩ : Fin 65536)))
    (hft : ∀ q : Fin 672, ft (ix1 (⟨q.val, by have := q.isLt; omega⟩ : Fin 1024)) = tabf (ix1 q))
    (j : Fin 24) (n : Fin 2048) :
    colFn fi ft (ix1 (⟨2048 * j.val + n.val, by have := j.isLt; have := n.isLt; omega⟩ : Fin 49152))
      = Spec.codFlat srcf tabf (ix2 j (⟨2048 * w.val + n.val, by have := w.isLt; have := n.isLt; omega⟩ : Fin 65536)) := by
  have hj := j.isLt
  have hn := n.isLt
  have e1 : (⟨(2048 * j.val + n.val) % 2048, Nat.mod_lt _ (by decide)⟩ : Fin 2048) = n :=
    Fin.ext (by show (2048 * j.val + n.val) % 2048 = n.val; omega)
  have e2 : (2048 * j.val + n.val) / 2048 = j.val := by omega
  have hr := Spec.rowWord_lt (fi (ix1 (⟨(2048 * j.val + n.val) % 2048, Nat.mod_lt _ (by decide)⟩ : Fin 2048)))
  unfold colFn Spec.codFlat
  refine (hft ⟨24 * (Spec.rowWord (fi (ix1 (⟨(2048 * j.val + n.val) % 2048, Nat.mod_lt _ (by decide)⟩ : Fin 2048)))).toNat
    + (2048 * j.val + n.val) / 2048, by omega⟩).trans ?_
  refine congrArg (fun q : Fin 672 => tabf (ix1 q)) (Fin.ext ?_)
  show 24 * (Spec.rowWord (fi (ix1 (⟨(2048 * j.val + n.val) % 2048, Nat.mod_lt _ (by decide)⟩ : Fin 2048)))).toNat
      + (2048 * j.val + n.val) / 2048
    = 24 * (Spec.rowWord (srcf (ix1 (⟨2048 * w.val + n.val, _⟩ : Fin 65536)))).toNat + j.val
  rw [e1, e2, hfi n]

/-! ## The task's pieces, as the body slices them -/

theorem bound_zero : grid0.bound 0 = 2 := rfl
theorem bound_one : grid0.bound 1 = 16 := rfl

/-- The worker of a grid point: subcore `L 1` of SparseCore `L 0`. -/
abbrev widL (L : grid0.Coords) : Fin 32 := wid (Fin.cast bound_zero (L 0)) (Fin.cast bound_one (L 1))

/-- Unit-stride rectangles of one size at equal offsets are equal. -/
theorem rect_unit_congr {s : Shape} {off off' size : Fin s.rank → Nat} {inb : ∀ a, off a + size a ≤ s.size a}
    {inb' : ∀ a, off' a + size a ≤ s.size a} (h : off = off') : Rect.unit off size inb = Rect.unit off' size inb' := by
  subst h; rfl

/-- The task's slice of the flat tokens is its worker's run: `4096 s + 2048 c = 2048 (2 s + c)`. -/
theorem tokSlice_eq (L : grid0.Coords) :
    Rect.unit (s := S65536) (k0_off1 L) S2048.size (k0_off1_inb L) = tokRect (widL L) := by
  unfold tokRect
  refine rect_unit_congr ?_
  rw [k0_off1_eq]
  funext a
  match a with
  | ⟨0, _⟩ =>
    show 4096 * (L 1).val + 2048 * (L 0).val = 2048 * (2 * (L 1).val + (L 0).val)
    omega

/-- A slice of the coding array at row `j` and the task's columns is its worker's row piece `j`. -/
theorem codSlice_eq (L : grid0.Coords) (off : Fin 2 → Nat) (h : ∀ a, off a + S1x2048.size a ≤ S24x65536.size a) (j : Fin 24)
    (hoff : off = ![j.val, 4096 * (L 1).val + 2048 * (L 0).val]) :
    Rect.unit (s := S24x65536) off S1x2048.size h = codRect j (widL L) := by
  unfold codRect
  refine rect_unit_congr ?_
  rw [hoff]
  funext a
  match a with
  | ⟨0, _⟩ => rfl
  | ⟨1, _⟩ =>
    show 4096 * (L 1).val + 2048 * (L 0).val = 2048 * (2 * (L 1).val + (L 0).val)
    omega

end Cert.Proof.KB

end
-- ==== Proof.TileB.lean ====
/-
  One vector subcore's task of the gather kernel, run once at symbolic grid coordinates, with what it computes.

  Worker `w = 2 s + c` copies the flat table into the head of its table scratch and its run of 2048 tokens into its
  token scratch; a loop of 128 trips reads sixteen tokens at a time, turns each into the flat offset `24 * row` of the
  table row it selects (its own for an amino-acid id, the fallback row otherwise: always inside the table, so every
  assumed index check holds of every word), gathers for `j = 0 … 23` the words `24 * row + j` of the table scratch and
  stores them at `2048 j + 16 k` of the column scratch; 24 copies then move row `j` of the column scratch to the task's
  piece `(j, 2048 w …)` of the coding array, one at a time, each on a semaphore of its own and waited for at once.
  The invariant of the loop says the column scratch holds, through the first `k` trips, word `24 * row + j` of the table
  scratch at entry `2048 j + n` (`DoneTo`, `colFn`); what lands in the coding pieces is then `Spec.codFlat` of the flat
  tokens and the flat table (`cod1`), which is what the task hands back.
-/
import proofs.«203767_g38671885534092_cont_8to1_b_939_37_alg».proof.Proof.SetupB
import proofs.«203767_g38671885534092_cont_8to1_b_939_37_alg».proof.Proof.WordsB
import proofs.«203767_g38671885534092_cont_8to1_b_939_37_alg».proof.Proof.TileValB
import proofs.«203767_g38671885534092_cont_8to1_b_939_37_alg».proof.Proof.TileAuxB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "srcW" => (Memref.whole Cert.Kernel.main_v1_scv : Memref Cert.Kernel.sig Kind.scVector Space.hbm Cert.Kernel.S65536 EltTy.i32)
local notation "tabW" => (Memref.whole Cert.Kernel.main_v0_scv : Memref Cert.Kernel.sig Kind.scVector Space.hbm Cert.Kernel.S672 EltTy.f32)
local notation "codW" => (Memref.whole Cert.Kernel.main_v2_scv : Memref Cert.Kernel.sig Kind.scVector Space.hbm Cert.Kernel.S24x65536 EltTy.f32)
local notation "sI" => (Memref.whole Cert.Kernel.cc0_scratch0 : Memref Cert.Kernel.sig Kind.scVector Space.vmem Cert.Kernel.S2048 EltTy.i32)
local notation "sT" => (Memref.whole Cert.Kernel.cc0_scratch1 : Memref Cert.Kernel.sig Kind.scVector Space.vmem Cert.Kernel.S1024 EltTy.f32)
local notation "sC" => (Memref.whole Cert.Kernel.cc0_scratch2 : Memref Cert.Kernel.sig Kind.scVector Space.vmem Cert.Kernel.S49152 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0

/-- The task's tokens in HBM, as the body slices them. -/
abbrev srcSl (L : grid0.Coords) : Memref sig .scVector .hbm S2048 .i32 :=
  (srcW).slice (Rect.unit (s := S65536) (k0_off1 L) S2048.size (k0_off1_inb L)) (fun _ => rfl)

omit [FloatOps F] in
theorem pts_sI (f : Buf (Elt F) ((V d (cV L) (jV L)).loc cc0_scratch0)) :
    (((sI).view.loc (V d (cV L) (jV L)) ↦{fullShare} f : sProp 𝕄)) = ((V d (cV L) (jV L)).loc cc0_scratch0 ↦{fullShare} f) := rfl
omit [FloatOps F] in
theorem pts_sT (f : Buf (Elt F) ((V d (cV L) (jV L)).loc cc0_scratch1)) :
    (((sT).view.loc (V d (cV L) (jV L)) ↦{fullShare} f : sProp 𝕄)) = ((V d (cV L) (jV L)).loc cc0_scratch1 ↦{fullShare} f) := rfl
omit [FloatOps F] in
theorem pts_sC (f : Buf (Elt F) ((V d (cV L) (jV L)).loc cc0_scratch2)) :
    (((sC).view.loc (V d (cV L) (jV L)) ↦{fullShare} f : sProp 𝕄)) = ((V d (cV L) (jV L)).loc cc0_scratch2 ↦{fullShare} f) := rfl
omit [FloatOps F] in
theorem pts_tab (q : PosShare TreeShare) (f : Buf (Elt F) (tabfLoc d)) :
    (((tabW).view.loc (V d (cV L) (jV L)) ↦{q} f : sProp 𝕄)) = (tabfLoc d ↦{q} f) := rfl

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- A scoped DMA semaphore of the subcore is one of its own cells. -/
theorem mem_cell (k : DmaSem sig) (hk : (SemLoc.dma k : SemLoc sig).isScoped .scVector = true) :
    ((V d (cV L) (jV L), SemLoc.dma k) : GSem nD τ sig) ∈ ownCells (V d (cV L) (jV L)) :=
  (mem_ownCells (g := ((V d (cV L) (jV L), SemLoc.dma k) : GSem nD τ sig))).mpr ⟨rfl, hk⟩

omit [FloatOps F] in
theorem take_cell (k : DmaSem sig) (hk : (SemLoc.dma k : SemLoc sig).isScoped .scVector = true) :
    (ownSems0 (V d (cV L) (jV L)) : sProp 𝕄)
      = iprop(semVal ((V d (cV L) (jV L), SemLoc.dma k) : GSem nD τ sig) 0
          ∗ bigSep ((ownCells (V d (cV L) (jV L))).erase ((V d (cV L) (jV L), SemLoc.dma k) : GSem nD τ sig)) fun g => semVal g 0) := by
  unfold SparseCore.Cfg.ownSems0
  exact SparseCore.bigSep_erase' (mem_cell d L k hk)

/-- The sixteen tokens trip `k` reads from the token scratch. -/
abbrev v6At (k : Fin k0_t1_loop.trips) (fi : Buf (Elt F) ((V d (cV L) (jV L)).loc cc0_scratch0)) : Vec F S16 .i32 :=
  View.readAt (Elt F) (sI).view (Rect.unit (s := S2048) (k0_off2 k) S16.size (k0_off2_inb k)).toLoadRect fi

omit [FloatOps F] in
theorem trip_lt (k : Fin k0_t1_loop.trips) : k.val < 128 := lt_of_lt_of_le k.isLt k0_t1_abs.2.1

omit [FloatOps F] in
/-- They are words `16 k …` of the scratch. -/
theorem v6At_apply (k : Fin k0_t1_loop.trips) (fi : Buf (Elt F) ((V d (cV L) (jV L)).loc cc0_scratch0)) (l : S16.Idx) :
    v6At d L k fi l = fi (ix1 (⟨16 * k.val + (l 0).val, by have h : (l 0).val < 16 := (l 0).isLt; have := trip_lt k; omega⟩ : Fin 2048)) := by
  unfold v6At
  simp only [View.readAt_apply, Memref.view_whole, View.read_whole]
  refine congrArg fi (funext fun a => ?_)
  match a with
  | ⟨0, _⟩ =>
    apply Fin.ext
    rw [LoadRect.idx_apply]
    simp only [Rect.off_unit, Rect.stride_unit, k0_off2_eq, Nat.one_mul]
    rfl

omit [FloatOps F] in
theorem set_srcSl : (srcSl L).view.set = (tokRect (widL L)).set := by
  show ((View.whole (main_v1_scv : Ref sig .scVector)).slice (Rect.unit (s := S65536) (k0_off1 L) S2048.size (k0_off1_inb L))).set = _
  rw [View.set_slice, tokSlice_eq]; exact Finset.map_refl

omit [FloatOps F] in
theorem pts_src (f : Buf (Elt F) (srcfLoc d)) :
    (((srcSl L).view.loc (V d (cV L) (jV L)) ↦[(srcSl L).view.set]{fullShare} f : sProp 𝕄)) = (srcfLoc d ↦[(tokRect (widL L)).set]{fullShare} f) := by
  rw [set_srcSl]

/-- The token scratch holds the task's run of the flat tokens; the table scratch begins with the flat table. -/
def HoldsTok (fi : Buf (Elt F) ((V d (cV L) (jV L)).loc cc0_scratch0)) : Prop :=
  ∀ n : Fin 2048, fi (ix1 n) = srcf0 m d (ix1 (⟨2048 * (widL L).val + n.val, by have := (widL L).isLt; have := n.isLt; omega⟩ : Fin 65536))
def HoldsTab (ft : Buf (Elt F) ((V d (cV L) (jV L)).loc cc0_scratch1)) : Prop :=
  ∀ q : Fin 672, ft (ix1 (⟨q.val, by have := q.isLt; omega⟩ : Fin 1024)) = tabf0 m d (ix1 q)

/-- The loop's invariant: the token and table scratches as the two copies left them, the column scratch done through
    the first `k` trips. -/
def inv (k : Nat) (_ : Unit) : sProp 𝕄 :=
  iprop(∃ fi ft, ((sI).view.loc (V d (cV L) (jV L)) ↦{fullShare} fi) ∗ ((sT).view.loc (V d (cV L) (jV L)) ↦{fullShare} ft)
    ∗ ⌜HoldsTok m d L fi ∧ HoldsTab m d L ft⌝
    ∗ ∃ fc, ((sC).view.loc (V d (cV L) (jV L)) ↦{fullShare} fc) ∗ ⌜DoneTo (F := F) (sC).view (colFn fi ft) k 0 fc⌝)

/-- Row `j` of the task's columns of the coding array, as the body slices and squeezes it. -/
abbrev codSl (off : Fin 2 → Nat) (h : ∀ a, off a + S1x2048.size a ≤ S24x65536.size a) : Memref sig .scVector .hbm S2048 .f32 :=
  ((codW).slice (Rect.unit (s := S24x65536) off S1x2048.size h) (fun _ => rfl)).squeeze S2048 squeezes_S1x2048_S2048
/-- Row `j` of the column scratch, as the body slices it. -/
abbrev colSl (o : Fin 1 → Nat) (h : ∀ a, o a + S2048.size a ≤ S49152.size a) : Memref sig .scVector .vmem S2048 .f32 :=
  (sC).slice (Rect.unit (s := S49152) o S2048.size h) (fun _ => rfl)

omit [FloatOps F] in
theorem widL_val : (widL L).val = 2 * (L 1).val + (L 0).val := rfl

omit [FloatOps F] in
theorem set_codSl (off : Fin 2 → Nat) (h : ∀ a, off a + S1x2048.size a ≤ S24x65536.size a) (j : Fin 24)
    (hoff : off = ![j.val, 4096 * (L 1).val + 2048 * (L 0).val]) : (codSl off h).view.set = (codRect j (widL L)).set := by
  show (((View.whole (main_v2_scv : Ref sig .scVector)).slice (Rect.unit (s := S24x65536) off S1x2048.size h)).reshape S2048
    squeezes_S1x2048_S2048.numel_eq).set = _
  rw [View.set_reshape, View.set_slice]
  exact Finset.map_refl.trans (congrArg (fun r : Rect S24x65536 => r.set) (codSlice_eq L off h j hoff))

omit [FloatOps F] in
theorem pts_cod (off : Fin 2 → Nat) (h : ∀ a, off a + S1x2048.size a ≤ S24x65536.size a) (j : Fin 24)
    (hoff : off = ![j.val, 4096 * (L 1).val + 2048 * (L 0).val]) (f : Buf (Elt F) (codLoc d)) :
    (((codSl off h).view.loc (V d (cV L) (jV L)) ↦[(codSl off h).view.set]{fullShare} f : sProp 𝕄))
      = (codLoc d ↦[(codRect j (widL L)).set]{fullShare} f) := by
  rw [set_codSl L off h j hoff]

omit [FloatOps F] in
/-- The token copy lands the task's run of the flat tokens. -/
theorem holdsTok_intro (fi0 : Buf (Elt F) ((V d (cV L) (jV L)).loc cc0_scratch0)) :
    HoldsTok m d L (View.write (Elt F) (sI).view fi0 (ReadAs.same.apply (View.read (Elt F) (srcSl L).view (srcf0 m d))) Finset.univ) := by
  intro n
  refine (congrFun (View.write_whole_univ (Val := Elt F) cc0_scratch0 fi0 _) (ix1 n)).trans ?_
  show View.read (Elt F) (srcSl L).view (srcf0 m d) (ix1 n) = _
  refine ((View.read_apply _ _).trans (cast_eq _ _)).trans (congrArg (srcf0 m d) (funext fun a => ?_))
  match a with
  | ⟨0, _⟩ =>
    apply Fin.ext
    show (k0_off1 L) 0 + 1 * n.val = 2048 * (widL L).val + n.val
    rw [k0_off1_eq, widL_val]
    show 4096 * (L 1).val + 2048 * (L 0).val + 1 * n.val = _
    omega

omit [FloatOps F] in
/-- The table copy lands the flat table at the head of the table scratch. -/
theorem holdsTab_intro (ft0 : Buf (Elt F) ((V d (cV L) (jV L)).loc cc0_scratch1)) :
    HoldsTab m d L ((sT).view.writes (Elt F) ft0
      [⟨Rect.unit (s := S1024) ![0] S672.size inb_S1024_S672_0, ReadAs.same.apply (View.read (Elt F) (tabW).view (tabf0 m d))⟩]) := by
  intro q
  have h : (sT).view.writes (Elt F) ft0
        [⟨Rect.unit (s := S1024) ![0] S672.size inb_S1024_S672_0, ReadAs.same.apply (View.read (Elt F) (tabW).view (tabf0 m d))⟩]
        ((Rect.unit (s := S1024) ![0] S672.size inb_S1024_S672_0).emb (ix1 q)) = tabf0 m d (ix1 q) :=
    View.read_writes_cons_emb (v := (sT).view) (f := ft0) (Rect.unit (s := S1024) ![0] S672.size inb_S1024_S672_0)
      (ReadAs.same.apply (View.read (Elt F) (tabW).view (tabf0 m d))) [] (ix1 q)
  refine Eq.trans (congrArg _ (funext fun a => ?_)) h
  match a with
  | ⟨0, _⟩ => apply Fin.ext; show q.val = 0 + 1 * q.val; omega

omit [FloatOps F] in
/-- Entry `n` of row `j` of the column scratch, through the row's slice; entry `n` of the coding piece, through its slice. -/
theorem colSl_emb (o : Fin 1 → Nat) (h : ∀ a, o a + S2048.size a ≤ S49152.size a) (j : Fin 24) (ho : o = ![2048 * j.val]) (n : Fin 2048) :
    (colSl o h).view.emb (ix1 n) = ix1 (⟨2048 * j.val + n.val, by have := j.isLt; have := n.isLt; omega⟩ : Fin 49152) := by
  subst ho
  funext a
  match a with
  | ⟨0, _⟩ => apply Fin.ext; show 2048 * j.val + 1 * n.val = 2048 * j.val + n.val; omega

omit [FloatOps F] in
theorem codSl_emb (off : Fin 2 → Nat) (h : ∀ a, off a + S1x2048.size a ≤ S24x65536.size a) (j : Fin 24)
    (hoff : off = ![j.val, 4096 * (L 1).val + 2048 * (L 0).val]) (n : Fin 2048) :
    (codSl off h).view.emb (ix1 n) = ix2 j (⟨2048 * (widL L).val + n.val, by have := (widL L).isLt; have := n.isLt; omega⟩ : Fin 65536) := by
  subst hoff
  have hr : Shape.reshapeEquiv squeezes_S1x2048_S2048.numel_eq (ix1 n) = (ix2 (0 : Fin 1) n : S1x2048.Idx) :=
    Shape.reshapeEquiv_eq_of_rowMajor _ (by rw [Shape.rowMajor_val_two, Shape.rowMajor_val_one]; simp)
  show (Rect.unit (s := S24x65536) _ S1x2048.size h).emb (Shape.reshapeEquiv squeezes_S1x2048_S2048.numel_eq (ix1 n)) = _
  rw [hr]
  funext a
  match a with
  | ⟨0, _⟩ => apply Fin.ext; show j.val + 1 * 0 = j.val; omega
  | ⟨1, _⟩ =>
    apply Fin.ext
    show (4096 * (L 1).val + 2048 * (L 0).val) + 1 * n.val = 2048 * (widL L).val + n.val
    rw [widL_val]
    omega

/-- One coding piece after its copy-out: what landed is the coding of the tokens and the table, on the piece. -/
theorem codPiece_val (off : Fin 2 → Nat) (h : ∀ a, off a + S1x2048.size a ≤ S24x65536.size a) (j : Fin 24)
    (hoff : off = ![j.val, 4096 * (L 1).val + 2048 * (L 0).val]) (o : Fin 1 → Nat) (ho7 : ∀ a, o a + S2048.size a ≤ S49152.size a)
    (ho : o = ![2048 * j.val])
    (fi : Buf (Elt F) ((V d (cV L) (jV L)).loc cc0_scratch0)) (ft : Buf (Elt F) ((V d (cV L) (jV L)).loc cc0_scratch1))
    (hfi : HoldsTok m d L fi) (hft : HoldsTab m d L ft) (fc : Buf (Elt F) ((V d (cV L) (jV L)).loc cc0_scratch2))
    (hall : ∀ y, fc y = colFn fi ft y) (g0 : Buf (Elt F) (codLoc d)) :
    ∀ i ∈ (codSl off h).view.set,
      (codSl off h).view.writes (Elt F) g0 [⟨Rect.whole S2048, ReadAs.same.apply (View.read (Elt F) (colSl o ho7).view fc)⟩] i = cod1 m d i := by
  intro i hi
  obtain ⟨x, -, rfl⟩ := Finset.mem_map.mp hi
  obtain ⟨n, rfl⟩ : ∃ n : Fin 2048, x = ix1 n := ⟨x 0, eq_ix1 x⟩
  have h1 := View.read_writes_cons_emb (v := (codSl off h).view) (f := g0) (Rect.whole S2048)
    (ReadAs.same.apply (View.read (Elt F) (colSl o ho7).view fc)) [] (ix1 n)
  rw [Rect.emb_whole_apply, View.read_apply] at h1
  refine ((cast_eq _ _).symm.trans h1).trans ?_
  show View.read (Elt F) (colSl o ho7).view fc (ix1 n) = _
  refine ((View.read_apply _ _).trans (cast_eq _ _)).trans ?_
  rw [colSl_emb o ho7 j ho n, codSl_emb L off h j hoff n, hall]
  exact col_eq_cod fi ft (srcf0 m d) (tabf0 m d) (widL L) hfi hft j n

/-- A coding piece after its copy-out is the piece of the task's result. -/
theorem cod_landed (off : Fin 2 → Nat) (h : ∀ a, off a + S1x2048.size a ≤ S24x65536.size a) (j : Fin 24)
    (hoff : off = ![j.val, 4096 * (L 1).val + 2048 * (L 0).val]) (o : Fin 1 → Nat) (ho7 : ∀ a, o a + S2048.size a ≤ S49152.size a)
    (ho : o = ![2048 * j.val])
    (fi : Buf (Elt F) ((V d (cV L) (jV L)).loc cc0_scratch0)) (ft : Buf (Elt F) ((V d (cV L) (jV L)).loc cc0_scratch1))
    (hf : HoldsTok m d L fi ∧ HoldsTab m d L ft) (fc : Buf (Elt F) ((V d (cV L) (jV L)).loc cc0_scratch2))
    (hall : ∀ y, fc y = colFn fi ft y) (g0 : Buf (Elt F) (codLoc d)) :
    (((codSl off h).view.loc (V d (cV L) (jV L)) ↦[(codSl off h).view.set]{fullShare}
        (codSl off h).view.writes (Elt F) g0 [⟨Rect.whole S2048, ReadAs.same.apply (View.read (Elt F) (colSl o ho7).view fc)⟩] : sProp 𝕄))
      = (codLoc d ↦[(codRect j (widL L)).set]{fullShare} cod1 m d) :=
  (pointsTo_congr (codPiece_val m d L off h j hoff o ho7 ho fi ft hf.1 hf.2 fc hall g0)).trans (pts_cod d L off h j hoff _)

omit [FloatOps F] in
/-- One more wait at the kernel's own index keeps the recorded waits within the launch's bound. -/
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

set_option maxHeartbeats 16000000 in
theorem tile_body (hF : (K (F := F)).Facts) (O : CellTallies nD τ sig (HIx 1)) (W : Waits sig (HIx 1)) (hO : ∀ g, O g none = 0) :
    iprop(levAts (K (F := F)).L (K (F := F)).lev ∗ emp ∗ tilePts m d (widL L) (m (codLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L srcW (Memref.isWhole_whole _) tabW (Memref.isWhole_whole _) codW (Memref.isWhole_whole _)
            sI (Memref.isWhole_whole _) sT (Memref.isWhole_whole _) sC (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25)
          fun _ => iprop(tilePts m d (widL L) (cod1 m d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part6_eq_skeleton, k0_part7_eq_skeleton, k0_part8_eq_skeleton, k0_part9_eq_skeleton, k0_part10_eq_skeleton, k0_part11_eq_skeleton, k0_part12_eq_skeleton, k0_part13_eq_skeleton]
  unfold k0_part6_skel k0_part7_skel k0_part8_skel k0_part9_skel k0_part10_skel k0_part11_skel k0_part12_skel k0_part13_skel
  simp only [bind_assoc, pure_bind]
  rw [(K (F := F)).scopedBufs_V hF d (cV L) (jV L), SparseCore.Cfg.scopedSems0_V (Val := Elt F) d (cV L) (jV L), ownBufs_V]
  unfold tilePts
  iintro ⟨#Hlv, -, ⟨Hsrc, Htab, Hcod⟩, ⟨⟨%fi0, Hi⟩, ⟨%ft0, Ht⟩, ⟨%fc0, Hc⟩, Hbufs⟩, Hsems, HO⟩
  ihave Hmw := ((K (F := F)).mayWaits_none (thr := V d (cV L) (jV L)) hO) $$ Hlv
  ihave Hi' := (Entails.of_eq (pts_sI (F := F) d L _).symm) $$ Hi
  ihave Ht' := (Entails.of_eq (pts_sT (F := F) d L _).symm) $$ Ht
  ihave Hc' := (Entails.of_eq (pts_sC (F := F) d L _).symm) $$ Hc
  ihave Htab' := (Entails.of_eq (pts_tab (F := F) d L _ _).symm) $$ Htab
  ihave Hsrc' := (Entails.of_eq (pts_src (F := F) d L _).symm) $$ Hsrc
  -- the table into the table scratch
  ihave Hs := (Entails.of_eq (take_cell (F := F) d L cc0_scoped0.sem (by decide))) $$ Hsems
  icases Hs with ⟨Hsem, Hsems⟩
  sl_exec
  ihave Hsems := (Entails.of_eq (take_cell (F := F) d L cc0_scoped0.sem (by decide)).symm) $$ [Hsem Hsems]
  · isplitl [Hsem]; · iexact Hsem
    iexact Hsems
  -- the task's tokens into the token scratch
  ihave Hs := (Entails.of_eq (take_cell (F := F) d L cc0_scoped1.sem (by decide))) $$ Hsems
  icases Hs with ⟨Hsem, Hsems⟩
  sl_exec
  ihave Hsems := (Entails.of_eq (take_cell (F := F) d L cc0_scoped1.sem (by decide)).symm) $$ [Hsem Hsems]
  · isplitl [Hsem]; · iexact Hsem
    iexact Hsems
  -- the gather loop
  sl_for (inv m d L) $$ [Hi' Ht' Hc']
  case region =>
    intro k _
    sl_respell [k0_t1_body]
    simp only [k0_part1_eq_skeleton, k0_part2_eq_skeleton, k0_part3_eq_skeleton, k0_part4_eq_skeleton, k0_part5_eq_skeleton]
    unfold k0_part1_skel k0_part2_skel k0_part3_skel k0_part4_skel k0_part5_skel
    simp only [SparseCore.vectorLoadIdx_bind (c := V d (cV L) (jV L))]
    unfold inv
    iintro ⟨%fi, %ft, Hi, Ht, %hf, %fc, Hc, %hdone⟩
    have c1 := WordsB.chk1 (F := F) (v6At d L k fi)
    have c2 := WordsB.chk2 (F := F) (v6At d L k fi)
    have c3 := WordsB.chk3 (F := F) (v6At d L k fi)
    have c4 := WordsB.chk4 (F := F) (v6At d L k fi)
    have c5 := WordsB.chk5 (F := F) (v6At d L k fi)
    have c6 := WordsB.chk6 (F := F) (v6At d L k fi)
    have c7 := WordsB.chk7 (F := F) (v6At d L k fi)
    have c8 := WordsB.chk8 (F := F) (v6At d L k fi)
    have c9 := WordsB.chk9 (F := F) (v6At d L k fi)
    have c10 := WordsB.chk10 (F := F) (v6At d L k fi)
    have c11 := WordsB.chk11 (F := F) (v6At d L k fi)
    have c12 := WordsB.chk12 (F := F) (v6At d L k fi)
    have c13 := WordsB.chk13 (F := F) (v6At d L k fi)
    have c14 := WordsB.chk14 (F := F) (v6At d L k fi)
    have c15 := WordsB.chk15 (F := F) (v6At d L k fi)
    have c16 := WordsB.chk16 (F := F) (v6At d L k fi)
    have c17 := WordsB.chk17 (F := F) (v6At d L k fi)
    have c18 := WordsB.chk18 (F := F) (v6At d L k fi)
    have c19 := WordsB.chk19 (F := F) (v6At d L k fi)
    have c20 := WordsB.chk20 (F := F) (v6At d L k fi)
    have c21 := WordsB.chk21 (F := F) (v6At d L k fi)
    have c22 := WordsB.chk22 (F := F) (v6At d L k fi)
    have c23 := WordsB.chk23 (F := F) (v6At d L k fi)
    have c24 := WordsB.chk24 (F := F) (v6At d L k fi)
    sl_exec
    sl_step
    iexists fi, ft
    isplitl [Hi]; · iexact Hi
    isplitl [Ht]; · iexact Ht
    isplitr; · ipureintro; exact hf
    iexists _
    isplitl [Hc]; · iexact Hc
    ipureintro
    refine doneTo_next (sC).view _ ?_
    refine doneTo_store (sC).view _ (trip_lt k) (k0_off26 k) _ (by rw [k0_off26_eq]; rfl) _
      (piece_val fi ft (trip_lt k) (by decide : 23 < 24) (k0_off26 k) _ (by rw [k0_off26_eq]; rfl) (v6At d L k fi) (v6At_apply d L k fi) _ _
        (fun l => WordsB.pay25_apply _ l) _ (Memref.readAt_whole (Elt F) cc0_scratch1 ft)) _ _ ?_
    refine doneTo_store (sC).view _ (trip_lt k) (k0_off25 k) _ (by rw [k0_off25_eq]; rfl) _
      (piece_val fi ft (trip_lt k) (by decide : 22 < 24) (k0_off25 k) _ (by rw [k0_off25_eq]; rfl) (v6At d L k fi) (v6At_apply d L k fi) _ _
        (fun l => WordsB.pay24_apply _ l) _ (Memref.readAt_whole (Elt F) cc0_scratch1 ft)) _ _ ?_
    refine doneTo_store (sC).view _ (trip_lt k) (k0_off24 k) _ (by rw [k0_off24_eq]; rfl) _
      (piece_val fi ft (trip_lt k) (by decide : 21 < 24) (k0_off24 k) _ (by rw [k0_off24_eq]; rfl) (v6At d L k fi) (v6At_apply d L k fi) _ _
        (fun l => WordsB.pay23_apply _ l) _ (Memref.readAt_whole (Elt F) cc0_scratch1 ft)) _ _ ?_
    refine doneTo_store (sC).view _ (trip_lt k) (k0_off23 k) _ (by rw [k0_off23_eq]; rfl) _
      (piece_val fi ft (trip_lt k) (by decide : 20 < 24) (k0_off23 k) _ (by rw [k0_off23_eq]; rfl) (v6At d L k fi) (v6At_apply d L k fi) _ _
        (fun l => WordsB.pay22_apply _ l) _ (Memref.readAt_whole (Elt F) cc0_scratch1 ft)) _ _ ?_
    refine doneTo_store (sC).view _ (trip_lt k) (k0_off22 k) _ (by rw [k0_off22_eq]; rfl) _
      (piece_val fi ft (trip_lt k) (by decide : 19 < 24) (k0_off22 k) _ (by rw [k0_off22_eq]; rfl) (v6At d L k fi) (v6At_apply d L k fi) _ _
        (fun l => WordsB.pay21_apply _ l) _ (Memref.readAt_whole (Elt F) cc0_scratch1 ft)) _ _ ?_
    refine doneTo_store (sC).view _ (trip_lt k) (k0_off21 k) _ (by rw [k0_off21_eq]; rfl) _
      (piece_val fi ft (trip_lt k) (by decide : 18 < 24) (k0_off21 k) _ (by rw [k0_off21_eq]; rfl) (v6At d L k fi) (v6At_apply d L k fi) _ _
        (fun l => WordsB.pay20_apply _ l) _ (Memref.readAt_whole (Elt F) cc0_scratch1 ft)) _ _ ?_
    refine doneTo_store (sC).view _ (trip_lt k) (k0_off20 k) _ (by rw [k0_off20_eq]; rfl) _
      (piece_val fi ft (trip_lt k) (by decide : 17 < 24) (k0_off20 k) _ (by rw [k0_off20_eq]; rfl) (v6At d L k fi) (v6At_apply d L k fi) _ _
        (fun l => WordsB.pay19_apply _ l) _ (Memref.readAt_whole (Elt F) cc0_scratch1 ft)) _ _ ?_
    refine doneTo_store (sC).view _ (trip_lt k) (k0_off19 k) _ (by rw [k0_off19_eq]; rfl) _
      (piece_val fi ft (trip_lt k) (by decide : 16 < 24) (k0_off19 k) _ (by rw [k0_off19_eq]; rfl) (v6At d L k fi) (v6At_apply d L k fi) _ _
        (fun l => WordsB.pay18_apply _ l) _ (Memref.readAt_whole (Elt F) cc0_scratch1 ft)) _ _ ?_
    refine doneTo_store (sC).view _ (trip_lt k) (k0_off18 k) _ (by rw [k0_off18_eq]; rfl) _
      (piece_val fi ft (trip_lt k) (by decide : 15 < 24) (k0_off18 k) _ (by rw [k0_off18_eq]; rfl) (v6At d L k fi) (v6At_apply d L k fi) _ _
        (fun l => WordsB.pay17_apply _ l) _ (Memref.readAt_whole (Elt F) cc0_scratch1 ft)) _ _ ?_
    refine doneTo_store (sC).view _ (trip_lt k) (k0_off17 k) _ (by rw [k0_off17_eq]; rfl) _
      (piece_val fi ft (trip_lt k) (by decide : 14 < 24) (k0_off17 k) _ (by rw [k0_off17_eq]; rfl) (v6At d L k fi) (v6At_apply d L k fi) _ _
        (fun l => WordsB.pay16_apply _ l) _ (Memref.readAt_whole (Elt F) cc0_scratch1 ft)) _ _ ?_
    refine doneTo_store (sC).view _ (trip_lt k) (k0_off16 k) _ (by rw [k0_off16_eq]; rfl) _
      (piece_val fi ft (trip_lt k) (by decide : 13 < 24) (k0_off16 k) _ (by rw [k0_off16_eq]; rfl) (v6At d L k fi) (v6At_apply d L k fi) _ _
        (fun l => WordsB.pay15_apply _ l) _ (Memref.readAt_whole (Elt F) cc0_scratch1 ft)) _ _ ?_
    refine doneTo_store (sC).view _ (trip_lt k) (k0_off15 k) _ (by rw [k0_off15_eq]; rfl) _
      (piece_val fi ft (trip_lt k) (by decide : 12 < 24) (k0_off15 k) _ (by rw [k0_off15_eq]; rfl) (v6At d L k fi) (v6At_apply d L k fi) _ _
        (fun l => WordsB.pay14_apply _ l) _ (Memref.readAt_whole (Elt F) cc0_scratch1 ft)) _ _ ?_
    refine doneTo_store (sC).view _ (trip_lt k) (k0_off14 k) _ (by rw [k0_off14_eq]; rfl) _
      (piece_val fi ft (trip_lt k) (by decide : 11 < 24) (k0_off14 k) _ (by rw [k0_off14_eq]; rfl) (v6At d L k fi) (v6At_apply d L k fi) _ _
        (fun l => WordsB.pay13_apply _ l) _ (Memref.readAt_whole (Elt F) cc0_scratch1 ft)) _ _ ?_
    refine doneTo_store (sC).view _ (trip_lt k) (k0_off13 k) _ (by rw [k0_off13_eq]; rfl) _
      (piece_val fi ft (trip_lt k) (by decide : 10 < 24) (k0_off13 k) _ (by rw [k0_off13_eq]; rfl) (v6At d L k fi) (v6At_apply d L k fi) _ _
        (fun l => WordsB.pay12_apply _ l) _ (Memref.readAt_whole (Elt F) cc0_scratch1 ft)) _ _ ?_
    refine doneTo_store (sC).view _ (trip_lt k) (k0_off12 k) _ (by rw [k0_off12_eq]; rfl) _
      (piece_val fi ft (trip_lt k) (by decide : 9 < 24) (k0_off12 k) _ (by rw [k0_off12_eq]; rfl) (v6At d L k fi) (v6At_apply d L k fi) _ _
        (fun l => WordsB.pay11_apply _ l) _ (Memref.readAt_whole (Elt F) cc0_scratch1 ft)) _ _ ?_
    refine doneTo_store (sC).view _ (trip_lt k) (k0_off11 k) _ (by rw [k0_off11_eq]; rfl) _
      (piece_val fi ft (trip_lt k) (by decide : 8 < 24) (k0_off11 k) _ (by rw [k0_off11_eq]; rfl) (v6At d L k fi) (v6At_apply d L k fi) _ _
        (fun l => WordsB.pay10_apply _ l) _ (Memref.readAt_whole (Elt F) cc0_scratch1 ft)) _ _ ?_
    refine doneTo_store (sC).view _ (trip_lt k) (k0_off10 k) _ (by rw [k0_off10_eq]; rfl) _
      (piece_val fi ft (trip_lt k) (by decide : 7 < 24) (k0_off10 k) _ (by rw [k0_off10_eq]; rfl) (v6At d L k fi) (v6At_apply d L k fi) _ _
        (fun l => WordsB.pay9_apply _ l) _ (Memref.readAt_whole (Elt F) cc0_scratch1 ft)) _ _ ?_
    refine doneTo_store (sC).view _ (trip_lt k) (k0_off9 k) _ (by rw [k0_off9_eq]; rfl) _
      (piece_val fi ft (trip_lt k) (by decide : 6 < 24) (k0_off9 k) _ (by rw [k0_off9_eq]; rfl) (v6At d L k fi) (v6At_apply d L k fi) _ _
        (fun l => WordsB.pay8_apply _ l) _ (Memref.readAt_whole (Elt F) cc0_scratch1 ft)) _ _ ?_
    refine doneTo_store (sC).view _ (trip_lt k) (k0_off8 k) _ (by rw [k0_off8_eq]; rfl) _
      (piece_val fi ft (trip_lt k) (by decide : 5 < 24) (k0_off8 k) _ (by rw [k0_off8_eq]; rfl) (v6At d L k fi) (v6At_apply d L k fi) _ _
        (fun l => WordsB.pay7_apply _ l) _ (Memref.readAt_whole (Elt F) cc0_scratch1 ft)) _ _ ?_
    refine doneTo_store (sC).view _ (trip_lt k) (k0_off7 k) _ (by rw [k0_off7_eq]; rfl) _
      (piece_val fi ft (trip_lt k) (by decide : 4 < 24) (k0_off7 k) _ (by rw [k0_off7_eq]; rfl) (v6At d L k fi) (v6At_apply d L k fi) _ _
        (fun l => WordsB.pay6_apply _ l) _ (Memref.readAt_whole (Elt F) cc0_scratch1 ft)) _ _ ?_
    refine doneTo_store (sC).view _ (trip_lt k) (k0_off6 k) _ (by rw [k0_off6_eq]; rfl) _
      (piece_val fi ft (trip_lt k) (by decide : 3 < 24) (k0_off6 k) _ (by rw [k0_off6_eq]; rfl) (v6At d L k fi) (v6At_apply d L k fi) _ _
        (fun l => WordsB.pay5_apply _ l) _ (Memref.readAt_whole (Elt F) cc0_scratch1 ft)) _ _ ?_
    refine doneTo_store (sC).view _ (trip_lt k) (k0_off5 k) _ (by rw [k0_off5_eq]; rfl) _
      (piece_val fi ft (trip_lt k) (by decide : 2 < 24) (k0_off5 k) _ (by rw [k0_off5_eq]; rfl) (v6At d L k fi) (v6At_apply d L k fi) _ _
        (fun l => WordsB.pay4_apply _ l) _ (Memref.readAt_whole (Elt F) cc0_scratch1 ft)) _ _ ?_
    refine doneTo_store (sC).view _ (trip_lt k) (k0_off4 k) _ (by rw [k0_off4_eq]; rfl) _
      (piece_val fi ft (trip_lt k) (by decide : 1 < 24) (k0_off4 k) _ (by rw [k0_off4_eq]; rfl) (v6At d L k fi) (v6At_apply d L k fi) _ _
        (fun l => WordsB.pay3_apply _ l) _ (Memref.readAt_whole (Elt F) cc0_scratch1 ft)) _ _ ?_
    refine doneTo_store (sC).view _ (trip_lt k) (k0_off3 k) _ (by rw [k0_off3_eq]; rfl) _
      (piece_val fi ft (trip_lt k) (by decide : 0 < 24) (k0_off3 k) _ (by rw [k0_off3_eq]; rfl) (v6At d L k fi) (v6At_apply d L k fi) _ _
        (fun l => WordsB.pay2_apply _ l) _ (Memref.readAt_whole (Elt F) cc0_scratch1 ft)) _ _ ?_
    exact hdone
  · unfold inv
    iexists _, _
    isplitl [Hi']; · iexact Hi'
    isplitl [Ht']; · iexact Ht'
    isplitr
    · ipureintro
      sl_unfold_run_names
      exact ⟨holdsTok_intro m d L fi0, holdsTab_intro m d L ft0⟩
    iexists _
    isplitl [Hc']; · iexact Hc'
    ipureintro
    exact doneTo_init _ _ _
  iintro %_ HI
  unfold inv
  icases HI with ⟨%fi, %ft, Hi', Ht', %hf, %fc, Hc', %hdone⟩
  have htr : Scf.trips k0_t1_loop.lb k0_t1_loop.ub k0_t1_loop.st = 128 := by decide +kernel
  have hall : ∀ y, fc y = colFn fi ft y := fun y =>
    hdone y (.inl (by rw [htr]; have := Nat.mod_lt (y 0).val (by decide : 0 < 2048); omega))
  -- the task's 24 row pieces of the coding array, each as the body slices it
  ihave Hcs := (Entails.of_eq (bigSep_fin24 (fun j : Fin 24 => (codLoc d ↦[(codRect j (widL L)).set]{fullShare} m (codLoc d) : sProp 𝕄)))) $$ Hcod
  icases Hcs with ⟨Hk0, Hk1, Hk2, Hk3, Hk4, Hk5, Hk6, Hk7, Hk8, Hk9, Hk10, Hk11, Hk12, Hk13, Hk14, Hk15, Hk16, Hk17, Hk18, Hk19, Hk20, Hk21, Hk22, Hk23⟩
  ihave Hk0' := (Entails.of_eq (pts_cod (F := F) d L (k0_off27 L) (k0_off27_inb L) 0 (k0_off27_eq L) _).symm) $$ Hk0
  ihave Hk1' := (Entails.of_eq (pts_cod (F := F) d L (k0_off28 L) (k0_off28_inb L) 1 (k0_off28_eq L) _).symm) $$ Hk1
  ihave Hk2' := (Entails.of_eq (pts_cod (F := F) d L (k0_off29 L) (k0_off29_inb L) 2 (k0_off29_eq L) _).symm) $$ Hk2
  ihave Hk3' := (Entails.of_eq (pts_cod (F := F) d L (k0_off30 L) (k0_off30_inb L) 3 (k0_off30_eq L) _).symm) $$ Hk3
  ihave Hk4' := (Entails.of_eq (pts_cod (F := F) d L (k0_off31 L) (k0_off31_inb L) 4 (k0_off31_eq L) _).symm) $$ Hk4
  ihave Hk5' := (Entails.of_eq (pts_cod (F := F) d L (k0_off32 L) (k0_off32_inb L) 5 (k0_off32_eq L) _).symm) $$ Hk5
  ihave Hk6' := (Entails.of_eq (pts_cod (F := F) d L (k0_off33 L) (k0_off33_inb L) 6 (k0_off33_eq L) _).symm) $$ Hk6
  ihave Hk7' := (Entails.of_eq (pts_cod (F := F) d L (k0_off34 L) (k0_off34_inb L) 7 (k0_off34_eq L) _).symm) $$ Hk7
  ihave Hk8' := (Entails.of_eq (pts_cod (F := F) d L (k0_off35 L) (k0_off35_inb L) 8 (k0_off35_eq L) _).symm) $$ Hk8
  ihave Hk9' := (Entails.of_eq (pts_cod (F := F) d L (k0_off36 L) (k0_off36_inb L) 9 (k0_off36_eq L) _).symm) $$ Hk9
  ihave Hk10' := (Entails.of_eq (pts_cod (F := F) d L (k0_off37 L) (k0_off37_inb L) 10 (k0_off37_eq L) _).symm) $$ Hk10
  ihave Hk11' := (Entails.of_eq (pts_cod (F := F) d L (k0_off38 L) (k0_off38_inb L) 11 (k0_off38_eq L) _).symm) $$ Hk11
  ihave Hk12' := (Entails.of_eq (pts_cod (F := F) d L (k0_off39 L) (k0_off39_inb L) 12 (k0_off39_eq L) _).symm) $$ Hk12
  ihave Hk13' := (Entails.of_eq (pts_cod (F := F) d L (k0_off40 L) (k0_off40_inb L) 13 (k0_off40_eq L) _).symm) $$ Hk13
  ihave Hk14' := (Entails.of_eq (pts_cod (F := F) d L (k0_off41 L) (k0_off41_inb L) 14 (k0_off41_eq L) _).symm) $$ Hk14
  ihave Hk15' := (Entails.of_eq (pts_cod (F := F) d L (k0_off42 L) (k0_off42_inb L) 15 (k0_off42_eq L) _).symm) $$ Hk15
  ihave Hk16' := (Entails.of_eq (pts_cod (F := F) d L (k0_off43 L) (k0_off43_inb L) 16 (k0_off43_eq L) _).symm) $$ Hk16
  ihave Hk17' := (Entails.of_eq (pts_cod (F := F) d L (k0_off44 L) (k0_off44_inb L) 17 (k0_off44_eq L) _).symm) $$ Hk17
  ihave Hk18' := (Entails.of_eq (pts_cod (F := F) d L (k0_off45 L) (k0_off45_inb L) 18 (k0_off45_eq L) _).symm) $$ Hk18
  ihave Hk19' := (Entails.of_eq (pts_cod (F := F) d L (k0_off46 L) (k0_off46_inb L) 19 (k0_off46_eq L) _).symm) $$ Hk19
  ihave Hk20' := (Entails.of_eq (pts_cod (F := F) d L (k0_off47 L) (k0_off47_inb L) 20 (k0_off47_eq L) _).symm) $$ Hk20
  ihave Hk21' := (Entails.of_eq (pts_cod (F := F) d L (k0_off48 L) (k0_off48_inb L) 21 (k0_off48_eq L) _).symm) $$ Hk21
  ihave Hk22' := (Entails.of_eq (pts_cod (F := F) d L (k0_off49 L) (k0_off49_inb L) 22 (k0_off49_eq L) _).symm) $$ Hk22
  ihave Hk23' := (Entails.of_eq (pts_cod (F := F) d L (k0_off50 L) (k0_off50_inb L) 23 (k0_off50_eq L) _).symm) $$ Hk23
  -- row 0 of the column scratch out to its piece
  ihave Hs := (Entails.of_eq (take_cell (F := F) d L cc0_scoped2.sem (by decide))) $$ Hsems
  icases Hs with ⟨Hsem, Hsems⟩
  sl_exec
  ihave Hsems := (Entails.of_eq (take_cell (F := F) d L cc0_scoped2.sem (by decide)).symm) $$ [Hsem Hsems]
  · isplitl [Hsem]; · iexact Hsem
    iexact Hsems
  -- row 1 of the column scratch out to its piece
  ihave Hs := (Entails.of_eq (take_cell (F := F) d L cc0_scoped3.sem (by decide))) $$ Hsems
  icases Hs with ⟨Hsem, Hsems⟩
  sl_exec
  ihave Hsems := (Entails.of_eq (take_cell (F := F) d L cc0_scoped3.sem (by decide)).symm) $$ [Hsem Hsems]
  · isplitl [Hsem]; · iexact Hsem
    iexact Hsems
  -- row 2 of the column scratch out to its piece
  ihave Hs := (Entails.of_eq (take_cell (F := F) d L cc0_scoped4.sem (by decide))) $$ Hsems
  icases Hs with ⟨Hsem, Hsems⟩
  sl_exec
  ihave Hsems := (Entails.of_eq (take_cell (F := F) d L cc0_scoped4.sem (by decide)).symm) $$ [Hsem Hsems]
  · isplitl [Hsem]; · iexact Hsem
    iexact Hsems
  -- row 3 of the column scratch out to its piece
  ihave Hs := (Entails.of_eq (take_cell (F := F) d L cc0_scoped5.sem (by decide))) $$ Hsems
  icases Hs with ⟨Hsem, Hsems⟩
  sl_exec
  ihave Hsems := (Entails.of_eq (take_cell (F := F) d L cc0_scoped5.sem (by decide)).symm) $$ [Hsem Hsems]
  · isplitl [Hsem]; · iexact Hsem
    iexact Hsems
  -- row 4 of the column scratch out to its piece
  ihave Hs := (Entails.of_eq (take_cell (F := F) d L cc0_scoped6.sem (by decide))) $$ Hsems
  icases Hs with ⟨Hsem, Hsems⟩
  sl_exec
  ihave Hsems := (Entails.of_eq (take_cell (F := F) d L cc0_scoped6.sem (by decide)).symm) $$ [Hsem Hsems]
  · isplitl [Hsem]; · iexact Hsem
    iexact Hsems
  -- row 5 of the column scratch out to its piece
  ihave Hs := (Entails.of_eq (take_cell (F := F) d L cc0_scoped7.sem (by decide))) $$ Hsems
  icases Hs with ⟨Hsem, Hsems⟩
  sl_exec
  ihave Hsems := (Entails.of_eq (take_cell (F := F) d L cc0_scoped7.sem (by decide)).symm) $$ [Hsem Hsems]
  · isplitl [Hsem]; · iexact Hsem
    iexact Hsems
  -- row 6 of the column scratch out to its piece
  ihave Hs := (Entails.of_eq (take_cell (F := F) d L cc0_scoped8.sem (by decide))) $$ Hsems
  icases Hs with ⟨Hsem, Hsems⟩
  sl_exec
  ihave Hsems := (Entails.of_eq (take_cell (F := F) d L cc0_scoped8.sem (by decide)).symm) $$ [Hsem Hsems]
  · isplitl [Hsem]; · iexact Hsem
    iexact Hsems
  -- row 7 of the column scratch out to its piece
  ihave Hs := (Entails.of_eq (take_cell (F := F) d L cc0_scoped9.sem (by decide))) $$ Hsems
  icases Hs with ⟨Hsem, Hsems⟩
  sl_exec
  ihave Hsems := (Entails.of_eq (take_cell (F := F) d L cc0_scoped9.sem (by decide)).symm) $$ [Hsem Hsems]
  · isplitl [Hsem]; · iexact Hsem
    iexact Hsems
  -- row 8 of the column scratch out to its piece
  ihave Hs := (Entails.of_eq (take_cell (F := F) d L cc0_scoped10.sem (by decide))) $$ Hsems
  icases Hs with ⟨Hsem, Hsems⟩
  sl_exec
  ihave Hsems := (Entails.of_eq (take_cell (F := F) d L cc0_scoped10.sem (by decide)).symm) $$ [Hsem Hsems]
  · isplitl [Hsem]; · iexact Hsem
    iexact Hsems
  -- row 9 of the column scratch out to its piece
  ihave Hs := (Entails.of_eq (take_cell (F := F) d L cc0_scoped11.sem (by decide))) $$ Hsems
  icases Hs with ⟨Hsem, Hsems⟩
  sl_exec
  ihave Hsems := (Entails.of_eq (take_cell (F := F) d L cc0_scoped11.sem (by decide)).symm) $$ [Hsem Hsems]
  · isplitl [Hsem]; · iexact Hsem
    iexact Hsems
  -- row 10 of the column scratch out to its piece
  ihave Hs := (Entails.of_eq (take_cell (F := F) d L cc0_scoped12.sem (by decide))) $$ Hsems
  icases Hs with ⟨Hsem, Hsems⟩
  sl_exec
  ihave Hsems := (Entails.of_eq (take_cell (F := F) d L cc0_scoped12.sem (by decide)).symm) $$ [Hsem Hsems]
  · isplitl [Hsem]; · iexact Hsem
    iexact Hsems
  -- row 11 of the column scratch out to its piece
  ihave Hs := (Entails.of_eq (take_cell (F := F) d L cc0_scoped13.sem (by decide))) $$ Hsems
  icases Hs with ⟨Hsem, Hsems⟩
  sl_exec
  ihave Hsems := (Entails.of_eq (take_cell (F := F) d L cc0_scoped13.sem (by decide)).symm) $$ [Hsem Hsems]
  · isplitl [Hsem]; · iexact Hsem
    iexact Hsems
  -- row 12 of the column scratch out to its piece
  ihave Hs := (Entails.of_eq (take_cell (F := F) d L cc0_scoped14.sem (by decide))) $$ Hsems
  icases Hs with ⟨Hsem, Hsems⟩
  sl_exec
  ihave Hsems := (Entails.of_eq (take_cell (F := F) d L cc0_scoped14.sem (by decide)).symm) $$ [Hsem Hsems]
  · isplitl [Hsem]; · iexact Hsem
    iexact Hsems
  -- row 13 of the column scratch out to its piece
  ihave Hs := (Entails.of_eq (take_cell (F := F) d L cc0_scoped15.sem (by decide))) $$ Hsems
  icases Hs with ⟨Hsem, Hsems⟩
  sl_exec
  ihave Hsems := (Entails.of_eq (take_cell (F := F) d L cc0_scoped15.sem (by decide)).symm) $$ [Hsem Hsems]
  · isplitl [Hsem]; · iexact Hsem
    iexact Hsems
  -- row 14 of the column scratch out to its piece
  ihave Hs := (Entails.of_eq (take_cell (F := F) d L cc0_scoped16.sem (by decide))) $$ Hsems
  icases Hs with ⟨Hsem, Hsems⟩
  sl_exec
  ihave Hsems := (Entails.of_eq (take_cell (F := F) d L cc0_scoped16.sem (by decide)).symm) $$ [Hsem Hsems]
  · isplitl [Hsem]; · iexact Hsem
    iexact Hsems
  -- row 15 of the column scratch out to its piece
  ihave Hs := (Entails.of_eq (take_cell (F := F) d L cc0_scoped17.sem (by decide))) $$ Hsems
  icases Hs with ⟨Hsem, Hsems⟩
  sl_exec
  ihave Hsems := (Entails.of_eq (take_cell (F := F) d L cc0_scoped17.sem (by decide)).symm) $$ [Hsem Hsems]
  · isplitl [Hsem]; · iexact Hsem
    iexact Hsems
  -- row 16 of the column scratch out to its piece
  ihave Hs := (Entails.of_eq (take_cell (F := F) d L cc0_scoped18.sem (by decide))) $$ Hsems
  icases Hs with ⟨Hsem, Hsems⟩
  sl_exec
  ihave Hsems := (Entails.of_eq (take_cell (F := F) d L cc0_scoped18.sem (by decide)).symm) $$ [Hsem Hsems]
  · isplitl [Hsem]; · iexact Hsem
    iexact Hsems
  -- row 17 of the column scratch out to its piece
  ihave Hs := (Entails.of_eq (take_cell (F := F) d L cc0_scoped19.sem (by decide))) $$ Hsems
  icases Hs with ⟨Hsem, Hsems⟩
  sl_exec
  ihave Hsems := (Entails.of_eq (take_cell (F := F) d L cc0_scoped19.sem (by decide)).symm) $$ [Hsem Hsems]
  · isplitl [Hsem]; · iexact Hsem
    iexact Hsems
  -- row 18 of the column scratch out to its piece
  ihave Hs := (Entails.of_eq (take_cell (F := F) d L cc0_scoped20.sem (by decide))) $$ Hsems
  icases Hs with ⟨Hsem, Hsems⟩
  sl_exec
  ihave Hsems := (Entails.of_eq (take_cell (F := F) d L cc0_scoped20.sem (by decide)).symm) $$ [Hsem Hsems]
  · isplitl [Hsem]; · iexact Hsem
    iexact Hsems
  -- row 19 of the column scratch out to its piece
  ihave Hs := (Entails.of_eq (take_cell (F := F) d L cc0_scoped21.sem (by decide))) $$ Hsems
  icases Hs with ⟨Hsem, Hsems⟩
  sl_exec
  ihave Hsems := (Entails.of_eq (take_cell (F := F) d L cc0_scoped21.sem (by decide)).symm) $$ [Hsem Hsems]
  · isplitl [Hsem]; · iexact Hsem
    iexact Hsems
  -- row 20 of the column scratch out to its piece
  ihave Hs := (Entails.of_eq (take_cell (F := F) d L cc0_scoped22.sem (by decide))) $$ Hsems
  icases Hs with ⟨Hsem, Hsems⟩
  sl_exec
  ihave Hsems := (Entails.of_eq (take_cell (F := F) d L cc0_scoped22.sem (by decide)).symm) $$ [Hsem Hsems]
  · isplitl [Hsem]; · iexact Hsem
    iexact Hsems
  -- row 21 of the column scratch out to its piece
  ihave Hs := (Entails.of_eq (take_cell (F := F) d L cc0_scoped23.sem (by decide))) $$ Hsems
  icases Hs with ⟨Hsem, Hsems⟩
  sl_exec
  ihave Hsems := (Entails.of_eq (take_cell (F := F) d L cc0_scoped23.sem (by decide)).symm) $$ [Hsem Hsems]
  · isplitl [Hsem]; · iexact Hsem
    iexact Hsems
  -- row 22 of the column scratch out to its piece
  ihave Hs := (Entails.of_eq (take_cell (F := F) d L cc0_scoped24.sem (by decide))) $$ Hsems
  icases Hs with ⟨Hsem, Hsems⟩
  sl_exec
  ihave Hsems := (Entails.of_eq (take_cell (F := F) d L cc0_scoped24.sem (by decide)).symm) $$ [Hsem Hsems]
  · isplitl [Hsem]; · iexact Hsem
    iexact Hsems
  -- row 23 of the column scratch out to its piece
  ihave Hs := (Entails.of_eq (take_cell (F := F) d L cc0_scoped25.sem (by decide))) $$ Hsems
  icases Hs with ⟨Hsem, Hsems⟩
  sl_exec
  ihave Hsems := (Entails.of_eq (take_cell (F := F) d L cc0_scoped25.sem (by decide)).symm) $$ [Hsem Hsems]
  · isplitl [Hsem]; · iexact Hsem
    iexact Hsems
  sl_step
  -- the post: the task's pieces at the coding, the scratches and semaphores back, the waits within bound
  isplitl [Hsrc' Htab' Hk0' Hk1' Hk2' Hk3' Hk4' Hk5' Hk6' Hk7' Hk8' Hk9' Hk10' Hk11' Hk12' Hk13' Hk14' Hk15' Hk16' Hk17' Hk18' Hk19' Hk20' Hk21' Hk22' Hk23']
  · isplitl [Hsrc']; · iapply (Entails.of_eq (pts_src (F := F) d L _)); iexact Hsrc'
    isplitl [Htab']; · iapply (Entails.of_eq (pts_tab (F := F) d L _ _)); iexact Htab'
    rw [bigSep_fin24]
    isplitl [Hk0']
    · iapply (Entails.of_eq (cod_landed m d L (k0_off27 L) (k0_off27_inb L) 0 (k0_off27_eq L) ![0] inb_S49152_S2048_0 (by rfl) fi ft hf fc hall _)); iexact Hk0'
    isplitl [Hk1']
    · iapply (Entails.of_eq (cod_landed m d L (k0_off28 L) (k0_off28_inb L) 1 (k0_off28_eq L) ![2048] inb_S49152_S2048_2048 (by rfl) fi ft hf fc hall _)); iexact Hk1'
    isplitl [Hk2']
    · iapply (Entails.of_eq (cod_landed m d L (k0_off29 L) (k0_off29_inb L) 2 (k0_off29_eq L) ![4096] inb_S49152_S2048_4096 (by rfl) fi ft hf fc hall _)); iexact Hk2'
    isplitl [Hk3']
    · iapply (Entails.of_eq (cod_landed m d L (k0_off30 L) (k0_off30_inb L) 3 (k0_off30_eq L) ![6144] inb_S49152_S2048_6144 (by rfl) fi ft hf fc hall _)); iexact Hk3'
    isplitl [Hk4']
    · iapply (Entails.of_eq (cod_landed m d L (k0_off31 L) (k0_off31_inb L) 4 (k0_off31_eq L) ![8192] inb_S49152_S2048_8192 (by rfl) fi ft hf fc hall _)); iexact Hk4'
    isplitl [Hk5']
    · iapply (Entails.of_eq (cod_landed m d L (k0_off32 L) (k0_off32_inb L) 5 (k0_off32_eq L) ![10240] inb_S49152_S2048_10240 (by rfl) fi ft hf fc hall _)); iexact Hk5'
    isplitl [Hk6']
    · iapply (Entails.of_eq (cod_landed m d L (k0_off33 L) (k0_off33_inb L) 6 (k0_off33_eq L) ![12288] inb_S49152_S2048_12288 (by rfl) fi ft hf fc hall _)); iexact Hk6'
    isplitl [Hk7']
    · iapply (Entails.of_eq (cod_landed m d L (k0_off34 L) (k0_off34_inb L) 7 (k0_off34_eq L) ![14336] inb_S49152_S2048_14336 (by rfl) fi ft hf fc hall _)); iexact Hk7'
    isplitl [Hk8']
    · iapply (Entails.of_eq (cod_landed m d L (k0_off35 L) (k0_off35_inb L) 8 (k0_off35_eq L) ![16384] inb_S49152_S2048_16384 (by rfl) fi ft hf fc hall _)); iexact Hk8'
    isplitl [Hk9']
    · iapply (Entails.of_eq (cod_landed m d L (k0_off36 L) (k0_off36_inb L) 9 (k0_off36_eq L) ![18432] inb_S49152_S2048_18432 (by rfl) fi ft hf fc hall _)); iexact Hk9'
    isplitl [Hk10']
    · iapply (Entails.of_eq (cod_landed m d L (k0_off37 L) (k0_off37_inb L) 10 (k0_off37_eq L) ![20480] inb_S49152_S2048_20480 (by rfl) fi ft hf fc hall _)); iexact Hk10'
    isplitl [Hk11']
    · iapply (Entails.of_eq (cod_landed m d L (k0_off38 L) (k0_off38_inb L) 11 (k0_off38_eq L) ![22528] inb_S49152_S2048_22528 (by rfl) fi ft hf fc hall _)); iexact Hk11'
    isplitl [Hk12']
    · iapply (Entails.of_eq (cod_landed m d L (k0_off39 L) (k0_off39_inb L) 12 (k0_off39_eq L) ![24576] inb_S49152_S2048_24576 (by rfl) fi ft hf fc hall _)); iexact Hk12'
    isplitl [Hk13']
    · iapply (Entails.of_eq (cod_landed m d L (k0_off40 L) (k0_off40_inb L) 13 (k0_off40_eq L) ![26624] inb_S49152_S2048_26624 (by rfl) fi ft hf fc hall _)); iexact Hk13'
    isplitl [Hk14']
    · iapply (Entails.of_eq (cod_landed m d L (k0_off41 L) (k0_off41_inb L) 14 (k0_off41_eq L) ![28672] inb_S49152_S2048_28672 (by rfl) fi ft hf fc hall _)); iexact Hk14'
    isplitl [Hk15']
    · iapply (Entails.of_eq (cod_landed m d L (k0_off42 L) (k0_off42_inb L) 15 (k0_off42_eq L) ![30720] inb_S49152_S2048_30720 (by rfl) fi ft hf fc hall _)); iexact Hk15'
    isplitl [Hk16']
    · iapply (Entails.of_eq (cod_landed m d L (k0_off43 L) (k0_off43_inb L) 16 (k0_off43_eq L) ![32768] inb_S49152_S2048_32768 (by rfl) fi ft hf fc hall _)); iexact Hk16'
    isplitl [Hk17']
    · iapply (Entails.of_eq (cod_landed m d L (k0_off44 L) (k0_off44_inb L) 17 (k0_off44_eq L) ![34816] inb_S49152_S2048_34816 (by rfl) fi ft hf fc hall _)); iexact Hk17'
    isplitl [Hk18']
    · iapply (Entails.of_eq (cod_landed m d L (k0_off45 L) (k0_off45_inb L) 18 (k0_off45_eq L) ![36864] inb_S49152_S2048_36864 (by rfl) fi ft hf fc hall _)); iexact Hk18'
    isplitl [Hk19']
    · iapply (Entails.of_eq (cod_landed m d L (k0_off46 L) (k0_off46_inb L) 19 (k0_off46_eq L) ![38912] inb_S49152_S2048_38912 (by rfl) fi ft hf fc hall _)); iexact Hk19'
    isplitl [Hk20']
    · iapply (Entails.of_eq (cod_landed m d L (k0_off47 L) (k0_off47_inb L) 20 (k0_off47_eq L) ![40960] inb_S49152_S2048_40960 (by rfl) fi ft hf fc hall _)); iexact Hk20'
    isplitl [Hk21']
    · iapply (Entails.of_eq (cod_landed m d L (k0_off48 L) (k0_off48_inb L) 21 (k0_off48_eq L) ![43008] inb_S49152_S2048_43008 (by rfl) fi ft hf fc hall _)); iexact Hk21'
    isplitl [Hk22']
    · iapply (Entails.of_eq (cod_landed m d L (k0_off49 L) (k0_off49_inb L) 22 (k0_off49_eq L) ![45056] inb_S49152_S2048_45056 (by rfl) fi ft hf fc hall _)); iexact Hk22'
    iapply (Entails.of_eq (cod_landed m d L (k0_off50 L) (k0_off50_inb L) 23 (k0_off50_eq L) ![47104] inb_S49152_S2048_47104 (by rfl) fi ft hf fc hall _)); iexact Hk23'
  isplitl [Hi' Ht' Hc' Hbufs]
  · isplitl [Hi']; · iexists _; iapply (Entails.of_eq (pts_sI (F := F) d L _)); iexact Hi'
    isplitl [Ht']; · iexists _; iapply (Entails.of_eq (pts_sT (F := F) d L _)); iexact Ht'
    isplitl [Hc']; · iexists _; iapply (Entails.of_eq (pts_sC (F := F) d L _)); iexact Hc'
    iexact Hbufs
  isplitl [Hsems]; · iexact Hsems
  iexists _; isplitr
  rotate_left
  · iexact HO
  · ipureintro
    iterate 26 (refine waits_ok ?_ _)
    exact fun p hp => .inl hp

end Cert.Proof.KB

end
-- ==== Proof.TileOblB.lean ====
/-
  The vector-subcore kernel's obligation to the launch: on every vector subcore of the grid the body, handed the
  task's pieces, hands them back with the coding pieces filled in (`tile_body`), lifted to the launch's body table.
-/
import proofs.«203767_g38671885534092_cont_8to1_b_939_37_alg».proof.Proof.TileB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "srcW" => (Memref.whole Cert.Kernel.main_v1_scv : Memref Cert.Kernel.sig Kind.scVector Space.hbm Cert.Kernel.S65536 EltTy.i32)
local notation "tabW" => (Memref.whole Cert.Kernel.main_v0_scv : Memref Cert.Kernel.sig Kind.scVector Space.hbm Cert.Kernel.S672 EltTy.f32)
local notation "codW" => (Memref.whole Cert.Kernel.main_v2_scv : Memref Cert.Kernel.sig Kind.scVector Space.hbm Cert.Kernel.S24x65536 EltTy.f32)
local notation "sI" => (Memref.whole Cert.Kernel.cc0_scratch0 : Memref Cert.Kernel.sig Kind.scVector Space.vmem Cert.Kernel.S2048 EltTy.i32)
local notation "sT" => (Memref.whole Cert.Kernel.cc0_scratch1 : Memref Cert.Kernel.sig Kind.scVector Space.vmem Cert.Kernel.S1024 EltTy.f32)
local notation "sC" => (Memref.whole Cert.Kernel.cc0_scratch2 : Memref Cert.Kernel.sig Kind.scVector Space.vmem Cert.Kernel.S49152 EltTy.f32)

variable (m : (ℓ : Loc nD τ sig) → Buf (Elt F) ℓ)

/-- Grid coordinates from a SparseCore and a vector subcore of the grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          srcW (Memref.isWhole_whole _) tabW (Memref.isWhole_whole _) codW (Memref.isWhole_whole _)
          sI (Memref.isWhole_whole _) sT (Memref.isWhole_whole _) sC (Memref.isWhole_whole _) cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KB

end
-- ==== Proof.lean ====
/-
  The proof of `Cert.Claim`.

  Both programs compute, for each of the 64 x 1024 positions, the position's 512 activations followed by the 24 entries
  of the row of the 28 x 24 table that its token selects: the token's own row when `3 ≤ token < 23`, row 27 otherwise
  (`Spec.out`).  The reference does it with a select, a take and a concatenate.  The kernel does it in two steps: on
  the SparseCores each of the 32 vector subcores gathers, for its 2048 tokens, the selected rows of the flattened
  table into a token-major 24 x 65536 coding array; on the TensorCore a pallas_call over 16 grid points transposes
  24 x 1024 slabs of that array, by a product with the 24 x 24 identity, and writes each after the activations of
  its 1024 positions.

  Each kernel program's run (the kernel as printed, at words; its idealization, at the extended reals) ends with the
  three arguments unchanged and the result array at a function of the launch memory; the frames are these runs with
  the result dropped, and the reference's frame is its own run.  At the extended reals the product with the identity
  is the transpose, `Σ_k a(k, r) · δ(k, c) = a(c, r)`, so the idealized kernel's result is `Spec.outOf` of the
  activations and the coding, which is `Spec.out` of the arguments: from agreeing arguments the idealized kernel and
  the reference end with equal results.  The idealization rewrote no operation, so nothing is owed for it.
-/
import proofs.«203767_g38671885534092_cont_8to1_b_939_37_alg».proof.Defs
import proofs.«203767_g38671885534092_cont_8to1_b_939_37_alg».proof.Proof.Gen.Kernel
import proofs.«203767_g38671885534092_cont_8to1_b_939_37_alg».proof.Proof.Gen.KernelIdeal
import proofs.«203767_g38671885534092_cont_8to1_b_939_37_alg».proof.Proof.Gen.ReferenceIdeal
import proofs.«203767_g38671885534092_cont_8to1_b_939_37_alg».proof.Proof.Gen.Pre_input_domain
import proofs.«203767_g38671885534092_cont_8to1_b_939_37_alg».proof.Proof.Claims
import proofs.«203767_g38671885534092_cont_8to1_b_939_37_alg».proof.Proof.Main
import proofs.«203767_g38671885534092_cont_8to1_b_939_37_alg».proof.Proof.MainB
import proofs.«203767_g38671885534092_cont_8to1_b_939_37_alg».proof.Proof.TcValue
import proofs.«203767_g38671885534092_cont_8to1_b_939_37_alg».proof.Proof.TileObl
import proofs.«203767_g38671885534092_cont_8to1_b_939_37_alg».proof.Proof.TileOblB
import Idealize.ShloMosaic.Adequacy
import Idealize.ShloMosaic.Init

noncomputable section

namespace Cert.Proof

open Idealize.ShloMosaic Idealize.SL.Sem

theorem claim : Cert.Claim :=
  Cert.Proof.Claims.claim_of (fun m d => KI.RES (F := Ideal) m d) (fun m d => KB.RES (F := Bits) m d)
    (fun m ρ => KI.run_main_of m ρ KI.G KI.g₀ (KI.RES m) KI.G_intro (KI.hmain m ρ) (KI.tileObl m KI.facts))
    (fun m ρ => KB.run_main_of m ρ KB.G KB.g₀ (KB.RES m) KB.G_intro (KB.hmain m ρ) (KB.tileObl m KB.facts))
    (fun m d => KI.RES_ideal m d)

end Cert.Proof

end
